-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_v47 : IVec S_ 1) (main_v49 : IVec S2x320000 1) (main_c_19 : IVec S_ 1) : IVec S_ 1 :=
  let main_v50 : IVec S_ 1 := (fun x v => Host.reduce IntOp.andi x v reducesTo_S2x320000_S_d0_1 h_S_) main_v49 main_c_19
  let main_v51 : IVec S_ 1 := andi main_v47 main_v50
  main_v51

def fn_part2 {F : FTy → Type} [FloatOps F] (main_arg1 : IVec S2x320000 32) (main_arg8 : FVec F S256x8 .f32) (main_arg9 : FVec F S8 .f32) (main_v33 : IVec S_ 1) : IVec S_ 1 :=
  let main_v34 : FVec F S256x8 .f32 := Host.absf main_arg8
  let main_cst_12 : FVec F S_ .f32 := constant S_ .f32 0x7F800000#32
  let main_v35 : FVec F S256x8 .f32 := broadcastInDim S256x8 ![] bcast_S_S256x8 main_cst_12
  let main_v36 : IVec S256x8 1 := cmpf .olt main_v34 main_v35
  let main_c_13 : IVec S_ 1 := constantI S_ 1 1#1
  let main_v37 : IVec S_ 1 := (fun x v => Host.reduce IntOp.andi x v reducesTo_S256x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 1 := constantI S_ 1 1#1
  let main_v46 : IVec S_ 1 := (fun x v => Host.reduce IntOp.andi x v reducesTo_S2x320000_S_d0_1 h_S_) main_v45 main_c_17
  let main_v47 : IVec S_ 1 := andi main_v43 main_v46
  let main_c_18 : IVec S_ 32 := constantI S_ 32 10000#32
  let main_v48 : IVec S2x320000 32 := broadcastInDim S2x320000 ![] bcast_S_S2x320000 main_c_18
  let main_v49 : IVec S2x320000 1 := cmpi .slt main_arg1 main_v48
  let main_c_19 : IVec S_ 1 := constantI S_ 1 1#1
  fn_part3 (F := F) main_v47 main_v49 main_c_19

def fn_part1 {F : FTy → Type} [FloatOps F] (main_arg1 : IVec S2x320000 32) (main_arg5 : FVec F S256 .f32) (main_arg6 : FVec F S256x256 .f32) (main_arg7 : FVec F S256 .f32) (main_arg8 : FVec F S256x8 .f32) (main_arg9 : FVec F S8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x320000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x8 .f32) (main_arg9 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x128 : Shape := ⟨2, ![10240, 128]⟩
abbrev S1 : Shape := ⟨1, ![1]⟩
abbrev S1x256 : Shape := ⟨2, ![1, 256]⟩
abbrev S1x8 : Shape := ⟨2, ![1, 8]⟩
abbrev S10240x256 : Shape := ⟨2, ![10240, 256]⟩
abbrev S2048x128 : Shape := ⟨2, ![2048, 128]⟩
abbrev S2048x256 : Shape := ⟨2, ![2048, 256]⟩
abbrev S2048x1024 : Shape := ⟨2, ![2048, 1024]⟩
abbrev S1024x256 : Shape := ⟨2, ![1024, 256]⟩
abbrev S10240x8 : Shape := ⟨2, ![10240, 8]⟩
abbrev S2048x8 : Shape := ⟨2, ![2048, 8]⟩
abbrev S10000x8 : Shape := ⟨2, ![10000, 8]⟩

abbrev nBuf : Space → Nat
  | .hbm => 99
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x8, .f32⟩
  | .hbm, ⟨9, _⟩ => ⟨S8, .f32⟩
  | .hbm, ⟨10, _⟩ => ⟨S10000, .i32⟩
  | .hbm, ⟨11, _⟩ => ⟨S1x320000, .i32⟩
  | .hbm, ⟨12, _⟩ => ⟨S320000, .i32⟩
  | .hbm, ⟨13, _⟩ => ⟨S330000, .i32⟩
  | .hbm, ⟨14, _⟩ => ⟨S1x320000, .i32⟩
  | .hbm, ⟨15, _⟩ => ⟨S320000, .i32⟩
  | .hbm, ⟨16, _⟩ => ⟨S330000, .i32⟩
  | .hbm, ⟨17, _⟩ => ⟨S_, .f32⟩
  | .hbm, ⟨18, _⟩ => ⟨S330000, .f32⟩
  | .hbm, ⟨19, _⟩ => ⟨S_, .f32⟩
  | .hbm, ⟨20, _⟩ => ⟨S10000, .f32⟩
  | .hbm, ⟨21, _⟩ => ⟨S330000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S_, .i32⟩
  | .hbm, ⟨41, _⟩ => ⟨S330000, .i32⟩
  | .hbm, ⟨42, _⟩ => ⟨S330000, .i1⟩
  | .hbm, ⟨43, _⟩ => ⟨S_, .i32⟩
  | .hbm, ⟨44, _⟩ => ⟨S330000, .i32⟩
  | .hbm, ⟨45, _⟩ => ⟨S330000, .i32⟩
  | .hbm, ⟨46, _⟩ => ⟨S330000, .i32⟩
  | .hbm, ⟨47, _⟩ => ⟨S330000x1, .i32⟩
  | .hbm, ⟨48, _⟩ => ⟨S330000, .f32⟩
  | .hbm, ⟨49, _⟩ => ⟨S330000, .f32⟩
  | .hbm, ⟨50, _⟩ => ⟨S_, .f32⟩
  | .hbm, ⟨51, _⟩ => ⟨S10240x10240, .f32⟩
  | .hbm, ⟨52, _⟩ => ⟨S_, .i32⟩
  | .hbm, ⟨53, _⟩ => ⟨S330000, .i32⟩
  | .hbm, ⟨54, _⟩ => ⟨S330000, .i1⟩
  | .hbm, ⟨55, _⟩ => ⟨S_, .i32⟩
  | .hbm, ⟨56, _⟩ => ⟨S330000, .i32⟩
  | .hbm, ⟨57, _⟩ => ⟨S330000, .i32⟩
  | .hbm, ⟨58, _⟩ => ⟨S330000, .i32⟩
  | .hbm, ⟨59, _⟩ => ⟨S_, .i32⟩
  | .hbm, ⟨60, _⟩ => ⟨S330000, .i32⟩
  | .hbm, ⟨61, _⟩ => ⟨S330000, .i1⟩
  | .hbm, ⟨62, _⟩ => ⟨S_, .i32⟩
  | .hbm, ⟨63, _⟩ => ⟨S330000, .i32⟩
  | .hbm, ⟨64, _⟩ => ⟨S330000, .i32⟩
  | .hbm, ⟨65, _⟩ => ⟨S330000, .i32⟩
  | .hbm, ⟨66, _⟩ => ⟨S330000x1, .i32⟩
  | .hbm, ⟨67, _⟩ => ⟨S330000x1, .i32⟩
  | .hbm, ⟨68, _⟩ => ⟨S330000x2, .i32⟩
  | .hbm, ⟨69, _⟩ => ⟨S10240x10240, .f32⟩
  | .hbm, ⟨70, _⟩ => ⟨S10240x10240, .bf16⟩
  | .hbm, ⟨71, _⟩ => ⟨S_, .f32⟩
  | .hbm, ⟨72, _⟩ => ⟨S10240x128, .f32⟩
  | .hbm, ⟨73, _⟩ => ⟨S_, .i32⟩
  | .hbm, ⟨74, _⟩ => ⟨S1, .i32⟩
  | .hbm, ⟨75, _⟩ => ⟨S10240x128, .f32⟩
  | .hbm, ⟨76, _⟩ => ⟨S10240x128, .bf16⟩
  | .hbm, ⟨77, _⟩ => ⟨S128x256, .bf16⟩
  | .hbm, ⟨78, _⟩ => ⟨S256x256, .bf16⟩
  | .hbm, ⟨79, _⟩ => ⟨S256x256, .bf16⟩
  | .hbm, ⟨80, _⟩ => ⟨S256x8, .bf16⟩
  | .hbm, ⟨81, _⟩ => ⟨S_, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1x8, .f32⟩
  | .hbm, ⟨87, _⟩ => ⟨S10240x256, .f32⟩
  | .hbm, ⟨88, _⟩ => ⟨S10240x256, .bf16⟩
  | .hbm, ⟨89, _⟩ => ⟨S10240x256, .f32⟩
  | .hbm, ⟨90, _⟩ => ⟨S10240x256, .bf16⟩
  | .hbm, ⟨91, _⟩ => ⟨S10240x256, .f32⟩
  | .hbm, ⟨92, _⟩ => ⟨S10240x256, .bf16⟩
  | .hbm, ⟨93, _⟩ => ⟨S10240x256, .f32⟩
  | .hbm, ⟨94, _⟩ => ⟨S10240x256, .bf16⟩
  | .hbm, ⟨95, _⟩ => ⟨S10240x256, .f32⟩
  | .hbm, ⟨96, _⟩ => ⟨S10240x256, .bf16⟩
  | .hbm, ⟨97, _⟩ => ⟨S10240x8, .f32⟩
  | .hbm, ⟨98, _⟩ => ⟨S10000x8, .f32⟩
  | .local _ .vmem, ⟨0, _⟩ => ⟨S2048x128, .bf16⟩
  | .local _ .vmem, ⟨1, _⟩ => ⟨S2048x128, .bf16⟩
  | .local _ .vmem, ⟨2, _⟩ => ⟨S128x256, .bf16⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x1024, .bf16⟩
  | .local _ .vmem, ⟨8, _⟩ => ⟨S2048x1024, .bf16⟩
  | .local _ .vmem, ⟨9, _⟩ => ⟨S1024x256, .bf16⟩
  | .local _ .vmem, ⟨10, _⟩ => ⟨S1024x256, .bf16⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .bf16⟩
  | .local _ .vmem, ⟨16, _⟩ => ⟨S2048x256, .bf16⟩
  | .local _ .vmem, ⟨17, _⟩ => ⟨S256x256, .bf16⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x1024, .bf16⟩
  | .local _ .vmem, ⟨23, _⟩ => ⟨S2048x1024, .bf16⟩
  | .local _ .vmem, ⟨24, _⟩ => ⟨S1024x256, .bf16⟩
  | .local _ .vmem, ⟨25, _⟩ => ⟨S1024x256, .bf16⟩
  | .local _ .vmem, ⟨26, _⟩ => ⟨S1x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .bf16⟩
  | .local _ .vmem, ⟨31, _⟩ => ⟨S2048x256, .bf16⟩
  | .local _ .vmem, ⟨32, _⟩ => ⟨S256x256, .bf16⟩
  | .local _ .vmem, ⟨33, _⟩ => ⟨S1x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .bf16⟩
  | .local _ .vmem, ⟨38, _⟩ => ⟨S2048x256, .bf16⟩
  | .local _ .vmem, ⟨39, _⟩ => ⟨S256x8, .bf16⟩
  | .local _ .vmem, ⟨40, _⟩ => ⟨S1x8, .f32⟩
  | .local _ .vmem, ⟨41, _⟩ => ⟨S2048x8, .f32⟩
  | .local _ .vmem, ⟨42, _⟩ => ⟨S2048x8, .f32⟩
  | .local _ .vmem, ⟨43, _⟩ => ⟨S2048x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨2, ![5, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![5, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![5, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![5, 10], ![false, false]⟩

def k3_cond2 (i : grid3.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![5, 1], ![false, false]⟩

def k4_cond2 (i : grid4.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S2048x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![5, 1], ![false, false]⟩

def k5_cond2 (i : grid5.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S256x8 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  bcast_S_S1x256 : S_.BroadcastsInDim S1x256 (![] : Fin 0 → Fin S1x256.rank)
  shapeCasts_S256_S1x256 : S256.ShapeCasts S1x256
  shapeCasts_S8_S1x8 : S8.ShapeCasts S1x8
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  slices_S10240x8_S10000x8_0_0 : S10240x8.Slices ![0, 0] S10000x8
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  scatter_S10240x128_S1_S10000x128_01_n_0_0_wf : ScatterDims.WF S10240x128 S1 S10000x128 [0, 1] [] [0] 0
  dot_S2048x128_S128x256_S2048x256_1_0_0_1_n_n_wf : DotDims.WF S2048x128 S128x256 S2048x256 [1] [0] [0] [1] [] []
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S10240x128.size a
  hwx0_0 : ∀ i : grid0.Coords, EltTy.bits .bf16 = 32 ∨ (Rect.block (s := S10240x128) S2048x128.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S10240x256.size a
  hwx0_3 : ∀ i : grid0.Coords, EltTy.bits .f32 = 32 ∨ (Rect.block (s := S10240x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S10240x10240.size a
  hwx1_0 : ∀ i : grid1.Coords, EltTy.bits .bf16 = 32 ∨ (Rect.block (s := S10240x10240) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S10240x256.size a
  hwx1_1 : ∀ i : grid1.Coords, EltTy.bits .bf16 = 32 ∨ (Rect.block (s := S10240x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S10240x256.size a
  hwx1_3 : ∀ i : grid1.Coords, EltTy.bits .f32 = 32 ∨ (Rect.block (s := S10240x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S10240x256.size a
  hwx2_0 : ∀ i : grid2.Coords, EltTy.bits .bf16 = 32 ∨ (Rect.block (s := S10240x256) S2048x256.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S10240x256.size a
  hwx2_3 : ∀ i : grid2.Coords, EltTy.bits .f32 = 32 ∨ (Rect.block (s := S10240x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S10240x10240.size a
  hwx3_0 : ∀ i : grid3.Coords, EltTy.bits .bf16 = 32 ∨ (Rect.block (s := S10240x10240) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S10240x256.size a
  hwx3_1 : ∀ i : grid3.Coords, EltTy.bits .bf16 = 32 ∨ (Rect.block (s := S10240x256) S1024x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S10240x256.size a
  hwx3_3 : ∀ i : grid3.Coords, EltTy.bits .f32 = 32 ∨ (Rect.block (s := S10240x256) S2048x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S10240x256.size a
  hwx4_0 : ∀ i : grid4.Coords, EltTy.bits .bf16 = 32 ∨ (Rect.block (s := S10240x256) S2048x256.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x256.size a ≤ S10240x256.size a
  hwx4_3 : ∀ i : grid4.Coords, EltTy.bits .f32 = 32 ∨ (Rect.block (s := S10240x256) S2048x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S10240x256.size a
  hwx5_0 : ∀ i : grid5.Coords, EltTy.bits .bf16 = 32 ∨ (Rect.block (s := S10240x256) S2048x256.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S256x8.size a ≤ S256x8.size a
  hwx5_1 : ∀ i : grid5.Coords, EltTy.bits .bf16 = 32 ∨ (Rect.block (s := S256x8) S256x8.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x8.size a ≤ S1x8.size a
  hwx5_2 : ∀ i : grid5.Coords, EltTy.bits .f32 = 32 ∨ (Rect.block (s := S1x8) S1x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x8.size a ≤ S10240x8.size a
  hwx5_3 : ∀ i : grid5.Coords, EltTy.bits .f32 = 32 ∨ (Rect.block (s := S10240x8) S2048x8.size (cc5_transform_3 i) (hinb5_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_v49) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S128x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v45) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v62) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S256x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v45) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v66) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S256x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S2048x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v68) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S256x8.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S2048x8.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x256 : Shape := ⟨2, ![10000, 256]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x8 : Shape := ⟨2, ![10000, 8]⟩
abbrev S1x8 : Shape := ⟨2, ![1, 8]⟩

abbrev nBuf : Space → Nat
  | .hbm => 140
  | .vmem => 0
  | .smem => 0
  | _ => 0

abbrev hbmTy0_0 (i : Nat) : BufTy := match i % 128 with
  | 0 => ⟨S10000x128, .f32⟩
  | 1 => ⟨S2x320000, .i32⟩
  | 2 => ⟨S128x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x8, .f32⟩
  | 9 => ⟨S8, .f32⟩
  | 10 => ⟨S10000, .i32⟩
  | 11 => ⟨S1x320000, .i32⟩
  | 12 => ⟨S320000, .i32⟩
  | 13 => ⟨S330000, .i32⟩
  | 14 => ⟨S1x320000, .i32⟩
  | 15 => ⟨S320000, .i32⟩
  | 16 => ⟨S330000, .i32⟩
  | 17 => ⟨S10000x256, .f32⟩
  | 18 => ⟨S_, .f32⟩
  | 19 => ⟨S330000, .f32⟩
  | 20 => ⟨S_, .f32⟩
  | 21 => ⟨S10000, .f32⟩
  | 22 => ⟨S330000x1, .i32⟩
  | 23 => ⟨S10000, .f32⟩
  | 24 => ⟨S_, .f32⟩
  | 25 => ⟨S10000, .f32⟩
  | 26 => ⟨S10000, .i1⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S330000x1, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000x256, .f32⟩
  | 61 => ⟨S330000x256, .f32⟩
  | 62 => ⟨S330000x256, .f32⟩
  | 63 => ⟨S_, .f32⟩
  | 64 => ⟨S10000x256, .f32⟩
  | 65 => ⟨S330000x1, .i32⟩
  | 66 => ⟨S10000x256, .f32⟩
  | 67 => ⟨S1x256, .f32⟩
  | 68 => ⟨S10000x256, .f32⟩
  | 69 => ⟨S10000x256, .f32⟩
  | 70 => ⟨S_, .f32⟩
  | 71 => ⟨S10000x256, .f32⟩
  | 72 => ⟨S10000x256, .f32⟩
  | 73 => ⟨S10000x256, .f32⟩
  | 74 => ⟨S_, .f32⟩
  | 75 => ⟨S330000, .f32⟩
  | 76 => ⟨S_, .f32⟩
  | 77 => ⟨S10000, .f32⟩
  | 78 => ⟨S330000x1, .i32⟩
  | 79 => ⟨S10000, .f32⟩
  | 80 => ⟨S_, .f32⟩
  | 81 => ⟨S10000, .f32⟩
  | 82 => ⟨S10000, .i1⟩
  | 83 => ⟨S10000, .f32⟩
  | 84 => ⟨S_, .f32⟩
  | 85 => ⟨S_, .f32⟩
  | 86 => ⟨S10000, .f32⟩
  | 87 => ⟨S10000, .f32⟩
  | 88 => ⟨S_, .i32⟩
  | 89 => ⟨S330000, .i32⟩
  | 90 => ⟨S330000, .i1⟩
  | 91 => ⟨S_, .i32⟩
  | 92 => ⟨S330000, .i32⟩
  | 93 => ⟨S330000, .i32⟩
  | 94 => ⟨S330000, .i32⟩
  | 95 => ⟨S330000x1, .i32⟩
  | 96 => ⟨S330000, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000, .f32⟩
  | 106 => ⟨S330000, .f32⟩
  | 107 => ⟨S330000x1, .f32⟩
  | 108 => ⟨S_, .i32⟩
  | 109 => ⟨S330000, .i32⟩
  | 110 => ⟨S330000, .i1⟩
  | 111 => ⟨S_, .i32⟩
  | 112 => ⟨S330000, .i32⟩
  | 113 => ⟨S330000, .i32⟩
  | 114 => ⟨S330000, .i32⟩
  | 115 => ⟨S330000x1, .i32⟩
  | 116 => ⟨S330000x256, .f32⟩
  | 117 => ⟨S330000x256, .f32⟩
  | 118 => ⟨S330000x256, .f32⟩
  | 119 => ⟨S_, .f32⟩
  | 120 => ⟨S10000x256, .f32⟩
  | 121 => ⟨S330000x1, .i32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x128, .f32⟩

abbrev hbmTy0_1 (i : Nat) : BufTy := match i % 128 with
  | 0 => ⟨S10000x256, .f32⟩
  | 1 => ⟨S10000x256, .f32⟩
  | 2 => ⟨S1x256, .f32⟩
  | 3 => ⟨S10000x256, .f32⟩
  | 4 => ⟨S10000x256, .f32⟩
  | 5 => ⟨S_, .f32⟩
  | 6 => ⟨S10000x256, .f32⟩
  | 7 => ⟨S10000x256, .f32⟩
  | 8 => ⟨S10000x8, .f32⟩
  | 9 => ⟨S1x8, .f32⟩
  | 10 => ⟨S10000x8, .f32⟩
  | 11 => ⟨S10000x8, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call3_cst : Ref sig .tc := ⟨.hbm, 126, rfl⟩
abbrev main_call3_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call4_cst : Ref sig .tc := ⟨.hbm, 133, rfl⟩
abbrev main_call4_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  dot_S10000x128_S128x256_S10000x256_1_0_0_1_n_n_wf : DotDims.WF S10000x128 S128x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x256_S10000x256_1_0_0_1_n_n_wf : DotDims.WF S10000x256 S256x256 S10000x256 [1] [0] [0] [1] [] []
  dot_S10000x256_S256x8_S10000x8_1_0_0_1_n_n_wf : DotDims.WF S10000x256 S256x8 S10000x8 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x8_S10000x8_1_0_0_1_n_n : DotDims S10000x256 S256x8 S10000x8 where
  lhsContracting := [1]
  rhsContracting := [0]
  lhsNonContracting := [0]
  rhsNonContracting := [1]
  lhsBatch := []
  rhsBatch := []
  wf := dot_S10000x256_S256x8_S10000x8_1_0_0_1_n_n_wf

class Facts : Prop extends Facts₀ where

variable [Facts]
-- ==== Proof.Reg0Run.lean ====
/-
  Region 0: the first dense layer's matrix product. A row tile of 2048 rows of the 10240 × 128 left operand is
  multiplied into the whole 128 × 256 right operand; the single tile of the contracted axis means that at each of
  the five grid points the accumulator is cleared, receives the one partial product, and is at once copied, with the
  bias row added, into the output tile, which is written back at every point. Nothing is carried from one point to
  the next, so the region's invariant never has to say what the accumulator holds.

  This file states that behaviour for any float interpretation: what a point's body leaves in the output tile
  (a function of the three operand tiles at that point), the pipeline's proof data built from it, and the
  body's obligation to the pipeline.
-/
import proofs.«173524_j83966610637551_1_alg».proof.Proof.Gen.KernelIdeal.Launch
import proofs.«173524_j83966610637551_1_alg».proof.Proof.Gen.KernelIdeal.Skeleton
import proofs.«173524_j83966610637551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))

/-- The second test: is this the last tile of the contracted axis? -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- Hence no window is idle at any point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel

/-! ## The operand tiles -/

/-- Window w's tile at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current buffer holds its tile at every point, whether or not the tile was fetched there:
    where it was not, the tile's position has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on any buffers -/

/-- One buffer of the output window, through which its contents are stated (the choice does not matter). -/
abbrev VO0_3 : View sig .tc .vmem S2048x256 .f32 := (Memref.whole cc0_stg3_0 : Memref sig .tc .vmem S2048x256 .f32).view
/-- Each window's current buffer at point t, and that it is a whole buffer. -/
abbrev ms0_0 (t : Fin cfg0.N) : Memref sig .tc .vmem S2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
/-- The accumulator: a whole buffer of the call's own. -/
abbrev scM0_0 : Memref sig .tc .vmem S2048x256 .f32 := Memref.whole cc0_scratch0

/-- The region's invariant with the accumulator taken out as a buffer owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := Pipeline.UD sig nD τ) (Lvl := ℕ) (Val := Elt F) spec0 c [cc0_scratch0])
          ∗ (∃ r, prngReg c r)) := by
  unfold Pipeline.ΦA; rw [scopedRest0_split]; simp only [scM0_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun0 (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) :
    { L3 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc0__mm_kernel i arg2 harg2 arg3 harg3 arg4 harg4 arg5 harg5 arg6 harg6) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.KernelIdeal.Hand

end
-- ==== Proof.Reg0.lean ====
/-
  Region 0, continued: the pipeline's proof data for the first dense layer's matrix product, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.Reg0Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover0_3 (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) (y : S2048x256.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S2048x256.size (by sl_kernel_rfl) y

/-- What the run leaves in the output window's buffer: its pieces read back. -/
def out0_3 (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) : Vec F S2048x256 .f32 :=
  VO0_3.read (Elt F) (VO0_3.writes (Elt F) VO0_3.junk (kernelRun0 c i arg2 harg2 arg3 harg3 arg4 harg4 arg5 harg5 arg6 harg6 hc0 hc1 x0 x1 x2).1)

/-- What the output window's buffer holds after the body at point t: the run's contents at the point's buffers and
    operand tiles. -/
def outsAt0 (c : Dev nD) (t : Fin cfg0.N) : Vec F S2048x256 .f32 :=
  out0_3 c (grid0.coords t) (ms0_0 t) (hs0_0 t) (ms0_1 t) (hs0_1 t) (ms0_2 t) (hs0_2 t) (ms0_3 t) (hs0_3 t) scM0_0 (Memref.isWhole_whole _)
    (hcond0_0 t) (hcond0_1 t) (iblk0 V c 0 t) (iblk0 V c 1 t) (iblk0 V c 2 t)

/-! ## The pipeline's proof data -/

/-- The proof data of the region on core c: the arrays as the region finds them; after the body at point t each
    operand's buffer at its tile and the output's at outsAt0; the same invariant at every point; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem owed_eq0 (c : Dev nD) (t) : (dat0 V c).owed t = 0 := by dsimp only [dat0]
theorem q_eq0 (c : Dev nD) (w : Fin cfg0.W) : (dat0 V c).q w = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).Φ t.castSucc = Pipeline.ΦA spec0 c from rfl, PhiA0_eq]
  unfold outsAt0 out0_3
  iintro ⟨⟨⟨HS0, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

/-- and the invariant after the last point gives it back. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]
  try exact Idealize.SL.BI.Entails.refl _

end Cert.KernelIdeal.Hand

end
-- ==== Proof.Reg1Run.lean ====
/-
  The blocked matrix product of region 1, one grid point at a time.

  The grid is 5 row tiles by 10 tiles of the contracted axis; point t = 10·i + k works on row tile i and contraction
  tile k. The body keeps a 2048 × 256 accumulator beside the staged blocks. At k = 0 it first clears the accumulator;
  at every k it adds the product of the staged 2048 × 1024 tile of the left matrix and the staged 1024 × 256 tile of the
  right matrix into the accumulator; at k = 9 it also writes accumulator + bias row, rectified, into the staged output
  tile. So a point is in one of three cases — first (k = 0), middle (0 < k < 9), last (k = 9) — and this module runs the
  body once per case on arbitrary whole staging buffers, recording the stores each case leaves in the accumulator
  and in the output tile.
-/
import proofs.«173524_j83966610637551_1_alg».proof.Proof.Gen.KernelIdeal.Points
import proofs.«173524_j83966610637551_1_alg».proof.Proof.Gen.KernelIdeal.Launch
import proofs.«173524_j83966610637551_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The two conditions of the body, in closed form over the grid -/

/-- "This is the first contraction tile" (k = 0), as the body computes it from the grid coordinates. -/
abbrev isFirst1 (i : grid1.Coords) : Prop := (Scalar.cmpi .ne (Scalar.extui (Scalar.cmpi .eq (BitVec.ofNat 32 (i 1).val) 0#32)) 0#32) = 1#1
/-- It holds exactly at the points t with t mod 10 = 0. -/
theorem isFirst1_iff : ∀ t : Fin cfg1.N, isFirst1 (grid1.coords t) ↔ t.val % 10 = 0 :=
  (by decide +kernel : ∀ t : Fin grid1.N, isFirst1 (grid1.coords t) ↔ t.val % 10 = 0)

/-- "This is the last contraction tile" (k = 9), as the body computes it. -/
abbrev isLast1 (i : grid1.Coords) : Prop := k1_cond2 i = 1#1
/-- It holds exactly at the points t with t mod 10 = 9. -/
theorem isLast1_iff : ∀ t : Fin cfg1.N, isLast1 (grid1.coords t) ↔ t.val % 10 = 9 :=
  (by decide +kernel : ∀ t : Fin grid1.N, isLast1 (grid1.coords t) ↔ t.val % 10 = 9)

/-! ## Where the windows are stored into -/

/-- The three operand windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last contraction tile nothing is stored into the output tile, and it is not written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
/-- On the last contraction tile the output tile is stored. -/
theorem live1_3 : ∀ t : Fin cfg1.N, isLast1 (grid1.coords t) → cfg1.idle 3 (grid1.coords t) = false := by decide +kernel

/-! ## The staging buffers and the accumulator -/

/-- One staging buffer of the output window, through which its contents are stated. -/
abbrev outView1 : View sig .tc .vmem S2048x256 .f32 := (Memref.whole cc1_stg3_0 : Memref sig .tc .vmem S2048x256 .f32).view
/-- Each window's current staging buffer at point t, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The accumulator: a whole scoped buffer of the call's own. -/
abbrev accM1 : Memref sig .tc .vmem S2048x256 .f32 := Memref.whole cc1_scratch0
abbrev accView1 : View sig .tc .vmem S2048x256 .f32 := accM1.view

/-- What the region is entered with, the accumulator taken out of the scoped rest: the accumulator at some contents,
    every other scoped buffer unopened, the generator register at some state. -/
theorem entry1_eq (c : Dev nD) :
    (Pipeline.ΦA spec1 c : sProp 𝕄)
      = iprop(iprop((∃ d, owns (c : Thread nD τ) accM1 fullShare d)
          ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [accM1, owns_whole]; try rfl

/-! ## The body, case by case -/

set_option maxHeartbeats 1000000 in
/-- FIRST contraction tile: the accumulator (at anything) is cleared and the tile product added; the output tile, at
    contents `xo`, is handed back untouched. The stores left in the accumulator are the witness `LS`. -/
noncomputable def runFirst1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg2 harg2 arg3 harg3 arg4 harg4 arg5 harg5 arg6 harg6) K } := by
  refine ⟨?_, fun xo E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE contraction tile: the accumulator, at the contents `xs` the point before left, gets the tile product added;
    the output tile is handed back untouched. -/
noncomputable def runMid1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg2 harg2 arg3 harg3 arg4 harg4 arg5 harg5 arg6 harg6) K } := by
  refine ⟨?_, fun xo E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST contraction tile: the accumulator, at the contents `xs` the point before left, gets the tile product added,
    and the output tile (at anything) is stored: accumulator plus bias row, rectified. The stores left in the output
    tile are the witness `LO`, those left in the accumulator `LS`. -/
noncomputable def runLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg2 harg2 arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.Reg1.lean ====
/-
  Region 1 as a pipeline: what the accumulator and the output tile hold after every grid point, and the proof that
  the body, run at any point on what the pipeline hands it, leaves exactly that.

  Point t = 10·i + k handles row tile i and contraction tile k. The accumulator is carried from point to point inside
  a row tile: cleared and loaded with the first tile product at k = 0, a further tile product added at each later k;
  at k = 9 the output tile is stored (and only then written back to the array). `stateAt1` follows that recursion over
  the points; the region's invariant says that between two points the accumulator holds `stateAt1`'s second component.
-/
import proofs.«173524_j83966610637551_1_alg».proof.Proof.Reg1Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, fetched there or not (an unfetched
    window's block index has not moved), for any proof data over the entry arrays whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output tile -/

/-- The stores of the first case cover the accumulator. -/
theorem accCoverFirst1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) (y : S2048x256.Idx) :
    ∃ pc ∈ (runFirst1 c i arg2 harg2 arg3 harg3 arg4 harg4 arg5 harg5 arg6 harg6 hc0 hc1 x0 x1 x2).1, y ∈ pc.1.set :=
  View.cover_of_tiledL (runFirst1 c i arg2 harg2 arg3 harg3 arg4 harg4 arg5 harg5 arg6 harg6 hc0 hc1 x0 x1 x2).1 S2048x256.size (by sl_kernel_rfl) y
/-- What the first case leaves in the accumulator: its stores read back. -/
def accFirst1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) : Vec F S2048x256 .f32 :=
  accView1.read (Elt F) (accView1.writes (Elt F) accView1.junk (runFirst1 c i arg2 harg2 arg3 harg3 arg4 harg4 arg5 harg5 arg6 harg6 hc0 hc1 x0 x1 x2).1)

/-- The stores of the middle case cover the accumulator. -/
theorem accCoverMid1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) (y : S2048x256.Idx) :
    ∃ pc ∈ (runMid1 c i arg2 harg2 arg3 harg3 arg4 harg4 arg5 harg5 arg6 harg6 hc0 hc1 x0 x1 x2 xs).1, y ∈ pc.1.set :=
  View.cover_of_tiledL (runMid1 c i arg2 harg2 arg3 harg3 arg4 harg4 arg5 harg5 arg6 harg6 hc0 hc1 x0 x1 x2 xs).1 S2048x256.size (by sl_kernel_rfl) y
/-- What the middle case leaves in the accumulator, from what the point before left (`xs`). -/
def accMid1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) : Vec F S2048x256 .f32 :=
  accView1.read (Elt F) (accView1.writes (Elt F) accView1.junk (runMid1 c i arg2 harg2 arg3 harg3 arg4 harg4 arg5 harg5 arg6 harg6 hc0 hc1 x0 x1 x2 xs).1)

/-- The stores of the last case cover the accumulator, -/
theorem accCoverLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) (y : S2048x256.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S2048x256.size (by sl_kernel_rfl) y
/-- and the output tile. -/
theorem outCoverLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) (y : S2048x256.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S2048x256.size (by sl_kernel_rfl) y
/-- What the last case leaves in the accumulator, -/
def accLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) : Vec F S2048x256 .f32 :=
  accView1.read (Elt F) (accView1.writes (Elt F) accView1.junk (runLast1 c i arg2 harg2 arg3 harg3 arg4 harg4 arg5 harg5 arg6 harg6 hc0 hc1 x0 x1 x2 xs).2.1)
/-- and in the output tile. -/
def outLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) : Vec F S2048x256 .f32 :=
  outView1.read (Elt F) (outView1.writes (Elt F) outView1.junk (runLast1 c i arg2 harg2 arg3 harg3 arg4 harg4 arg5 harg5 arg6 harg6 hc0 hc1 x0 x1 x2 xs).1)

/-- Off the last contraction tile nothing is stored into the output tile: a placeholder nothing consults (the
    tile is neither written back there nor read at the next point). -/
def noOut1 : Vec F S2048x256 .f32 := outView1.read (Elt F) outView1.junk

/-! ## The accumulation, point by point -/

/-- What the output tile's staging buffer (first component) and the accumulator (second component) hold after the body
    at position `n`: the case the closed forms select at `n`, run on the point's blocks, the accumulator taken over from
    position `n - 1` off the first contraction tile. -/
def stateAt1 (c : Dev nD) : (n : ℕ) → n < cfg1.N → Vec F S2048x256 .f32 × Vec F S2048x256 .f32
  | 0, hn => (noOut1, accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM1 (Memref.isWhole_whole _) ((isFirst1_iff ⟨0, hn⟩).mpr (Nat.zero_mod _)) (fun h => (fun h => by (try dsimp only at h); omega) ((isLast1_iff ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (noOut1, accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) ((isFirst1_iff ⟨n + 1, hn⟩).mpr h0) (fun h => h1 ((isLast1_iff ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (outLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (stateAt1 c n (Nat.lt_of_succ_lt hn)).2,
         accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (stateAt1 c n (Nat.lt_of_succ_lt hn)).2)
      else
        (noOut1, accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirst1_iff ⟨n + 1, hn⟩).mp h)) (fun h => h1 ((isLast1_iff ⟨n + 1, hn⟩).mp h)) (iblk1 V c 0 ⟨n + 1, hn⟩) (iblk1 V c 1 ⟨n + 1, hn⟩) (iblk1 V c 2 ⟨n + 1, hn⟩) (stateAt1 c n (Nat.lt_of_succ_lt hn)).2)

/-- `stateAt1` at a first contraction tile. -/
theorem stateAt1_first (c : Dev nD) (t : Fin cfg1.N) (h0 : t.val % 10 = 0) (h1 : ¬t.val % 10 = 9) :
    stateAt1 V c t.val t.isLt = (noOut1, accFirst1 c (grid1.coords t) (ms1_0 t) (hs1_0 t) (ms1_1 t) (hs1_1 t) (ms1_2 t) (hs1_2 t) (ms1_3 t) (hs1_3 t) accM1 (Memref.isWhole_whole _) ((isFirst1_iff t).mpr h0) (fun h => h1 ((isLast1_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `stateAt1` at a middle contraction tile: over what the point before left. -/
theorem stateAt1_mid (c : Dev nD) (t : Fin cfg1.N) (h0 : ¬t.val % 10 = 0) (h1 : ¬t.val % 10 = 9) :
    stateAt1 V c t.val t.isLt = (noOut1, accMid1 c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) (fun h => h1 ((isLast1_iff t).mp h)) (iblk1 V c 0 t) (iblk1 V c 1 t) (iblk1 V c 2 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stateAt1` at a last contraction tile: over what the point before left. -/
theorem stateAt1_last (c : Dev nD) (t : Fin cfg1.N) (h0 : ¬t.val % 10 = 0) (h1 : t.val % 10 = 9) :
    stateAt1 V c t.val t.isLt = (outLast1 c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) ((isLast1_iff t).mpr h1) (iblk1 V c 0 t) (iblk1 V c 1 t) (iblk1 V c 2 t) (stateAt1 V c (t.val - 1) (Nat.lt_of_le_of_lt (Nat.sub_le _ _) t.isLt)).2,
      accLast1 c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) ((isLast1_iff t).mpr h1) (iblk1 V c 0 t) (iblk1 V c 1 t) (iblk1 V c 2 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the launch hands over (every scoped buffer at anything, the
    generator register at some state); afterwards the same with the accumulator at what position `n - 1` left in it. -/
def carried1 (c : Dev nD) : (n : ℕ) → n ≤ cfg1.N → sProp 𝕄
  | 0, _ => Pipeline.ΦA spec1 c
  | n + 1, hn => iprop(iprop(owns (c : Thread nD τ) accM1 fullShare ((stateAt1 V c n hn).2)
      ∗ Pipeline.scopedRestBut (Ix := Unit) (Name := ℕ) (U := Pipeline.UD sig nD τ) (Lvl := ℕ) (Val := Elt F) spec1 c [cc1_scratch0]) ∗ (∃ r, prngReg c r))

theorem carried1_zero (c : Dev nD) (n : ℕ) (h : n ≤ cfg1.N) (hz : n = 0) : carried1 V c n h = Pipeline.ΦA spec1 c := by
  subst hz; rfl

theorem carried1_succ (c : Dev nD) (n : ℕ) (hn : n < cfg1.N) :
    carried1 V c (n + 1) hn = iprop(iprop(owns (c : Thread nD τ) accM1 fullShare ((stateAt1 V c n hn).2)
      ∗ Pipeline.scopedRestBut (Ix := Unit) (Name := ℕ) (U := Pipeline.UD sig nD τ) (Lvl := ℕ) (Val := Elt F) spec1 c [cc1_scratch0]) ∗ (∃ r, prngReg c r)) := rfl

theorem carried1_pos (c : Dev nD) (n : ℕ) (h : n ≤ cfg1.N) (hz : n ≠ 0) :
    carried1 V c n h = iprop(iprop(owns (c : Thread nD τ) accM1 fullShare ((stateAt1 V c (n - 1) (by omega)).2)
      ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-! ## The pipeline's proof data -/

/-- The proof data of region 1 on core `c`: the arrays as the region finds them; after the body at point `t` each
    operand's buffer at its block and the output tile's at `stateAt1`'s first component; the invariant `carried1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stateAt1 V c t.val t.isLt).1
  Φ t := carried1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed_eq1 (c : Dev nD) (t) : (dat1 V c).owed t = 0 := by dsimp only [dat1]
theorem q_eq1 (c : Dev nD) (w : Fin cfg1.W) : (dat1 V c).q w = fullShare := by dsimp only [dat1]

theorem carried1_castSucc (c : Dev nD) (t : Fin cfg1.N) :
    (dat1 V c).Φ t.castSucc = carried1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stateAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The operands' buffers hold their blocks; the closed forms say which case the point is in;
    the invariant hands the body the accumulator at what the point before left (at anything at the very first point) and
    takes it back at this point's contents; off the last contraction tile the output tile goes back untouched, on it
    it comes back stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = carried1 V c (t.val + 1) t.isLt from rfl, carried1_succ]
  have hN : t.val < 50 := lt_of_lt_of_eq t.isLt (show cfg1.N = 50 from N_1)
  by_cases h0 : t.val % 10 = 0
  · have h1 : ¬t.val % 10 = 9 := by omega
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [Dat.leavesExact_idle (dat1 V c) 3 t (idle1_3 t (fun h => h1 ((isLast1_iff t).mp h))) (noFlush1_3 t (fun h => h1 ((isLast1_iff t).mp h)))]
    rw [stateAt1_first V c t h0 h1]
    unfold accFirst1; (try dsimp only)
    by_cases hz : t.val = 0
    · rw [carried1_castSucc V c t, carried1_zero V c _ _ hz, entry1_eq]
      iintro ⟨⟨⟨HS, HR⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst1 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [carried1_castSucc V c t, carried1_pos V c _ _ hz]
      iintro ⟨⟨⟨HS, HR⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst1 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t ((isLast1_iff t).mpr h1)], after1_3]
      rw [stateAt1_last V c t h0 h1]
      unfold outLast1 accLast1; (try dsimp only)
      rw [carried1_castSucc V c t, carried1_pos V c _ _ hz]
      iintro ⟨⟨⟨HS, HR⟩, Hg⟩, Ho, ⟨%d0, H0⟩, ⟨%d1, H1⟩, ⟨%d2, H2⟩, ⟨%d3, H3⟩⟩
      iapply ((runLast1 c (grid1.coords t) _ _ _ _ _ _ _ _ _ _ (fun h => h0 ((isFirst1_iff t).mp h)) ((isLast1_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast1 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast1 c _ _ _ _ _ _ _ _ _ _ _ _ _ _ _ _ _)
    · rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [Dat.leavesExact_idle (dat1 V c) 3 t (idle1_3 t (fun h => h1 ((isLast1_iff t).mp h))) (noFlush1_3 t (fun h => h1 ((isLast1_iff t).mp h)))]
      rw [stateAt1_mid V c t h0 h1]
      unfold accMid1; (try dsimp only)
      rw [carried1_castSucc V c t, carried1_pos V c _ _ hz]
      iintro ⟨⟨⟨HS, HR⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverMid1 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = carried1 V c 0 (Nat.zero_le _) from rfl, carried1_zero V c 0 _ rfl]
  try exact Idealize.SL.BI.Entails.refl _

/-- After any point the invariant gives the launch's form back: what the accumulator holds is forgotten. -/
theorem carried1_out (c : Dev nD) (t : Fin (cfg1.N + 1)) (ht : t.val ≠ 0) : (dat1 V c).Φ t ⊢ (Pipeline.ΦA spec1 c : sProp 𝕄) := by
  rw [show (dat1 V c).Φ t = carried1 V c t.val (Nat.le_of_lt_succ t.isLt) from rfl, carried1_pos V c _ _ ht, entry1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  carried1_out V c _ (by rw [Fin.val_last]; have : cfg1.N = 50 := N_1; omega)

end Cert.KernelIdeal.Hand

end
-- ==== Proof.Reg2Run.lean ====
/-
  Region 2: the second layer's feature transform, a matrix product. A row tile of 2048 rows of the left operand (10240 × 256) is multiplied into the whole right
  operand (256 × 256); the single tile of the contracted axis means that at each of the five grid points the
  accumulator is cleared, receives the one partial product, and is at once copied, with the bias row added, into the output tile, which is written back at every point. Nothing is carried from one point to
  the next, so the region's invariant never has to say what the accumulator holds.

  This file states the body's run for any float interpretation: what a point's body leaves in the output tile
  is a function of the three operand tiles at that point.
-/
import proofs.«173524_j83966610637551_1_alg».proof.Proof.Gen.KernelIdeal.Launch
import proofs.«173524_j83966610637551_1_alg».proof.Proof.Gen.KernelIdeal.Skeleton
import proofs.«173524_j83966610637551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) :=
  (by decide +kernel : ∀ t : Fin grid2.N, cond2_0 (grid2.coords t))

/-- The second test: is this the last tile of the contracted axis? -/
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

/-- Hence no window is idle at any point. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel

/-! ## The operand tiles -/

/-- Window w's tile at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand window's current buffer holds its tile at every point, whether or not the tile was fetched there:
    where it was not, the tile's position has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body on any buffers -/

/-- One buffer of the output window, through which its contents are stated (the choice does not matter). -/
abbrev VO2_3 : View sig .tc .vmem S2048x256 .f32 := (Memref.whole cc2_stg3_0 : Memref sig .tc .vmem S2048x256 .f32).view
/-- Each window's current buffer at point t, and that it is a whole buffer. -/
abbrev ms2_0 (t : Fin cfg2.N) : Memref sig .tc .vmem S2048x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The accumulator: a whole buffer of the call's own. -/
abbrev scM2_0 : Memref sig .tc .vmem S2048x256 .f32 := Memref.whole cc2_scratch0

/-- The region's invariant with the accumulator taken out as a buffer owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := Pipeline.UD sig nD τ) (Lvl := ℕ) (Val := Elt F) spec2 c [cc2_scratch0])
          ∗ (∃ r, prngReg c r)) := by
  unfold Pipeline.ΦA; rw [scopedRest2_split]; simp only [scM2_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun2 (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) :
    { L3 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc2__mm_kernel i arg2 harg2 arg3 harg3 arg4 harg4 arg5 harg5 arg6 harg6) K } := by
  refine ⟨?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.KernelIdeal.Hand

end
-- ==== Proof.Reg2.lean ====
/-
  Region 2, continued: the pipeline's proof data for the second layer's feature transform, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.Reg2Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover2_3 (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) (y : S2048x256.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S2048x256.size (by sl_kernel_rfl) y

/-- What the run leaves in the output window's buffer: its pieces read back. -/
def out2_3 (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) : Vec F S2048x256 .f32 :=
  VO2_3.read (Elt F) (VO2_3.writes (Elt F) VO2_3.junk (kernelRun2 c i arg2 harg2 arg3 harg3 arg4 harg4 arg5 harg5 arg6 harg6 hc0 hc1 x0 x1 x2).1)

/-- What the output window's buffer holds after the body at point t: the run's contents at the point's buffers and
    operand tiles. -/
def outsAt2 (c : Dev nD) (t : Fin cfg2.N) : Vec F S2048x256 .f32 :=
  out2_3 c (grid2.coords t) (ms2_0 t) (hs2_0 t) (ms2_1 t) (hs2_1 t) (ms2_2 t) (hs2_2 t) (ms2_3 t) (hs2_3 t) scM2_0 (Memref.isWhole_whole _)
    (hcond2_0 t) (hcond2_1 t) (iblk2 V c 0 t) (iblk2 V c 1 t) (iblk2 V c 2 t)

/-! ## The pipeline's proof data -/

/-- The proof data of the region on core c: the arrays as the region finds them; after the body at point t each
    operand's buffer at its tile and the output's at outsAt2; the same invariant at every point; nothing owed;
    full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem owed_eq2 (c : Dev nD) (t) : (dat2 V c).owed t = 0 := by dsimp only [dat2]
theorem q_eq2 (c : Dev nD) (w : Fin cfg2.W) : (dat2 V c).q w = fullShare := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outsAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = (dat2 V c).Φ t.castSucc from rfl]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).Φ t.castSucc = Pipeline.ΦA spec2 c from rfl, PhiA2_eq]
  unfold outsAt2 out2_3
  iintro ⟨⟨⟨HS0, HR⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : (Pipeline.ΦA spec2 c : sProp 𝕄) ⊢ (dat2 V c).Φ 0 := by
  rw [show (dat2 V c).Φ 0 = Pipeline.ΦA spec2 c from rfl]
  try exact Idealize.SL.BI.Entails.refl _

/-- and the invariant after the last point gives it back. -/
theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]
  try exact Idealize.SL.BI.Entails.refl _

end Cert.KernelIdeal.Hand

end
-- ==== Proof.Reg3Run.lean ====
/-
  The blocked matrix product of region 3, one grid point at a time.

  The grid is 5 row tiles by 10 tiles of the contracted axis; point t = 10·i + k works on row tile i and contraction
  tile k. The body keeps a 2048 × 256 accumulator beside the staged blocks. At k = 0 it first clears the accumulator;
  at every k it adds the product of the staged 2048 × 1024 tile of the left matrix and the staged 1024 × 256 tile of the
  right matrix into the accumulator; at k = 9 it also writes accumulator + bias row, rectified, into the staged output
  tile. So a point is in one of three cases — first (k = 0), middle (0 < k < 9), last (k = 9) — and this module runs the
  body once per case on arbitrary whole staging buffers, recording the stores each case leaves in the accumulator
  and in the output tile.
-/
import proofs.«173524_j83966610637551_1_alg».proof.Proof.Gen.KernelIdeal.Points
import proofs.«173524_j83966610637551_1_alg».proof.Proof.Gen.KernelIdeal.Launch
import proofs.«173524_j83966610637551_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The two conditions of the body, in closed form over the grid -/

/-- "This is the first contraction tile" (k = 0), as the body computes it from the grid coordinates. -/
abbrev isFirst3 (i : grid3.Coords) : Prop := (Scalar.cmpi .ne (Scalar.extui (Scalar.cmpi .eq (BitVec.ofNat 32 (i 1).val) 0#32)) 0#32) = 1#1
/-- It holds exactly at the points t with t mod 10 = 0. -/
theorem isFirst3_iff : ∀ t : Fin cfg3.N, isFirst3 (grid3.coords t) ↔ t.val % 10 = 0 :=
  (by decide +kernel : ∀ t : Fin grid3.N, isFirst3 (grid3.coords t) ↔ t.val % 10 = 0)

/-- "This is the last contraction tile" (k = 9), as the body computes it. -/
abbrev isLast3 (i : grid3.Coords) : Prop := k3_cond2 i = 1#1
/-- It holds exactly at the points t with t mod 10 = 9. -/
theorem isLast3_iff : ∀ t : Fin cfg3.N, isLast3 (grid3.coords t) ↔ t.val % 10 = 9 :=
  (by decide +kernel : ∀ t : Fin grid3.N, isLast3 (grid3.coords t) ↔ t.val % 10 = 9)

/-! ## Where the windows are stored into -/

/-- The three operand windows are never idle. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Off the last contraction tile nothing is stored into the output tile, and it is not written back. -/
theorem idle3_3 : ∀ t : Fin cfg3.N, ¬isLast3 (grid3.coords t) → cfg3.idle 3 (grid3.coords t) = true := by decide +kernel
theorem noFlush3_3 : ∀ t : Fin cfg3.N, ¬isLast3 (grid3.coords t) → (cfg3.win 3).flush t = false := by decide +kernel
/-- On the last contraction tile the output tile is stored. -/
theorem live3_3 : ∀ t : Fin cfg3.N, isLast3 (grid3.coords t) → cfg3.idle 3 (grid3.coords t) = false := by decide +kernel

/-! ## The staging buffers and the accumulator -/

/-- One staging buffer of the output window, through which its contents are stated. -/
abbrev outView3 : View sig .tc .vmem S2048x256 .f32 := (Memref.whole cc3_stg3_0 : Memref sig .tc .vmem S2048x256 .f32).view
/-- Each window's current staging buffer at point t, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
/-- The accumulator: a whole scoped buffer of the call's own. -/
abbrev accM3 : Memref sig .tc .vmem S2048x256 .f32 := Memref.whole cc3_scratch0
abbrev accView3 : View sig .tc .vmem S2048x256 .f32 := accM3.view

/-- What the region is entered with, the accumulator taken out of the scoped rest: the accumulator at some contents,
    every other scoped buffer unopened, the generator register at some state. -/
theorem entry3_eq (c : Dev nD) :
    (Pipeline.ΦA spec3 c : sProp 𝕄)
      = iprop(iprop((∃ d, owns (c : Thread nD τ) accM3 fullShare d)
          ∗ Pipeline.scopedRestBut (Ix := Unit) (Name := ℕ) (U := Pipeline.UD sig nD τ) (Lvl := ℕ) (Val := Elt F) spec3 c [cc3_scratch0]) ∗ (∃ r, prngReg c r)) := by
  unfold Pipeline.ΦA; rw [scopedRest3_split]; simp only [accM3, owns_whole]; try rfl

/-! ## The body, case by case -/

set_option maxHeartbeats 1000000 in
/-- FIRST contraction tile: the accumulator (at anything) is cleared and the tile product added; the output tile, at
    contents `xo`, is handed back untouched. The stores left in the accumulator are the witness `LS`. -/
noncomputable def runFirst3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg2 harg2 arg3 harg3 arg4 harg4 arg5 harg5 arg6 harg6) K } := by
  refine ⟨?_, fun xo E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE contraction tile: the accumulator, at the contents `xs` the point before left, gets the tile product added;
    the output tile is handed back untouched. -/
noncomputable def runMid3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg2 harg2 arg3 harg3 arg4 harg4 arg5 harg5 arg6 harg6) K } := by
  refine ⟨?_, fun xo E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST contraction tile: the accumulator, at the contents `xs` the point before left, gets the tile product added,
    and the output tile (at anything) is stored: accumulator plus bias row, rectified. The stores left in the output
    tile are the witness `LO`, those left in the accumulator `LS`. -/
noncomputable def runLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg2 harg2 arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.Reg3.lean ====
/-
  Region 3 as a pipeline: what the accumulator and the output tile hold after every grid point, and the proof that
  the body, run at any point on what the pipeline hands it, leaves exactly that.

  Point t = 10·i + k handles row tile i and contraction tile k. The accumulator is carried from point to point inside
  a row tile: cleared and loaded with the first tile product at k = 0, a further tile product added at each later k;
  at k = 9 the output tile is stored (and only then written back to the array). `stateAt3` follows that recursion over
  the points; the region's invariant says that between two points the accumulator holds `stateAt3`'s second component.
-/
import proofs.«173524_j83966610637551_1_alg».proof.Proof.Reg3Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand window's current staging buffer holds its block at every point, fetched there or not (an unfetched
    window's block index has not moved), for any proof data over the entry arrays whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the accumulator and in the output tile -/

/-- The stores of the first case cover the accumulator. -/
theorem accCoverFirst3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) (y : S2048x256.Idx) :
    ∃ pc ∈ (runFirst3 c i arg2 harg2 arg3 harg3 arg4 harg4 arg5 harg5 arg6 harg6 hc0 hc1 x0 x1 x2).1, y ∈ pc.1.set :=
  View.cover_of_tiledL (runFirst3 c i arg2 harg2 arg3 harg3 arg4 harg4 arg5 harg5 arg6 harg6 hc0 hc1 x0 x1 x2).1 S2048x256.size (by sl_kernel_rfl) y
/-- What the first case leaves in the accumulator: its stores read back. -/
def accFirst3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) : Vec F S2048x256 .f32 :=
  accView3.read (Elt F) (accView3.writes (Elt F) accView3.junk (runFirst3 c i arg2 harg2 arg3 harg3 arg4 harg4 arg5 harg5 arg6 harg6 hc0 hc1 x0 x1 x2).1)

/-- The stores of the middle case cover the accumulator. -/
theorem accCoverMid3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) (y : S2048x256.Idx) :
    ∃ pc ∈ (runMid3 c i arg2 harg2 arg3 harg3 arg4 harg4 arg5 harg5 arg6 harg6 hc0 hc1 x0 x1 x2 xs).1, y ∈ pc.1.set :=
  View.cover_of_tiledL (runMid3 c i arg2 harg2 arg3 harg3 arg4 harg4 arg5 harg5 arg6 harg6 hc0 hc1 x0 x1 x2 xs).1 S2048x256.size (by sl_kernel_rfl) y
/-- What the middle case leaves in the accumulator, from what the point before left (`xs`). -/
def accMid3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) : Vec F S2048x256 .f32 :=
  accView3.read (Elt F) (accView3.writes (Elt F) accView3.junk (runMid3 c i arg2 harg2 arg3 harg3 arg4 harg4 arg5 harg5 arg6 harg6 hc0 hc1 x0 x1 x2 xs).1)

/-- The stores of the last case cover the accumulator, -/
theorem accCoverLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) (y : S2048x256.Idx) :
    ∃ pc ∈ (runLast3 c i arg2 harg2 arg3 harg3 arg4 harg4 arg5 harg5 arg6 harg6 hc0 hc1 x0 x1 x2 xs).2.1, y ∈ pc.1.set :=
  View.cover_of_tiledL (runLast3 c i arg2 harg2 arg3 harg3 arg4 harg4 arg5 harg5 arg6 harg6 hc0 hc1 x0 x1 x2 xs).2.1 S2048x256.size (by sl_kernel_rfl) y
/-- and the output tile. -/
theorem outCoverLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) (y : S2048x256.Idx) :
    ∃ pc ∈ (runLast3 c i arg2 harg2 arg3 harg3 arg4 harg4 arg5 harg5 arg6 harg6 hc0 hc1 x0 x1 x2 xs).1, y ∈ pc.1.set :=
  View.cover_of_tiledL (runLast3 c i arg2 harg2 arg3 harg3 arg4 harg4 arg5 harg5 arg6 harg6 hc0 hc1 x0 x1 x2 xs).1 S2048x256.size (by sl_kernel_rfl) y
/-- What the last case leaves in the accumulator, -/
def accLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) : Vec F S2048x256 .f32 :=
  accView3.read (Elt F) (accView3.writes (Elt F) accView3.junk (runLast3 c i arg2 harg2 arg3 harg3 arg4 harg4 arg5 harg5 arg6 harg6 hc0 hc1 x0 x1 x2 xs).2.1)
/-- and in the output tile. -/
def outLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) : Vec F S2048x256 .f32 :=
  outView3.read (Elt F) (outView3.writes (Elt F) outView3.junk (runLast3 c i arg2 harg2 arg3 harg3 arg4 harg4 arg5 harg5 arg6 harg6 hc0 hc1 x0 x1 x2 xs).1)

/-- Off the last contraction tile nothing is stored into the output tile: a placeholder nothing consults (the
    tile is neither written back there nor read at the next point). -/
def noOut3 : Vec F S2048x256 .f32 := outView3.read (Elt F) outView3.junk

/-! ## The accumulation, point by point -/

/-- What the output tile's staging buffer (first component) and the accumulator (second component) hold after the body
    at position `n`: the case the closed forms select at `n`, run on the point's blocks, the accumulator taken over from
    position `n - 1` off the first contraction tile. -/
def stateAt3 (c : Dev nD) : (n : ℕ) → n < cfg3.N → Vec F S2048x256 .f32 × Vec F S2048x256 .f32
  | 0, hn => (noOut3, accFirst3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) accM3 (Memref.isWhole_whole _) ((isFirst3_iff ⟨0, hn⟩).mpr (Nat.zero_mod _)) (fun h => (fun h => by (try dsimp only at h); omega) ((isLast3_iff ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (noOut3, accFirst3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) ((isFirst3_iff ⟨n + 1, hn⟩).mpr h0) (fun h => h1 ((isLast3_iff ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (outLast3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) (fun h => h0 ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (stateAt3 c n (Nat.lt_of_succ_lt hn)).2,
         accLast3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) (fun h => h0 ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (stateAt3 c n (Nat.lt_of_succ_lt hn)).2)
      else
        (noOut3, accMid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) (fun h => h0 ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (stateAt3 c n (Nat.lt_of_succ_lt hn)).2)

/-- `stateAt3` at a first contraction tile. -/
theorem stateAt3_first (c : Dev nD) (t : Fin cfg3.N) (h0 : t.val % 10 = 0) (h1 : ¬t.val % 10 = 9) :
    stateAt3 V c t.val t.isLt = (noOut3, accFirst3 c (grid3.coords t) (ms3_0 t) (hs3_0 t) (ms3_1 t) (hs3_1 t) (ms3_2 t) (hs3_2 t) (ms3_3 t) (hs3_3 t) accM3 (Memref.isWhole_whole _) ((isFirst3_iff t).mpr h0) (fun h => h1 ((isLast3_iff t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `stateAt3` at a middle contraction tile: over what the point before left. -/
theorem stateAt3_mid (c : Dev nD) (t : Fin cfg3.N) (h0 : ¬t.val % 10 = 0) (h1 : ¬t.val % 10 = 9) :
    stateAt3 V c t.val t.isLt = (noOut3, accMid3 c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) (fun h => h1 ((isLast3_iff t).mp h)) (iblk3 V c 0 t) (iblk3 V c 1 t) (iblk3 V c 2 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stateAt3` at a last contraction tile: over what the point before left. -/
theorem stateAt3_last (c : Dev nD) (t : Fin cfg3.N) (h0 : ¬t.val % 10 = 0) (h1 : t.val % 10 = 9) :
    stateAt3 V c t.val t.isLt = (outLast3 c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) ((isLast3_iff t).mpr h1) (iblk3 V c 0 t) (iblk3 V c 1 t) (iblk3 V c 2 t) (stateAt3 V c (t.val - 1) (Nat.lt_of_le_of_lt (Nat.sub_le _ _) t.isLt)).2,
      accLast3 c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) ((isLast3_iff t).mpr h1) (iblk3 V c 0 t) (iblk3 V c 1 t) (iblk3 V c 2 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the launch hands over (every scoped buffer at anything, the
    generator register at some state); afterwards the same with the accumulator at what position `n - 1` left in it. -/
def carried3 (c : Dev nD) : (n : ℕ) → n ≤ cfg3.N → sProp 𝕄
  | 0, _ => Pipeline.ΦA spec3 c
  | n + 1, hn => iprop(iprop(owns (c : Thread nD τ) accM3 fullShare ((stateAt3 V c n hn).2)
      ∗ Pipeline.scopedRestBut (Ix := Unit) (Name := ℕ) (U := Pipeline.UD sig nD τ) (Lvl := ℕ) (Val := Elt F) spec3 c [cc3_scratch0]) ∗ (∃ r, prngReg c r))

theorem carried3_zero (c : Dev nD) (n : ℕ) (h : n ≤ cfg3.N) (hz : n = 0) : carried3 V c n h = Pipeline.ΦA spec3 c := by
  subst hz; rfl

theorem carried3_succ (c : Dev nD) (n : ℕ) (hn : n < cfg3.N) :
    carried3 V c (n + 1) hn = iprop(iprop(owns (c : Thread nD τ) accM3 fullShare ((stateAt3 V c n hn).2)
      ∗ Pipeline.scopedRestBut (Ix := Unit) (Name := ℕ) (U := Pipeline.UD sig nD τ) (Lvl := ℕ) (Val := Elt F) spec3 c [cc3_scratch0]) ∗ (∃ r, prngReg c r)) := rfl

theorem carried3_pos (c : Dev nD) (n : ℕ) (h : n ≤ cfg3.N) (hz : n ≠ 0) :
    carried3 V c n h = iprop(iprop(owns (c : Thread nD τ) accM3 fullShare ((stateAt3 V c (n - 1) (by omega)).2)
      ∗ Pipeline.scopedRestBut (Ix := Unit) (Name := ℕ) (U := Pipeline.UD sig nD τ) (Lvl := ℕ) (Val := Elt F) spec3 c [cc3_scratch0]) ∗ (∃ r, prngReg c r)) := by
  cases n with
  | zero => exact absurd rfl hz
  | succ n => rfl

/-! ## The pipeline's proof data -/

/-- The proof data of region 3 on core `c`: the arrays as the region finds them; after the body at point `t` each
    operand's buffer at its block and the output tile's at `stateAt3`'s first component; the invariant `carried3`;
    nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (stateAt3 V c t.val t.isLt).1
  Φ t := carried3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed_eq3 (c : Dev nD) (t) : (dat3 V c).owed t = 0 := by dsimp only [dat3]
theorem q_eq3 (c : Dev nD) (w : Fin cfg3.W) : (dat3 V c).q w = fullShare := by dsimp only [dat3]

theorem carried3_castSucc (c : Dev nD) (t : Fin cfg3.N) :
    (dat3 V c).Φ t.castSucc = carried3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (stateAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The operands' buffers hold their blocks; the closed forms say which case the point is in;
    the invariant hands the body the accumulator at what the point before left (at anything at the very first point) and
    takes it back at this point's contents; off the last contraction tile the output tile goes back untouched, on it
    it comes back stored. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = carried3 V c (t.val + 1) t.isLt from rfl, carried3_succ]
  have hN : t.val < 50 := lt_of_lt_of_eq t.isLt (show cfg3.N = 50 from N_3)
  by_cases h0 : t.val % 10 = 0
  · have h1 : ¬t.val % 10 = 9 := by omega
    rw [show (dat3 V c).leavesExact 0 t = owns (c : Thread nD τ) (ms3_0 t) fullShare ((dat3 V c).after 0 t) from by
      unfold Dat.leavesExact; rw [live3_0 t], after3_0]
    rw [show (dat3 V c).leavesExact 1 t = owns (c : Thread nD τ) (ms3_1 t) fullShare ((dat3 V c).after 1 t) from by
      unfold Dat.leavesExact; rw [live3_1 t], after3_1]
    rw [show (dat3 V c).leavesExact 2 t = owns (c : Thread nD τ) (ms3_2 t) fullShare ((dat3 V c).after 2 t) from by
      unfold Dat.leavesExact; rw [live3_2 t], after3_2]
    rw [Dat.leavesExact_idle (dat3 V c) 3 t (idle3_3 t (fun h => h1 ((isLast3_iff t).mp h))) (noFlush3_3 t (fun h => h1 ((isLast3_iff t).mp h)))]
    rw [stateAt3_first V c t h0 h1]
    unfold accFirst3; (try dsimp only)
    by_cases hz : t.val = 0
    · rw [carried3_castSucc V c t, carried3_zero V c _ _ hz, entry3_eq]
      iintro ⟨⟨⟨HS, HR⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst3 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [carried3_castSucc V c t, carried3_pos V c _ _ hz]
      iintro ⟨⟨⟨HS, HR⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst3 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dat3 V c).leavesExact 0 t = owns (c : Thread nD τ) (ms3_0 t) fullShare ((dat3 V c).after 0 t) from by
        unfold Dat.leavesExact; rw [live3_0 t], after3_0]
      rw [show (dat3 V c).leavesExact 1 t = owns (c : Thread nD τ) (ms3_1 t) fullShare ((dat3 V c).after 1 t) from by
        unfold Dat.leavesExact; rw [live3_1 t], after3_1]
      rw [show (dat3 V c).leavesExact 2 t = owns (c : Thread nD τ) (ms3_2 t) fullShare ((dat3 V c).after 2 t) from by
        unfold Dat.leavesExact; rw [live3_2 t], after3_2]
      rw [show (dat3 V c).leavesExact 3 t = owns (c : Thread nD τ) (ms3_3 t) fullShare ((dat3 V c).after 3 t) from by
        unfold Dat.leavesExact; rw [live3_3 t ((isLast3_iff t).mpr h1)], after3_3]
      rw [stateAt3_last V c t h0 h1]
      unfold outLast3 accLast3; (try dsimp only)
      rw [carried3_castSucc V c t, carried3_pos V c _ _ hz]
      iintro ⟨⟨⟨HS, HR⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((isFirst3_iff t).mp h)) ((isLast3_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast3 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast3 c _ _ _ _ _ _ _ _ _ _ _ _ _ _ _ _ _)
    · rw [show (dat3 V c).leavesExact 0 t = owns (c : Thread nD τ) (ms3_0 t) fullShare ((dat3 V c).after 0 t) from by
        unfold Dat.leavesExact; rw [live3_0 t], after3_0]
      rw [show (dat3 V c).leavesExact 1 t = owns (c : Thread nD τ) (ms3_1 t) fullShare ((dat3 V c).after 1 t) from by
        unfold Dat.leavesExact; rw [live3_1 t], after3_1]
      rw [show (dat3 V c).leavesExact 2 t = owns (c : Thread nD τ) (ms3_2 t) fullShare ((dat3 V c).after 2 t) from by
        unfold Dat.leavesExact; rw [live3_2 t], after3_2]
      rw [Dat.leavesExact_idle (dat3 V c) 3 t (idle3_3 t (fun h => h1 ((isLast3_iff t).mp h))) (noFlush3_3 t (fun h => h1 ((isLast3_iff t).mp h)))]
      rw [stateAt3_mid V c t h0 h1]
      unfold accMid3; (try dsimp only)
      rw [carried3_castSucc V c t, carried3_pos V c _ _ hz]
      iintro ⟨⟨⟨HS, HR⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((isFirst3_iff t).mp h)) (fun h => h1 ((isLast3_iff t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverMid3 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = carried3 V c 0 (Nat.zero_le _) from rfl, carried3_zero V c 0 _ rfl]
  try exact Idealize.SL.BI.Entails.refl _

/-- After any point the invariant gives the launch's form back: what the accumulator holds is forgotten. -/
theorem carried3_out (c : Dev nD) (t : Fin (cfg3.N + 1)) (ht : t.val ≠ 0) : (dat3 V c).Φ t ⊢ (Pipeline.ΦA spec3 c : sProp 𝕄) := by
  rw [show (dat3 V c).Φ t = carried3 V c t.val (Nat.le_of_lt_succ t.isLt) from rfl, carried3_pos V c _ _ ht, entry3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ (Pipeline.ΦA spec3 c : sProp 𝕄) :=
  carried3_out V c _ (by rw [Fin.val_last]; have : cfg3.N = 50 := N_3; omega)

end Cert.KernelIdeal.Hand

end
-- ==== Proof.Reg4Run.lean ====
/-
  Region 4: the head's first dense layer, a rectified matrix product. A row tile of 2048 rows of the left operand (10240 × 256) is multiplied into the whole right
  operand (256 × 256); the single tile of the contracted axis means that at each of the five grid points the
  accumulator is cleared, receives the one partial product, and is at once copied, with the bias row added and the
  result rectified (max with 0), into the output tile, which is written back at every point. Nothing is carried from one point to
  the next, so the region's invariant never has to say what the accumulator holds.

  This file states the body's run for any float interpretation: what a point's body leaves in the output tile
  is a function of the three operand tiles at that point.
-/
import proofs.«173524_j83966610637551_1_alg».proof.Proof.Gen.KernelIdeal.Launch
import proofs.«173524_j83966610637551_1_alg».proof.Proof.Gen.KernelIdeal.Skeleton
import proofs.«173524_j83966610637551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond4_0 (i : grid4.Coords) : Prop :=
  (Scalar.cmpi .ne (Scalar.extui (Scalar.cmpi .eq (BitVec.ofNat 32 (i 1).val) 0#32)) 0#32) = 1#1
theorem hcond4_0 : ∀ t : Fin cfg4.N, cond4_0 (grid4.coords t) :=
  (by decide +kernel : ∀ t : Fin grid4.N, cond4_0 (grid4.coords t))

/-- The second test: is this the last tile of the contracted axis? -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- Hence no window is idle at any point. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel

/-! ## The operand tiles -/

/-- Window w's tile at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand window's current buffer holds its tile at every point, whether or not the tile was fetched there:
    where it was not, the tile's position has not moved. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body on any buffers -/

/-- One buffer of the output window, through which its contents are stated (the choice does not matter). -/
abbrev VO4_3 : View sig .tc .vmem S2048x256 .f32 := (Memref.whole cc4_stg3_0 : Memref sig .tc .vmem S2048x256 .f32).view
/-- Each window's current buffer at point t, and that it is a whole buffer. -/
abbrev ms4_0 (t : Fin cfg4.N) : Memref sig .tc .vmem S2048x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x256 .f32 := win4_3.stage (cfg4.slots t 3)
abbrev hs4_3 (t : Fin cfg4.N) : (ms4_3 t).IsWhole := hstage4_3 ((cfg4.slots t 3).cast nbuf4_3)
/-- The accumulator: a whole buffer of the call's own. -/
abbrev scM4_0 : Memref sig .tc .vmem S2048x256 .f32 := Memref.whole cc4_scratch0

/-- The region's invariant with the accumulator taken out as a buffer owned at some contents. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := Pipeline.UD sig nD τ) (Lvl := ℕ) (Val := Elt F) spec4 c [cc4_scratch0])
          ∗ (∃ r, prngReg c r)) := by
  unfold Pipeline.ΦA; rw [scopedRest4_split]; simp only [scM4_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun4 (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) :
    { L3 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc4__mm_kernel i arg2 harg2 arg3 harg3 arg4 harg4 arg5 harg5 arg6 harg6) K } := by
  refine ⟨?_, fun E K => ?run⟩
  case run =>
    simp only [cc4__mm_kernel_eq_skeleton]; unfold cc4__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.KernelIdeal.Hand

end
-- ==== Proof.Reg4.lean ====
/-
  Region 4, continued: the pipeline's proof data for the head's first dense layer, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.Reg4Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover4_3 (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) (y : S2048x256.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S2048x256.size (by sl_kernel_rfl) y

/-- What the run leaves in the output window's buffer: its pieces read back. -/
def out4_3 (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) : Vec F S2048x256 .f32 :=
  VO4_3.read (Elt F) (VO4_3.writes (Elt F) VO4_3.junk (kernelRun4 c i arg2 harg2 arg3 harg3 arg4 harg4 arg5 harg5 arg6 harg6 hc0 hc1 x0 x1 x2).1)

/-- What the output window's buffer holds after the body at point t: the run's contents at the point's buffers and
    operand tiles. -/
def outsAt4 (c : Dev nD) (t : Fin cfg4.N) : Vec F S2048x256 .f32 :=
  out4_3 c (grid4.coords t) (ms4_0 t) (hs4_0 t) (ms4_1 t) (hs4_1 t) (ms4_2 t) (hs4_2 t) (ms4_3 t) (hs4_3 t) scM4_0 (Memref.isWhole_whole _)
    (hcond4_0 t) (hcond4_1 t) (iblk4 V c 0 t) (iblk4 V c 1 t) (iblk4 V c 2 t)

/-! ## The pipeline's proof data -/

/-- The proof data of the region on core c: the arrays as the region finds them; after the body at point t each
    operand's buffer at its tile and the output's at outsAt4; the same invariant at every point; nothing owed;
    full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem owed_eq4 (c : Dev nD) (t) : (dat4 V c).owed t = 0 := by dsimp only [dat4]
theorem q_eq4 (c : Dev nD) (w : Fin cfg4.W) : (dat4 V c).q w = fullShare := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = (dat4 V c).Φ t.castSucc from rfl]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).Φ t.castSucc = Pipeline.ΦA spec4 c from rfl, PhiA4_eq]
  unfold outsAt4 out4_3
  iintro ⟨⟨⟨HS0, HR⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

/-- The body's obligation to the pipeline, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point, -/
theorem hin4 (c : Dev nD) : (Pipeline.ΦA spec4 c : sProp 𝕄) ⊢ (dat4 V c).Φ 0 := by
  rw [show (dat4 V c).Φ 0 = Pipeline.ΦA spec4 c from rfl]
  try exact Idealize.SL.BI.Entails.refl _

/-- and the invariant after the last point gives it back. -/
theorem hout4 (c : Dev nD) : (dat4 V c).Φ (Fin.last cfg4.N) ⊢ (Pipeline.ΦA spec4 c : sProp 𝕄) := by
  rw [show (dat4 V c).Φ (Fin.last cfg4.N) = Pipeline.ΦA spec4 c from rfl]
  try exact Idealize.SL.BI.Entails.refl _

end Cert.KernelIdeal.Hand

end
-- ==== Proof.Reg5Run.lean ====
/-
  Region 5: the head's second dense layer, a matrix product. A row tile of 2048 rows of the left operand (10240 × 256) is multiplied into the whole right
  operand (256 × 8); the single tile of the contracted axis means that at each of the five grid points the
  accumulator is cleared, receives the one partial product, and is at once copied, with the bias row added, into the output tile, which is written back at every point. Nothing is carried from one point to
  the next, so the region's invariant never has to say what the accumulator holds.

  This file states the body's run for any float interpretation: what a point's body leaves in the output tile
  is a function of the three operand tiles at that point.
-/
import proofs.«173524_j83966610637551_1_alg».proof.Proof.Gen.KernelIdeal.Launch
import proofs.«173524_j83966610637551_1_alg».proof.Proof.Gen.KernelIdeal.Skeleton
import proofs.«173524_j83966610637551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond5_0 (i : grid5.Coords) : Prop :=
  (Scalar.cmpi .ne (Scalar.extui (Scalar.cmpi .eq (BitVec.ofNat 32 (i 1).val) 0#32)) 0#32) = 1#1
theorem hcond5_0 : ∀ t : Fin cfg5.N, cond5_0 (grid5.coords t) :=
  (by decide +kernel : ∀ t : Fin grid5.N, cond5_0 (grid5.coords t))

/-- The second test: is this the last tile of the contracted axis? -/
abbrev cond5_1 (i : grid5.Coords) : Prop := k5_cond2 i = 1#1
theorem hcond5_1 : ∀ t : Fin cfg5.N, cond5_1 (grid5.coords t) :=
  (by decide +kernel : ∀ t : Fin grid5.N, cond5_1 (grid5.coords t))

/-- Hence no window is idle at any point. -/
theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
theorem live5_3 : ∀ t : Fin cfg5.N, cfg5.idle 3 (grid5.coords t) = false := by decide +kernel

/-! ## The operand tiles -/

/-- Window w's tile at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand window's current buffer holds its tile at every point, whether or not the tile was fetched there:
    where it was not, the tile's position has not moved. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body on any buffers -/

/-- One buffer of the output window, through which its contents are stated (the choice does not matter). -/
abbrev VO5_3 : View sig .tc .vmem S2048x8 .f32 := (Memref.whole cc5_stg3_0 : Memref sig .tc .vmem S2048x8 .f32).view
/-- Each window's current buffer at point t, and that it is a whole buffer. -/
abbrev ms5_0 (t : Fin cfg5.N) : Memref sig .tc .vmem S2048x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x8 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x8 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x8 .f32 := win5_3.stage (cfg5.slots t 3)
abbrev hs5_3 (t : Fin cfg5.N) : (ms5_3 t).IsWhole := hstage5_3 ((cfg5.slots t 3).cast nbuf5_3)
/-- The accumulator: a whole buffer of the call's own. -/
abbrev scM5_0 : Memref sig .tc .vmem S2048x8 .f32 := Memref.whole cc5_scratch0

/-- The region's invariant with the accumulator taken out as a buffer owned at some contents. -/
theorem PhiA5_eq (c : Dev nD) :
    (Pipeline.ΦA spec5 c : sProp 𝕄)
      = iprop(iprop((∃ d, owns (c : Thread nD τ) scM5_0 fullShare d)
          ∗ Pipeline.scopedRestBut (Ix := Unit) (Name := ℕ) (U := Pipeline.UD sig nD τ) (Lvl := ℕ) (Val := Elt F) spec5 c [cc5_scratch0])
          ∗ (∃ r, prngReg c r)) := by
  unfold Pipeline.ΦA; rw [scopedRest5_split]; simp only [scM5_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun5 (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) :
    { L3 : List (View.Piece (Elt F) S2048x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc5__mm_kernel i arg2 harg2 arg3 harg3 arg4 harg4 arg5 harg5 arg6 harg6) K } := by
  refine ⟨?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.KernelIdeal.Hand

end
-- ==== Proof.Reg5.lean ====
/-
  Region 5, continued: the pipeline's proof data for the head's second dense layer, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.Reg5Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover5_3 (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) (y : S2048x8.Idx) :
    ∃ pc ∈ (kernelRun5 c i arg2 harg2 arg3 harg3 arg4 harg4 arg5 harg5 arg6 harg6 hc0 hc1 x0 x1 x2).1, y ∈ pc.1.set :=
  View.cover_of_tiledL (kernelRun5 c i arg2 harg2 arg3 harg3 arg4 harg4 arg5 harg5 arg6 harg6 hc0 hc1 x0 x1 x2).1 S2048x8.size (by sl_kernel_rfl) y

/-- What the run leaves in the output window's buffer: its pieces read back. -/
def out5_3 (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) : Vec F S2048x8 .f32 :=
  VO5_3.read (Elt F) (VO5_3.writes (Elt F) VO5_3.junk (kernelRun5 c i arg2 harg2 arg3 harg3 arg4 harg4 arg5 harg5 arg6 harg6 hc0 hc1 x0 x1 x2).1)

/-- What the output window's buffer holds after the body at point t: the run's contents at the point's buffers and
    operand tiles. -/
def outsAt5 (c : Dev nD) (t : Fin cfg5.N) : Vec F S2048x8 .f32 :=
  out5_3 c (grid5.coords t) (ms5_0 t) (hs5_0 t) (ms5_1 t) (hs5_1 t) (ms5_2 t) (hs5_2 t) (ms5_3 t) (hs5_3 t) scM5_0 (Memref.isWhole_whole _)
    (hcond5_0 t) (hcond5_1 t) (iblk5 V c 0 t) (iblk5 V c 1 t) (iblk5 V c 2 t)

/-! ## The pipeline's proof data -/

/-- The proof data of the region on core c: the arrays as the region finds them; after the body at point t each
    operand's buffer at its tile and the output's at outsAt5; the same invariant at every point; nothing owed;
    full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem owed_eq5 (c : Dev nD) (t) : (dat5 V c).owed t = 0 := by dsimp only [dat5]
theorem q_eq5 (c : Dev nD) (w : Fin cfg5.W) : (dat5 V c).q w = fullShare := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    show (dat5 V c).Φ t.succ = (dat5 V c).Φ t.castSucc from rfl]
  rw [show (dat5 V c).leavesExact 0 t = owns (c : Thread nD τ) (ms5_0 t) fullShare ((dat5 V c).after 0 t) from by
    unfold Dat.leavesExact; rw [live5_0 t], after5_0]
  rw [show (dat5 V c).leavesExact 1 t = owns (c : Thread nD τ) (ms5_1 t) fullShare ((dat5 V c).after 1 t) from by
    unfold Dat.leavesExact; rw [live5_1 t], after5_1]
  rw [show (dat5 V c).leavesExact 2 t = owns (c : Thread nD τ) (ms5_2 t) fullShare ((dat5 V c).after 2 t) from by
    unfold Dat.leavesExact; rw [live5_2 t], after5_2]
  rw [show (dat5 V c).leavesExact 3 t = owns (c : Thread nD τ) (ms5_3 t) fullShare ((dat5 V c).after 3 t) from by
    unfold Dat.leavesExact; rw [live5_3 t], after5_3]
  rw [show (dat5 V c).Φ t.castSucc = Pipeline.ΦA spec5 c from rfl, PhiA5_eq]
  unfold outsAt5 out5_3
  iintro ⟨⟨⟨HS0, HR⟩, Hg⟩, Ho, ⟨%d0, H0⟩, ⟨%d1, H1⟩, ⟨%d2, H2⟩, ⟨%d3, H3⟩⟩
  iapply ((kernelRun5 c (grid5.coords t) _ _ _ _ _ _ _ _ _ _ (hcond5_0 t) (hcond5_1 t) (iblk5 V c 0 t) (iblk5 V c 1 t) (iblk5 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_3 c _ _ _ _ _ _ _ _ _ _ _ _ _ _ _ _)

/-- The body's obligation to the pipeline, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point, -/
theorem hin5 (c : Dev nD) : (Pipeline.ΦA spec5 c : sProp 𝕄) ⊢ (dat5 V c).Φ 0 := by
  rw [show (dat5 V c).Φ 0 = Pipeline.ΦA spec5 c from rfl]
  try exact Idealize.SL.BI.Entails.refl _

/-- and the invariant after the last point gives it back. -/
theorem hout5 (c : Dev nD) : (dat5 V c).Φ (Fin.last cfg5.N) ⊢ (Pipeline.ΦA spec5 c : sProp 𝕄) := by
  rw [show (dat5 V c).Φ (Fin.last cfg5.N) = Pipeline.ΦA spec5 c from rfl]
  try exact Idealize.SL.BI.Entails.refl _

end Cert.KernelIdeal.Hand

end
-- ==== Proof.Run.lean ====
/-
  The kernel program as a whole: six blocked matrix-product regions between host stretches.

  Between two items every unscoped buffer of a core is held whole at a known valuation: the launch memory, then
  `StableHlo.after` each host stretch, then — across a region — the region's four arrays at what its pipeline
  leaves and every other buffer as it was. Each region is entered from that thread state and left at the next one;
  the regions' body obligations and invariants come from the per-region modules. The run of the fifteen items then
  says that every weakly fair execution terminates with each unscoped buffer at the last valuation, from which the
  frame (no item writes an argument) is read off.
-/
import proofs.«173524_j83966610637551_1_alg».proof.Proof.Gen.KernelIdeal.Points
import proofs.«173524_j83966610637551_1_alg».proof.Proof.Gen.KernelIdeal.Launch
import proofs.«173524_j83966610637551_1_alg».proof.Proof.Gen.KernelIdeal.Skeleton
import proofs.«173524_j83966610637551_1_alg».proof.Proof.Gen.KernelIdeal.Regions
import proofs.«173524_j83966610637551_1_alg».proof.Proof.Reg0
import proofs.«173524_j83966610637551_1_alg».proof.Proof.Reg1
import proofs.«173524_j83966610637551_1_alg».proof.Proof.Reg2
import proofs.«173524_j83966610637551_1_alg».proof.Proof.Reg3
import proofs.«173524_j83966610637551_1_alg».proof.Proof.Reg4
import proofs.«173524_j83966610637551_1_alg».proof.Proof.Reg5
import Idealize.ShloMosaic.Lib.Pipeline.Frame
import Idealize.ShloMosaic.Lib.Pipeline.FrameBody
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What every buffer holds at each boundary between the host stretches and the kernel regions -/

/-- A valuation read at the TensorCore's references: the form a region's proof data takes its entry contents in. -/
abbrev atRefs (W : Dev nD → Valuation τ sig (Elt F)) : (c : Dev nD) → (b : Ref sig .tc) → Buf (Elt F) ((c : Thread nD τ).loc b) := fun c b => W c b

/-- The contents when region 0 is entered: the launch memory after the three host stretches. -/
abbrev W3 : Dev nD → Valuation τ sig (Elt F) := fun c => V3 m c
/-- After region 0: its arrays at what the pipeline leaves, every other buffer as entered. -/
def W4 (c : Dev nD) : Valuation τ sig (Elt F) :=
  Pipeline.withArrays spec0 c (W3 m c) fun w => (dat0 (atRefs (W3 m)) c).arrAt w cfg0.N
theorem W4_arr (c : Dev nD) (w : Fin cfg0.W) :
    W4 m c (Proc.devRef .tc (Pipeline.arrRef spec0 w)) = (dat0 (atRefs (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (atRefs (W3 m)) c).arrAt w cfg0.N = atRefs (W4 m) c (Pipeline.arrRef spec0 w) :=
  (W4_arr m c w).symm
theorem hrest0 (c : Dev nD) : ∀ b, b ∉ Finset.univ.image (Pipeline.arrRef spec0) → atRefs (W4 m) c b = atRefs (W3 m) c b :=
  fun b hb => W4_of_ne m c b fun w e => hb (Finset.mem_image.mpr ⟨w, Finset.mem_univ _, e⟩)
/-- After the host stretch that follows region 0. -/
abbrev W5 : Dev nD → Valuation τ sig (Elt F) := fun c => StableHlo.after hostOps1 (W4 m c)
/-- After region 1: its arrays at what the pipeline leaves, every other buffer as entered. -/
def W6 (c : Dev nD) : Valuation τ sig (Elt F) :=
  Pipeline.withArrays spec1 c (W5 m c) fun w => (dat1 (atRefs (W5 m)) c).arrAt w cfg1.N
theorem W6_arr (c : Dev nD) (w : Fin cfg1.W) :
    W6 m c (Proc.devRef .tc (Pipeline.arrRef spec1 w)) = (dat1 (atRefs (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (atRefs (W5 m)) c).arrAt w cfg1.N = atRefs (W6 m) c (Pipeline.arrRef spec1 w) :=
  (W6_arr m c w).symm
theorem hrest1 (c : Dev nD) : ∀ b, b ∉ Finset.univ.image (Pipeline.arrRef spec1) → atRefs (W6 m) c b = atRefs (W5 m) c b :=
  fun b hb => W6_of_ne m c b fun w e => hb (Finset.mem_image.mpr ⟨w, Finset.mem_univ _, e⟩)
/-- After the host stretch that follows region 1. -/
abbrev W7 : Dev nD → Valuation τ sig (Elt F) := fun c => StableHlo.after hostOps2 (W6 m c)
/-- After region 2: its arrays at what the pipeline leaves, every other buffer as entered. -/
def W8 (c : Dev nD) : Valuation τ sig (Elt F) :=
  Pipeline.withArrays spec2 c (W7 m c) fun w => (dat2 (atRefs (W7 m)) c).arrAt w cfg2.N
theorem W8_arr (c : Dev nD) (w : Fin cfg2.W) :
    W8 m c (Proc.devRef .tc (Pipeline.arrRef spec2 w)) = (dat2 (atRefs (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (atRefs (W7 m)) c).arrAt w cfg2.N = atRefs (W8 m) c (Pipeline.arrRef spec2 w) :=
  (W8_arr m c w).symm
theorem hrest2 (c : Dev nD) : ∀ b, b ∉ Finset.univ.image (Pipeline.arrRef spec2) → atRefs (W8 m) c b = atRefs (W7 m) c b :=
  fun b hb => W8_of_ne m c b fun w e => hb (Finset.mem_image.mpr ⟨w, Finset.mem_univ _, e⟩)
/-- After the host stretch that follows region 2. -/
abbrev W9 : Dev nD → Valuation τ sig (Elt F) := fun c => StableHlo.after hostOps3 (W8 m c)
/-- After region 3: its arrays at what the pipeline leaves, every other buffer as entered. -/
def W10 (c : Dev nD) : Valuation τ sig (Elt F) :=
  Pipeline.withArrays spec3 c (W9 m c) fun w => (dat3 (atRefs (W9 m)) c).arrAt w cfg3.N
theorem W10_arr (c : Dev nD) (w : Fin cfg3.W) :
    W10 m c (Proc.devRef .tc (Pipeline.arrRef spec3 w)) = (dat3 (atRefs (W9 m)) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem hF3 (c : Dev nD) (w : Fin cfg3.W) : (dat3 (atRefs (W9 m)) c).arrAt w cfg3.N = atRefs (W10 m) c (Pipeline.arrRef spec3 w) :=
  (W10_arr m c w).symm
theorem hrest3 (c : Dev nD) : ∀ b, b ∉ Finset.univ.image (Pipeline.arrRef spec3) → atRefs (W10 m) c b = atRefs (W9 m) c b :=
  fun b hb => W10_of_ne m c b fun w e => hb (Finset.mem_image.mpr ⟨w, Finset.mem_univ _, e⟩)
/-- After the host stretch that follows region 3. -/
abbrev W11 : Dev nD → Valuation τ sig (Elt F) := fun c => StableHlo.after hostOps4 (W10 m c)
/-- After region 4: its arrays at what the pipeline leaves, every other buffer as entered. -/
def W12 (c : Dev nD) : Valuation τ sig (Elt F) :=
  Pipeline.withArrays spec4 c (W11 m c) fun w => (dat4 (atRefs (W11 m)) c).arrAt w cfg4.N
theorem W12_arr (c : Dev nD) (w : Fin cfg4.W) :
    W12 m c (Proc.devRef .tc (Pipeline.arrRef spec4 w)) = (dat4 (atRefs (W11 m)) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem hF4 (c : Dev nD) (w : Fin cfg4.W) : (dat4 (atRefs (W11 m)) c).arrAt w cfg4.N = atRefs (W12 m) c (Pipeline.arrRef spec4 w) :=
  (W12_arr m c w).symm
theorem hrest4 (c : Dev nD) : ∀ b, b ∉ Finset.univ.image (Pipeline.arrRef spec4) → atRefs (W12 m) c b = atRefs (W11 m) c b :=
  fun b hb => W12_of_ne m c b fun w e => hb (Finset.mem_image.mpr ⟨w, Finset.mem_univ _, e⟩)
/-- After the host stretch that follows region 4. -/
abbrev W13 : Dev nD → Valuation τ sig (Elt F) := fun c => StableHlo.after hostOps5 (W12 m c)
/-- After region 5: its arrays at what the pipeline leaves, every other buffer as entered. -/
def W14 (c : Dev nD) : Valuation τ sig (Elt F) :=
  Pipeline.withArrays spec5 c (W13 m c) fun w => (dat5 (atRefs (W13 m)) c).arrAt w cfg5.N
theorem W14_arr (c : Dev nD) (w : Fin cfg5.W) :
    W14 m c (Proc.devRef .tc (Pipeline.arrRef spec5 w)) = (dat5 (atRefs (W13 m)) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
theorem hF5 (c : Dev nD) (w : Fin cfg5.W) : (dat5 (atRefs (W13 m)) c).arrAt w cfg5.N = atRefs (W14 m) c (Pipeline.arrRef spec5 w) :=
  (W14_arr m c w).symm
theorem hrest5 (c : Dev nD) : ∀ b, b ∉ Finset.univ.image (Pipeline.arrRef spec5) → atRefs (W14 m) c b = atRefs (W13 m) c b :=
  fun b hb => W14_of_ne m c b fun w e => hb (Finset.mem_image.mpr ⟨w, Finset.mem_univ _, e⟩)
/-- After the host stretch that follows region 5. -/
abbrev W15 : Dev nD → Valuation τ sig (Elt F) := fun c => StableHlo.after hostOps6 (W14 m c)

/-! ## The proof data of the six pipelines, the thread state, the host stretches as segments -/

/-- Every pipeline's proof data, each at its region's entry contents. -/
def pdats : (p : Fin 6) → (c : Dev nD) → Dat τ (Elt F) Unit ℕ (Pipeline.UD sig nD τ) ℕ (cfgs p) c
  | ⟨0, _⟩ => fun c => dat0 (atRefs (W3 m)) c
  | ⟨1, _⟩ => fun c => dat1 (atRefs (W5 m)) c
  | ⟨2, _⟩ => fun c => dat2 (atRefs (W7 m)) c
  | ⟨3, _⟩ => fun c => dat3 (atRefs (W9 m)) c
  | ⟨4, _⟩ => fun c => dat4 (atRefs (W11 m)) c
  | ⟨5, _⟩ => fun c => dat5 (atRefs (W13 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W3`, left with them at `W4`. Its four
    arrays are split out of the unscoped buffers and put back at what the pipeline leaves; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (W3 m)) c).loose
  hwaits := Pipeline.hwaits_of_owed_zero _ _ _ _ L lv 0 fun c t => owed_eq0 (atRefs (W3 m)) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (atRefs (W3 m) c)
  hentry c := by
    rw [Pipeline.ownSems0_none]
    have hsplit := Pipeline.arrays_of_unscopedBufs (p := 0) (pcfgs (F := F)) adm (pdats m) launch0.win launch0.arr_whole c
      ((pdats m 0 c).share_full fun w => q_eq0 (atRefs (W3 m)) c w) (atRefs (W3 m) c) fun w => A_eq0 (atRefs (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (atRefs (W3 m)) c).Φ 0 from rfl]
    iintro ⟨Hp, -, Hr⟩
    iapply (hin0 (atRefs (W3 m)) c)
    unfold Pipeline.ΦA
    isplitl [Hr]; · iexact Hr
    iexact Hp
  hout c := by
    rw [Pipeline.ownSems0_none, show (pdats m 0 c).Φ (Fin.last _) = (dat0 (atRefs (W3 m)) c).Φ (Fin.last cfg0.N) from rfl]
    iintro H
    ihave H' := (hout0 (atRefs (W3 m)) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun w => q_eq0 (atRefs (W3 m)) c w)
      (atRefs (W3 m) c) (atRefs (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its four
    arrays are split out of the unscoped buffers and put back at what the pipeline leaves; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (W5 m)) c).loose
  hwaits := Pipeline.hwaits_of_owed_zero _ _ _ _ L lv 1 fun c t => owed_eq1 (atRefs (W5 m)) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (atRefs (W5 m) c)
  hentry c := by
    rw [Pipeline.ownSems0_none]
    have hsplit := Pipeline.arrays_of_unscopedBufs (p := 1) (pcfgs (F := F)) adm (pdats m) launch1.win launch1.arr_whole c
      ((pdats m 1 c).share_full fun w => q_eq1 (atRefs (W5 m)) c w) (atRefs (W5 m) c) fun w => A_eq1 (atRefs (W5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (atRefs (W5 m)) c).Φ 0 from rfl]
    iintro ⟨Hp, -, Hr⟩
    iapply (hin1 (atRefs (W5 m)) c)
    unfold Pipeline.ΦA
    isplitl [Hr]; · iexact Hr
    iexact Hp
  hout c := by
    rw [Pipeline.ownSems0_none, show (pdats m 1 c).Φ (Fin.last _) = (dat1 (atRefs (W5 m)) c).Φ (Fin.last cfg1.N) from rfl]
    iintro H
    ihave H' := (hout1 (atRefs (W5 m)) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun w => q_eq1 (atRefs (W5 m)) c w)
      (atRefs (W5 m) c) (atRefs (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its four
    arrays are split out of the unscoped buffers and put back at what the pipeline leaves; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W7 m)) c).loose
  hwaits := Pipeline.hwaits_of_owed_zero _ _ _ _ L lv 2 fun c t => owed_eq2 (atRefs (W7 m)) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (atRefs (W7 m) c)
  hentry c := by
    rw [Pipeline.ownSems0_none]
    have hsplit := Pipeline.arrays_of_unscopedBufs (p := 2) (pcfgs (F := F)) adm (pdats m) launch2.win launch2.arr_whole c
      ((pdats m 2 c).share_full fun w => q_eq2 (atRefs (W7 m)) c w) (atRefs (W7 m) c) fun w => A_eq2 (atRefs (W7 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (atRefs (W7 m)) c).Φ 0 from rfl]
    iintro ⟨Hp, -, Hr⟩
    iapply (hin2 (atRefs (W7 m)) c)
    unfold Pipeline.ΦA
    isplitl [Hr]; · iexact Hr
    iexact Hp
  hout c := by
    rw [Pipeline.ownSems0_none, show (pdats m 2 c).Φ (Fin.last _) = (dat2 (atRefs (W7 m)) c).Φ (Fin.last cfg2.N) from rfl]
    iintro H
    ihave H' := (hout2 (atRefs (W7 m)) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun w => q_eq2 (atRefs (W7 m)) c w)
      (atRefs (W7 m) c) (atRefs (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its four
    arrays are split out of the unscoped buffers and put back at what the pipeline leaves; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W9 m)) c).loose
  hwaits := Pipeline.hwaits_of_owed_zero _ _ _ _ L lv 3 fun c t => owed_eq3 (atRefs (W9 m)) c t
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (atRefs (W9 m) c)
  hentry c := by
    rw [Pipeline.ownSems0_none]
    have hsplit := Pipeline.arrays_of_unscopedBufs (p := 3) (pcfgs (F := F)) adm (pdats m) launch3.win launch3.arr_whole c
      ((pdats m 3 c).share_full fun w => q_eq3 (atRefs (W9 m)) c w) (atRefs (W9 m) c) fun w => A_eq3 (atRefs (W9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (atRefs (W9 m)) c).Φ 0 from rfl]
    iintro ⟨Hp, -, Hr⟩
    iapply (hin3 (atRefs (W9 m)) c)
    unfold Pipeline.ΦA
    isplitl [Hr]; · iexact Hr
    iexact Hp
  hout c := by
    rw [Pipeline.ownSems0_none, show (pdats m 3 c).Φ (Fin.last _) = (dat3 (atRefs (W9 m)) c).Φ (Fin.last cfg3.N) from rfl]
    iintro H
    ihave H' := (hout3 (atRefs (W9 m)) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun w => q_eq3 (atRefs (W9 m)) c w)
      (atRefs (W9 m) c) (atRefs (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W11`, left with them at `W12`. Its four
    arrays are split out of the unscoped buffers and put back at what the pipeline leaves; the generator register goes
    into the invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W11 m)) c).loose
  hwaits := Pipeline.hwaits_of_owed_zero _ _ _ _ L lv 4 fun c t => owed_eq4 (atRefs (W11 m)) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (atRefs (W11 m) c)
  hentry c := by
    rw [Pipeline.ownSems0_none]
    have hsplit := Pipeline.arrays_of_unscopedBufs (p := 4) (pcfgs (F := F)) adm (pdats m) launch4.win launch4.arr_whole c
      ((pdats m 4 c).share_full fun w => q_eq4 (atRefs (W11 m)) c w) (atRefs (W11 m) c) fun w => A_eq4 (atRefs (W11 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (atRefs (W11 m)) c).Φ 0 from rfl]
    iintro ⟨Hp, -, Hr⟩
    iapply (hin4 (atRefs (W11 m)) c)
    unfold Pipeline.ΦA
    isplitl [Hr]; · iexact Hr
    iexact Hp
  hout c := by
    rw [Pipeline.ownSems0_none, show (pdats m 4 c).Φ (Fin.last _) = (dat4 (atRefs (W11 m)) c).Φ (Fin.last cfg4.N) from rfl]
    iintro H
    ihave H' := (hout4 (atRefs (W11 m)) c) $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun w => q_eq4 (atRefs (W11 m)) c w)
      (atRefs (W11 m) c) (atRefs (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W13`, left with them at `W14`. Its four
    arrays are split out of the unscoped buffers and put back at what the pipeline leaves; the generator register goes
    into the invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (W13 m)) c).loose
  hwaits := Pipeline.hwaits_of_owed_zero _ _ _ _ L lv 5 fun c t => owed_eq5 (atRefs (W13 m)) c t
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (atRefs (W13 m) c)
  hentry c := by
    rw [Pipeline.ownSems0_none]
    have hsplit := Pipeline.arrays_of_unscopedBufs (p := 5) (pcfgs (F := F)) adm (pdats m) launch5.win launch5.arr_whole c
      ((pdats m 5 c).share_full fun w => q_eq5 (atRefs (W13 m)) c w) (atRefs (W13 m) c) fun w => A_eq5 (atRefs (W13 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (atRefs (W13 m)) c).Φ 0 from rfl]
    iintro ⟨Hp, -, Hr⟩
    iapply (hin5 (atRefs (W13 m)) c)
    unfold Pipeline.ΦA
    isplitl [Hr]; · iexact Hr
    iexact Hp
  hout c := by
    rw [Pipeline.ownSems0_none, show (pdats m 5 c).Φ (Fin.last _) = (dat5 (atRefs (W13 m)) c).Φ (Fin.last cfg5.N) from rfl]
    iintro H
    ihave H' := (hout5 (atRefs (W13 m)) c) $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun w => q_eq5 (atRefs (W13 m)) c w)
      (atRefs (W13 m) c) (atRefs (W14 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's fifteen items in order: a host segment per stretch from its boundary's contents, a region per kernel call. -/
abbrev segs : List (Pipeline.Seg (pcfgs (F := F)) adm (pdats m) () defs₀ 𝒱₀ L lv) :=
  [ .host (hseg hostOps0 hostOps0_sub hostOps0_fresh (fun c => V0 m c)),
    .host (hseg hostOps0_1 hostOps0_1_sub hostOps0_1_fresh (fun c => V1 m c)),
    .host (hseg hostOps0_2 hostOps0_2_sub hostOps0_2_fresh (fun c => V2 m c)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)) ]

/-- The last thread state without the core's dues: every unscoped buffer at the last boundary's contents, the generator register. -/
abbrev Tₙ (c : Dev nD) : sProp 𝕄 := iprop(StableHlo.held (c : Thread nD τ) (Pipeline.ucRefs τ sig) (W15 m c) ∗ ∃ r, prngReg c r)

set_option backward.isDefEq.respectTransparency.types false in
/-- THE RUN: from any memory with zero counters every weakly fair execution of @main terminates, nothing faulting, and
    every final state holds each unscoped buffer at the last boundary's contents `W15`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit_dev (pcfgs (F := F)) adm (pdats m) () cellOf_inj embL defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl,
      (show (iprop(StableHlo.held (c : Thread nD τ) (Pipeline.ucRefs τ sig) (W15 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-! ## The arguments end as launched -/
theorem W15_main_arg0 (c : Dev nD) : W15 m c (Proc.devRef .tc main_arg0) = m ((c : Thread nD τ).loc main_arg0) :=
  ((StableHlo.after_of_writes_sub hostOps6 _ hostOps6_writes (by decide : main_arg0 ∉ hostOps6_W)).trans ((W14_of_ne m c main_arg0 (by decide)).trans ((StableHlo.after_of_writes_sub hostOps5 _ hostOps5_writes (by decide : main_arg0 ∉ hostOps5_W)).trans ((W12_of_ne m c main_arg0 (by decide)).trans ((StableHlo.after_of_writes_sub hostOps4 _ hostOps4_writes (by decide : main_arg0 ∉ hostOps4_W)).trans ((W10_of_ne m c main_arg0 (by decide)).trans ((StableHlo.after_of_writes_sub hostOps3 _ hostOps3_writes (by decide : main_arg0 ∉ hostOps3_W)).trans ((W8_of_ne m c main_arg0 (by decide)).trans ((StableHlo.after_of_writes_sub hostOps2 _ hostOps2_writes (by decide : main_arg0 ∉ hostOps2_W)).trans ((W6_of_ne m c main_arg0 (by decide)).trans ((StableHlo.after_of_writes_sub hostOps1 _ hostOps1_writes (by decide : main_arg0 ∉ hostOps1_W)).trans (W4_of_ne m c main_arg0 (by decide))))))))))))).trans ((V3_of m c main_arg0 (by decide)).trans ((V2_of m c main_arg0 (by decide)).trans ((V1_of m c main_arg0 (by decide)).trans rfl)))
theorem W15_main_arg1 (c : Dev nD) : W15 m c (Proc.devRef .tc main_arg1) = m ((c : Thread nD τ).loc main_arg1) :=
  ((StableHlo.after_of_writes_sub hostOps6 _ hostOps6_writes (by decide : main_arg1 ∉ hostOps6_W)).trans ((W14_of_ne m c main_arg1 (by decide)).trans ((StableHlo.after_of_writes_sub hostOps5 _ hostOps5_writes (by decide : main_arg1 ∉ hostOps5_W)).trans ((W12_of_ne m c main_arg1 (by decide)).trans ((StableHlo.after_of_writes_sub hostOps4 _ hostOps4_writes (by decide : main_arg1 ∉ hostOps4_W)).trans ((W10_of_ne m c main_arg1 (by decide)).trans ((StableHlo.after_of_writes_sub hostOps3 _ hostOps3_writes (by decide : main_arg1 ∉ hostOps3_W)).trans ((W8_of_ne m c main_arg1 (by decide)).trans ((StableHlo.after_of_writes_sub hostOps2 _ hostOps2_writes (by decide : main_arg1 ∉ hostOps2_W)).trans ((W6_of_ne m c main_arg1 (by decide)).trans ((StableHlo.after_of_writes_sub hostOps1 _ hostOps1_writes (by decide : main_arg1 ∉ hostOps1_W)).trans (W4_of_ne m c main_arg1 (by decide))))))))))))).trans ((V3_of m c main_arg1 (by decide)).trans ((V2_of m c main_arg1 (by decide)).trans ((V1_of m c main_arg1 (by decide)).trans rfl)))
theorem W15_main_arg2 (c : Dev nD) : W15 m c (Proc.devRef .tc main_arg2) = m ((c : Thread nD τ).loc main_arg2) :=
  ((StableHlo.after_of_writes_sub hostOps6 _ hostOps6_writes (by decide : main_arg2 ∉ hostOps6_W)).trans ((W14_of_ne m c main_arg2 (by decide)).trans ((StableHlo.after_of_writes_sub hostOps5 _ hostOps5_writes (by decide : main_arg2 ∉ hostOps5_W)).trans ((W12_of_ne m c main_arg2 (by decide)).trans ((StableHlo.after_of_writes_sub hostOps4 _ hostOps4_writes (by decide : main_arg2 ∉ hostOps4_W)).trans ((W10_of_ne m c main_arg2 (by decide)).trans ((StableHlo.after_of_writes_sub hostOps3 _ hostOps3_writes (by decide : main_arg2 ∉ hostOps3_W)).trans ((W8_of_ne m c main_arg2 (by decide)).trans ((StableHlo.after_of_writes_sub hostOps2 _ hostOps2_writes (by decide : main_arg2 ∉ hostOps2_W)).trans ((W6_of_ne m c main_arg2 (by decide)).trans ((StableHlo.after_of_writes_sub hostOps1 _ hostOps1_writes (by decide : main_arg2 ∉ hostOps1_W)).trans (W4_of_ne m c main_arg2 (by decide))))))))))))).trans ((V3_of m c main_arg2 (by decide)).trans ((V2_of m c main_arg2 (by decide)).trans ((V1_of m c main_arg2 (by decide)).trans rfl)))
theorem W15_main_arg3 (c : Dev nD) : W15 m c (Proc.devRef .tc main_arg3) = m ((c : Thread nD τ).loc main_arg3) :=
  ((StableHlo.after_of_writes_sub hostOps6 _ hostOps6_writes (by decide : main_arg3 ∉ hostOps6_W)).trans ((W14_of_ne m c main_arg3 (by decide)).trans ((StableHlo.after_of_writes_sub hostOps5 _ hostOps5_writes (by decide : main_arg3 ∉ hostOps5_W)).trans ((W12_of_ne m c main_arg3 (by decide)).trans ((StableHlo.after_of_writes_sub hostOps4 _ hostOps4_writes (by decide : main_arg3 ∉ hostOps4_W)).trans ((W10_of_ne m c main_arg3 (by decide)).trans ((StableHlo.after_of_writes_sub hostOps3 _ hostOps3_writes (by decide : main_arg3 ∉ hostOps3_W)).trans ((W8_of_ne m c main_arg3 (by decide)).trans ((StableHlo.after_of_writes_sub hostOps2 _ hostOps2_writes (by decide : main_arg3 ∉ hostOps2_W)).trans ((W6_of_ne m c main_arg3 (by decide)).trans ((StableHlo.after_of_writes_sub hostOps1 _ hostOps1_writes (by decide : main_arg3 ∉ hostOps1_W)).trans (W4_of_ne m c main_arg3 (by decide))))))))))))).trans ((V3_of m c main_arg3 (by decide)).trans ((V2_of m c main_arg3 (by decide)).trans ((V1_of m c main_arg3 (by decide)).trans rfl)))
theorem W15_main_arg4 (c : Dev nD) : W15 m c (Proc.devRef .tc main_arg4) = m ((c : Thread nD τ).loc main_arg4) :=
  ((StableHlo.after_of_writes_sub hostOps6 _ hostOps6_writes (by decide : main_arg4 ∉ hostOps6_W)).trans ((W14_of_ne m c main_arg4 (by decide)).trans ((StableHlo.after_of_writes_sub hostOps5 _ hostOps5_writes (by decide : main_arg4 ∉ hostOps5_W)).trans ((W12_of_ne m c main_arg4 (by decide)).trans ((StableHlo.after_of_writes_sub hostOps4 _ hostOps4_writes (by decide : main_arg4 ∉ hostOps4_W)).trans ((W10_of_ne m c main_arg4 (by decide)).trans ((StableHlo.after_of_writes_sub hostOps3 _ hostOps3_writes (by decide : main_arg4 ∉ hostOps3_W)).trans ((W8_of_ne m c main_arg4 (by decide)).trans ((StableHlo.after_of_writes_sub hostOps2 _ hostOps2_writes (by decide : main_arg4 ∉ hostOps2_W)).trans ((W6_of_ne m c main_arg4 (by decide)).trans ((StableHlo.after_of_writes_sub hostOps1 _ hostOps1_writes (by decide : main_arg4 ∉ hostOps1_W)).trans (W4_of_ne m c main_arg4 (by decide))))))))))))).trans ((V3_of m c main_arg4 (by decide)).trans ((V2_of m c main_arg4 (by decide)).trans ((V1_of m c main_arg4 (by decide)).trans rfl)))
theorem W15_main_arg5 (c : Dev nD) : W15 m c (Proc.devRef .tc main_arg5) = m ((c : Thread nD τ).loc main_arg5) :=
  ((StableHlo.after_of_writes_sub hostOps6 _ hostOps6_writes (by decide : main_arg5 ∉ hostOps6_W)).trans ((W14_of_ne m c main_arg5 (by decide)).trans ((StableHlo.after_of_writes_sub hostOps5 _ hostOps5_writes (by decide : main_arg5 ∉ hostOps5_W)).trans ((W12_of_ne m c main_arg5 (by decide)).trans ((StableHlo.after_of_writes_sub hostOps4 _ hostOps4_writes (by decide : main_arg5 ∉ hostOps4_W)).trans ((W10_of_ne m c main_arg5 (by decide)).trans ((StableHlo.after_of_writes_sub hostOps3 _ hostOps3_writes (by decide : main_arg5 ∉ hostOps3_W)).trans ((W8_of_ne m c main_arg5 (by decide)).trans ((StableHlo.after_of_writes_sub hostOps2 _ hostOps2_writes (by decide : main_arg5 ∉ hostOps2_W)).trans ((W6_of_ne m c main_arg5 (by decide)).trans ((StableHlo.after_of_writes_sub hostOps1 _ hostOps1_writes (by decide : main_arg5 ∉ hostOps1_W)).trans (W4_of_ne m c main_arg5 (by decide))))))))))))).trans ((V3_of m c main_arg5 (by decide)).trans ((V2_of m c main_arg5 (by decide)).trans ((V1_of m c main_arg5 (by decide)).trans rfl)))
theorem W15_main_arg6 (c : Dev nD) : W15 m c (Proc.devRef .tc main_arg6) = m ((c : Thread nD τ).loc main_arg6) :=
  ((StableHlo.after_of_writes_sub hostOps6 _ hostOps6_writes (by decide : main_arg6 ∉ hostOps6_W)).trans ((W14_of_ne m c main_arg6 (by decide)).trans ((StableHlo.after_of_writes_sub hostOps5 _ hostOps5_writes (by decide : main_arg6 ∉ hostOps5_W)).trans ((W12_of_ne m c main_arg6 (by decide)).trans ((StableHlo.after_of_writes_sub hostOps4 _ hostOps4_writes (by decide : main_arg6 ∉ hostOps4_W)).trans ((W10_of_ne m c main_arg6 (by decide)).trans ((StableHlo.after_of_writes_sub hostOps3 _ hostOps3_writes (by decide : main_arg6 ∉ hostOps3_W)).trans ((W8_of_ne m c main_arg6 (by decide)).trans ((StableHlo.after_of_writes_sub hostOps2 _ hostOps2_writes (by decide : main_arg6 ∉ hostOps2_W)).trans ((W6_of_ne m c main_arg6 (by decide)).trans ((StableHlo.after_of_writes_sub hostOps1 _ hostOps1_writes (by decide : main_arg6 ∉ hostOps1_W)).trans (W4_of_ne m c main_arg6 (by decide))))))))))))).trans ((V3_of m c main_arg6 (by decide)).trans ((V2_of m c main_arg6 (by decide)).trans ((V1_of m c main_arg6 (by decide)).trans rfl)))
theorem W15_main_arg7 (c : Dev nD) : W15 m c (Proc.devRef .tc main_arg7) = m ((c : Thread nD τ).loc main_arg7) :=
  ((StableHlo.after_of_writes_sub hostOps6 _ hostOps6_writes (by decide : main_arg7 ∉ hostOps6_W)).trans ((W14_of_ne m c main_arg7 (by decide)).trans ((StableHlo.after_of_writes_sub hostOps5 _ hostOps5_writes (by decide : main_arg7 ∉ hostOps5_W)).trans ((W12_of_ne m c main_arg7 (by decide)).trans ((StableHlo.after_of_writes_sub hostOps4 _ hostOps4_writes (by decide : main_arg7 ∉ hostOps4_W)).trans ((W10_of_ne m c main_arg7 (by decide)).trans ((StableHlo.after_of_writes_sub hostOps3 _ hostOps3_writes (by decide : main_arg7 ∉ hostOps3_W)).trans ((W8_of_ne m c main_arg7 (by decide)).trans ((StableHlo.after_of_writes_sub hostOps2 _ hostOps2_writes (by decide : main_arg7 ∉ hostOps2_W)).trans ((W6_of_ne m c main_arg7 (by decide)).trans ((StableHlo.after_of_writes_sub hostOps1 _ hostOps1_writes (by decide : main_arg7 ∉ hostOps1_W)).trans (W4_of_ne m c main_arg7 (by decide))))))))))))).trans ((V3_of m c main_arg7 (by decide)).trans ((V2_of m c main_arg7 (by decide)).trans ((V1_of m c main_arg7 (by decide)).trans rfl)))
theorem W15_main_arg8 (c : Dev nD) : W15 m c (Proc.devRef .tc main_arg8) = m ((c : Thread nD τ).loc main_arg8) :=
  ((StableHlo.after_of_writes_sub hostOps6 _ hostOps6_writes (by decide : main_arg8 ∉ hostOps6_W)).trans ((W14_of_ne m c main_arg8 (by decide)).trans ((StableHlo.after_of_writes_sub hostOps5 _ hostOps5_writes (by decide : main_arg8 ∉ hostOps5_W)).trans ((W12_of_ne m c main_arg8 (by decide)).trans ((StableHlo.after_of_writes_sub hostOps4 _ hostOps4_writes (by decide : main_arg8 ∉ hostOps4_W)).trans ((W10_of_ne m c main_arg8 (by decide)).trans ((StableHlo.after_of_writes_sub hostOps3 _ hostOps3_writes (by decide : main_arg8 ∉ hostOps3_W)).trans ((W8_of_ne m c main_arg8 (by decide)).trans ((StableHlo.after_of_writes_sub hostOps2 _ hostOps2_writes (by decide : main_arg8 ∉ hostOps2_W)).trans ((W6_of_ne m c main_arg8 (by decide)).trans ((StableHlo.after_of_writes_sub hostOps1 _ hostOps1_writes (by decide : main_arg8 ∉ hostOps1_W)).trans (W4_of_ne m c main_arg8 (by decide))))))))))))).trans ((V3_of m c main_arg8 (by decide)).trans ((V2_of m c main_arg8 (by decide)).trans ((V1_of m c main_arg8 (by decide)).trans rfl)))
theorem W15_main_arg9 (c : Dev nD) : W15 m c (Proc.devRef .tc main_arg9) = m ((c : Thread nD τ).loc main_arg9) :=
  ((StableHlo.after_of_writes_sub hostOps6 _ hostOps6_writes (by decide : main_arg9 ∉ hostOps6_W)).trans ((W14_of_ne m c main_arg9 (by decide)).trans ((StableHlo.after_of_writes_sub hostOps5 _ hostOps5_writes (by decide : main_arg9 ∉ hostOps5_W)).trans ((W12_of_ne m c main_arg9 (by decide)).trans ((StableHlo.after_of_writes_sub hostOps4 _ hostOps4_writes (by decide : main_arg9 ∉ hostOps4_W)).trans ((W10_of_ne m c main_arg9 (by decide)).trans ((StableHlo.after_of_writes_sub hostOps3 _ hostOps3_writes (by decide : main_arg9 ∉ hostOps3_W)).trans ((W8_of_ne m c main_arg9 (by decide)).trans ((StableHlo.after_of_writes_sub hostOps2 _ hostOps2_writes (by decide : main_arg9 ∉ hostOps2_W)).trans ((W6_of_ne m c main_arg9 (by decide)).trans ((StableHlo.after_of_writes_sub hostOps1 _ hostOps1_writes (by decide : main_arg9 ∉ hostOps1_W)).trans (W4_of_ne m c main_arg9 (by decide))))))))))))).trans ((V3_of m c main_arg9 (by decide)).trans ((V2_of m c main_arg9 (by decide)).trans ((V1_of m c main_arg9 (by decide)).trans rfl)))

/-- THE FRAME: every weakly fair execution of @main terminates, nothing faulting, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c),
     (h c _ (mem_uc main_arg8 (by decide))).trans (W15_main_arg8 m c),
     (h c _ (mem_uc main_arg9 (by decide))).trans (W15_main_arg9 m c)⟩)
    (run_main m ρ)

end Cert.KernelIdeal.Hand

end
-- ==== Proof.KReg0Run.lean ====
/-
  Region 0: the first dense layer's matrix product. A row tile of 2048 rows of the 10240 × 128 left operand is
  multiplied into the whole 128 × 256 right operand; the single tile of the contracted axis means that at each of
  the five grid points the accumulator is cleared, receives the one partial product, and is at once copied, with the
  bias row added, into the output tile, which is written back at every point. Nothing is carried from one point to
  the next, so the region's invariant never has to say what the accumulator holds.

  This file states that behaviour for any float interpretation: what a point's body leaves in the output tile
  (a function of the three operand tiles at that point), the pipeline's proof data built from it, and the
  body's obligation to the pipeline.
-/
import proofs.«173524_j83966610637551_1_alg».proof.Proof.Gen.Kernel.Launch
import proofs.«173524_j83966610637551_1_alg».proof.Proof.Gen.Kernel.Skeleton
import proofs.«173524_j83966610637551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))

/-- The second test: is this the last tile of the contracted axis? -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- Hence no window is idle at any point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel

/-! ## The operand tiles -/

/-- Window w's tile at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current buffer holds its tile at every point, whether or not the tile was fetched there:
    where it was not, the tile's position has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body on any buffers -/

/-- One buffer of the output window, through which its contents are stated (the choice does not matter). -/
abbrev VO0_3 : View sig .tc .vmem S2048x256 .f32 := (Memref.whole cc0_stg3_0 : Memref sig .tc .vmem S2048x256 .f32).view
/-- Each window's current buffer at point t, and that it is a whole buffer. -/
abbrev ms0_0 (t : Fin cfg0.N) : Memref sig .tc .vmem S2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
/-- The accumulator: a whole buffer of the call's own. -/
abbrev scM0_0 : Memref sig .tc .vmem S2048x256 .f32 := Memref.whole cc0_scratch0

/-- The region's invariant with the accumulator taken out as a buffer owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := Pipeline.UD sig nD τ) (Lvl := ℕ) (Val := Elt F) spec0 c [cc0_scratch0])
          ∗ (∃ r, prngReg c r)) := by
  unfold Pipeline.ΦA; rw [scopedRest0_split]; simp only [scM0_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun0 (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) :
    { L3 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc0__mm_kernel i arg2 harg2 arg3 harg3 arg4 harg4 arg5 harg5 arg6 harg6) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.Kernel.Hand

end
-- ==== Proof.KReg0.lean ====
/-
  Region 0, continued: the pipeline's proof data for the first dense layer's matrix product, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.KReg0Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover0_3 (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) (y : S2048x256.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S2048x256.size (by sl_kernel_rfl) y

/-- What the run leaves in the output window's buffer: its pieces read back. -/
def out0_3 (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) : Vec F S2048x256 .f32 :=
  VO0_3.read (Elt F) (VO0_3.writes (Elt F) VO0_3.junk (kernelRun0 c i arg2 harg2 arg3 harg3 arg4 harg4 arg5 harg5 arg6 harg6 hc0 hc1 x0 x1 x2).1)

/-- What the output window's buffer holds after the body at point t: the run's contents at the point's buffers and
    operand tiles. -/
def outsAt0 (c : Dev nD) (t : Fin cfg0.N) : Vec F S2048x256 .f32 :=
  out0_3 c (grid0.coords t) (ms0_0 t) (hs0_0 t) (ms0_1 t) (hs0_1 t) (ms0_2 t) (hs0_2 t) (ms0_3 t) (hs0_3 t) scM0_0 (Memref.isWhole_whole _)
    (hcond0_0 t) (hcond0_1 t) (iblk0 V c 0 t) (iblk0 V c 1 t) (iblk0 V c 2 t)

/-! ## The pipeline's proof data -/

/-- The proof data of the region on core c: the arrays as the region finds them; after the body at point t each
    operand's buffer at its tile and the output's at outsAt0; the same invariant at every point; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem owed_eq0 (c : Dev nD) (t) : (dat0 V c).owed t = 0 := by dsimp only [dat0]
theorem q_eq0 (c : Dev nD) (w : Fin cfg0.W) : (dat0 V c).q w = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).Φ t.castSucc = Pipeline.ΦA spec0 c from rfl, PhiA0_eq]
  unfold outsAt0 out0_3
  iintro ⟨⟨⟨HS0, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

/-- and the invariant after the last point gives it back. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]
  try exact Idealize.SL.BI.Entails.refl _

end Cert.Kernel.Hand

end
-- ==== Proof.KReg1Run.lean ====
/-
  The blocked matrix product of region 1, one grid point at a time.

  The grid is 5 row tiles by 10 tiles of the contracted axis; point t = 10·i + k works on row tile i and contraction
  tile k. The body keeps a 2048 × 256 accumulator beside the staged blocks. At k = 0 it first clears the accumulator;
  at every k it adds the product of the staged 2048 × 1024 tile of the left matrix and the staged 1024 × 256 tile of the
  right matrix into the accumulator; at k = 9 it also writes accumulator + bias row, rectified, into the staged output
  tile. So a point is in one of three cases — first (k = 0), middle (0 < k < 9), last (k = 9) — and this module runs the
  body once per case on arbitrary whole staging buffers, recording the stores each case leaves in the accumulator
  and in the output tile.
-/
import proofs.«173524_j83966610637551_1_alg».proof.Proof.Gen.Kernel.Points
import proofs.«173524_j83966610637551_1_alg».proof.Proof.Gen.Kernel.Launch
import proofs.«173524_j83966610637551_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The two conditions of the body, in closed form over the grid -/

/-- "This is the first contraction tile" (k = 0), as the body computes it from the grid coordinates. -/
abbrev isFirst1 (i : grid1.Coords) : Prop := (Scalar.cmpi .ne (Scalar.extui (Scalar.cmpi .eq (BitVec.ofNat 32 (i 1).val) 0#32)) 0#32) = 1#1
/-- It holds exactly at the points t with t mod 10 = 0. -/
theorem isFirst1_iff : ∀ t : Fin cfg1.N, isFirst1 (grid1.coords t) ↔ t.val % 10 = 0 :=
  (by decide +kernel : ∀ t : Fin grid1.N, isFirst1 (grid1.coords t) ↔ t.val % 10 = 0)

/-- "This is the last contraction tile" (k = 9), as the body computes it. -/
abbrev isLast1 (i : grid1.Coords) : Prop := k1_cond2 i = 1#1
/-- It holds exactly at the points t with t mod 10 = 9. -/
theorem isLast1_iff : ∀ t : Fin cfg1.N, isLast1 (grid1.coords t) ↔ t.val % 10 = 9 :=
  (by decide +kernel : ∀ t : Fin grid1.N, isLast1 (grid1.coords t) ↔ t.val % 10 = 9)

/-! ## Where the windows are stored into -/

/-- The three operand windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last contraction tile nothing is stored into the output tile, and it is not written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
/-- On the last contraction tile the output tile is stored. -/
theorem live1_3 : ∀ t : Fin cfg1.N, isLast1 (grid1.coords t) → cfg1.idle 3 (grid1.coords t) = false := by decide +kernel

/-! ## The staging buffers and the accumulator -/

/-- One staging buffer of the output window, through which its contents are stated. -/
abbrev outView1 : View sig .tc .vmem S2048x256 .f32 := (Memref.whole cc1_stg3_0 : Memref sig .tc .vmem S2048x256 .f32).view
/-- Each window's current staging buffer at point t, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The accumulator: a whole scoped buffer of the call's own. -/
abbrev accM1 : Memref sig .tc .vmem S2048x256 .f32 := Memref.whole cc1_scratch0
abbrev accView1 : View sig .tc .vmem S2048x256 .f32 := accM1.view

/-- What the region is entered with, the accumulator taken out of the scoped rest: the accumulator at some contents,
    every other scoped buffer unopened, the generator register at some state. -/
theorem entry1_eq (c : Dev nD) :
    (Pipeline.ΦA spec1 c : sProp 𝕄)
      = iprop(iprop((∃ d, owns (c : Thread nD τ) accM1 fullShare d)
          ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [accM1, owns_whole]; try rfl

/-! ## The body, case by case -/

set_option maxHeartbeats 1000000 in
/-- FIRST contraction tile: the accumulator (at anything) is cleared and the tile product added; the output tile, at
    contents `xo`, is handed back untouched. The stores left in the accumulator are the witness `LS`. -/
noncomputable def runFirst1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg2 harg2 arg3 harg3 arg4 harg4 arg5 harg5 arg6 harg6) K } := by
  refine ⟨?_, fun xo E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE contraction tile: the accumulator, at the contents `xs` the point before left, gets the tile product added;
    the output tile is handed back untouched. -/
noncomputable def runMid1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg2 harg2 arg3 harg3 arg4 harg4 arg5 harg5 arg6 harg6) K } := by
  refine ⟨?_, fun xo E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST contraction tile: the accumulator, at the contents `xs` the point before left, gets the tile product added,
    and the output tile (at anything) is stored: accumulator plus bias row, rectified. The stores left in the output
    tile are the witness `LO`, those left in the accumulator `LS`. -/
noncomputable def runLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg2 harg2 arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.KReg1.lean ====
/-
  Region 1 as a pipeline: what the accumulator and the output tile hold after every grid point, and the proof that
  the body, run at any point on what the pipeline hands it, leaves exactly that.

  Point t = 10·i + k handles row tile i and contraction tile k. The accumulator is carried from point to point inside
  a row tile: cleared and loaded with the first tile product at k = 0, a further tile product added at each later k;
  at k = 9 the output tile is stored (and only then written back to the array). `stateAt1` follows that recursion over
  the points; the region's invariant says that between two points the accumulator holds `stateAt1`'s second component.
-/
import proofs.«173524_j83966610637551_1_alg».proof.Proof.KReg1Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, fetched there or not (an unfetched
    window's block index has not moved), for any proof data over the entry arrays whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output tile -/

/-- The stores of the first case cover the accumulator. -/
theorem accCoverFirst1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) (y : S2048x256.Idx) :
    ∃ pc ∈ (runFirst1 c i arg2 harg2 arg3 harg3 arg4 harg4 arg5 harg5 arg6 harg6 hc0 hc1 x0 x1 x2).1, y ∈ pc.1.set :=
  View.cover_of_tiledL (runFirst1 c i arg2 harg2 arg3 harg3 arg4 harg4 arg5 harg5 arg6 harg6 hc0 hc1 x0 x1 x2).1 S2048x256.size (by sl_kernel_rfl) y
/-- What the first case leaves in the accumulator: its stores read back. -/
def accFirst1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) : Vec F S2048x256 .f32 :=
  accView1.read (Elt F) (accView1.writes (Elt F) accView1.junk (runFirst1 c i arg2 harg2 arg3 harg3 arg4 harg4 arg5 harg5 arg6 harg6 hc0 hc1 x0 x1 x2).1)

/-- The stores of the middle case cover the accumulator. -/
theorem accCoverMid1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) (y : S2048x256.Idx) :
    ∃ pc ∈ (runMid1 c i arg2 harg2 arg3 harg3 arg4 harg4 arg5 harg5 arg6 harg6 hc0 hc1 x0 x1 x2 xs).1, y ∈ pc.1.set :=
  View.cover_of_tiledL (runMid1 c i arg2 harg2 arg3 harg3 arg4 harg4 arg5 harg5 arg6 harg6 hc0 hc1 x0 x1 x2 xs).1 S2048x256.size (by sl_kernel_rfl) y
/-- What the middle case leaves in the accumulator, from what the point before left (`xs`). -/
def accMid1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) : Vec F S2048x256 .f32 :=
  accView1.read (Elt F) (accView1.writes (Elt F) accView1.junk (runMid1 c i arg2 harg2 arg3 harg3 arg4 harg4 arg5 harg5 arg6 harg6 hc0 hc1 x0 x1 x2 xs).1)

/-- The stores of the last case cover the accumulator, -/
theorem accCoverLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) (y : S2048x256.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S2048x256.size (by sl_kernel_rfl) y
/-- and the output tile. -/
theorem outCoverLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) (y : S2048x256.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S2048x256.size (by sl_kernel_rfl) y
/-- What the last case leaves in the accumulator, -/
def accLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) : Vec F S2048x256 .f32 :=
  accView1.read (Elt F) (accView1.writes (Elt F) accView1.junk (runLast1 c i arg2 harg2 arg3 harg3 arg4 harg4 arg5 harg5 arg6 harg6 hc0 hc1 x0 x1 x2 xs).2.1)
/-- and in the output tile. -/
def outLast1 (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) : Vec F S2048x256 .f32 :=
  outView1.read (Elt F) (outView1.writes (Elt F) outView1.junk (runLast1 c i arg2 harg2 arg3 harg3 arg4 harg4 arg5 harg5 arg6 harg6 hc0 hc1 x0 x1 x2 xs).1)

/-- Off the last contraction tile nothing is stored into the output tile: a placeholder nothing consults (the
    tile is neither written back there nor read at the next point). -/
def noOut1 : Vec F S2048x256 .f32 := outView1.read (Elt F) outView1.junk

/-! ## The accumulation, point by point -/

/-- What the output tile's staging buffer (first component) and the accumulator (second component) hold after the body
    at position `n`: the case the closed forms select at `n`, run on the point's blocks, the accumulator taken over from
    position `n - 1` off the first contraction tile. -/
def stateAt1 (c : Dev nD) : (n : ℕ) → n < cfg1.N → Vec F S2048x256 .f32 × Vec F S2048x256 .f32
  | 0, hn => (noOut1, accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM1 (Memref.isWhole_whole _) ((isFirst1_iff ⟨0, hn⟩).mpr (Nat.zero_mod _)) (fun h => (fun h => by (try dsimp only at h); omega) ((isLast1_iff ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (noOut1, accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) ((isFirst1_iff ⟨n + 1, hn⟩).mpr h0) (fun h => h1 ((isLast1_iff ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (outLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (stateAt1 c n (Nat.lt_of_succ_lt hn)).2,
         accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (stateAt1 c n (Nat.lt_of_succ_lt hn)).2)
      else
        (noOut1, accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM1 (Memref.isWhole_whole _) (fun h => h0 ((isFirst1_iff ⟨n + 1, hn⟩).mp h)) (fun h => h1 ((isLast1_iff ⟨n + 1, hn⟩).mp h)) (iblk1 V c 0 ⟨n + 1, hn⟩) (iblk1 V c 1 ⟨n + 1, hn⟩) (iblk1 V c 2 ⟨n + 1, hn⟩) (stateAt1 c n (Nat.lt_of_succ_lt hn)).2)

/-- `stateAt1` at a first contraction tile. -/
theorem stateAt1_first (c : Dev nD) (t : Fin cfg1.N) (h0 : t.val % 10 = 0) (h1 : ¬t.val % 10 = 9) :
    stateAt1 V c t.val t.isLt = (noOut1, accFirst1 c (grid1.coords t) (ms1_0 t) (hs1_0 t) (ms1_1 t) (hs1_1 t) (ms1_2 t) (hs1_2 t) (ms1_3 t) (hs1_3 t) accM1 (Memref.isWhole_whole _) ((isFirst1_iff t).mpr h0) (fun h => h1 ((isLast1_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `stateAt1` at a middle contraction tile: over what the point before left. -/
theorem stateAt1_mid (c : Dev nD) (t : Fin cfg1.N) (h0 : ¬t.val % 10 = 0) (h1 : ¬t.val % 10 = 9) :
    stateAt1 V c t.val t.isLt = (noOut1, accMid1 c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) (fun h => h1 ((isLast1_iff t).mp h)) (iblk1 V c 0 t) (iblk1 V c 1 t) (iblk1 V c 2 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stateAt1` at a last contraction tile: over what the point before left. -/
theorem stateAt1_last (c : Dev nD) (t : Fin cfg1.N) (h0 : ¬t.val % 10 = 0) (h1 : t.val % 10 = 9) :
    stateAt1 V c t.val t.isLt = (outLast1 c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) ((isLast1_iff t).mpr h1) (iblk1 V c 0 t) (iblk1 V c 1 t) (iblk1 V c 2 t) (stateAt1 V c (t.val - 1) (Nat.lt_of_le_of_lt (Nat.sub_le _ _) t.isLt)).2,
      accLast1 c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) ((isLast1_iff t).mpr h1) (iblk1 V c 0 t) (iblk1 V c 1 t) (iblk1 V c 2 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the launch hands over (every scoped buffer at anything, the
    generator register at some state); afterwards the same with the accumulator at what position `n - 1` left in it. -/
def carried1 (c : Dev nD) : (n : ℕ) → n ≤ cfg1.N → sProp 𝕄
  | 0, _ => Pipeline.ΦA spec1 c
  | n + 1, hn => iprop(iprop(owns (c : Thread nD τ) accM1 fullShare ((stateAt1 V c n hn).2)
      ∗ Pipeline.scopedRestBut (Ix := Unit) (Name := ℕ) (U := Pipeline.UD sig nD τ) (Lvl := ℕ) (Val := Elt F) spec1 c [cc1_scratch0]) ∗ (∃ r, prngReg c r))

theorem carried1_zero (c : Dev nD) (n : ℕ) (h : n ≤ cfg1.N) (hz : n = 0) : carried1 V c n h = Pipeline.ΦA spec1 c := by
  subst hz; rfl

theorem carried1_succ (c : Dev nD) (n : ℕ) (hn : n < cfg1.N) :
    carried1 V c (n + 1) hn = iprop(iprop(owns (c : Thread nD τ) accM1 fullShare ((stateAt1 V c n hn).2)
      ∗ Pipeline.scopedRestBut (Ix := Unit) (Name := ℕ) (U := Pipeline.UD sig nD τ) (Lvl := ℕ) (Val := Elt F) spec1 c [cc1_scratch0]) ∗ (∃ r, prngReg c r)) := rfl

theorem carried1_pos (c : Dev nD) (n : ℕ) (h : n ≤ cfg1.N) (hz : n ≠ 0) :
    carried1 V c n h = iprop(iprop(owns (c : Thread nD τ) accM1 fullShare ((stateAt1 V c (n - 1) (by omega)).2)
      ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-! ## The pipeline's proof data -/

/-- The proof data of region 1 on core `c`: the arrays as the region finds them; after the body at point `t` each
    operand's buffer at its block and the output tile's at `stateAt1`'s first component; the invariant `carried1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stateAt1 V c t.val t.isLt).1
  Φ t := carried1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed_eq1 (c : Dev nD) (t) : (dat1 V c).owed t = 0 := by dsimp only [dat1]
theorem q_eq1 (c : Dev nD) (w : Fin cfg1.W) : (dat1 V c).q w = fullShare := by dsimp only [dat1]

theorem carried1_castSucc (c : Dev nD) (t : Fin cfg1.N) :
    (dat1 V c).Φ t.castSucc = carried1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stateAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The operands' buffers hold their blocks; the closed forms say which case the point is in;
    the invariant hands the body the accumulator at what the point before left (at anything at the very first point) and
    takes it back at this point's contents; off the last contraction tile the output tile goes back untouched, on it
    it comes back stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = carried1 V c (t.val + 1) t.isLt from rfl, carried1_succ]
  have hN : t.val < 50 := lt_of_lt_of_eq t.isLt (show cfg1.N = 50 from N_1)
  by_cases h0 : t.val % 10 = 0
  · have h1 : ¬t.val % 10 = 9 := by omega
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [Dat.leavesExact_idle (dat1 V c) 3 t (idle1_3 t (fun h => h1 ((isLast1_iff t).mp h))) (noFlush1_3 t (fun h => h1 ((isLast1_iff t).mp h)))]
    rw [stateAt1_first V c t h0 h1]
    unfold accFirst1; (try dsimp only)
    by_cases hz : t.val = 0
    · rw [carried1_castSucc V c t, carried1_zero V c _ _ hz, entry1_eq]
      iintro ⟨⟨⟨HS, HR⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst1 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [carried1_castSucc V c t, carried1_pos V c _ _ hz]
      iintro ⟨⟨⟨HS, HR⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst1 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t ((isLast1_iff t).mpr h1)], after1_3]
      rw [stateAt1_last V c t h0 h1]
      unfold outLast1 accLast1; (try dsimp only)
      rw [carried1_castSucc V c t, carried1_pos V c _ _ hz]
      iintro ⟨⟨⟨HS, HR⟩, Hg⟩, Ho, ⟨%d0, H0⟩, ⟨%d1, H1⟩, ⟨%d2, H2⟩, ⟨%d3, H3⟩⟩
      iapply ((runLast1 c (grid1.coords t) _ _ _ _ _ _ _ _ _ _ (fun h => h0 ((isFirst1_iff t).mp h)) ((isLast1_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast1 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast1 c _ _ _ _ _ _ _ _ _ _ _ _ _ _ _ _ _)
    · rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [Dat.leavesExact_idle (dat1 V c) 3 t (idle1_3 t (fun h => h1 ((isLast1_iff t).mp h))) (noFlush1_3 t (fun h => h1 ((isLast1_iff t).mp h)))]
      rw [stateAt1_mid V c t h0 h1]
      unfold accMid1; (try dsimp only)
      rw [carried1_castSucc V c t, carried1_pos V c _ _ hz]
      iintro ⟨⟨⟨HS, HR⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverMid1 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = carried1 V c 0 (Nat.zero_le _) from rfl, carried1_zero V c 0 _ rfl]
  try exact Idealize.SL.BI.Entails.refl _

/-- After any point the invariant gives the launch's form back: what the accumulator holds is forgotten. -/
theorem carried1_out (c : Dev nD) (t : Fin (cfg1.N + 1)) (ht : t.val ≠ 0) : (dat1 V c).Φ t ⊢ (Pipeline.ΦA spec1 c : sProp 𝕄) := by
  rw [show (dat1 V c).Φ t = carried1 V c t.val (Nat.le_of_lt_succ t.isLt) from rfl, carried1_pos V c _ _ ht, entry1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  carried1_out V c _ (by rw [Fin.val_last]; have : cfg1.N = 50 := N_1; omega)

end Cert.Kernel.Hand

end
-- ==== Proof.KReg2Run.lean ====
/-
  Region 2: the second layer's feature transform, a matrix product. A row tile of 2048 rows of the left operand (10240 × 256) is multiplied into the whole right
  operand (256 × 256); the single tile of the contracted axis means that at each of the five grid points the
  accumulator is cleared, receives the one partial product, and is at once copied, with the bias row added, into the output tile, which is written back at every point. Nothing is carried from one point to
  the next, so the region's invariant never has to say what the accumulator holds.

  This file states the body's run for any float interpretation: what a point's body leaves in the output tile
  is a function of the three operand tiles at that point.
-/
import proofs.«173524_j83966610637551_1_alg».proof.Proof.Gen.Kernel.Launch
import proofs.«173524_j83966610637551_1_alg».proof.Proof.Gen.Kernel.Skeleton
import proofs.«173524_j83966610637551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) :=
  (by decide +kernel : ∀ t : Fin grid2.N, cond2_0 (grid2.coords t))

/-- The second test: is this the last tile of the contracted axis? -/
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

/-- Hence no window is idle at any point. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel

/-! ## The operand tiles -/

/-- Window w's tile at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand window's current buffer holds its tile at every point, whether or not the tile was fetched there:
    where it was not, the tile's position has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body on any buffers -/

/-- One buffer of the output window, through which its contents are stated (the choice does not matter). -/
abbrev VO2_3 : View sig .tc .vmem S2048x256 .f32 := (Memref.whole cc2_stg3_0 : Memref sig .tc .vmem S2048x256 .f32).view
/-- Each window's current buffer at point t, and that it is a whole buffer. -/
abbrev ms2_0 (t : Fin cfg2.N) : Memref sig .tc .vmem S2048x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The accumulator: a whole buffer of the call's own. -/
abbrev scM2_0 : Memref sig .tc .vmem S2048x256 .f32 := Memref.whole cc2_scratch0

/-- The region's invariant with the accumulator taken out as a buffer owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := Pipeline.UD sig nD τ) (Lvl := ℕ) (Val := Elt F) spec2 c [cc2_scratch0])
          ∗ (∃ r, prngReg c r)) := by
  unfold Pipeline.ΦA; rw [scopedRest2_split]; simp only [scM2_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun2 (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) :
    { L3 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc2__mm_kernel i arg2 harg2 arg3 harg3 arg4 harg4 arg5 harg5 arg6 harg6) K } := by
  refine ⟨?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.Kernel.Hand

end
-- ==== Proof.KReg2.lean ====
/-
  Region 2, continued: the pipeline's proof data for the second layer's feature transform, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.KReg2Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover2_3 (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) (y : S2048x256.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S2048x256.size (by sl_kernel_rfl) y

/-- What the run leaves in the output window's buffer: its pieces read back. -/
def out2_3 (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) : Vec F S2048x256 .f32 :=
  VO2_3.read (Elt F) (VO2_3.writes (Elt F) VO2_3.junk (kernelRun2 c i arg2 harg2 arg3 harg3 arg4 harg4 arg5 harg5 arg6 harg6 hc0 hc1 x0 x1 x2).1)

/-- What the output window's buffer holds after the body at point t: the run's contents at the point's buffers and
    operand tiles. -/
def outsAt2 (c : Dev nD) (t : Fin cfg2.N) : Vec F S2048x256 .f32 :=
  out2_3 c (grid2.coords t) (ms2_0 t) (hs2_0 t) (ms2_1 t) (hs2_1 t) (ms2_2 t) (hs2_2 t) (ms2_3 t) (hs2_3 t) scM2_0 (Memref.isWhole_whole _)
    (hcond2_0 t) (hcond2_1 t) (iblk2 V c 0 t) (iblk2 V c 1 t) (iblk2 V c 2 t)

/-! ## The pipeline's proof data -/

/-- The proof data of the region on core c: the arrays as the region finds them; after the body at point t each
    operand's buffer at its tile and the output's at outsAt2; the same invariant at every point; nothing owed;
    full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem owed_eq2 (c : Dev nD) (t) : (dat2 V c).owed t = 0 := by dsimp only [dat2]
theorem q_eq2 (c : Dev nD) (w : Fin cfg2.W) : (dat2 V c).q w = fullShare := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outsAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = (dat2 V c).Φ t.castSucc from rfl]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).Φ t.castSucc = Pipeline.ΦA spec2 c from rfl, PhiA2_eq]
  unfold outsAt2 out2_3
  iintro ⟨⟨⟨HS0, HR⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : (Pipeline.ΦA spec2 c : sProp 𝕄) ⊢ (dat2 V c).Φ 0 := by
  rw [show (dat2 V c).Φ 0 = Pipeline.ΦA spec2 c from rfl]
  try exact Idealize.SL.BI.Entails.refl _

/-- and the invariant after the last point gives it back. -/
theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]
  try exact Idealize.SL.BI.Entails.refl _

end Cert.Kernel.Hand

end
-- ==== Proof.KReg3Run.lean ====
/-
  The blocked matrix product of region 3, one grid point at a time.

  The grid is 5 row tiles by 10 tiles of the contracted axis; point t = 10·i + k works on row tile i and contraction
  tile k. The body keeps a 2048 × 256 accumulator beside the staged blocks. At k = 0 it first clears the accumulator;
  at every k it adds the product of the staged 2048 × 1024 tile of the left matrix and the staged 1024 × 256 tile of the
  right matrix into the accumulator; at k = 9 it also writes accumulator + bias row, rectified, into the staged output
  tile. So a point is in one of three cases — first (k = 0), middle (0 < k < 9), last (k = 9) — and this module runs the
  body once per case on arbitrary whole staging buffers, recording the stores each case leaves in the accumulator
  and in the output tile.
-/
import proofs.«173524_j83966610637551_1_alg».proof.Proof.Gen.Kernel.Points
import proofs.«173524_j83966610637551_1_alg».proof.Proof.Gen.Kernel.Launch
import proofs.«173524_j83966610637551_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The two conditions of the body, in closed form over the grid -/

/-- "This is the first contraction tile" (k = 0), as the body computes it from the grid coordinates. -/
abbrev isFirst3 (i : grid3.Coords) : Prop := (Scalar.cmpi .ne (Scalar.extui (Scalar.cmpi .eq (BitVec.ofNat 32 (i 1).val) 0#32)) 0#32) = 1#1
/-- It holds exactly at the points t with t mod 10 = 0. -/
theorem isFirst3_iff : ∀ t : Fin cfg3.N, isFirst3 (grid3.coords t) ↔ t.val % 10 = 0 :=
  (by decide +kernel : ∀ t : Fin grid3.N, isFirst3 (grid3.coords t) ↔ t.val % 10 = 0)

/-- "This is the last contraction tile" (k = 9), as the body computes it. -/
abbrev isLast3 (i : grid3.Coords) : Prop := k3_cond2 i = 1#1
/-- It holds exactly at the points t with t mod 10 = 9. -/
theorem isLast3_iff : ∀ t : Fin cfg3.N, isLast3 (grid3.coords t) ↔ t.val % 10 = 9 :=
  (by decide +kernel : ∀ t : Fin grid3.N, isLast3 (grid3.coords t) ↔ t.val % 10 = 9)

/-! ## Where the windows are stored into -/

/-- The three operand windows are never idle. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Off the last contraction tile nothing is stored into the output tile, and it is not written back. -/
theorem idle3_3 : ∀ t : Fin cfg3.N, ¬isLast3 (grid3.coords t) → cfg3.idle 3 (grid3.coords t) = true := by decide +kernel
theorem noFlush3_3 : ∀ t : Fin cfg3.N, ¬isLast3 (grid3.coords t) → (cfg3.win 3).flush t = false := by decide +kernel
/-- On the last contraction tile the output tile is stored. -/
theorem live3_3 : ∀ t : Fin cfg3.N, isLast3 (grid3.coords t) → cfg3.idle 3 (grid3.coords t) = false := by decide +kernel

/-! ## The staging buffers and the accumulator -/

/-- One staging buffer of the output window, through which its contents are stated. -/
abbrev outView3 : View sig .tc .vmem S2048x256 .f32 := (Memref.whole cc3_stg3_0 : Memref sig .tc .vmem S2048x256 .f32).view
/-- Each window's current staging buffer at point t, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
/-- The accumulator: a whole scoped buffer of the call's own. -/
abbrev accM3 : Memref sig .tc .vmem S2048x256 .f32 := Memref.whole cc3_scratch0
abbrev accView3 : View sig .tc .vmem S2048x256 .f32 := accM3.view

/-- What the region is entered with, the accumulator taken out of the scoped rest: the accumulator at some contents,
    every other scoped buffer unopened, the generator register at some state. -/
theorem entry3_eq (c : Dev nD) :
    (Pipeline.ΦA spec3 c : sProp 𝕄)
      = iprop(iprop((∃ d, owns (c : Thread nD τ) accM3 fullShare d)
          ∗ Pipeline.scopedRestBut (Ix := Unit) (Name := ℕ) (U := Pipeline.UD sig nD τ) (Lvl := ℕ) (Val := Elt F) spec3 c [cc3_scratch0]) ∗ (∃ r, prngReg c r)) := by
  unfold Pipeline.ΦA; rw [scopedRest3_split]; simp only [accM3, owns_whole]; try rfl

/-! ## The body, case by case -/

set_option maxHeartbeats 1000000 in
/-- FIRST contraction tile: the accumulator (at anything) is cleared and the tile product added; the output tile, at
    contents `xo`, is handed back untouched. The stores left in the accumulator are the witness `LS`. -/
noncomputable def runFirst3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg2 harg2 arg3 harg3 arg4 harg4 arg5 harg5 arg6 harg6) K } := by
  refine ⟨?_, fun xo E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE contraction tile: the accumulator, at the contents `xs` the point before left, gets the tile product added;
    the output tile is handed back untouched. -/
noncomputable def runMid3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) :
    { LS : List (View.Piece (Elt F) S2048x256 .f32) //
      ∀ (xo : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg2 harg2 arg3 harg3 arg4 harg4 arg5 harg5 arg6 harg6) K } := by
  refine ⟨?_, fun xo E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST contraction tile: the accumulator, at the contents `xs` the point before left, gets the tile product added,
    and the output tile (at anything) is stored: accumulator plus bias row, rectified. The stores left in the output
    tile are the witness `LO`, those left in the accumulator `LS`. -/
noncomputable def runLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg2 harg2 arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.KReg3.lean ====
/-
  Region 3 as a pipeline: what the accumulator and the output tile hold after every grid point, and the proof that
  the body, run at any point on what the pipeline hands it, leaves exactly that.

  Point t = 10·i + k handles row tile i and contraction tile k. The accumulator is carried from point to point inside
  a row tile: cleared and loaded with the first tile product at k = 0, a further tile product added at each later k;
  at k = 9 the output tile is stored (and only then written back to the array). `stateAt3` follows that recursion over
  the points; the region's invariant says that between two points the accumulator holds `stateAt3`'s second component.
-/
import proofs.«173524_j83966610637551_1_alg».proof.Proof.KReg3Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand window's current staging buffer holds its block at every point, fetched there or not (an unfetched
    window's block index has not moved), for any proof data over the entry arrays whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the accumulator and in the output tile -/

/-- The stores of the first case cover the accumulator. -/
theorem accCoverFirst3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) (y : S2048x256.Idx) :
    ∃ pc ∈ (runFirst3 c i arg2 harg2 arg3 harg3 arg4 harg4 arg5 harg5 arg6 harg6 hc0 hc1 x0 x1 x2).1, y ∈ pc.1.set :=
  View.cover_of_tiledL (runFirst3 c i arg2 harg2 arg3 harg3 arg4 harg4 arg5 harg5 arg6 harg6 hc0 hc1 x0 x1 x2).1 S2048x256.size (by sl_kernel_rfl) y
/-- What the first case leaves in the accumulator: its stores read back. -/
def accFirst3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) : Vec F S2048x256 .f32 :=
  accView3.read (Elt F) (accView3.writes (Elt F) accView3.junk (runFirst3 c i arg2 harg2 arg3 harg3 arg4 harg4 arg5 harg5 arg6 harg6 hc0 hc1 x0 x1 x2).1)

/-- The stores of the middle case cover the accumulator. -/
theorem accCoverMid3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) (y : S2048x256.Idx) :
    ∃ pc ∈ (runMid3 c i arg2 harg2 arg3 harg3 arg4 harg4 arg5 harg5 arg6 harg6 hc0 hc1 x0 x1 x2 xs).1, y ∈ pc.1.set :=
  View.cover_of_tiledL (runMid3 c i arg2 harg2 arg3 harg3 arg4 harg4 arg5 harg5 arg6 harg6 hc0 hc1 x0 x1 x2 xs).1 S2048x256.size (by sl_kernel_rfl) y
/-- What the middle case leaves in the accumulator, from what the point before left (`xs`). -/
def accMid3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) : Vec F S2048x256 .f32 :=
  accView3.read (Elt F) (accView3.writes (Elt F) accView3.junk (runMid3 c i arg2 harg2 arg3 harg3 arg4 harg4 arg5 harg5 arg6 harg6 hc0 hc1 x0 x1 x2 xs).1)

/-- The stores of the last case cover the accumulator, -/
theorem accCoverLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) (y : S2048x256.Idx) :
    ∃ pc ∈ (runLast3 c i arg2 harg2 arg3 harg3 arg4 harg4 arg5 harg5 arg6 harg6 hc0 hc1 x0 x1 x2 xs).2.1, y ∈ pc.1.set :=
  View.cover_of_tiledL (runLast3 c i arg2 harg2 arg3 harg3 arg4 harg4 arg5 harg5 arg6 harg6 hc0 hc1 x0 x1 x2 xs).2.1 S2048x256.size (by sl_kernel_rfl) y
/-- and the output tile. -/
theorem outCoverLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) (y : S2048x256.Idx) :
    ∃ pc ∈ (runLast3 c i arg2 harg2 arg3 harg3 arg4 harg4 arg5 harg5 arg6 harg6 hc0 hc1 x0 x1 x2 xs).1, y ∈ pc.1.set :=
  View.cover_of_tiledL (runLast3 c i arg2 harg2 arg3 harg3 arg4 harg4 arg5 harg5 arg6 harg6 hc0 hc1 x0 x1 x2 xs).1 S2048x256.size (by sl_kernel_rfl) y
/-- What the last case leaves in the accumulator, -/
def accLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) : Vec F S2048x256 .f32 :=
  accView3.read (Elt F) (accView3.writes (Elt F) accView3.junk (runLast3 c i arg2 harg2 arg3 harg3 arg4 harg4 arg5 harg5 arg6 harg6 hc0 hc1 x0 x1 x2 xs).2.1)
/-- and in the output tile. -/
def outLast3 (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) : Vec F S2048x256 .f32 :=
  outView3.read (Elt F) (outView3.writes (Elt F) outView3.junk (runLast3 c i arg2 harg2 arg3 harg3 arg4 harg4 arg5 harg5 arg6 harg6 hc0 hc1 x0 x1 x2 xs).1)

/-- Off the last contraction tile nothing is stored into the output tile: a placeholder nothing consults (the
    tile is neither written back there nor read at the next point). -/
def noOut3 : Vec F S2048x256 .f32 := outView3.read (Elt F) outView3.junk

/-! ## The accumulation, point by point -/

/-- What the output tile's staging buffer (first component) and the accumulator (second component) hold after the body
    at position `n`: the case the closed forms select at `n`, run on the point's blocks, the accumulator taken over from
    position `n - 1` off the first contraction tile. -/
def stateAt3 (c : Dev nD) : (n : ℕ) → n < cfg3.N → Vec F S2048x256 .f32 × Vec F S2048x256 .f32
  | 0, hn => (noOut3, accFirst3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) accM3 (Memref.isWhole_whole _) ((isFirst3_iff ⟨0, hn⟩).mpr (Nat.zero_mod _)) (fun h => (fun h => by (try dsimp only at h); omega) ((isLast3_iff ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (noOut3, accFirst3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) ((isFirst3_iff ⟨n + 1, hn⟩).mpr h0) (fun h => h1 ((isLast3_iff ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (outLast3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) (fun h => h0 ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (stateAt3 c n (Nat.lt_of_succ_lt hn)).2,
         accLast3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) (fun h => h0 ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (stateAt3 c n (Nat.lt_of_succ_lt hn)).2)
      else
        (noOut3, accMid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) accM3 (Memref.isWhole_whole _) (fun h => h0 ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (stateAt3 c n (Nat.lt_of_succ_lt hn)).2)

/-- `stateAt3` at a first contraction tile. -/
theorem stateAt3_first (c : Dev nD) (t : Fin cfg3.N) (h0 : t.val % 10 = 0) (h1 : ¬t.val % 10 = 9) :
    stateAt3 V c t.val t.isLt = (noOut3, accFirst3 c (grid3.coords t) (ms3_0 t) (hs3_0 t) (ms3_1 t) (hs3_1 t) (ms3_2 t) (hs3_2 t) (ms3_3 t) (hs3_3 t) accM3 (Memref.isWhole_whole _) ((isFirst3_iff t).mpr h0) (fun h => h1 ((isLast3_iff t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `stateAt3` at a middle contraction tile: over what the point before left. -/
theorem stateAt3_mid (c : Dev nD) (t : Fin cfg3.N) (h0 : ¬t.val % 10 = 0) (h1 : ¬t.val % 10 = 9) :
    stateAt3 V c t.val t.isLt = (noOut3, accMid3 c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) (fun h => h1 ((isLast3_iff t).mp h)) (iblk3 V c 0 t) (iblk3 V c 1 t) (iblk3 V c 2 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stateAt3` at a last contraction tile: over what the point before left. -/
theorem stateAt3_last (c : Dev nD) (t : Fin cfg3.N) (h0 : ¬t.val % 10 = 0) (h1 : t.val % 10 = 9) :
    stateAt3 V c t.val t.isLt = (outLast3 c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) ((isLast3_iff t).mpr h1) (iblk3 V c 0 t) (iblk3 V c 1 t) (iblk3 V c 2 t) (stateAt3 V c (t.val - 1) (Nat.lt_of_le_of_lt (Nat.sub_le _ _) t.isLt)).2,
      accLast3 c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) ((isLast3_iff t).mpr h1) (iblk3 V c 0 t) (iblk3 V c 1 t) (iblk3 V c 2 t) (stateAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the launch hands over (every scoped buffer at anything, the
    generator register at some state); afterwards the same with the accumulator at what position `n - 1` left in it. -/
def carried3 (c : Dev nD) : (n : ℕ) → n ≤ cfg3.N → sProp 𝕄
  | 0, _ => Pipeline.ΦA spec3 c
  | n + 1, hn => iprop(iprop(owns (c : Thread nD τ) accM3 fullShare ((stateAt3 V c n hn).2)
      ∗ Pipeline.scopedRestBut (Ix := Unit) (Name := ℕ) (U := Pipeline.UD sig nD τ) (Lvl := ℕ) (Val := Elt F) spec3 c [cc3_scratch0]) ∗ (∃ r, prngReg c r))

theorem carried3_zero (c : Dev nD) (n : ℕ) (h : n ≤ cfg3.N) (hz : n = 0) : carried3 V c n h = Pipeline.ΦA spec3 c := by
  subst hz; rfl

theorem carried3_succ (c : Dev nD) (n : ℕ) (hn : n < cfg3.N) :
    carried3 V c (n + 1) hn = iprop(iprop(owns (c : Thread nD τ) accM3 fullShare ((stateAt3 V c n hn).2)
      ∗ Pipeline.scopedRestBut (Ix := Unit) (Name := ℕ) (U := Pipeline.UD sig nD τ) (Lvl := ℕ) (Val := Elt F) spec3 c [cc3_scratch0]) ∗ (∃ r, prngReg c r)) := rfl

theorem carried3_pos (c : Dev nD) (n : ℕ) (h : n ≤ cfg3.N) (hz : n ≠ 0) :
    carried3 V c n h = iprop(iprop(owns (c : Thread nD τ) accM3 fullShare ((stateAt3 V c (n - 1) (by omega)).2)
      ∗ Pipeline.scopedRestBut (Ix := Unit) (Name := ℕ) (U := Pipeline.UD sig nD τ) (Lvl := ℕ) (Val := Elt F) spec3 c [cc3_scratch0]) ∗ (∃ r, prngReg c r)) := by
  cases n with
  | zero => exact absurd rfl hz
  | succ n => rfl

/-! ## The pipeline's proof data -/

/-- The proof data of region 3 on core `c`: the arrays as the region finds them; after the body at point `t` each
    operand's buffer at its block and the output tile's at `stateAt3`'s first component; the invariant `carried3`;
    nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (stateAt3 V c t.val t.isLt).1
  Φ t := carried3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed_eq3 (c : Dev nD) (t) : (dat3 V c).owed t = 0 := by dsimp only [dat3]
theorem q_eq3 (c : Dev nD) (w : Fin cfg3.W) : (dat3 V c).q w = fullShare := by dsimp only [dat3]

theorem carried3_castSucc (c : Dev nD) (t : Fin cfg3.N) :
    (dat3 V c).Φ t.castSucc = carried3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (stateAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The operands' buffers hold their blocks; the closed forms say which case the point is in;
    the invariant hands the body the accumulator at what the point before left (at anything at the very first point) and
    takes it back at this point's contents; off the last contraction tile the output tile goes back untouched, on it
    it comes back stored. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = carried3 V c (t.val + 1) t.isLt from rfl, carried3_succ]
  have hN : t.val < 50 := lt_of_lt_of_eq t.isLt (show cfg3.N = 50 from N_3)
  by_cases h0 : t.val % 10 = 0
  · have h1 : ¬t.val % 10 = 9 := by omega
    rw [show (dat3 V c).leavesExact 0 t = owns (c : Thread nD τ) (ms3_0 t) fullShare ((dat3 V c).after 0 t) from by
      unfold Dat.leavesExact; rw [live3_0 t], after3_0]
    rw [show (dat3 V c).leavesExact 1 t = owns (c : Thread nD τ) (ms3_1 t) fullShare ((dat3 V c).after 1 t) from by
      unfold Dat.leavesExact; rw [live3_1 t], after3_1]
    rw [show (dat3 V c).leavesExact 2 t = owns (c : Thread nD τ) (ms3_2 t) fullShare ((dat3 V c).after 2 t) from by
      unfold Dat.leavesExact; rw [live3_2 t], after3_2]
    rw [Dat.leavesExact_idle (dat3 V c) 3 t (idle3_3 t (fun h => h1 ((isLast3_iff t).mp h))) (noFlush3_3 t (fun h => h1 ((isLast3_iff t).mp h)))]
    rw [stateAt3_first V c t h0 h1]
    unfold accFirst3; (try dsimp only)
    by_cases hz : t.val = 0
    · rw [carried3_castSucc V c t, carried3_zero V c _ _ hz, entry3_eq]
      iintro ⟨⟨⟨HS, HR⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst3 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [carried3_castSucc V c t, carried3_pos V c _ _ hz]
      iintro ⟨⟨⟨HS, HR⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst3 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dat3 V c).leavesExact 0 t = owns (c : Thread nD τ) (ms3_0 t) fullShare ((dat3 V c).after 0 t) from by
        unfold Dat.leavesExact; rw [live3_0 t], after3_0]
      rw [show (dat3 V c).leavesExact 1 t = owns (c : Thread nD τ) (ms3_1 t) fullShare ((dat3 V c).after 1 t) from by
        unfold Dat.leavesExact; rw [live3_1 t], after3_1]
      rw [show (dat3 V c).leavesExact 2 t = owns (c : Thread nD τ) (ms3_2 t) fullShare ((dat3 V c).after 2 t) from by
        unfold Dat.leavesExact; rw [live3_2 t], after3_2]
      rw [show (dat3 V c).leavesExact 3 t = owns (c : Thread nD τ) (ms3_3 t) fullShare ((dat3 V c).after 3 t) from by
        unfold Dat.leavesExact; rw [live3_3 t ((isLast3_iff t).mpr h1)], after3_3]
      rw [stateAt3_last V c t h0 h1]
      unfold outLast3 accLast3; (try dsimp only)
      rw [carried3_castSucc V c t, carried3_pos V c _ _ hz]
      iintro ⟨⟨⟨HS, HR⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((isFirst3_iff t).mp h)) ((isLast3_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast3 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast3 c _ _ _ _ _ _ _ _ _ _ _ _ _ _ _ _ _)
    · rw [show (dat3 V c).leavesExact 0 t = owns (c : Thread nD τ) (ms3_0 t) fullShare ((dat3 V c).after 0 t) from by
        unfold Dat.leavesExact; rw [live3_0 t], after3_0]
      rw [show (dat3 V c).leavesExact 1 t = owns (c : Thread nD τ) (ms3_1 t) fullShare ((dat3 V c).after 1 t) from by
        unfold Dat.leavesExact; rw [live3_1 t], after3_1]
      rw [show (dat3 V c).leavesExact 2 t = owns (c : Thread nD τ) (ms3_2 t) fullShare ((dat3 V c).after 2 t) from by
        unfold Dat.leavesExact; rw [live3_2 t], after3_2]
      rw [Dat.leavesExact_idle (dat3 V c) 3 t (idle3_3 t (fun h => h1 ((isLast3_iff t).mp h))) (noFlush3_3 t (fun h => h1 ((isLast3_iff t).mp h)))]
      rw [stateAt3_mid V c t h0 h1]
      unfold accMid3; (try dsimp only)
      rw [carried3_castSucc V c t, carried3_pos V c _ _ hz]
      iintro ⟨⟨⟨HS, HR⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((isFirst3_iff t).mp h)) (fun h => h1 ((isLast3_iff t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverMid3 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = carried3 V c 0 (Nat.zero_le _) from rfl, carried3_zero V c 0 _ rfl]
  try exact Idealize.SL.BI.Entails.refl _

/-- After any point the invariant gives the launch's form back: what the accumulator holds is forgotten. -/
theorem carried3_out (c : Dev nD) (t : Fin (cfg3.N + 1)) (ht : t.val ≠ 0) : (dat3 V c).Φ t ⊢ (Pipeline.ΦA spec3 c : sProp 𝕄) := by
  rw [show (dat3 V c).Φ t = carried3 V c t.val (Nat.le_of_lt_succ t.isLt) from rfl, carried3_pos V c _ _ ht, entry3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ (Pipeline.ΦA spec3 c : sProp 𝕄) :=
  carried3_out V c _ (by rw [Fin.val_last]; have : cfg3.N = 50 := N_3; omega)

end Cert.Kernel.Hand

end
-- ==== Proof.KReg4Run.lean ====
/-
  Region 4: the head's first dense layer, a rectified matrix product. A row tile of 2048 rows of the left operand (10240 × 256) is multiplied into the whole right
  operand (256 × 256); the single tile of the contracted axis means that at each of the five grid points the
  accumulator is cleared, receives the one partial product, and is at once copied, with the bias row added and the
  result rectified (max with 0), into the output tile, which is written back at every point. Nothing is carried from one point to
  the next, so the region's invariant never has to say what the accumulator holds.

  This file states the body's run for any float interpretation: what a point's body leaves in the output tile
  is a function of the three operand tiles at that point.
-/
import proofs.«173524_j83966610637551_1_alg».proof.Proof.Gen.Kernel.Launch
import proofs.«173524_j83966610637551_1_alg».proof.Proof.Gen.Kernel.Skeleton
import proofs.«173524_j83966610637551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond4_0 (i : grid4.Coords) : Prop :=
  (Scalar.cmpi .ne (Scalar.extui (Scalar.cmpi .eq (BitVec.ofNat 32 (i 1).val) 0#32)) 0#32) = 1#1
theorem hcond4_0 : ∀ t : Fin cfg4.N, cond4_0 (grid4.coords t) :=
  (by decide +kernel : ∀ t : Fin grid4.N, cond4_0 (grid4.coords t))

/-- The second test: is this the last tile of the contracted axis? -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- Hence no window is idle at any point. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel

/-! ## The operand tiles -/

/-- Window w's tile at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand window's current buffer holds its tile at every point, whether or not the tile was fetched there:
    where it was not, the tile's position has not moved. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body on any buffers -/

/-- One buffer of the output window, through which its contents are stated (the choice does not matter). -/
abbrev VO4_3 : View sig .tc .vmem S2048x256 .f32 := (Memref.whole cc4_stg3_0 : Memref sig .tc .vmem S2048x256 .f32).view
/-- Each window's current buffer at point t, and that it is a whole buffer. -/
abbrev ms4_0 (t : Fin cfg4.N) : Memref sig .tc .vmem S2048x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x256 .f32 := win4_3.stage (cfg4.slots t 3)
abbrev hs4_3 (t : Fin cfg4.N) : (ms4_3 t).IsWhole := hstage4_3 ((cfg4.slots t 3).cast nbuf4_3)
/-- The accumulator: a whole buffer of the call's own. -/
abbrev scM4_0 : Memref sig .tc .vmem S2048x256 .f32 := Memref.whole cc4_scratch0

/-- The region's invariant with the accumulator taken out as a buffer owned at some contents. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := Pipeline.UD sig nD τ) (Lvl := ℕ) (Val := Elt F) spec4 c [cc4_scratch0])
          ∗ (∃ r, prngReg c r)) := by
  unfold Pipeline.ΦA; rw [scopedRest4_split]; simp only [scM4_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun4 (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) :
    { L3 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc4__mm_kernel i arg2 harg2 arg3 harg3 arg4 harg4 arg5 harg5 arg6 harg6) K } := by
  refine ⟨?_, fun E K => ?run⟩
  case run =>
    simp only [cc4__mm_kernel_eq_skeleton]; unfold cc4__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.Kernel.Hand

end
-- ==== Proof.KReg4.lean ====
/-
  Region 4, continued: the pipeline's proof data for the head's first dense layer, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.KReg4Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover4_3 (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) (y : S2048x256.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S2048x256.size (by sl_kernel_rfl) y

/-- What the run leaves in the output window's buffer: its pieces read back. -/
def out4_3 (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) : Vec F S2048x256 .f32 :=
  VO4_3.read (Elt F) (VO4_3.writes (Elt F) VO4_3.junk (kernelRun4 c i arg2 harg2 arg3 harg3 arg4 harg4 arg5 harg5 arg6 harg6 hc0 hc1 x0 x1 x2).1)

/-- What the output window's buffer holds after the body at point t: the run's contents at the point's buffers and
    operand tiles. -/
def outsAt4 (c : Dev nD) (t : Fin cfg4.N) : Vec F S2048x256 .f32 :=
  out4_3 c (grid4.coords t) (ms4_0 t) (hs4_0 t) (ms4_1 t) (hs4_1 t) (ms4_2 t) (hs4_2 t) (ms4_3 t) (hs4_3 t) scM4_0 (Memref.isWhole_whole _)
    (hcond4_0 t) (hcond4_1 t) (iblk4 V c 0 t) (iblk4 V c 1 t) (iblk4 V c 2 t)

/-! ## The pipeline's proof data -/

/-- The proof data of the region on core c: the arrays as the region finds them; after the body at point t each
    operand's buffer at its tile and the output's at outsAt4; the same invariant at every point; nothing owed;
    full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem owed_eq4 (c : Dev nD) (t) : (dat4 V c).owed t = 0 := by dsimp only [dat4]
theorem q_eq4 (c : Dev nD) (w : Fin cfg4.W) : (dat4 V c).q w = fullShare := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = (dat4 V c).Φ t.castSucc from rfl]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  rw [show (dat4 V c).Φ t.castSucc = Pipeline.ΦA spec4 c from rfl, PhiA4_eq]
  unfold outsAt4 out4_3
  iintro ⟨⟨⟨HS0, HR⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

/-- The body's obligation to the pipeline, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point, -/
theorem hin4 (c : Dev nD) : (Pipeline.ΦA spec4 c : sProp 𝕄) ⊢ (dat4 V c).Φ 0 := by
  rw [show (dat4 V c).Φ 0 = Pipeline.ΦA spec4 c from rfl]
  try exact Idealize.SL.BI.Entails.refl _

/-- and the invariant after the last point gives it back. -/
theorem hout4 (c : Dev nD) : (dat4 V c).Φ (Fin.last cfg4.N) ⊢ (Pipeline.ΦA spec4 c : sProp 𝕄) := by
  rw [show (dat4 V c).Φ (Fin.last cfg4.N) = Pipeline.ΦA spec4 c from rfl]
  try exact Idealize.SL.BI.Entails.refl _

end Cert.Kernel.Hand

end
-- ==== Proof.KReg5Run.lean ====
/-
  Region 5: the head's second dense layer, a matrix product. A row tile of 2048 rows of the left operand (10240 × 256) is multiplied into the whole right
  operand (256 × 8); the single tile of the contracted axis means that at each of the five grid points the
  accumulator is cleared, receives the one partial product, and is at once copied, with the bias row added, into the output tile, which is written back at every point. Nothing is carried from one point to
  the next, so the region's invariant never has to say what the accumulator holds.

  This file states the body's run for any float interpretation: what a point's body leaves in the output tile
  is a function of the three operand tiles at that point.
-/
import proofs.«173524_j83966610637551_1_alg».proof.Proof.Gen.Kernel.Launch
import proofs.«173524_j83966610637551_1_alg».proof.Proof.Gen.Kernel.Skeleton
import proofs.«173524_j83966610637551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two tests on the contracted-axis coordinate

The contracted axis has one tile, so its coordinate is 0 at every grid point: the test "first tile" and the test
"last tile" both succeed everywhere. -/

/-- The first test: is this the first tile of the contracted axis? -/
abbrev cond5_0 (i : grid5.Coords) : Prop :=
  (Scalar.cmpi .ne (Scalar.extui (Scalar.cmpi .eq (BitVec.ofNat 32 (i 1).val) 0#32)) 0#32) = 1#1
theorem hcond5_0 : ∀ t : Fin cfg5.N, cond5_0 (grid5.coords t) :=
  (by decide +kernel : ∀ t : Fin grid5.N, cond5_0 (grid5.coords t))

/-- The second test: is this the last tile of the contracted axis? -/
abbrev cond5_1 (i : grid5.Coords) : Prop := k5_cond2 i = 1#1
theorem hcond5_1 : ∀ t : Fin cfg5.N, cond5_1 (grid5.coords t) :=
  (by decide +kernel : ∀ t : Fin grid5.N, cond5_1 (grid5.coords t))

/-- Hence no window is idle at any point. -/
theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
theorem live5_3 : ∀ t : Fin cfg5.N, cfg5.idle 3 (grid5.coords t) = false := by decide +kernel

/-! ## The operand tiles -/

/-- Window w's tile at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand window's current buffer holds its tile at every point, whether or not the tile was fetched there:
    where it was not, the tile's position has not moved. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body on any buffers -/

/-- One buffer of the output window, through which its contents are stated (the choice does not matter). -/
abbrev VO5_3 : View sig .tc .vmem S2048x8 .f32 := (Memref.whole cc5_stg3_0 : Memref sig .tc .vmem S2048x8 .f32).view
/-- Each window's current buffer at point t, and that it is a whole buffer. -/
abbrev ms5_0 (t : Fin cfg5.N) : Memref sig .tc .vmem S2048x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x8 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x8 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x8 .f32 := win5_3.stage (cfg5.slots t 3)
abbrev hs5_3 (t : Fin cfg5.N) : (ms5_3 t).IsWhole := hstage5_3 ((cfg5.slots t 3).cast nbuf5_3)
/-- The accumulator: a whole buffer of the call's own. -/
abbrev scM5_0 : Memref sig .tc .vmem S2048x8 .f32 := Memref.whole cc5_scratch0

/-- The region's invariant with the accumulator taken out as a buffer owned at some contents. -/
theorem PhiA5_eq (c : Dev nD) :
    (Pipeline.ΦA spec5 c : sProp 𝕄)
      = iprop(iprop((∃ d, owns (c : Thread nD τ) scM5_0 fullShare d)
          ∗ Pipeline.scopedRestBut (Ix := Unit) (Name := ℕ) (U := Pipeline.UD sig nD τ) (Lvl := ℕ) (Val := Elt F) spec5 c [cc5_scratch0])
          ∗ (∃ r, prngReg c r)) := by
  unfold Pipeline.ΦA; rw [scopedRest5_split]; simp only [scM5_0, owns_whole]; try rfl

set_option maxHeartbeats 1000000 in
/-- What the body's stores leave in the output buffer, as pieces (last first), with the proof that on whole buffers —
    the operands' at their contents, the output's and the accumulator's at anything — the body runs to the end
    holding the operands' as they were, the accumulator at some contents and the output's with its pieces written.
    Both tests succeed (hc0, hc1), so the accumulator is cleared, added to, and copied out with the bias. -/
noncomputable def kernelRun5 (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) :
    { L3 : List (View.Piece (Elt F) S2048x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc5__mm_kernel i arg2 harg2 arg3 harg3 arg4 harg4 arg5 harg5 arg6 harg6) K } := by
  refine ⟨?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr; swap; · iexact HS0
    ipureintro; rfl

end Cert.Kernel.Hand

end
-- ==== Proof.KReg5.lean ====
/-
  Region 5, continued: the pipeline's proof data for the head's second dense layer, and the body's
  obligation to the pipeline. After the body at a grid point the three operand windows' buffers still hold their
  tiles and the output window's buffer holds what the body's one store of the whole tile wrote; the region's
  invariant is the same at every point, because the accumulator is cleared before it is read.
-/
import proofs.«173524_j83966610637551_1_alg».proof.Proof.KReg5Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body leaves in the output tile -/

/-- The run's pieces for the output tile it (one store of the whole tile), so they cover it. -/
theorem cover5_3 (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) (y : S2048x8.Idx) :
    ∃ pc ∈ (kernelRun5 c i arg2 harg2 arg3 harg3 arg4 harg4 arg5 harg5 arg6 harg6 hc0 hc1 x0 x1 x2).1, y ∈ pc.1.set :=
  View.cover_of_tiledL (kernelRun5 c i arg2 harg2 arg3 harg3 arg4 harg4 arg5 harg5 arg6 harg6 hc0 hc1 x0 x1 x2).1 S2048x8.size (by sl_kernel_rfl) y

/-- What the run leaves in the output window's buffer: its pieces read back. -/
def out5_3 (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) : Vec F S2048x8 .f32 :=
  VO5_3.read (Elt F) (VO5_3.writes (Elt F) VO5_3.junk (kernelRun5 c i arg2 harg2 arg3 harg3 arg4 harg4 arg5 harg5 arg6 harg6 hc0 hc1 x0 x1 x2).1)

/-- What the output window's buffer holds after the body at point t: the run's contents at the point's buffers and
    operand tiles. -/
def outsAt5 (c : Dev nD) (t : Fin cfg5.N) : Vec F S2048x8 .f32 :=
  out5_3 c (grid5.coords t) (ms5_0 t) (hs5_0 t) (ms5_1 t) (hs5_1 t) (ms5_2 t) (hs5_2 t) (ms5_3 t) (hs5_3 t) scM5_0 (Memref.isWhole_whole _)
    (hcond5_0 t) (hcond5_1 t) (iblk5 V c 0 t) (iblk5 V c 1 t) (iblk5 V c 2 t)

/-! ## The pipeline's proof data -/

/-- The proof data of the region on core c: the arrays as the region finds them; after the body at point t each
    operand's buffer at its tile and the output's at outsAt5; the same invariant at every point; nothing owed;
    full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem owed_eq5 (c : Dev nD) (t) : (dat5 V c).owed t = 0 := by dsimp only [dat5]
theorem q_eq5 (c : Dev nD) (w : Fin cfg5.W) : (dat5 V c).q w = fullShare := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 1600000 in
/-- The body at any point: the operands' buffers hold their tiles, both tests succeed, so the run applies; the
    invariant hands the body its accumulator and the generator register at some contents and takes them back at
    some contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    show (dat5 V c).Φ t.succ = (dat5 V c).Φ t.castSucc from rfl]
  rw [show (dat5 V c).leavesExact 0 t = owns (c : Thread nD τ) (ms5_0 t) fullShare ((dat5 V c).after 0 t) from by
    unfold Dat.leavesExact; rw [live5_0 t], after5_0]
  rw [show (dat5 V c).leavesExact 1 t = owns (c : Thread nD τ) (ms5_1 t) fullShare ((dat5 V c).after 1 t) from by
    unfold Dat.leavesExact; rw [live5_1 t], after5_1]
  rw [show (dat5 V c).leavesExact 2 t = owns (c : Thread nD τ) (ms5_2 t) fullShare ((dat5 V c).after 2 t) from by
    unfold Dat.leavesExact; rw [live5_2 t], after5_2]
  rw [show (dat5 V c).leavesExact 3 t = owns (c : Thread nD τ) (ms5_3 t) fullShare ((dat5 V c).after 3 t) from by
    unfold Dat.leavesExact; rw [live5_3 t], after5_3]
  rw [show (dat5 V c).Φ t.castSucc = Pipeline.ΦA spec5 c from rfl, PhiA5_eq]
  unfold outsAt5 out5_3
  iintro ⟨⟨⟨HS0, HR⟩, Hg⟩, Ho, ⟨%d0, H0⟩, ⟨%d1, H1⟩, ⟨%d2, H2⟩, ⟨%d3, H3⟩⟩
  iapply ((kernelRun5 c (grid5.coords t) _ _ _ _ _ _ _ _ _ _ (hcond5_0 t) (hcond5_1 t) (iblk5 V c 0 t) (iblk5 V c 1 t) (iblk5 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_3 c _ _ _ _ _ _ _ _ _ _ _ _ _ _ _ _)

/-- The body's obligation to the pipeline, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point, -/
theorem hin5 (c : Dev nD) : (Pipeline.ΦA spec5 c : sProp 𝕄) ⊢ (dat5 V c).Φ 0 := by
  rw [show (dat5 V c).Φ 0 = Pipeline.ΦA spec5 c from rfl]
  try exact Idealize.SL.BI.Entails.refl _

/-- and the invariant after the last point gives it back. -/
theorem hout5 (c : Dev nD) : (dat5 V c).Φ (Fin.last cfg5.N) ⊢ (Pipeline.ΦA spec5 c : sProp 𝕄) := by
  rw [show (dat5 V c).Φ (Fin.last cfg5.N) = Pipeline.ΦA spec5 c from rfl]
  try exact Idealize.SL.BI.Entails.refl _

end Cert.Kernel.Hand

end
-- ==== Proof.KRun.lean ====
/-
  The kernel program as a whole: six blocked matrix-product regions between host stretches.

  Between two items every unscoped buffer of a core is held whole at a known valuation: the launch memory, then
  `StableHlo.after` each host stretch, then — across a region — the region's four arrays at what its pipeline
  leaves and every other buffer as it was. Each region is entered from that thread state and left at the next one;
  the regions' body obligations and invariants come from the per-region modules. The run of the fifteen items then
  says that every weakly fair execution terminates with each unscoped buffer at the last valuation, from which the
  frame (no item writes an argument) is read off.
-/
import proofs.«173524_j83966610637551_1_alg».proof.Proof.Gen.Kernel.Points
import proofs.«173524_j83966610637551_1_alg».proof.Proof.Gen.Kernel.Launch
import proofs.«173524_j83966610637551_1_alg».proof.Proof.Gen.Kernel.Skeleton
import proofs.«173524_j83966610637551_1_alg».proof.Proof.Gen.Kernel.Regions
import proofs.«173524_j83966610637551_1_alg».proof.Proof.KReg0
import proofs.«173524_j83966610637551_1_alg».proof.Proof.KReg1
import proofs.«173524_j83966610637551_1_alg».proof.Proof.KReg2
import proofs.«173524_j83966610637551_1_alg».proof.Proof.KReg3
import proofs.«173524_j83966610637551_1_alg».proof.Proof.KReg4
import proofs.«173524_j83966610637551_1_alg».proof.Proof.KReg5
import Idealize.ShloMosaic.Lib.Pipeline.Frame
import Idealize.ShloMosaic.Lib.Pipeline.FrameBody
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What every buffer holds at each boundary between the host stretches and the kernel regions -/

/-- A valuation read at the TensorCore's references: the form a region's proof data takes its entry contents in. -/
abbrev atRefs (W : Dev nD → Valuation τ sig (Elt F)) : (c : Dev nD) → (b : Ref sig .tc) → Buf (Elt F) ((c : Thread nD τ).loc b) := fun c b => W c b

/-- The contents when region 0 is entered: the launch memory after the three host stretches. -/
abbrev W3 : Dev nD → Valuation τ sig (Elt F) := fun c => V3 m c
/-- After region 0: its arrays at what the pipeline leaves, every other buffer as entered. -/
def W4 (c : Dev nD) : Valuation τ sig (Elt F) :=
  Pipeline.withArrays spec0 c (W3 m c) fun w => (dat0 (atRefs (W3 m)) c).arrAt w cfg0.N
theorem W4_arr (c : Dev nD) (w : Fin cfg0.W) :
    W4 m c (Proc.devRef .tc (Pipeline.arrRef spec0 w)) = (dat0 (atRefs (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (atRefs (W3 m)) c).arrAt w cfg0.N = atRefs (W4 m) c (Pipeline.arrRef spec0 w) :=
  (W4_arr m c w).symm
theorem hrest0 (c : Dev nD) : ∀ b, b ∉ Finset.univ.image (Pipeline.arrRef spec0) → atRefs (W4 m) c b = atRefs (W3 m) c b :=
  fun b hb => W4_of_ne m c b fun w e => hb (Finset.mem_image.mpr ⟨w, Finset.mem_univ _, e⟩)
/-- After the host stretch that follows region 0. -/
abbrev W5 : Dev nD → Valuation τ sig (Elt F) := fun c => StableHlo.after hostOps1 (W4 m c)
/-- After region 1: its arrays at what the pipeline leaves, every other buffer as entered. -/
def W6 (c : Dev nD) : Valuation τ sig (Elt F) :=
  Pipeline.withArrays spec1 c (W5 m c) fun w => (dat1 (atRefs (W5 m)) c).arrAt w cfg1.N
theorem W6_arr (c : Dev nD) (w : Fin cfg1.W) :
    W6 m c (Proc.devRef .tc (Pipeline.arrRef spec1 w)) = (dat1 (atRefs (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (atRefs (W5 m)) c).arrAt w cfg1.N = atRefs (W6 m) c (Pipeline.arrRef spec1 w) :=
  (W6_arr m c w).symm
theorem hrest1 (c : Dev nD) : ∀ b, b ∉ Finset.univ.image (Pipeline.arrRef spec1) → atRefs (W6 m) c b = atRefs (W5 m) c b :=
  fun b hb => W6_of_ne m c b fun w e => hb (Finset.mem_image.mpr ⟨w, Finset.mem_univ _, e⟩)
/-- After the host stretch that follows region 1. -/
abbrev W7 : Dev nD → Valuation τ sig (Elt F) := fun c => StableHlo.after hostOps2 (W6 m c)
/-- After region 2: its arrays at what the pipeline leaves, every other buffer as entered. -/
def W8 (c : Dev nD) : Valuation τ sig (Elt F) :=
  Pipeline.withArrays spec2 c (W7 m c) fun w => (dat2 (atRefs (W7 m)) c).arrAt w cfg2.N
theorem W8_arr (c : Dev nD) (w : Fin cfg2.W) :
    W8 m c (Proc.devRef .tc (Pipeline.arrRef spec2 w)) = (dat2 (atRefs (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (atRefs (W7 m)) c).arrAt w cfg2.N = atRefs (W8 m) c (Pipeline.arrRef spec2 w) :=
  (W8_arr m c w).symm
theorem hrest2 (c : Dev nD) : ∀ b, b ∉ Finset.univ.image (Pipeline.arrRef spec2) → atRefs (W8 m) c b = atRefs (W7 m) c b :=
  fun b hb => W8_of_ne m c b fun w e => hb (Finset.mem_image.mpr ⟨w, Finset.mem_univ _, e⟩)
/-- After the host stretch that follows region 2. -/
abbrev W9 : Dev nD → Valuation τ sig (Elt F) := fun c => StableHlo.after hostOps3 (W8 m c)
/-- After region 3: its arrays at what the pipeline leaves, every other buffer as entered. -/
def W10 (c : Dev nD) : Valuation τ sig (Elt F) :=
  Pipeline.withArrays spec3 c (W9 m c) fun w => (dat3 (atRefs (W9 m)) c).arrAt w cfg3.N
theorem W10_arr (c : Dev nD) (w : Fin cfg3.W) :
    W10 m c (Proc.devRef .tc (Pipeline.arrRef spec3 w)) = (dat3 (atRefs (W9 m)) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem hF3 (c : Dev nD) (w : Fin cfg3.W) : (dat3 (atRefs (W9 m)) c).arrAt w cfg3.N = atRefs (W10 m) c (Pipeline.arrRef spec3 w) :=
  (W10_arr m c w).symm
theorem hrest3 (c : Dev nD) : ∀ b, b ∉ Finset.univ.image (Pipeline.arrRef spec3) → atRefs (W10 m) c b = atRefs (W9 m) c b :=
  fun b hb => W10_of_ne m c b fun w e => hb (Finset.mem_image.mpr ⟨w, Finset.mem_univ _, e⟩)
/-- After the host stretch that follows region 3. -/
abbrev W11 : Dev nD → Valuation τ sig (Elt F) := fun c => StableHlo.after hostOps4 (W10 m c)
/-- After region 4: its arrays at what the pipeline leaves, every other buffer as entered. -/
def W12 (c : Dev nD) : Valuation τ sig (Elt F) :=
  Pipeline.withArrays spec4 c (W11 m c) fun w => (dat4 (atRefs (W11 m)) c).arrAt w cfg4.N
theorem W12_arr (c : Dev nD) (w : Fin cfg4.W) :
    W12 m c (Proc.devRef .tc (Pipeline.arrRef spec4 w)) = (dat4 (atRefs (W11 m)) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem hF4 (c : Dev nD) (w : Fin cfg4.W) : (dat4 (atRefs (W11 m)) c).arrAt w cfg4.N = atRefs (W12 m) c (Pipeline.arrRef spec4 w) :=
  (W12_arr m c w).symm
theorem hrest4 (c : Dev nD) : ∀ b, b ∉ Finset.univ.image (Pipeline.arrRef spec4) → atRefs (W12 m) c b = atRefs (W11 m) c b :=
  fun b hb => W12_of_ne m c b fun w e => hb (Finset.mem_image.mpr ⟨w, Finset.mem_univ _, e⟩)
/-- After the host stretch that follows region 4. -/
abbrev W13 : Dev nD → Valuation τ sig (Elt F) := fun c => StableHlo.after hostOps5 (W12 m c)
/-- After region 5: its arrays at what the pipeline leaves, every other buffer as entered. -/
def W14 (c : Dev nD) : Valuation τ sig (Elt F) :=
  Pipeline.withArrays spec5 c (W13 m c) fun w => (dat5 (atRefs (W13 m)) c).arrAt w cfg5.N
theorem W14_arr (c : Dev nD) (w : Fin cfg5.W) :
    W14 m c (Proc.devRef .tc (Pipeline.arrRef spec5 w)) = (dat5 (atRefs (W13 m)) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
theorem hF5 (c : Dev nD) (w : Fin cfg5.W) : (dat5 (atRefs (W13 m)) c).arrAt w cfg5.N = atRefs (W14 m) c (Pipeline.arrRef spec5 w) :=
  (W14_arr m c w).symm
theorem hrest5 (c : Dev nD) : ∀ b, b ∉ Finset.univ.image (Pipeline.arrRef spec5) → atRefs (W14 m) c b = atRefs (W13 m) c b :=
  fun b hb => W14_of_ne m c b fun w e => hb (Finset.mem_image.mpr ⟨w, Finset.mem_univ _, e⟩)
/-- After the host stretch that follows region 5. -/
abbrev W15 : Dev nD → Valuation τ sig (Elt F) := fun c => StableHlo.after hostOps6 (W14 m c)

/-! ## The proof data of the six pipelines, the thread state, the host stretches as segments -/

/-- Every pipeline's proof data, each at its region's entry contents. -/
def pdats : (p : Fin 6) → (c : Dev nD) → Dat τ (Elt F) Unit ℕ (Pipeline.UD sig nD τ) ℕ (cfgs p) c
  | ⟨0, _⟩ => fun c => dat0 (atRefs (W3 m)) c
  | ⟨1, _⟩ => fun c => dat1 (atRefs (W5 m)) c
  | ⟨2, _⟩ => fun c => dat2 (atRefs (W7 m)) c
  | ⟨3, _⟩ => fun c => dat3 (atRefs (W9 m)) c
  | ⟨4, _⟩ => fun c => dat4 (atRefs (W11 m)) c
  | ⟨5, _⟩ => fun c => dat5 (atRefs (W13 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W3`, left with them at `W4`. Its four
    arrays are split out of the unscoped buffers and put back at what the pipeline leaves; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (W3 m)) c).loose
  hwaits := Pipeline.hwaits_of_owed_zero _ _ _ _ L lv 0 fun c t => owed_eq0 (atRefs (W3 m)) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (atRefs (W3 m) c)
  hentry c := by
    rw [Pipeline.ownSems0_none]
    have hsplit := Pipeline.arrays_of_unscopedBufs (p := 0) (pcfgs (F := F)) adm (pdats m) launch0.win launch0.arr_whole c
      ((pdats m 0 c).share_full fun w => q_eq0 (atRefs (W3 m)) c w) (atRefs (W3 m) c) fun w => A_eq0 (atRefs (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (atRefs (W3 m)) c).Φ 0 from rfl]
    iintro ⟨Hp, -, Hr⟩
    iapply (hin0 (atRefs (W3 m)) c)
    unfold Pipeline.ΦA
    isplitl [Hr]; · iexact Hr
    iexact Hp
  hout c := by
    rw [Pipeline.ownSems0_none, show (pdats m 0 c).Φ (Fin.last _) = (dat0 (atRefs (W3 m)) c).Φ (Fin.last cfg0.N) from rfl]
    iintro H
    ihave H' := (hout0 (atRefs (W3 m)) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun w => q_eq0 (atRefs (W3 m)) c w)
      (atRefs (W3 m) c) (atRefs (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its four
    arrays are split out of the unscoped buffers and put back at what the pipeline leaves; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (W5 m)) c).loose
  hwaits := Pipeline.hwaits_of_owed_zero _ _ _ _ L lv 1 fun c t => owed_eq1 (atRefs (W5 m)) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (atRefs (W5 m) c)
  hentry c := by
    rw [Pipeline.ownSems0_none]
    have hsplit := Pipeline.arrays_of_unscopedBufs (p := 1) (pcfgs (F := F)) adm (pdats m) launch1.win launch1.arr_whole c
      ((pdats m 1 c).share_full fun w => q_eq1 (atRefs (W5 m)) c w) (atRefs (W5 m) c) fun w => A_eq1 (atRefs (W5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (atRefs (W5 m)) c).Φ 0 from rfl]
    iintro ⟨Hp, -, Hr⟩
    iapply (hin1 (atRefs (W5 m)) c)
    unfold Pipeline.ΦA
    isplitl [Hr]; · iexact Hr
    iexact Hp
  hout c := by
    rw [Pipeline.ownSems0_none, show (pdats m 1 c).Φ (Fin.last _) = (dat1 (atRefs (W5 m)) c).Φ (Fin.last cfg1.N) from rfl]
    iintro H
    ihave H' := (hout1 (atRefs (W5 m)) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun w => q_eq1 (atRefs (W5 m)) c w)
      (atRefs (W5 m) c) (atRefs (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its four
    arrays are split out of the unscoped buffers and put back at what the pipeline leaves; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W7 m)) c).loose
  hwaits := Pipeline.hwaits_of_owed_zero _ _ _ _ L lv 2 fun c t => owed_eq2 (atRefs (W7 m)) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (atRefs (W7 m) c)
  hentry c := by
    rw [Pipeline.ownSems0_none]
    have hsplit := Pipeline.arrays_of_unscopedBufs (p := 2) (pcfgs (F := F)) adm (pdats m) launch2.win launch2.arr_whole c
      ((pdats m 2 c).share_full fun w => q_eq2 (atRefs (W7 m)) c w) (atRefs (W7 m) c) fun w => A_eq2 (atRefs (W7 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (atRefs (W7 m)) c).Φ 0 from rfl]
    iintro ⟨Hp, -, Hr⟩
    iapply (hin2 (atRefs (W7 m)) c)
    unfold Pipeline.ΦA
    isplitl [Hr]; · iexact Hr
    iexact Hp
  hout c := by
    rw [Pipeline.ownSems0_none, show (pdats m 2 c).Φ (Fin.last _) = (dat2 (atRefs (W7 m)) c).Φ (Fin.last cfg2.N) from rfl]
    iintro H
    ihave H' := (hout2 (atRefs (W7 m)) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun w => q_eq2 (atRefs (W7 m)) c w)
      (atRefs (W7 m) c) (atRefs (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its four
    arrays are split out of the unscoped buffers and put back at what the pipeline leaves; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W9 m)) c).loose
  hwaits := Pipeline.hwaits_of_owed_zero _ _ _ _ L lv 3 fun c t => owed_eq3 (atRefs (W9 m)) c t
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (atRefs (W9 m) c)
  hentry c := by
    rw [Pipeline.ownSems0_none]
    have hsplit := Pipeline.arrays_of_unscopedBufs (p := 3) (pcfgs (F := F)) adm (pdats m) launch3.win launch3.arr_whole c
      ((pdats m 3 c).share_full fun w => q_eq3 (atRefs (W9 m)) c w) (atRefs (W9 m) c) fun w => A_eq3 (atRefs (W9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (atRefs (W9 m)) c).Φ 0 from rfl]
    iintro ⟨Hp, -, Hr⟩
    iapply (hin3 (atRefs (W9 m)) c)
    unfold Pipeline.ΦA
    isplitl [Hr]; · iexact Hr
    iexact Hp
  hout c := by
    rw [Pipeline.ownSems0_none, show (pdats m 3 c).Φ (Fin.last _) = (dat3 (atRefs (W9 m)) c).Φ (Fin.last cfg3.N) from rfl]
    iintro H
    ihave H' := (hout3 (atRefs (W9 m)) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun w => q_eq3 (atRefs (W9 m)) c w)
      (atRefs (W9 m) c) (atRefs (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W11`, left with them at `W12`. Its four
    arrays are split out of the unscoped buffers and put back at what the pipeline leaves; the generator register goes
    into the invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W11 m)) c).loose
  hwaits := Pipeline.hwaits_of_owed_zero _ _ _ _ L lv 4 fun c t => owed_eq4 (atRefs (W11 m)) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (atRefs (W11 m) c)
  hentry c := by
    rw [Pipeline.ownSems0_none]
    have hsplit := Pipeline.arrays_of_unscopedBufs (p := 4) (pcfgs (F := F)) adm (pdats m) launch4.win launch4.arr_whole c
      ((pdats m 4 c).share_full fun w => q_eq4 (atRefs (W11 m)) c w) (atRefs (W11 m) c) fun w => A_eq4 (atRefs (W11 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (atRefs (W11 m)) c).Φ 0 from rfl]
    iintro ⟨Hp, -, Hr⟩
    iapply (hin4 (atRefs (W11 m)) c)
    unfold Pipeline.ΦA
    isplitl [Hr]; · iexact Hr
    iexact Hp
  hout c := by
    rw [Pipeline.ownSems0_none, show (pdats m 4 c).Φ (Fin.last _) = (dat4 (atRefs (W11 m)) c).Φ (Fin.last cfg4.N) from rfl]
    iintro H
    ihave H' := (hout4 (atRefs (W11 m)) c) $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun w => q_eq4 (atRefs (W11 m)) c w)
      (atRefs (W11 m) c) (atRefs (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W13`, left with them at `W14`. Its four
    arrays are split out of the unscoped buffers and put back at what the pipeline leaves; the generator register goes
    into the invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (W13 m)) c).loose
  hwaits := Pipeline.hwaits_of_owed_zero _ _ _ _ L lv 5 fun c t => owed_eq5 (atRefs (W13 m)) c t
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (atRefs (W13 m) c)
  hentry c := by
    rw [Pipeline.ownSems0_none]
    have hsplit := Pipeline.arrays_of_unscopedBufs (p := 5) (pcfgs (F := F)) adm (pdats m) launch5.win launch5.arr_whole c
      ((pdats m 5 c).share_full fun w => q_eq5 (atRefs (W13 m)) c w) (atRefs (W13 m) c) fun w => A_eq5 (atRefs (W13 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (atRefs (W13 m)) c).Φ 0 from rfl]
    iintro ⟨Hp, -, Hr⟩
    iapply (hin5 (atRefs (W13 m)) c)
    unfold Pipeline.ΦA
    isplitl [Hr]; · iexact Hr
    iexact Hp
  hout c := by
    rw [Pipeline.ownSems0_none, show (pdats m 5 c).Φ (Fin.last _) = (dat5 (atRefs (W13 m)) c).Φ (Fin.last cfg5.N) from rfl]
    iintro H
    ihave H' := (hout5 (atRefs (W13 m)) c) $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun w => q_eq5 (atRefs (W13 m)) c w)
      (atRefs (W13 m) c) (atRefs (W14 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's fifteen items in order: a host segment per stretch from its boundary's contents, a region per kernel call. -/
abbrev segs : List (Pipeline.Seg (pcfgs (F := F)) adm (pdats m) () defs₀ 𝒱₀ L lv) :=
  [ .host (hseg hostOps0 hostOps0_sub hostOps0_fresh (fun c => V0 m c)),
    .host (hseg hostOps0_1 hostOps0_1_sub hostOps0_1_fresh (fun c => V1 m c)),
    .host (hseg hostOps0_2 hostOps0_2_sub hostOps0_2_fresh (fun c => V2 m c)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)) ]

/-- The last thread state without the core's dues: every unscoped buffer at the last boundary's contents, the generator register. -/
abbrev Tₙ (c : Dev nD) : sProp 𝕄 := iprop(StableHlo.held (c : Thread nD τ) (Pipeline.ucRefs τ sig) (W15 m c) ∗ ∃ r, prngReg c r)

set_option backward.isDefEq.respectTransparency.types false in
/-- THE RUN: from any memory with zero counters every weakly fair execution of @main terminates, nothing faulting, and
    every final state holds each unscoped buffer at the last boundary's contents `W15`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit_dev (pcfgs (F := F)) adm (pdats m) () cellOf_inj embL defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl,
      (show (iprop(StableHlo.held (c : Thread nD τ) (Pipeline.ucRefs τ sig) (W15 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-! ## The arguments end as launched -/
theorem W15_main_arg0 (c : Dev nD) : W15 m c (Proc.devRef .tc main_arg0) = m ((c : Thread nD τ).loc main_arg0) :=
  ((StableHlo.after_of_writes_sub hostOps6 _ hostOps6_writes (by decide : main_arg0 ∉ hostOps6_W)).trans ((W14_of_ne m c main_arg0 (by decide)).trans ((StableHlo.after_of_writes_sub hostOps5 _ hostOps5_writes (by decide : main_arg0 ∉ hostOps5_W)).trans ((W12_of_ne m c main_arg0 (by decide)).trans ((StableHlo.after_of_writes_sub hostOps4 _ hostOps4_writes (by decide : main_arg0 ∉ hostOps4_W)).trans ((W10_of_ne m c main_arg0 (by decide)).trans ((StableHlo.after_of_writes_sub hostOps3 _ hostOps3_writes (by decide : main_arg0 ∉ hostOps3_W)).trans ((W8_of_ne m c main_arg0 (by decide)).trans ((StableHlo.after_of_writes_sub hostOps2 _ hostOps2_writes (by decide : main_arg0 ∉ hostOps2_W)).trans ((W6_of_ne m c main_arg0 (by decide)).trans ((StableHlo.after_of_writes_sub hostOps1 _ hostOps1_writes (by decide : main_arg0 ∉ hostOps1_W)).trans (W4_of_ne m c main_arg0 (by decide))))))))))))).trans ((V3_of m c main_arg0 (by decide)).trans ((V2_of m c main_arg0 (by decide)).trans ((V1_of m c main_arg0 (by decide)).trans rfl)))
theorem W15_main_arg1 (c : Dev nD) : W15 m c (Proc.devRef .tc main_arg1) = m ((c : Thread nD τ).loc main_arg1) :=
  ((StableHlo.after_of_writes_sub hostOps6 _ hostOps6_writes (by decide : main_arg1 ∉ hostOps6_W)).trans ((W14_of_ne m c main_arg1 (by decide)).trans ((StableHlo.after_of_writes_sub hostOps5 _ hostOps5_writes (by decide : main_arg1 ∉ hostOps5_W)).trans ((W12_of_ne m c main_arg1 (by decide)).trans ((StableHlo.after_of_writes_sub hostOps4 _ hostOps4_writes (by decide : main_arg1 ∉ hostOps4_W)).trans ((W10_of_ne m c main_arg1 (by decide)).trans ((StableHlo.after_of_writes_sub hostOps3 _ hostOps3_writes (by decide : main_arg1 ∉ hostOps3_W)).trans ((W8_of_ne m c main_arg1 (by decide)).trans ((StableHlo.after_of_writes_sub hostOps2 _ hostOps2_writes (by decide : main_arg1 ∉ hostOps2_W)).trans ((W6_of_ne m c main_arg1 (by decide)).trans ((StableHlo.after_of_writes_sub hostOps1 _ hostOps1_writes (by decide : main_arg1 ∉ hostOps1_W)).trans (W4_of_ne m c main_arg1 (by decide))))))))))))).trans ((V3_of m c main_arg1 (by decide)).trans ((V2_of m c main_arg1 (by decide)).trans ((V1_of m c main_arg1 (by decide)).trans rfl)))
theorem W15_main_arg2 (c : Dev nD) : W15 m c (Proc.devRef .tc main_arg2) = m ((c : Thread nD τ).loc main_arg2) :=
  ((StableHlo.after_of_writes_sub hostOps6 _ hostOps6_writes (by decide : main_arg2 ∉ hostOps6_W)).trans ((W14_of_ne m c main_arg2 (by decide)).trans ((StableHlo.after_of_writes_sub hostOps5 _ hostOps5_writes (by decide : main_arg2 ∉ hostOps5_W)).trans ((W12_of_ne m c main_arg2 (by decide)).trans ((StableHlo.after_of_writes_sub hostOps4 _ hostOps4_writes (by decide : main_arg2 ∉ hostOps4_W)).trans ((W10_of_ne m c main_arg2 (by decide)).trans ((StableHlo.after_of_writes_sub hostOps3 _ hostOps3_writes (by decide : main_arg2 ∉ hostOps3_W)).trans ((W8_of_ne m c main_arg2 (by decide)).trans ((StableHlo.after_of_writes_sub hostOps2 _ hostOps2_writes (by decide : main_arg2 ∉ hostOps2_W)).trans ((W6_of_ne m c main_arg2 (by decide)).trans ((StableHlo.after_of_writes_sub hostOps1 _ hostOps1_writes (by decide : main_arg2 ∉ hostOps1_W)).trans (W4_of_ne m c main_arg2 (by decide))))))))))))).trans ((V3_of m c main_arg2 (by decide)).trans ((V2_of m c main_arg2 (by decide)).trans ((V1_of m c main_arg2 (by decide)).trans rfl)))
theorem W15_main_arg3 (c : Dev nD) : W15 m c (Proc.devRef .tc main_arg3) = m ((c : Thread nD τ).loc main_arg3) :=
  ((StableHlo.after_of_writes_sub hostOps6 _ hostOps6_writes (by decide : main_arg3 ∉ hostOps6_W)).trans ((W14_of_ne m c main_arg3 (by decide)).trans ((StableHlo.after_of_writes_sub hostOps5 _ hostOps5_writes (by decide : main_arg3 ∉ hostOps5_W)).trans ((W12_of_ne m c main_arg3 (by decide)).trans ((StableHlo.after_of_writes_sub hostOps4 _ hostOps4_writes (by decide : main_arg3 ∉ hostOps4_W)).trans ((W10_of_ne m c main_arg3 (by decide)).trans ((StableHlo.after_of_writes_sub hostOps3 _ hostOps3_writes (by decide : main_arg3 ∉ hostOps3_W)).trans ((W8_of_ne m c main_arg3 (by decide)).trans ((StableHlo.after_of_writes_sub hostOps2 _ hostOps2_writes (by decide : main_arg3 ∉ hostOps2_W)).trans ((W6_of_ne m c main_arg3 (by decide)).trans ((StableHlo.after_of_writes_sub hostOps1 _ hostOps1_writes (by decide : main_arg3 ∉ hostOps1_W)).trans (W4_of_ne m c main_arg3 (by decide))))))))))))).trans ((V3_of m c main_arg3 (by decide)).trans ((V2_of m c main_arg3 (by decide)).trans ((V1_of m c main_arg3 (by decide)).trans rfl)))
theorem W15_main_arg4 (c : Dev nD) : W15 m c (Proc.devRef .tc main_arg4) = m ((c : Thread nD τ).loc main_arg4) :=
  ((StableHlo.after_of_writes_sub hostOps6 _ hostOps6_writes (by decide : main_arg4 ∉ hostOps6_W)).trans ((W14_of_ne m c main_arg4 (by decide)).trans ((StableHlo.after_of_writes_sub hostOps5 _ hostOps5_writes (by decide : main_arg4 ∉ hostOps5_W)).trans ((W12_of_ne m c main_arg4 (by decide)).trans ((StableHlo.after_of_writes_sub hostOps4 _ hostOps4_writes (by decide : main_arg4 ∉ hostOps4_W)).trans ((W10_of_ne m c main_arg4 (by decide)).trans ((StableHlo.after_of_writes_sub hostOps3 _ hostOps3_writes (by decide : main_arg4 ∉ hostOps3_W)).trans ((W8_of_ne m c main_arg4 (by decide)).trans ((StableHlo.after_of_writes_sub hostOps2 _ hostOps2_writes (by decide : main_arg4 ∉ hostOps2_W)).trans ((W6_of_ne m c main_arg4 (by decide)).trans ((StableHlo.after_of_writes_sub hostOps1 _ hostOps1_writes (by decide : main_arg4 ∉ hostOps1_W)).trans (W4_of_ne m c main_arg4 (by decide))))))))))))).trans ((V3_of m c main_arg4 (by decide)).trans ((V2_of m c main_arg4 (by decide)).trans ((V1_of m c main_arg4 (by decide)).trans rfl)))
theorem W15_main_arg5 (c : Dev nD) : W15 m c (Proc.devRef .tc main_arg5) = m ((c : Thread nD τ).loc main_arg5) :=
  ((StableHlo.after_of_writes_sub hostOps6 _ hostOps6_writes (by decide : main_arg5 ∉ hostOps6_W)).trans ((W14_of_ne m c main_arg5 (by decide)).trans ((StableHlo.after_of_writes_sub hostOps5 _ hostOps5_writes (by decide : main_arg5 ∉ hostOps5_W)).trans ((W12_of_ne m c main_arg5 (by decide)).trans ((StableHlo.after_of_writes_sub hostOps4 _ hostOps4_writes (by decide : main_arg5 ∉ hostOps4_W)).trans ((W10_of_ne m c main_arg5 (by decide)).trans ((StableHlo.after_of_writes_sub hostOps3 _ hostOps3_writes (by decide : main_arg5 ∉ hostOps3_W)).trans ((W8_of_ne m c main_arg5 (by decide)).trans ((StableHlo.after_of_writes_sub hostOps2 _ hostOps2_writes (by decide : main_arg5 ∉ hostOps2_W)).trans ((W6_of_ne m c main_arg5 (by decide)).trans ((StableHlo.after_of_writes_sub hostOps1 _ hostOps1_writes (by decide : main_arg5 ∉ hostOps1_W)).trans (W4_of_ne m c main_arg5 (by decide))))))))))))).trans ((V3_of m c main_arg5 (by decide)).trans ((V2_of m c main_arg5 (by decide)).trans ((V1_of m c main_arg5 (by decide)).trans rfl)))
theorem W15_main_arg6 (c : Dev nD) : W15 m c (Proc.devRef .tc main_arg6) = m ((c : Thread nD τ).loc main_arg6) :=
  ((StableHlo.after_of_writes_sub hostOps6 _ hostOps6_writes (by decide : main_arg6 ∉ hostOps6_W)).trans ((W14_of_ne m c main_arg6 (by decide)).trans ((StableHlo.after_of_writes_sub hostOps5 _ hostOps5_writes (by decide : main_arg6 ∉ hostOps5_W)).trans ((W12_of_ne m c main_arg6 (by decide)).trans ((StableHlo.after_of_writes_sub hostOps4 _ hostOps4_writes (by decide : main_arg6 ∉ hostOps4_W)).trans ((W10_of_ne m c main_arg6 (by decide)).trans ((StableHlo.after_of_writes_sub hostOps3 _ hostOps3_writes (by decide : main_arg6 ∉ hostOps3_W)).trans ((W8_of_ne m c main_arg6 (by decide)).trans ((StableHlo.after_of_writes_sub hostOps2 _ hostOps2_writes (by decide : main_arg6 ∉ hostOps2_W)).trans ((W6_of_ne m c main_arg6 (by decide)).trans ((StableHlo.after_of_writes_sub hostOps1 _ hostOps1_writes (by decide : main_arg6 ∉ hostOps1_W)).trans (W4_of_ne m c main_arg6 (by decide))))))))))))).trans ((V3_of m c main_arg6 (by decide)).trans ((V2_of m c main_arg6 (by decide)).trans ((V1_of m c main_arg6 (by decide)).trans rfl)))
theorem W15_main_arg7 (c : Dev nD) : W15 m c (Proc.devRef .tc main_arg7) = m ((c : Thread nD τ).loc main_arg7) :=
  ((StableHlo.after_of_writes_sub hostOps6 _ hostOps6_writes (by decide : main_arg7 ∉ hostOps6_W)).trans ((W14_of_ne m c main_arg7 (by decide)).trans ((StableHlo.after_of_writes_sub hostOps5 _ hostOps5_writes (by decide : main_arg7 ∉ hostOps5_W)).trans ((W12_of_ne m c main_arg7 (by decide)).trans ((StableHlo.after_of_writes_sub hostOps4 _ hostOps4_writes (by decide : main_arg7 ∉ hostOps4_W)).trans ((W10_of_ne m c main_arg7 (by decide)).trans ((StableHlo.after_of_writes_sub hostOps3 _ hostOps3_writes (by decide : main_arg7 ∉ hostOps3_W)).trans ((W8_of_ne m c main_arg7 (by decide)).trans ((StableHlo.after_of_writes_sub hostOps2 _ hostOps2_writes (by decide : main_arg7 ∉ hostOps2_W)).trans ((W6_of_ne m c main_arg7 (by decide)).trans ((StableHlo.after_of_writes_sub hostOps1 _ hostOps1_writes (by decide : main_arg7 ∉ hostOps1_W)).trans (W4_of_ne m c main_arg7 (by decide))))))))))))).trans ((V3_of m c main_arg7 (by decide)).trans ((V2_of m c main_arg7 (by decide)).trans ((V1_of m c main_arg7 (by decide)).trans rfl)))
theorem W15_main_arg8 (c : Dev nD) : W15 m c (Proc.devRef .tc main_arg8) = m ((c : Thread nD τ).loc main_arg8) :=
  ((StableHlo.after_of_writes_sub hostOps6 _ hostOps6_writes (by decide : main_arg8 ∉ hostOps6_W)).trans ((W14_of_ne m c main_arg8 (by decide)).trans ((StableHlo.after_of_writes_sub hostOps5 _ hostOps5_writes (by decide : main_arg8 ∉ hostOps5_W)).trans ((W12_of_ne m c main_arg8 (by decide)).trans ((StableHlo.after_of_writes_sub hostOps4 _ hostOps4_writes (by decide : main_arg8 ∉ hostOps4_W)).trans ((W10_of_ne m c main_arg8 (by decide)).trans ((StableHlo.after_of_writes_sub hostOps3 _ hostOps3_writes (by decide : main_arg8 ∉ hostOps3_W)).trans ((W8_of_ne m c main_arg8 (by decide)).trans ((StableHlo.after_of_writes_sub hostOps2 _ hostOps2_writes (by decide : main_arg8 ∉ hostOps2_W)).trans ((W6_of_ne m c main_arg8 (by decide)).trans ((StableHlo.after_of_writes_sub hostOps1 _ hostOps1_writes (by decide : main_arg8 ∉ hostOps1_W)).trans (W4_of_ne m c main_arg8 (by decide))))))))))))).trans ((V3_of m c main_arg8 (by decide)).trans ((V2_of m c main_arg8 (by decide)).trans ((V1_of m c main_arg8 (by decide)).trans rfl)))
theorem W15_main_arg9 (c : Dev nD) : W15 m c (Proc.devRef .tc main_arg9) = m ((c : Thread nD τ).loc main_arg9) :=
  ((StableHlo.after_of_writes_sub hostOps6 _ hostOps6_writes (by decide : main_arg9 ∉ hostOps6_W)).trans ((W14_of_ne m c main_arg9 (by decide)).trans ((StableHlo.after_of_writes_sub hostOps5 _ hostOps5_writes (by decide : main_arg9 ∉ hostOps5_W)).trans ((W12_of_ne m c main_arg9 (by decide)).trans ((StableHlo.after_of_writes_sub hostOps4 _ hostOps4_writes (by decide : main_arg9 ∉ hostOps4_W)).trans ((W10_of_ne m c main_arg9 (by decide)).trans ((StableHlo.after_of_writes_sub hostOps3 _ hostOps3_writes (by decide : main_arg9 ∉ hostOps3_W)).trans ((W8_of_ne m c main_arg9 (by decide)).trans ((StableHlo.after_of_writes_sub hostOps2 _ hostOps2_writes (by decide : main_arg9 ∉ hostOps2_W)).trans ((W6_of_ne m c main_arg9 (by decide)).trans ((StableHlo.after_of_writes_sub hostOps1 _ hostOps1_writes (by decide : main_arg9 ∉ hostOps1_W)).trans (W4_of_ne m c main_arg9 (by decide))))))))))))).trans ((V3_of m c main_arg9 (by decide)).trans ((V2_of m c main_arg9 (by decide)).trans ((V1_of m c main_arg9 (by decide)).trans rfl)))

/-- THE FRAME: every weakly fair execution of @main terminates, nothing faulting, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c),
     (h c _ (mem_uc main_arg8 (by decide))).trans (W15_main_arg8 m c),
     (h c _ (mem_uc main_arg9 (by decide))).trans (W15_main_arg9 m c)⟩)
    (run_main m ρ)

end Cert.Kernel.Hand

end
-- ==== Proof.MMSpec.lean ====
/-
  What one blocked matrix-product kernel leaves in its output array, as one function of its three operand arrays:
  entry (i, j) is Σ_q a(i, q) · b(q, j) plus the bias row's j-th entry, rectified (max with 0) when `relu` is set.
  The kernel reaches it tile by tile — a row tile of `a` against successive tiles of the contracted axis, partial
  products added into an accumulator that starts at zero — which at the extended reals is this one sum regrouped.
-/
import Idealize.ShloMosaic.PureOps.Ideal
import Idealize.ShloMosaic.Lib.ValueIdx

noncomputable section

namespace Cert.MMSpec

open Idealize.ShloMosaic Idealize.ShloMosaic.ValueIdx

/-- The product of `a` ([M, K]) and `b` ([K, N]) plus the bias row ([1, N]), rectified when `relu`. -/
def mm (M K N : ℕ) (relu : Bool) (a : (⟨2, ![M, K]⟩ : Shape).Idx → EReal) (b : (⟨2, ![K, N]⟩ : Shape).Idx → EReal)
    (bias : (⟨2, ![1, N]⟩ : Shape).Idx → EReal) : (⟨2, ![M, N]⟩ : Shape).Idx → EReal :=
  fun y =>
    let i : Fin M := ⟨(y 0).val, idx2_lt0 y⟩
    let j : Fin N := ⟨(y 1).val, idx2_lt1 y⟩
    let s := (∑ q : Fin K, a (ix2 i q) * b (ix2 q j)) + bias (ix2 (0 : Fin 1) j)
    if relu then max s 0 else s

theorem mm_apply (M K N : ℕ) (relu : Bool) (a : (⟨2, ![M, K]⟩ : Shape).Idx → EReal) (b : (⟨2, ![K, N]⟩ : Shape).Idx → EReal)
    (bias : (⟨2, ![1, N]⟩ : Shape).Idx → EReal) (i : Fin M) (j : Fin N) :
    mm M K N relu a b bias (ix2 i j)
      = (if relu then max ((∑ q : Fin K, a (ix2 i q) * b (ix2 q j)) + bias (ix2 (0 : Fin 1) j)) 0
         else (∑ q : Fin K, a (ix2 i q) * b (ix2 q j)) + bias (ix2 (0 : Fin 1) j)) := rfl

end Cert.MMSpec

end
-- ==== Proof.Reg0Value.lean ====
/-
  Region 0 at the extended reals: the output array the region leaves is the product of its operand arrays plus the
  bias row. At each of the five grid points the body clears the accumulator, adds the product of the point's row tile
  of the left operand with the whole right operand, and stores that plus the bias row into the output tile; entry
  (r, j) of the tile is therefore 0 + Σ_q a(r, q) · b(q, j) + bias(j). The left operand's row tile at point t is rows
  2048·t … 2048·t + 2047 of its array, as is the output's, so the tile written back at point t is tile t of the
  product array; the five tiles cover the 10240 rows.
-/
import proofs.«173524_j83966610637551_1_alg».proof.Proof.Reg0
import proofs.«173524_j83966610637551_1_alg».proof.Proof.MMSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Piece
variable {F : FTy → Type} [FloatOps F]

theorem hzero0 : (![0, 0] : Fin 2 → Nat) = fun _ => 0 := funext fun a => by fin_cases a <;> rfl

/-- What the body leaves in the output tile, for any float interpretation: the accumulator is cleared, the one
    partial product is added to it, and the bias row is added to the result. -/
theorem out0_3_eq (c : Dev nD) (i : grid0.Coords)
    (arg2 : Memref sig .tc .vmem S2048x128 .bf16) (harg2 : arg2.IsWhole)
    (arg3 : Memref sig .tc .vmem S128x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0_0 i) (hc1 : cond0_1 i)
    (x0 : Vec F S2048x128 .bf16) (x1 : Vec F S128x256 .bf16) (x2 : Vec F S1x256 .f32) :
    out0_3 c i arg2 harg2 arg3 harg3 arg4 harg4 arg5 harg5 arg6 harg6 hc0 hc1 x0 x1 x2
      = k0_pay3 (k0_pay2 (k0_pay1 (F := F)) x0 x1) x2 := by
  unfold out0_3
  rw [View.read_writes_eq_canon _ _ _ (cover0_3 c i arg2 harg2 arg3 harg3 arg4 harg4 arg5 harg5 arg6 harg6 hc0 hc1 x0 x1 x2)]
  unfold kernelRun0
  dsimp only
  sl_unfold_words
  rw [View.canon_unit_zero hzero0]
  simp only [View.readCov_cons_toLoadRect, View.readAt_eq_ld, harg2.read_unread, harg3.read_unread, harg4.read_unread,
    View.ld_unit_zero (S := S2048x128) hzero0, View.ld_unit_zero (S := S128x256) hzero0, View.ld_unit_zero (S := S1x256) hzero0]

end Piece
abbrev D0 := dot_S2048x128_S128x256_S2048x256_1_0_0_1_n_n

theorem lhs0_0 (i : S2048x256.Idx) (q : D0.contr.Idx) : (D0.lhsIdx i q 0).val = (i 0).val := by
  unfold DotDims.lhsIdx
  rw [dif_neg (show ¬(0 : Fin S2048x128.rank) ∈ D0.lhsBatch by decide), dif_pos (show (0 : Fin S2048x128.rank) ∈ D0.lhsNonContracting by decide)]
  rfl
theorem lhs0_1 (i : S2048x256.Idx) (q : D0.contr.Idx) : (D0.lhsIdx i q 1).val = (q ⟨0, by decide⟩).val :=
  D0.lhsIdx_val_of_single rfl i q
theorem rhs0_0 (i : S2048x256.Idx) (q : D0.contr.Idx) : (D0.rhsIdx i q 0).val = (q ⟨0, by decide⟩).val :=
  D0.rhsIdx_val_of_single rfl i q
theorem rhs0_1 (i : S2048x256.Idx) (q : D0.contr.Idx) : (D0.rhsIdx i q 1).val = (i 1).val := by
  unfold DotDims.rhsIdx
  rw [dif_neg (show ¬(1 : Fin S128x256.rank) ∈ D0.rhsBatch by decide), dif_pos (show (1 : Fin S128x256.rank) ∈ D0.rhsNonContracting by decide)]
  rfl

/-- The product tile at an entry: the sum over the contracted axis. -/
theorem dot0_apply (x0 : FVec Ideal S2048x128 .bf16) (x1 : FVec Ideal S128x256 .bf16) (r : Fin 2048) (j : Fin 256) :
    FloatOps.matmul D0 none x0 x1 (constant S2048x256 .f32 0x00000000#32) (ix2 r j)
      = ∑ k : Fin 128, x0 (ix2 r k) * x1 (ix2 k j) := by
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 r j) ((contrEquiv1 D0 128 rfl rfl).symm k) = ix2 r k := funext fun a => Fin.ext (by
    match a with
    | ⟨0, _⟩ => exact lhs0_0 _ _
    | ⟨1, _⟩ => exact (lhs0_1 _ _).trans hk)
  have er : D0.rhsIdx (ix2 r j) ((contrEquiv1 D0 128 rfl rfl).symm k) = ix2 k j := funext fun a => Fin.ext (by
    match a with
    | ⟨0, _⟩ => exact (rhs0_0 _ _).trans hk
    | ⟨1, _⟩ => exact rhs0_1 _ _)
  rw [el, er]

/-- The tile the body stores, at an entry: the product sum plus the bias row's entry. -/
theorem pay0_apply (x0 : Vec Ideal S2048x128 .bf16) (x1 : Vec Ideal S128x256 .bf16) (x2 : Vec Ideal S1x256 .f32)
    (r : Fin 2048) (j : Fin 256) :
    k0_pay3 (F := Ideal) (k0_pay2 (F := Ideal) (k0_pay1 (F := Ideal)) x0 x1) x2 (ix2 r j)
      = (∑ q : Fin 128, x0 (ix2 r q) * x1 (ix2 q j)) + x2 (ix2 (0 : Fin 1) j) := by
  unfold k0_pay3 k0_pay2 k0_pay1
  dsimp only
  simp only [shapeCast_self]
  rw [addf_apply, broadcastTo_1b_ab_apply, addf_apply]
  show (Ideal.ofBits .f32 0x00000000#32 + FloatOps.matmul D0 none x0 x1 (constant S2048x256 .f32 0x00000000#32) (ix2 r j)) + _ = _
  rw [dot0_apply, Ideal.ofBits_zero_f32, zero_add]

/-- The same at any entry of the tile. -/
theorem pay0_apply' (x0 : Vec Ideal S2048x128 .bf16) (x1 : Vec Ideal S128x256 .bf16) (x2 : Vec Ideal S1x256 .f32)
    (y : S2048x256.Idx) :
    k0_pay3 (F := Ideal) (k0_pay2 (F := Ideal) (k0_pay1 (F := Ideal)) x0 x1) x2 y
      = (∑ q : Fin 128, x0 (ix2 (y 0) q) * x1 (ix2 q (y 1))) + x2 (ix2 (0 : Fin 1) (y 1)) :=
  (congrArg _ (eq_ix2 y)).trans (pay0_apply x0 x1 x2 (y 0) (y 1))

/-! ## The tiles where the arrays hold them -/

variable (V : (c : Dev nD) → (b : Ref sig .tc) → Buf (Elt Ideal) ((c : Thread nD τ).loc b))

/-- The three operand arrays as the region finds them. -/
abbrev A0 (c : Dev nD) : S10240x128.Idx → EReal := V c (Pipeline.arrRef spec0 0)
abbrev B0 (c : Dev nD) : S128x256.Idx → EReal := V c (Pipeline.arrRef spec0 1)
abbrev C0 (c : Dev nD) : S1x256.Idx → EReal := V c (Pipeline.arrRef spec0 2)

/-- The whole output array the region leaves: the product of the operand arrays plus the bias row. -/
abbrev G0 (c : Dev nD) : S10240x256.Idx → EReal := Cert.MMSpec.mm 10240 128 256 false (A0 V c) (B0 V c) (C0 V c)

/-- The tiles' positions, decided over the five points: the left operand's row tile moves with the output's, the
    right operand and the bias row are whole, and the output has one column tile. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every row tile of the output is some point's. -/
theorem idx_onto0 : ∀ (q0 : Fin 5), ∃ t : Fin cfg0.N, win0_3.index t = ![q0.val, 0] :=
  (by decide +kernel : ∀ (q0 : Fin 5), ∃ t : Fin grid0.N, win0_3.index t = ![q0.val, 0])

/-- What point t writes back is tile t of the product array. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold outsAt0
  rw [out0_3_eq]
  obtain ⟨e0, e1, e2, e3, e4, e5, e6, e7⟩ := idx_facts0 t
  funext j
  show k0_pay3 (F := Ideal) (k0_pay2 (F := Ideal) (k0_pay1 (F := Ideal)) (iblk0 V c 0 t) (iblk0 V c 1 t)) (iblk0 V c 2 t) j
    = G0 V c (((cfg0.win 3).blk t).view.emb j)
  refine (pay0_apply' _ _ _ j).trans ?_
  show (∑ q : Fin 128, A0 V c (((cfg0.win 0).blk t).view.emb (ix2 (j 0) q))
        * B0 V c (((cfg0.win 1).blk t).view.emb (ix2 q (j 1))))
      + C0 V c (((cfg0.win 2).blk t).view.emb (ix2 (0 : Fin 1) (j 1)))
    = (∑ q : Fin 128, A0 V c (ix2 ⟨((((cfg0.win 3).blk t).view.emb j) 0).val, idx2_lt0 _⟩ q)
        * B0 V c (ix2 q ⟨((((cfg0.win 3).blk t).view.emb j) 1).val, idx2_lt1 _⟩))
      + C0 V c (ix2 (0 : Fin 1) ⟨((((cfg0.win 3).blk t).view.emb j) 1).val, idx2_lt1 _⟩)
  have h0 : ∀ q : Fin 128, ((cfg0.win 0).blk t).view.emb (ix2 (j 0) q)
      = ix2 ⟨((((cfg0.win 3).blk t).view.emb j) 0).val, idx2_lt0 _⟩ q := fun q => by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * q.val = q.val; omega
  have h1 : ∀ q : Fin 128, ((cfg0.win 1).blk t).view.emb (ix2 q (j 1))
      = ix2 q ⟨((((cfg0.win 3).blk t).view.emb j) 1).val, idx2_lt1 _⟩ := fun q => by
    funext a; apply Fin.ext
    match a with
    | ⟨0, _⟩ => show win0_1.index t (0 : Fin 2) * 128 + 1 * q.val = q.val; omega
    | ⟨1, _⟩ => show win0_1.index t (1 : Fin 2) * 256 + 1 * (j 1).val = win0_3.index t (1 : Fin 2) * 256 + 1 * (j 1).val; omega
  have h2 : ((cfg0.win 2).blk t).view.emb (ix2 (0 : Fin 1) (j 1))
      = ix2 (0 : Fin 1) ⟨((((cfg0.win 3).blk t).view.emb j) 1).val, idx2_lt1 _⟩ := by
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega
  refine congrArg₂ (· + ·) (Finset.sum_congr rfl fun q _ => ?_) ?_
  · rw [h0 q, h1 q]
  · rw [h2]

/-! ## The tiles cover the array -/

/-- An index of the output array is in point t's tile iff each coordinate is in the tile's range on its axis. -/
theorem mem_blk0 (t : Fin cfg0.N) (i : S10240x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v59).slice (win0_3.rect t)).set ↔ _
  rw [View.set_slice_whole, Rect.mem_set_unit]
  exact Iff.rfl

/-- Row r of the output is written back by the point whose row tile holds it, point r / 2048. -/
theorem cover0 (i : S10240x256.Idx) :
    ∃ t : Fin cfg0.N, (cfg0.win 3).flush t = true ∧ i ∈ ((cfg0.win 3).blk t).view.set := by
  have hi0 : (i 0).val < 10240 := (i 0).isLt
  have hi1 : (i 1).val < 256 := (i 1).isLt
  obtain ⟨t, ht⟩ := idx_onto0 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE REGION'S OUTPUT ARRAY after its last point: the product of the operand arrays plus the bias row. -/
theorem value0 (c : Dev nD) :
    ((Cert.KernelIdeal.Hand.dat0 (F := Ideal) V c).arrAt 3 cfg0.N : S10240x256.Idx → EReal)
      = Cert.MMSpec.mm 10240 128 256 false (V c (Pipeline.arrRef spec0 0)) (V c (Pipeline.arrRef spec0 1)) (V c (Pipeline.arrRef spec0 2)) :=
  (dat0 V c).arrAt_eq_of_cover 3 (G0 V c) (fun t _ => flushed0_eq V c t) cover0

end Cert.KernelIdeal.HandValue

end
-- ==== Proof.Reg1Piece.lean ====
/-
  What each case of region 1's body leaves behind, as arithmetic: the stores the run recorded, read back, are the
  body's payloads applied to the blocks it loaded — the accumulation step on the accumulator it found (on the cleared
  accumulator at a first contraction tile), and at a last contraction tile the output step on the new accumulator.
-/
import proofs.«173524_j83966610637551_1_alg».proof.Proof.Reg1
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (Pipeline.UD sig nD τ) ℕ

theorem zeroOffset1 : (![0, 0] : Fin 2 → Nat) = fun _ => 0 := funext fun a => by fin_cases a <;> rfl

/-- What the middle case leaves in the accumulator is the accumulation step on what it found. -/
theorem accMid1_eq (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : ¬isLast1 i)
    (x0 : Vec F S2048x1024 .bf16) (x1 : Vec F S1024x256 .bf16) (x2 : Vec F S1x256 .f32) (xs : Vec F S2048x256 .f32) :
    accMid1 c i arg2 harg2 arg3 harg3 arg4 harg4 arg5 harg5 arg6 harg6 hc0 hc1 x0 x1 x2 xs = k1_pay2 xs x0 x1 := by
  unfold accMid1
  rw [View.read_writes_eq_canon _ _ _ (accCoverMid1 c i arg2 harg2 arg3 harg3 arg4 harg4 arg5 harg5 arg6 harg6 hc0 hc1 x0 x1 x2 xs)]
  unfold runMid1
  dsimp only
  sl_unfold_words
  rw [View.canon_unit_zero zeroOffset1]
  simp only [View.readAt_eq_ld, harg2.read_unread, harg3.read_unread, harg6.read_unread, View.ld_unit_zero (S := S2048x256) zeroOffset1, View.ld_unit_zero (S := S2048x1024) zeroOffset1, View.ld_unit_zero (S := S1024x256) zeroOffset1]

/-- What the first case leaves in the accumulator is the accumulation step on the cleared accumulator. -/
theorem accFirst1_eq (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst1 i) (hc1 : ¬isLast1 i)
    (x0 : Vec F S2048x1024 .bf16) (x1 : Vec F S1024x256 .bf16) (x2 : Vec F S1x256 .f32) :
    accFirst1 c i arg2 harg2 arg3 harg3 arg4 harg4 arg5 harg5 arg6 harg6 hc0 hc1 x0 x1 x2 = k1_pay2 (k1_pay1 (F := F)) x0 x1 := by
  unfold accFirst1
  rw [View.read_writes_eq_canon _ _ _ (accCoverFirst1 c i arg2 harg2 arg3 harg3 arg4 harg4 arg5 harg5 arg6 harg6 hc0 hc1 x0 x1 x2)]
  unfold runFirst1
  dsimp only
  sl_unfold_words
  rw [View.canon_cons_unit_zero (S := S2048x256) zeroOffset1, View.readCov_unit_zero (S := S2048x256) _ zeroOffset1]
  simp only [View.readAt_eq_ld, harg2.read_unread, harg3.read_unread, View.ld_unit_zero (S := S2048x1024) zeroOffset1, View.ld_unit_zero (S := S1024x256) zeroOffset1]

/-- What the last case leaves in the accumulator, -/
theorem accLast1_eq (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) :
    accLast1 c i arg2 harg2 arg3 harg3 arg4 harg4 arg5 harg5 arg6 harg6 hc0 hc1 x0 x1 x2 xs = k1_pay2 xs x0 x1 := by
  unfold accLast1
  rw [View.read_writes_eq_canon _ _ _ (accCoverLast1 c i arg2 harg2 arg3 harg3 arg4 harg4 arg5 harg5 arg6 harg6 hc0 hc1 x0 x1 x2 xs)]
  unfold runLast1
  dsimp only
  sl_unfold_words
  rw [View.canon_unit_zero zeroOffset1]
  simp only [View.readAt_eq_ld, harg2.read_unread, harg3.read_unread, harg6.read_unread, View.ld_unit_zero (S := S2048x256) zeroOffset1, View.ld_unit_zero (S := S2048x1024) zeroOffset1, View.ld_unit_zero (S := S1024x256) zeroOffset1]

/-- and in the output tile: the output step on that accumulator and the bias row. -/
theorem outLast1_eq (c : Dev nD) (i : grid1.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst1 i) (hc1 : isLast1 i)
    (x0 : Vec F S2048x1024 .bf16) (x1 : Vec F S1024x256 .bf16) (x2 : Vec F S1x256 .f32) (xs : Vec F S2048x256 .f32) :
    outLast1 c i arg2 harg2 arg3 harg3 arg4 harg4 arg5 harg5 arg6 harg6 hc0 hc1 x0 x1 x2 xs = k1_pay3 (k1_pay2 xs x0 x1) x2 := by
  unfold outLast1
  rw [View.read_writes_eq_canon _ _ _ (outCoverLast1 c i arg2 harg2 arg3 harg3 arg4 harg4 arg5 harg5 arg6 harg6 hc0 hc1 x0 x1 x2 xs)]
  unfold runLast1
  dsimp only
  sl_unfold_words
  rw [View.canon_unit_zero zeroOffset1, View.readCov_unit_zero (S := S2048x256) _ zeroOffset1]
  simp only [View.readAt_eq_ld, harg2.read_unread, harg3.read_unread, harg4.read_unread, harg6.read_unread, View.ld_unit_zero (S := S2048x256) zeroOffset1, View.ld_unit_zero (S := S2048x1024) zeroOffset1, View.ld_unit_zero (S := S1024x256) zeroOffset1, View.ld_unit_zero (S := S1x256) zeroOffset1]

end Cert.KernelIdeal.HandValue

end
-- ==== Proof.Reg1Pay.lean ====
/-
  The three payloads of region 1's body read at an index, over the extended reals: the cleared accumulator is 0; the
  accumulation step adds, at (r, j), the 1024 products of row r of the left tile with column j of the right tile;
  the output step adds the bias row's j-th entry and rectifies.
-/
import proofs.«173524_j83966610637551_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.ValueIdx
open Cert.KernelIdeal Cert.KernelIdeal.Gen

/-- The tile product's dimension numbers: contract axis 1 of the left tile with axis 0 of the right tile. -/
abbrev D1 := dot_S2048x1024_S1024x256_S2048x256_1_0_0_1_n_n

theorem D1_lhs_0 (i : S2048x256.Idx) (q : D1.contr.Idx) : (D1.lhsIdx i q 0).val = (i 0).val := by
  unfold DotDims.lhsIdx
  rw [dif_neg (show ¬(0 : Fin S2048x1024.rank) ∈ D1.lhsBatch by decide), dif_pos (show (0 : Fin S2048x1024.rank) ∈ D1.lhsNonContracting by decide)]
  rfl
theorem D1_lhs_1 (i : S2048x256.Idx) (q : D1.contr.Idx) : (D1.lhsIdx i q 1).val = (q ⟨0, by decide⟩).val :=
  D1.lhsIdx_val_of_single rfl i q
theorem D1_rhs_0 (i : S2048x256.Idx) (q : D1.contr.Idx) : (D1.rhsIdx i q 0).val = (q ⟨0, by decide⟩).val :=
  D1.rhsIdx_val_of_single rfl i q
theorem D1_rhs_1 (i : S2048x256.Idx) (q : D1.contr.Idx) : (D1.rhsIdx i q 1).val = (i 1).val := by
  unfold DotDims.rhsIdx
  rw [dif_neg (show ¬(1 : Fin S1024x256.rank) ∈ D1.rhsBatch by decide), dif_pos (show (1 : Fin S1024x256.rank) ∈ D1.rhsNonContracting by decide)]
  rfl

/-- The tile product into a zero accumulator, at (r, j): the sum over the 1024 contraction coordinates. -/
theorem tileProduct1_apply (x0 : FVec Ideal S2048x1024 .bf16) (x1 : FVec Ideal S1024x256 .bf16) (r : Fin 2048) (j : Fin 256) :
    FloatOps.matmul D1 none x0 x1 (constant S2048x256 .f32 0x00000000#32) (ix2 r j) = ∑ q : Fin 1024, x0 (ix2 r q) * x1 (ix2 q j) := by
  rw [Ideal.matmul_constant_zero_apply, ← Equiv.sum_comp (ValueIdx.contrEquiv1 D1 1024 rfl rfl).symm]
  refine Finset.sum_congr rfl fun k _ => ?_
  have hk := ValueIdx.contrEquiv1_symm_val D1 1024 rfl rfl k
  have el : D1.lhsIdx (ix2 r j) ((ValueIdx.contrEquiv1 D1 1024 rfl rfl).symm k) = ix2 r k := funext fun a => Fin.ext (by
    match a with
    | ⟨0, _⟩ => exact D1_lhs_0 _ _
    | ⟨1, _⟩ => exact (D1_lhs_1 _ _).trans hk)
  have er : D1.rhsIdx (ix2 r j) ((ValueIdx.contrEquiv1 D1 1024 rfl rfl).symm k) = ix2 k j := funext fun a => Fin.ext (by
    match a with
    | ⟨0, _⟩ => exact (D1_rhs_0 _ _).trans hk
    | ⟨1, _⟩ => exact D1_rhs_1 _ _)
  rw [el, er]

/-- The cleared accumulator is zero everywhere. -/
theorem clear1_apply (y : S2048x256.Idx) : k1_pay1 (F := Ideal) y = 0 := by
  unfold k1_pay1
  simp only [shapeCast_self]
  exact Ideal.ofBits_zero_f32

/-- The accumulation step at (r, j). -/
theorem accumulate1_apply (xs : Vec Ideal S2048x256 .f32) (x0 : Vec Ideal S2048x1024 .bf16) (x1 : Vec Ideal S1024x256 .bf16)
    (r : Fin 2048) (j : Fin 256) :
    k1_pay2 (F := Ideal) xs x0 x1 (ix2 r j) = xs (ix2 r j) + ∑ q : Fin 1024, x0 (ix2 r q) * x1 (ix2 q j) := by
  unfold k1_pay2
  simp only [shapeCast_self]
  exact congrArg (xs (ix2 r j) + ·) (tileProduct1_apply x0 x1 r j)

/-- The output step at (r, j): accumulator plus bias, rectified. -/
theorem finish1_apply (acc : Vec Ideal S2048x256 .f32) (b : Vec Ideal S1x256 .f32) (r : Fin 2048) (j : Fin 256) :
    k1_pay3 (F := Ideal) acc b (ix2 r j) = max (acc (ix2 r j) + b (ix2 (0 : Fin 1) j)) 0 := by
  unfold k1_pay3
  simp only [shapeCast_self]
  show max (acc (ix2 r j) + broadcastTo S2048x256 b broadcasts_S1x256_S2048x256 (ix2 r j)) (Ideal.ofBits .f32 0x00000000#32) = _
  rw [Ideal.ofBits_zero_f32, broadcastTo_apply b broadcasts_S1x256_S2048x256 (ix2 r j) (ix2 (0 : Fin 1) j) (fun a => by
    match a with
    | ⟨0, _⟩ => rfl
    | ⟨1, _⟩ => rfl)]

end Cert.KernelIdeal.HandValue

end
-- ==== Proof.MMTile.lean ====
/-
  The blocked matrix product as arithmetic on the extended reals, with no program in sight.

  Entry (p, j) of a product with a contraction axis of length 10240 is a sum of 10240 products. A kernel that walks
  the contraction axis in ten tiles of 1024 adds up ten partial sums instead; since addition of extended reals is
  commutative and associative the two agree, by regrouping Fin 10240 as Fin 10 × Fin 1024. Matrices are read through
  natural-number coordinates (zero outside their extents) so that tile offsets are plain arithmetic.
-/
import Idealize.ShloMosaic.PureOps.Ideal
import Idealize.ShloMosaic.Lib.ValueIdx

noncomputable section

namespace Cert.MMTile

open Idealize.ShloMosaic Idealize.ShloMosaic.ValueIdx

/-- A matrix as a function of two natural numbers: zero outside its extents. -/
def natView {M K : ℕ} (a : (⟨2, ![M, K]⟩ : Shape).Idx → EReal) (p q : ℕ) : EReal :=
  if h : p < M ∧ q < K then a (ix2 ⟨p, h.1⟩ ⟨q, h.2⟩) else 0

theorem natView_of_lt {M K : ℕ} (a : (⟨2, ![M, K]⟩ : Shape).Idx → EReal) {p q : ℕ} (hp : p < M) (hq : q < K) :
    natView a p q = a (ix2 ⟨p, hp⟩ ⟨q, hq⟩) := dif_pos ⟨hp, hq⟩

/-- Contraction tile `k`'s share of entry (p, j) of the product of `A` and `B`: the 1024 products whose contraction
    coordinate lies in [1024·k, 1024·k + 1024). -/
def tile (A B : ℕ → ℕ → EReal) (p j k : ℕ) : EReal :=
  ∑ q : Fin 1024, A p (1024 * k + q.val) * B (1024 * k + q.val) j

/-- Ten tiles of 1024 are the whole contraction over 10240. -/
theorem sum_tiles (A B : ℕ → ℕ → EReal) (p j : ℕ) :
    ∑ k ∈ Finset.range 10, tile A B p j k = ∑ s : Fin 10240, A p s.val * B s.val j := by
  unfold tile
  rw [Finset.sum_range (fun k => ∑ q : Fin 1024, A p (1024 * k + q.val) * B (1024 * k + q.val) j)]
  have e : ∑ s : Fin (10 * 1024), A p s.val * B s.val j
      = ∑ x : Fin 10 × Fin 1024, A p (1024 * x.1.val + x.2.val) * B (1024 * x.1.val + x.2.val) j := by
    rw [← Equiv.sum_comp (finProdFinEquiv (m := 10) (n := 1024)) (fun s : Fin (10 * 1024) => A p s.val * B s.val j)]
    refine Finset.sum_congr rfl fun x _ => ?_
    have hx : (finProdFinEquiv x).val = 1024 * x.1.val + x.2.val := by
      rw [finProdFinEquiv_apply_val]; omega
    rw [hx]
  show _ = ∑ s : Fin (10 * 1024), A p s.val * B s.val j
  rw [e, Fintype.sum_prod_type]

end Cert.MMTile

end
-- ==== Proof.Reg1Value.lean ====
/-
  Region 1 computes the matrix product. With a the 10240 × 10240 left matrix, b the 10240 × 256 right matrix and
  β the bias row as the region finds them, the output array ends holding, at (p, j),
      max (Σ_{s < 10240} a(p, s) · b(s, j) + β(j), 0).
  Row tile i covers rows 2048·i … 2048·i + 2047. Inside a row tile the accumulator after contraction tile k holds
  the partial sums Σ_{k' ≤ k} Σ_{q < 1024} a(p, 1024·k' + q) · b(1024·k' + q, j): zero plus the first tile product at
  k = 0, one more tile product at each later k (induction over the grid points). At k = 9 the ten partial sums are
  the whole contraction (Fin 10240 regrouped as Fin 10 × Fin 1024), the output tile is that plus the bias, rectified,
  and it is written back to rows 2048·i … of the output array; the five row tiles cover the array.
-/
import proofs.«173524_j83966610637551_1_alg».proof.Proof.Reg1Piece
import proofs.«173524_j83966610637551_1_alg».proof.Proof.Reg1Pay
import proofs.«173524_j83966610637551_1_alg».proof.Proof.MMTile
import proofs.«173524_j83966610637551_1_alg».proof.Proof.MMSpec

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx Cert.MMTile

variable (V : (c : Dev nD) → (b : Ref sig .tc) → Buf (Elt Ideal) ((c : Thread nD τ).loc b))

/-- The three operand arrays as the region finds them. -/
abbrev lhs1 (c : Dev nD) : (⟨2, ![10240, 10240]⟩ : Shape).Idx → EReal := V c (Pipeline.arrRef spec1 0)
abbrev rhs1 (c : Dev nD) : (⟨2, ![10240, 256]⟩ : Shape).Idx → EReal := V c (Pipeline.arrRef spec1 1)
abbrev bias1 (c : Dev nD) : (⟨2, ![1, 256]⟩ : Shape).Idx → EReal := V c (Pipeline.arrRef spec1 2)

/-- Where the windows' blocks sit at point t = 10·i + k: the left tile at block (i, k), the right tile at block (k, 0),
    the bias row at block (0, 0), the output tile at block (i, 0). -/
theorem blockIndex1 : ∀ t : Fin cfg1.N, win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = 0 ∧ win1_2.index t (1 : Fin 2) = 0
    ∧ win1_3.index t (0 : Fin 2) = t.val / 10 ∧ win1_3.index t (1 : Fin 2) = 0 :=
  (by decide +kernel : ∀ t : Fin grid1.N, _)

/-- The left tile at point t, entry (r, q): the left matrix at (2048·(t / 10) + r, 1024·(t mod 10) + q). -/
theorem lhsBlock1_apply (c : Dev nD) (t : Fin cfg1.N) (r : Fin 2048) (q : Fin 1024) :
    (iblk1 V c 0 t : Vec Ideal S2048x1024 .bf16) (ix2 r q)
      = natView (lhs1 V c) (2048 * (t.val / 10) + r.val) (1024 * (t.val % 10) + q.val) := by
  have hN : t.val < 50 := lt_of_lt_of_eq t.isLt (show cfg1.N = 50 from N_1)
  obtain ⟨e0, e1, -⟩ := blockIndex1 t
  have hp : 2048 * (t.val / 10) + r.val < 10240 := by omega
  have hq : 1024 * (t.val % 10) + q.val < 10240 := by omega
  rw [natView_of_lt _ hp hq]
  unfold iblk1
  rw [View.read_apply]
  show V c (Pipeline.arrRef spec1 0) (((cfg1.win 0).blk t).view.emb (ix2 r q)) = V c (Pipeline.arrRef spec1 0) _
  refine congrArg (V c (Pipeline.arrRef spec1 0)) (funext fun a => Fin.ext ?_)
  match a with
  | ⟨0, _⟩ => show win1_0.index t (0 : Fin 2) * 2048 + 1 * r.val = 2048 * (t.val / 10) + r.val; rw [e0]; omega
  | ⟨1, _⟩ => show win1_0.index t (1 : Fin 2) * 1024 + 1 * q.val = 1024 * (t.val % 10) + q.val; rw [e1]; omega

/-- The right tile at point t, entry (q, j): the right matrix at (1024·(t mod 10) + q, j). -/
theorem rhsBlock1_apply (c : Dev nD) (t : Fin cfg1.N) (q : Fin 1024) (j : Fin 256) :
    (iblk1 V c 1 t : Vec Ideal S1024x256 .bf16) (ix2 q j)
      = natView (rhs1 V c) (1024 * (t.val % 10) + q.val) j.val := by
  have hN : t.val < 50 := lt_of_lt_of_eq t.isLt (show cfg1.N = 50 from N_1)
  obtain ⟨-, -, e2, e3, -⟩ := blockIndex1 t
  have hq : 1024 * (t.val % 10) + q.val < 10240 := by omega
  rw [natView_of_lt _ hq j.isLt]
  unfold iblk1
  rw [View.read_apply]
  show V c (Pipeline.arrRef spec1 1) (((cfg1.win 1).blk t).view.emb (ix2 q j)) = V c (Pipeline.arrRef spec1 1) _
  refine congrArg (V c (Pipeline.arrRef spec1 1)) (funext fun a => Fin.ext ?_)
  match a with
  | ⟨0, _⟩ => show win1_1.index t (0 : Fin 2) * 1024 + 1 * q.val = 1024 * (t.val % 10) + q.val; rw [e2]; omega
  | ⟨1, _⟩ => show win1_1.index t (1 : Fin 2) * 256 + 1 * j.val = j.val; rw [e3]; omega

/-- The bias row's block is the bias row. -/
theorem biasBlock1_apply (c : Dev nD) (t : Fin cfg1.N) (j : Fin 256) :
    (iblk1 V c 2 t : Vec Ideal S1x256 .f32) (ix2 (0 : Fin 1) j) = bias1 V c (ix2 (0 : Fin 1) j) := by
  obtain ⟨-, -, -, -, e4, e5, -⟩ := blockIndex1 t
  unfold iblk1
  rw [View.read_apply]
  show V c (Pipeline.arrRef spec1 2) (((cfg1.win 2).blk t).view.emb (ix2 (0 : Fin 1) j)) = V c (Pipeline.arrRef spec1 2) _
  refine congrArg (V c (Pipeline.arrRef spec1 2)) (funext fun a => Fin.ext ?_)
  match a with
  | ⟨0, _⟩ => show win1_2.index t (0 : Fin 2) * 1 + 1 * 0 = 0; rw [e4]
  | ⟨1, _⟩ => show win1_2.index t (1 : Fin 2) * 256 + 1 * j.val = j.val; rw [e5]; omega

/-- The product of the two tiles staged at point t, at (r, j), is contraction tile t mod 10's share of entry
    (2048·(t / 10) + r, j) of the whole product. -/
theorem blockProduct1 (c : Dev nD) (t : Fin cfg1.N) (r : Fin 2048) (j : Fin 256)
    (x0 : Vec Ideal S2048x1024 .bf16) (x1 : Vec Ideal S1024x256 .bf16) (h0 : x0 = iblk1 V c 0 t) (h1 : x1 = iblk1 V c 1 t) :
    ∑ q : Fin 1024, x0 (ix2 r q) * x1 (ix2 q j)
      = tile (natView (lhs1 V c)) (natView (rhs1 V c)) (2048 * (t.val / 10) + r.val) j.val (t.val % 10) := by
  subst h0 h1
  unfold tile
  refine Finset.sum_congr rfl fun q _ => ?_
  rw [lhsBlock1_apply V c t r q, rhsBlock1_apply V c t q j]

/-- At a first contraction tile the accumulator is left at that tile's share alone. -/
theorem acc1_first (c : Dev nD) (t : Fin cfg1.N) (h0 : t.val % 10 = 0) (r : Fin 2048) (j : Fin 256) :
    (stateAt1 V c t.val t.isLt).2 (ix2 r j) = tile (natView (lhs1 V c)) (natView (rhs1 V c)) (2048 * (t.val / 10) + r.val) j.val (t.val % 10) := by
  have h1 : ¬t.val % 10 = 9 := by omega
  rw [stateAt1_first V c t h0 h1]
  dsimp only
  refine (congrFun (accFirst1_eq (F := Ideal) c (grid1.coords t) (ms1_0 t) (hs1_0 t) (ms1_1 t) (hs1_1 t) (ms1_2 t) (hs1_2 t) (ms1_3 t) (hs1_3 t) accM1 (Memref.isWhole_whole _) ((isFirst1_iff t).mpr h0) (fun h => h1 ((isLast1_iff t).mp h)) (iblk1 V c 0 t) (iblk1 V c 1 t) (iblk1 V c 2 t)) (ix2 r j)).trans ?_
  refine (accumulate1_apply _ _ _ r j).trans ?_
  rw [clear1_apply, zero_add]
  exact blockProduct1 V c t r j (iblk1 V c 0 t) (iblk1 V c 1 t) rfl rfl

/-- At any later contraction tile the accumulator gains that tile's share. -/
theorem acc1_step (c : Dev nD) (t : Fin cfg1.N) (h0 : ¬t.val % 10 = 0) (r : Fin 2048) (j : Fin 256) :
    (stateAt1 V c t.val t.isLt).2 (ix2 r j)
      = (stateAt1 V c (t.val - 1) (Nat.lt_of_le_of_lt (Nat.sub_le _ _) t.isLt)).2 (ix2 r j)
        + tile (natView (lhs1 V c)) (natView (rhs1 V c)) (2048 * (t.val / 10) + r.val) j.val (t.val % 10) := by
  by_cases h1 : t.val % 10 = 9
  · rw [stateAt1_last V c t h0 h1]
    dsimp only
    refine (congrFun (accLast1_eq (F := Ideal) c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) ((isLast1_iff t).mpr h1) (iblk1 V c 0 t) (iblk1 V c 1 t) (iblk1 V c 2 t) _) (ix2 r j)).trans ?_
    refine (accumulate1_apply _ _ _ r j).trans ?_
    rw [blockProduct1 V c t r j (iblk1 V c 0 t) (iblk1 V c 1 t) rfl rfl]
  · rw [stateAt1_mid V c t h0 h1]
    dsimp only
    refine (congrFun (accMid1_eq (F := Ideal) c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) (fun h => h1 ((isLast1_iff t).mp h)) (iblk1 V c 0 t) (iblk1 V c 1 t) (iblk1 V c 2 t) _) (ix2 r j)).trans ?_
    refine (accumulate1_apply _ _ _ r j).trans ?_
    rw [blockProduct1 V c t r j (iblk1 V c 0 t) (iblk1 V c 1 t) rfl rfl]

/-- THE INVARIANT: after point n = 10·i + k the accumulator holds, at (r, j), the shares of contraction tiles 0 … k of
    entry (2048·i + r, j). By induction on the point. -/
theorem acc1_eq (c : Dev nD) (n : ℕ) : ∀ (h : n < cfg1.N) (r : Fin 2048) (j : Fin 256),
    (stateAt1 V c n h).2 (ix2 r j)
      = ∑ k ∈ Finset.range (n % 10 + 1), tile (natView (lhs1 V c)) (natView (rhs1 V c)) (2048 * (n / 10) + r.val) j.val k := by
  induction n with
  | zero =>
    intro h r j
    refine (acc1_first V c ⟨0, h⟩ rfl r j).trans ?_
    show tile (natView (lhs1 V c)) (natView (rhs1 V c)) (2048 * (0 / 10) + r.val) j.val 0
      = ∑ k ∈ Finset.range 1, tile (natView (lhs1 V c)) (natView (rhs1 V c)) (2048 * (0 / 10) + r.val) j.val k
    rw [Finset.sum_range_one]
  | succ n ih =>
    intro h r j
    by_cases h0 : (n + 1) % 10 = 0
    · refine (acc1_first V c ⟨n + 1, h⟩ h0 r j).trans ?_
      show tile (natView (lhs1 V c)) (natView (rhs1 V c)) (2048 * ((n + 1) / 10) + r.val) j.val ((n + 1) % 10) = _
      rw [h0, zero_add, Finset.sum_range_one]
    · refine (acc1_step V c ⟨n + 1, h⟩ h0 r j).trans ?_
      show (stateAt1 V c n _).2 (ix2 r j) + tile (natView (lhs1 V c)) (natView (rhs1 V c)) (2048 * ((n + 1) / 10) + r.val) j.val ((n + 1) % 10) = _
      rw [ih _ r j]
      have e1 : (n + 1) / 10 = n / 10 := by omega
      have e2 : (n + 1) % 10 = n % 10 + 1 := by omega
      rw [e1, e2, Finset.sum_range_succ _ (n % 10 + 1)]

/-- At a last contraction tile the output tile is left, at (r, j), at the whole contraction for entry
    (2048·(t / 10) + r, j) plus the bias, rectified. -/
theorem out1_eq (c : Dev nD) (t : Fin cfg1.N) (h1 : t.val % 10 = 9) (r : Fin 2048) (j : Fin 256) :
    (stateAt1 V c t.val t.isLt).1 (ix2 r j)
      = max ((∑ s : Fin 10240, natView (lhs1 V c) (2048 * (t.val / 10) + r.val) s.val * natView (rhs1 V c) s.val j.val)
          + bias1 V c (ix2 (0 : Fin 1) j)) 0 := by
  have h0 : ¬t.val % 10 = 0 := by omega
  rw [stateAt1_last V c t h0 h1]
  dsimp only
  refine (congrFun (outLast1_eq (F := Ideal) c (grid1.coords t) (ms1_0 t) (hs1_0 t) (ms1_1 t) (hs1_1 t) (ms1_2 t) (hs1_2 t) (ms1_3 t) (hs1_3 t) accM1 (Memref.isWhole_whole _) (fun h => h0 ((isFirst1_iff t).mp h)) ((isLast1_iff t).mpr h1) (iblk1 V c 0 t) (iblk1 V c 1 t) (iblk1 V c 2 t) _) (ix2 r j)).trans ?_
  refine (finish1_apply _ _ r j).trans ?_
  rw [biasBlock1_apply V c t j]
  refine congrArg (fun x => max (x + bias1 V c (ix2 (0 : Fin 1) j)) 0) ?_
  refine (accumulate1_apply _ _ _ r j).trans ?_
  rw [blockProduct1 V c t r j (iblk1 V c 0 t) (iblk1 V c 1 t) rfl rfl, acc1_eq V c (t.val - 1) _ r j,
    ← sum_tiles (natView (lhs1 V c)) (natView (rhs1 V c)) (2048 * (t.val / 10) + r.val) j.val]
  have e1 : (t.val - 1) / 10 = t.val / 10 := by omega
  have e2 : (t.val - 1) % 10 + 1 = 9 := by omega
  rw [e1, e2, h1]
  exact (Finset.sum_range_succ (fun k => tile (natView (lhs1 V c)) (natView (rhs1 V c)) (2048 * (t.val / 10) + r.val) j.val k) 9).symm

/-- The output tile at point t sits at rows 2048·(t / 10) … of the output array. -/
theorem outBlock1_emb (t : Fin cfg1.N) (r : Fin 2048) (j : Fin 256) (hp : 2048 * (t.val / 10) + r.val < 10240) :
    ((cfg1.win 3).blk t).view.emb (ix2 r j) = (ix2 (⟨2048 * (t.val / 10) + r.val, hp⟩ : Fin 10240) j : S10240x256.Idx) := by
  obtain ⟨-, -, -, -, -, -, e6, e7⟩ := blockIndex1 t
  refine funext fun a => Fin.ext ?_
  match a with
  | ⟨0, _⟩ => show win1_3.index t (0 : Fin 2) * 2048 + 1 * r.val = 2048 * (t.val / 10) + r.val; rw [e6]; omega
  | ⟨1, _⟩ => show win1_3.index t (1 : Fin 2) * 256 + 1 * j.val = j.val; rw [e7]; omega

/-- What a point that writes back writes is its block of the product. -/
theorem flushed1_eq (c : Dev nD) (t : Fin cfg1.N) (hf : (cfg1.win 3).flush t = true) :
    (dat1 (F := Ideal) V c).flushed 3 t
      = ((cfg1.win 3).blk t).view.read (Elt Ideal) (Cert.MMSpec.mm 10240 10240 256 true (lhs1 V c) (rhs1 V c) (bias1 V c)) := by
  have h1 : t.val % 10 = 9 := (flush1_3 t).mp hf
  have hN : t.val < 50 := lt_of_lt_of_eq t.isLt (show cfg1.N = 50 from N_1)
  show (cfg1.win 3).cut (grid1.coords t) ((dat1 V c).after 3 t) = _
  rw [after1_3]
  funext y
  obtain ⟨r, j, rfl⟩ : ∃ (r : Fin 2048) (j : Fin 256), y = ix2 r j := ⟨y 0, y 1, eq_ix2 y⟩
  have hp : 2048 * (t.val / 10) + r.val < 10240 := by omega
  rw [View.read_apply]
  show (stateAt1 V c t.val t.isLt).1 (ix2 r j) = Cert.MMSpec.mm 10240 10240 256 true (lhs1 V c) (rhs1 V c) (bias1 V c) (((cfg1.win 3).blk t).view.emb (ix2 r j))
  rw [outBlock1_emb t r j hp, Cert.MMSpec.mm_apply, if_pos rfl, out1_eq V c t h1 r j]
  refine congrArg (fun x => max (x + bias1 V c (ix2 (0 : Fin 1) j)) 0) (Finset.sum_congr rfl fun s _ => ?_)
  rw [natView_of_lt _ hp s.isLt, natView_of_lt _ s.isLt j.isLt]

/-- Every entry of the output array lies in the block of the point that finishes its row tile. -/
theorem cover1 (i : S10240x256.Idx) :
    ∃ t : Fin cfg1.N, (cfg1.win 3).flush t = true ∧ i ∈ ((cfg1.win 3).blk t).view.set := by
  have hi0 : (i 0).val < 10240 := idx2_lt0 i
  have hi1 : (i 1).val < 256 := idx2_lt1 i
  have hlt : 10 * ((i 0).val / 2048) + 9 < cfg1.N := by rw [show cfg1.N = 50 from N_1]; omega
  refine ⟨⟨10 * ((i 0).val / 2048) + 9, hlt⟩, (flush1_3 _).mpr (by show (10 * ((i 0).val / 2048) + 9) % 10 = 9; omega), ?_⟩
  obtain ⟨-, -, -, -, -, -, e6, e7⟩ := blockIndex1 ⟨10 * ((i 0).val / 2048) + 9, hlt⟩
  show i ∈ ((View.whole main_v61).slice (win1_3.rect ⟨10 * ((i 0).val / 2048) + 9, hlt⟩)).set
  rw [View.set_slice_whole, Rect.mem_set_unit]
  intro a
  match a with
  | ⟨0, _⟩ =>
    show win1_3.index ⟨10 * ((i 0).val / 2048) + 9, hlt⟩ (0 : Fin 2) * 2048 ≤ (i 0).val ∧ (i 0).val < win1_3.index ⟨10 * ((i 0).val / 2048) + 9, hlt⟩ (0 : Fin 2) * 2048 + 2048
    rw [e6]; show (10 * ((i 0).val / 2048) + 9) / 10 * 2048 ≤ (i 0).val ∧ (i 0).val < (10 * ((i 0).val / 2048) + 9) / 10 * 2048 + 2048; omega
  | ⟨1, _⟩ =>
    show win1_3.index ⟨10 * ((i 0).val / 2048) + 9, hlt⟩ (1 : Fin 2) * 256 ≤ (i 1).val ∧ (i 1).val < win1_3.index ⟨10 * ((i 0).val / 2048) + 9, hlt⟩ (1 : Fin 2) * 256 + 256
    rw [e7]; omega

/-- REGION 1'S VALUE: the output array ends holding the product of the left and right matrices plus the bias row,
    rectified. -/
theorem value1 (c : Dev nD) :
    ((dat1 (F := Ideal) V c).arrAt 3 cfg1.N : S10240x256.Idx → EReal)
      = Cert.MMSpec.mm 10240 10240 256 true (V c (Pipeline.arrRef spec1 0)) (V c (Pipeline.arrRef spec1 1)) (V c (Pipeline.arrRef spec1 2)) :=
  (dat1 (F := Ideal) V c).arrAt_eq_of_cover 3 _ (fun t hf => flushed1_eq V c t hf) cover1

end Cert.KernelIdeal.HandValue

end
-- ==== Proof.Reg2Value.lean ====
/-
  Region 2 at the extended reals: the output array the region leaves is the product of its operand arrays plus the
  bias row. At each of the five grid points the body clears the accumulator, adds the product of the point's row tile
  of the left operand with the whole right operand, and stores that plus the bias row into the output tile; entry
  (r, j) of the tile is therefore 0 + Σ_q a(r, q) · b(q, j) + bias(j). The left operand's row tile at point t is rows
  2048·t … 2048·t + 2047 of its array, as is the output's, so the tile written back at point t is tile t of the
  product array; the five tiles cover the 10240 rows.
-/
import proofs.«173524_j83966610637551_1_alg».proof.Proof.Reg2
import proofs.«173524_j83966610637551_1_alg».proof.Proof.MMSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Piece
variable {F : FTy → Type} [FloatOps F]

theorem hzero2 : (![0, 0] : Fin 2 → Nat) = fun _ => 0 := funext fun a => by fin_cases a <;> rfl

/-- What the body leaves in the output tile, for any float interpretation: the accumulator is cleared, the one
    partial product is added to it, and the bias row is added to the result. -/
theorem out2_3_eq (c : Dev nD) (i : grid2.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond2_0 i) (hc1 : cond2_1 i)
    (x0 : Vec F S2048x256 .bf16) (x1 : Vec F S256x256 .bf16) (x2 : Vec F S1x256 .f32) :
    out2_3 c i arg2 harg2 arg3 harg3 arg4 harg4 arg5 harg5 arg6 harg6 hc0 hc1 x0 x1 x2
      = k2_pay3 (k2_pay2 (k2_pay1 (F := F)) x0 x1) x2 := by
  unfold out2_3
  rw [View.read_writes_eq_canon _ _ _ (cover2_3 c i arg2 harg2 arg3 harg3 arg4 harg4 arg5 harg5 arg6 harg6 hc0 hc1 x0 x1 x2)]
  unfold kernelRun2
  dsimp only
  sl_unfold_words
  rw [View.canon_unit_zero hzero2]
  simp only [View.readCov_cons_toLoadRect, View.readAt_eq_ld, harg2.read_unread, harg3.read_unread, harg4.read_unread,
    View.ld_unit_zero (S := S2048x256) hzero2, View.ld_unit_zero (S := S256x256) hzero2, View.ld_unit_zero (S := S1x256) hzero2]

end Piece
abbrev D2 := dot_S2048x256_S256x256_S2048x256_1_0_0_1_n_n

theorem lhs2_0 (i : S2048x256.Idx) (q : D2.contr.Idx) : (D2.lhsIdx i q 0).val = (i 0).val := by
  unfold DotDims.lhsIdx
  rw [dif_neg (show ¬(0 : Fin S2048x256.rank) ∈ D2.lhsBatch by decide), dif_pos (show (0 : Fin S2048x256.rank) ∈ D2.lhsNonContracting by decide)]
  rfl
theorem lhs2_1 (i : S2048x256.Idx) (q : D2.contr.Idx) : (D2.lhsIdx i q 1).val = (q ⟨0, by decide⟩).val :=
  D2.lhsIdx_val_of_single rfl i q
theorem rhs2_0 (i : S2048x256.Idx) (q : D2.contr.Idx) : (D2.rhsIdx i q 0).val = (q ⟨0, by decide⟩).val :=
  D2.rhsIdx_val_of_single rfl i q
theorem rhs2_1 (i : S2048x256.Idx) (q : D2.contr.Idx) : (D2.rhsIdx i q 1).val = (i 1).val := by
  unfold DotDims.rhsIdx
  rw [dif_neg (show ¬(1 : Fin S256x256.rank) ∈ D2.rhsBatch by decide), dif_pos (show (1 : Fin S256x256.rank) ∈ D2.rhsNonContracting by decide)]
  rfl

/-- The product tile at an entry: the sum over the contracted axis. -/
theorem dot2_apply (x0 : FVec Ideal S2048x256 .bf16) (x1 : FVec Ideal S256x256 .bf16) (r : Fin 2048) (j : Fin 256) :
    FloatOps.matmul D2 none x0 x1 (constant S2048x256 .f32 0x00000000#32) (ix2 r j)
      = ∑ k : Fin 256, x0 (ix2 r k) * x1 (ix2 k j) := by
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 r j) ((contrEquiv1 D2 256 rfl rfl).symm k) = ix2 r k := funext fun a => Fin.ext (by
    match a with
    | ⟨0, _⟩ => exact lhs2_0 _ _
    | ⟨1, _⟩ => exact (lhs2_1 _ _).trans hk)
  have er : D2.rhsIdx (ix2 r j) ((contrEquiv1 D2 256 rfl rfl).symm k) = ix2 k j := funext fun a => Fin.ext (by
    match a with
    | ⟨0, _⟩ => exact (rhs2_0 _ _).trans hk
    | ⟨1, _⟩ => exact rhs2_1 _ _)
  rw [el, er]

/-- The tile the body stores, at an entry: the product sum plus the bias row's entry. -/
theorem pay2_apply (x0 : Vec Ideal S2048x256 .bf16) (x1 : Vec Ideal S256x256 .bf16) (x2 : Vec Ideal S1x256 .f32)
    (r : Fin 2048) (j : Fin 256) :
    k2_pay3 (F := Ideal) (k2_pay2 (F := Ideal) (k2_pay1 (F := Ideal)) x0 x1) x2 (ix2 r j)
      = (∑ q : Fin 256, x0 (ix2 r q) * x1 (ix2 q j)) + x2 (ix2 (0 : Fin 1) j) := by
  unfold k2_pay3 k2_pay2 k2_pay1
  dsimp only
  simp only [shapeCast_self]
  rw [addf_apply, broadcastTo_1b_ab_apply, addf_apply]
  show (Ideal.ofBits .f32 0x00000000#32 + FloatOps.matmul D2 none x0 x1 (constant S2048x256 .f32 0x00000000#32) (ix2 r j)) + _ = _
  rw [dot2_apply, Ideal.ofBits_zero_f32, zero_add]

/-- The same at any entry of the tile. -/
theorem pay2_apply' (x0 : Vec Ideal S2048x256 .bf16) (x1 : Vec Ideal S256x256 .bf16) (x2 : Vec Ideal S1x256 .f32)
    (y : S2048x256.Idx) :
    k2_pay3 (F := Ideal) (k2_pay2 (F := Ideal) (k2_pay1 (F := Ideal)) x0 x1) x2 y
      = (∑ q : Fin 256, x0 (ix2 (y 0) q) * x1 (ix2 q (y 1))) + x2 (ix2 (0 : Fin 1) (y 1)) :=
  (congrArg _ (eq_ix2 y)).trans (pay2_apply x0 x1 x2 (y 0) (y 1))

/-! ## The tiles where the arrays hold them -/

variable (V : (c : Dev nD) → (b : Ref sig .tc) → Buf (Elt Ideal) ((c : Thread nD τ).loc b))

/-- The three operand arrays as the region finds them. -/
abbrev A2 (c : Dev nD) : S10240x256.Idx → EReal := V c (Pipeline.arrRef spec2 0)
abbrev B2 (c : Dev nD) : S256x256.Idx → EReal := V c (Pipeline.arrRef spec2 1)
abbrev C2 (c : Dev nD) : S1x256.Idx → EReal := V c (Pipeline.arrRef spec2 2)

/-- The whole output array the region leaves: the product of the operand arrays plus the bias row. -/
abbrev G2 (c : Dev nD) : S10240x256.Idx → EReal := Cert.MMSpec.mm 10240 256 256 false (A2 V c) (B2 V c) (C2 V c)

/-- The tiles' positions, decided over the five points: the left operand's row tile moves with the output's, the
    right operand and the bias row are whole, and the output has one column tile. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 4 ∧ win2_3.index t (1 : Fin 2) = 0 :=
  (by decide +kernel : ∀ t : Fin grid2.N, _)

/-- Every row tile of the output is some point's. -/
theorem idx_onto2 : ∀ (q0 : Fin 5), ∃ t : Fin cfg2.N, win2_3.index t = ![q0.val, 0] :=
  (by decide +kernel : ∀ (q0 : Fin 5), ∃ t : Fin grid2.N, win2_3.index t = ![q0.val, 0])

/-- What point t writes back is tile t of the product array. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold outsAt2
  rw [out2_3_eq]
  obtain ⟨e0, e1, e2, e3, e4, e5, e6, e7⟩ := idx_facts2 t
  funext j
  show k2_pay3 (F := Ideal) (k2_pay2 (F := Ideal) (k2_pay1 (F := Ideal)) (iblk2 V c 0 t) (iblk2 V c 1 t)) (iblk2 V c 2 t) j
    = G2 V c (((cfg2.win 3).blk t).view.emb j)
  refine (pay2_apply' _ _ _ j).trans ?_
  show (∑ q : Fin 256, A2 V c (((cfg2.win 0).blk t).view.emb (ix2 (j 0) q))
        * B2 V c (((cfg2.win 1).blk t).view.emb (ix2 q (j 1))))
      + C2 V c (((cfg2.win 2).blk t).view.emb (ix2 (0 : Fin 1) (j 1)))
    = (∑ q : Fin 256, A2 V c (ix2 ⟨((((cfg2.win 3).blk t).view.emb j) 0).val, idx2_lt0 _⟩ q)
        * B2 V c (ix2 q ⟨((((cfg2.win 3).blk t).view.emb j) 1).val, idx2_lt1 _⟩))
      + C2 V c (ix2 (0 : Fin 1) ⟨((((cfg2.win 3).blk t).view.emb j) 1).val, idx2_lt1 _⟩)
  have h0 : ∀ q : Fin 256, ((cfg2.win 0).blk t).view.emb (ix2 (j 0) q)
      = ix2 ⟨((((cfg2.win 3).blk t).view.emb j) 0).val, idx2_lt0 _⟩ q := fun q => by
    funext a; apply Fin.ext
    match a with
    | ⟨0, _⟩ => show win2_0.index t (0 : Fin 2) * 2048 + 1 * (j 0).val = win2_3.index t (0 : Fin 2) * 2048 + 1 * (j 0).val; omega
    | ⟨1, _⟩ => show win2_0.index t (1 : Fin 2) * 256 + 1 * q.val = q.val; omega
  have h1 : ∀ q : Fin 256, ((cfg2.win 1).blk t).view.emb (ix2 q (j 1))
      = ix2 q ⟨((((cfg2.win 3).blk t).view.emb j) 1).val, idx2_lt1 _⟩ := fun q => by
    funext a; apply Fin.ext
    match a with
    | ⟨0, _⟩ => show win2_1.index t (0 : Fin 2) * 256 + 1 * q.val = q.val; omega
    | ⟨1, _⟩ => show win2_1.index t (1 : Fin 2) * 256 + 1 * (j 1).val = win2_3.index t (1 : Fin 2) * 256 + 1 * (j 1).val; omega
  have h2 : ((cfg2.win 2).blk t).view.emb (ix2 (0 : Fin 1) (j 1))
      = ix2 (0 : Fin 1) ⟨((((cfg2.win 3).blk t).view.emb j) 1).val, idx2_lt1 _⟩ := by
    funext a; apply Fin.ext
    match a with
    | ⟨0, _⟩ => show win2_2.index t (0 : Fin 2) * 1 + 1 * 0 = 0; omega
    | ⟨1, _⟩ => show win2_2.index t (1 : Fin 2) * 256 + 1 * (j 1).val = win2_3.index t (1 : Fin 2) * 256 + 1 * (j 1).val; omega
  refine congrArg₂ (· + ·) (Finset.sum_congr rfl fun q _ => ?_) ?_
  · rw [h0 q, h1 q]
  · rw [h2]

/-! ## The tiles cover the array -/

/-- An index of the output array is in point t's tile iff each coordinate is in the tile's range on its axis. -/
theorem mem_blk2 (t : Fin cfg2.N) (i : S10240x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v63).slice (win2_3.rect t)).set ↔ _
  rw [View.set_slice_whole, Rect.mem_set_unit]
  exact Iff.rfl

/-- Row r of the output is written back by the point whose row tile holds it, point r / 2048. -/
theorem cover2 (i : S10240x256.Idx) :
    ∃ t : Fin cfg2.N, (cfg2.win 3).flush t = true ∧ i ∈ ((cfg2.win 3).blk t).view.set := by
  have hi0 : (i 0).val < 10240 := (i 0).isLt
  have hi1 : (i 1).val < 256 := (i 1).isLt
  obtain ⟨t, ht⟩ := idx_onto2 ⟨(i 0).val / 2048, by omega⟩
  have q0 : win2_3.index t (0 : Fin 2) = (i 0).val / 2048 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 256 ≤ (i 1).val ∧ (i 1).val < win2_3.index t (1 : Fin 2) * 256 + 256; omega

/-- THE REGION'S OUTPUT ARRAY after its last point: the product of the operand arrays plus the bias row. -/
theorem value2 (c : Dev nD) :
    ((Cert.KernelIdeal.Hand.dat2 (F := Ideal) V c).arrAt 3 cfg2.N : S10240x256.Idx → EReal)
      = Cert.MMSpec.mm 10240 256 256 false (V c (Pipeline.arrRef spec2 0)) (V c (Pipeline.arrRef spec2 1)) (V c (Pipeline.arrRef spec2 2)) :=
  (dat2 V c).arrAt_eq_of_cover 3 (G2 V c) (fun t _ => flushed2_eq V c t) cover2

end Cert.KernelIdeal.HandValue

end
-- ==== Proof.Reg3Piece.lean ====
/-
  What each case of region 3's body leaves behind, as arithmetic: the stores the run recorded, read back, are the
  body's payloads applied to the blocks it loaded — the accumulation step on the accumulator it found (on the cleared
  accumulator at a first contraction tile), and at a last contraction tile the output step on the new accumulator.
-/
import proofs.«173524_j83966610637551_1_alg».proof.Proof.Reg3
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (Pipeline.UD sig nD τ) ℕ

theorem zeroOffset3 : (![0, 0] : Fin 2 → Nat) = fun _ => 0 := funext fun a => by fin_cases a <;> rfl

/-- What the middle case leaves in the accumulator is the accumulation step on what it found. -/
theorem accMid3_eq (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : ¬isLast3 i)
    (x0 : Vec F S2048x1024 .bf16) (x1 : Vec F S1024x256 .bf16) (x2 : Vec F S1x256 .f32) (xs : Vec F S2048x256 .f32) :
    accMid3 c i arg2 harg2 arg3 harg3 arg4 harg4 arg5 harg5 arg6 harg6 hc0 hc1 x0 x1 x2 xs = k3_pay2 xs x0 x1 := by
  unfold accMid3
  rw [View.read_writes_eq_canon _ _ _ (accCoverMid3 c i arg2 harg2 arg3 harg3 arg4 harg4 arg5 harg5 arg6 harg6 hc0 hc1 x0 x1 x2 xs)]
  unfold runMid3
  dsimp only
  sl_unfold_words
  rw [View.canon_unit_zero zeroOffset3]
  simp only [View.readAt_eq_ld, harg2.read_unread, harg3.read_unread, harg6.read_unread, View.ld_unit_zero (S := S2048x256) zeroOffset3, View.ld_unit_zero (S := S2048x1024) zeroOffset3, View.ld_unit_zero (S := S1024x256) zeroOffset3]

/-- What the first case leaves in the accumulator is the accumulation step on the cleared accumulator. -/
theorem accFirst3_eq (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : isFirst3 i) (hc1 : ¬isLast3 i)
    (x0 : Vec F S2048x1024 .bf16) (x1 : Vec F S1024x256 .bf16) (x2 : Vec F S1x256 .f32) :
    accFirst3 c i arg2 harg2 arg3 harg3 arg4 harg4 arg5 harg5 arg6 harg6 hc0 hc1 x0 x1 x2 = k3_pay2 (k3_pay1 (F := F)) x0 x1 := by
  unfold accFirst3
  rw [View.read_writes_eq_canon _ _ _ (accCoverFirst3 c i arg2 harg2 arg3 harg3 arg4 harg4 arg5 harg5 arg6 harg6 hc0 hc1 x0 x1 x2)]
  unfold runFirst3
  dsimp only
  sl_unfold_words
  rw [View.canon_cons_unit_zero (S := S2048x256) zeroOffset3, View.readCov_unit_zero (S := S2048x256) _ zeroOffset3]
  simp only [View.readAt_eq_ld, harg2.read_unread, harg3.read_unread, View.ld_unit_zero (S := S2048x1024) zeroOffset3, View.ld_unit_zero (S := S1024x256) zeroOffset3]

/-- What the last case leaves in the accumulator, -/
theorem accLast3_eq (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) :
    accLast3 c i arg2 harg2 arg3 harg3 arg4 harg4 arg5 harg5 arg6 harg6 hc0 hc1 x0 x1 x2 xs = k3_pay2 xs x0 x1 := by
  unfold accLast3
  rw [View.read_writes_eq_canon _ _ _ (accCoverLast3 c i arg2 harg2 arg3 harg3 arg4 harg4 arg5 harg5 arg6 harg6 hc0 hc1 x0 x1 x2 xs)]
  unfold runLast3
  dsimp only
  sl_unfold_words
  rw [View.canon_unit_zero zeroOffset3]
  simp only [View.readAt_eq_ld, harg2.read_unread, harg3.read_unread, harg6.read_unread, View.ld_unit_zero (S := S2048x256) zeroOffset3, View.ld_unit_zero (S := S2048x1024) zeroOffset3, View.ld_unit_zero (S := S1024x256) zeroOffset3]

/-- and in the output tile: the output step on that accumulator and the bias row. -/
theorem outLast3_eq (c : Dev nD) (i : grid3.Coords) (arg2 : Memref sig .tc .vmem S2048x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬isFirst3 i) (hc1 : isLast3 i)
    (x0 : Vec F S2048x1024 .bf16) (x1 : Vec F S1024x256 .bf16) (x2 : Vec F S1x256 .f32) (xs : Vec F S2048x256 .f32) :
    outLast3 c i arg2 harg2 arg3 harg3 arg4 harg4 arg5 harg5 arg6 harg6 hc0 hc1 x0 x1 x2 xs = k3_pay3 (k3_pay2 xs x0 x1) x2 := by
  unfold outLast3
  rw [View.read_writes_eq_canon _ _ _ (outCoverLast3 c i arg2 harg2 arg3 harg3 arg4 harg4 arg5 harg5 arg6 harg6 hc0 hc1 x0 x1 x2 xs)]
  unfold runLast3
  dsimp only
  sl_unfold_words
  rw [View.canon_unit_zero zeroOffset3, View.readCov_unit_zero (S := S2048x256) _ zeroOffset3]
  simp only [View.readAt_eq_ld, harg2.read_unread, harg3.read_unread, harg4.read_unread, harg6.read_unread, View.ld_unit_zero (S := S2048x256) zeroOffset3, View.ld_unit_zero (S := S2048x1024) zeroOffset3, View.ld_unit_zero (S := S1024x256) zeroOffset3, View.ld_unit_zero (S := S1x256) zeroOffset3]

end Cert.KernelIdeal.HandValue

end
-- ==== Proof.Reg3Pay.lean ====
/-
  The three payloads of region 3's body read at an index, over the extended reals: the cleared accumulator is 0; the
  accumulation step adds, at (r, j), the 1024 products of row r of the left tile with column j of the right tile;
  the output step adds the bias row's j-th entry and rectifies.
-/
import proofs.«173524_j83966610637551_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.ValueIdx
open Cert.KernelIdeal Cert.KernelIdeal.Gen

/-- The tile product's dimension numbers: contract axis 1 of the left tile with axis 0 of the right tile. -/
abbrev D3 := dot_S2048x1024_S1024x256_S2048x256_1_0_0_1_n_n

theorem D3_lhs_0 (i : S2048x256.Idx) (q : D3.contr.Idx) : (D3.lhsIdx i q 0).val = (i 0).val := by
  unfold DotDims.lhsIdx
  rw [dif_neg (show ¬(0 : Fin S2048x1024.rank) ∈ D3.lhsBatch by decide), dif_pos (show (0 : Fin S2048x1024.rank) ∈ D3.lhsNonContracting by decide)]
  rfl
theorem D3_lhs_1 (i : S2048x256.Idx) (q : D3.contr.Idx) : (D3.lhsIdx i q 1).val = (q ⟨0, by decide⟩).val :=
  D3.lhsIdx_val_of_single rfl i q
theorem D3_rhs_0 (i : S2048x256.Idx) (q : D3.contr.Idx) : (D3.rhsIdx i q 0).val = (q ⟨0, by decide⟩).val :=
  D3.rhsIdx_val_of_single rfl i q
theorem D3_rhs_1 (i : S2048x256.Idx) (q : D3.contr.Idx) : (D3.rhsIdx i q 1).val = (i 1).val := by
  unfold DotDims.rhsIdx
  rw [dif_neg (show ¬(1 : Fin S1024x256.rank) ∈ D3.rhsBatch by decide), dif_pos (show (1 : Fin S1024x256.rank) ∈ D3.rhsNonContracting by decide)]
  rfl

/-- The tile product into a zero accumulator, at (r, j): the sum over the 1024 contraction coordinates. -/
theorem tileProduct3_apply (x0 : FVec Ideal S2048x1024 .bf16) (x1 : FVec Ideal S1024x256 .bf16) (r : Fin 2048) (j : Fin 256) :
    FloatOps.matmul D3 none x0 x1 (constant S2048x256 .f32 0x00000000#32) (ix2 r j) = ∑ q : Fin 1024, x0 (ix2 r q) * x1 (ix2 q j) := by
  rw [Ideal.matmul_constant_zero_apply, ← Equiv.sum_comp (ValueIdx.contrEquiv1 D3 1024 rfl rfl).symm]
  refine Finset.sum_congr rfl fun k _ => ?_
  have hk := ValueIdx.contrEquiv1_symm_val D3 1024 rfl rfl k
  have el : D3.lhsIdx (ix2 r j) ((ValueIdx.contrEquiv1 D3 1024 rfl rfl).symm k) = ix2 r k := funext fun a => Fin.ext (by
    match a with
    | ⟨0, _⟩ => exact D3_lhs_0 _ _
    | ⟨1, _⟩ => exact (D3_lhs_1 _ _).trans hk)
  have er : D3.rhsIdx (ix2 r j) ((ValueIdx.contrEquiv1 D3 1024 rfl rfl).symm k) = ix2 k j := funext fun a => Fin.ext (by
    match a with
    | ⟨0, _⟩ => exact (D3_rhs_0 _ _).trans hk
    | ⟨1, _⟩ => exact D3_rhs_1 _ _)
  rw [el, er]

/-- The cleared accumulator is zero everywhere. -/
theorem clear3_apply (y : S2048x256.Idx) : k3_pay1 (F := Ideal) y = 0 := by
  unfold k3_pay1
  simp only [shapeCast_self]
  exact Ideal.ofBits_zero_f32

/-- The accumulation step at (r, j). -/
theorem accumulate3_apply (xs : Vec Ideal S2048x256 .f32) (x0 : Vec Ideal S2048x1024 .bf16) (x1 : Vec Ideal S1024x256 .bf16)
    (r : Fin 2048) (j : Fin 256) :
    k3_pay2 (F := Ideal) xs x0 x1 (ix2 r j) = xs (ix2 r j) + ∑ q : Fin 1024, x0 (ix2 r q) * x1 (ix2 q j) := by
  unfold k3_pay2
  simp only [shapeCast_self]
  exact congrArg (xs (ix2 r j) + ·) (tileProduct3_apply x0 x1 r j)

/-- The output step at (r, j): accumulator plus bias, rectified. -/
theorem finish3_apply (acc : Vec Ideal S2048x256 .f32) (b : Vec Ideal S1x256 .f32) (r : Fin 2048) (j : Fin 256) :
    k3_pay3 (F := Ideal) acc b (ix2 r j) = max (acc (ix2 r j) + b (ix2 (0 : Fin 1) j)) 0 := by
  unfold k3_pay3
  simp only [shapeCast_self]
  show max (acc (ix2 r j) + broadcastTo S2048x256 b broadcasts_S1x256_S2048x256 (ix2 r j)) (Ideal.ofBits .f32 0x00000000#32) = _
  rw [Ideal.ofBits_zero_f32, broadcastTo_apply b broadcasts_S1x256_S2048x256 (ix2 r j) (ix2 (0 : Fin 1) j) (fun a => by
    match a with
    | ⟨0, _⟩ => rfl
    | ⟨1, _⟩ => rfl)]

end Cert.KernelIdeal.HandValue

end
-- ==== Proof.Reg3Value.lean ====
/-
  Region 3 computes the matrix product. With a the 10240 × 10240 left matrix, b the 10240 × 256 right matrix and
  β the bias row as the region finds them, the output array ends holding, at (p, j),
      max (Σ_{s < 10240} a(p, s) · b(s, j) + β(j), 0).
  Row tile i covers rows 2048·i … 2048·i + 2047. Inside a row tile the accumulator after contraction tile k holds
  the partial sums Σ_{k' ≤ k} Σ_{q < 1024} a(p, 1024·k' + q) · b(1024·k' + q, j): zero plus the first tile product at
  k = 0, one more tile product at each later k (induction over the grid points). At k = 9 the ten partial sums are
  the whole contraction (Fin 10240 regrouped as Fin 10 × Fin 1024), the output tile is that plus the bias, rectified,
  and it is written back to rows 2048·i … of the output array; the five row tiles cover the array.
-/
import proofs.«173524_j83966610637551_1_alg».proof.Proof.Reg3Piece
import proofs.«173524_j83966610637551_1_alg».proof.Proof.Reg3Pay
import proofs.«173524_j83966610637551_1_alg».proof.Proof.MMTile
import proofs.«173524_j83966610637551_1_alg».proof.Proof.MMSpec

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx Cert.MMTile

variable (V : (c : Dev nD) → (b : Ref sig .tc) → Buf (Elt Ideal) ((c : Thread nD τ).loc b))

/-- The three operand arrays as the region finds them. -/
abbrev lhs3 (c : Dev nD) : (⟨2, ![10240, 10240]⟩ : Shape).Idx → EReal := V c (Pipeline.arrRef spec3 0)
abbrev rhs3 (c : Dev nD) : (⟨2, ![10240, 256]⟩ : Shape).Idx → EReal := V c (Pipeline.arrRef spec3 1)
abbrev bias3 (c : Dev nD) : (⟨2, ![1, 256]⟩ : Shape).Idx → EReal := V c (Pipeline.arrRef spec3 2)

/-- Where the windows' blocks sit at point t = 10·i + k: the left tile at block (i, k), the right tile at block (k, 0),
    the bias row at block (0, 0), the output tile at block (i, 0). -/
theorem blockIndex3 : ∀ t : Fin cfg3.N, win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0 :=
  (by decide +kernel : ∀ t : Fin grid3.N, _)

/-- The left tile at point t, entry (r, q): the left matrix at (2048·(t / 10) + r, 1024·(t mod 10) + q). -/
theorem lhsBlock3_apply (c : Dev nD) (t : Fin cfg3.N) (r : Fin 2048) (q : Fin 1024) :
    (iblk3 V c 0 t : Vec Ideal S2048x1024 .bf16) (ix2 r q)
      = natView (lhs3 V c) (2048 * (t.val / 10) + r.val) (1024 * (t.val % 10) + q.val) := by
  have hN : t.val < 50 := lt_of_lt_of_eq t.isLt (show cfg3.N = 50 from N_3)
  obtain ⟨e0, e1, -⟩ := blockIndex3 t
  have hp : 2048 * (t.val / 10) + r.val < 10240 := by omega
  have hq : 1024 * (t.val % 10) + q.val < 10240 := by omega
  rw [natView_of_lt _ hp hq]
  unfold iblk3
  rw [View.read_apply]
  show V c (Pipeline.arrRef spec3 0) (((cfg3.win 0).blk t).view.emb (ix2 r q)) = V c (Pipeline.arrRef spec3 0) _
  refine congrArg (V c (Pipeline.arrRef spec3 0)) (funext fun a => Fin.ext ?_)
  match a with
  | ⟨0, _⟩ => show win3_0.index t (0 : Fin 2) * 2048 + 1 * r.val = 2048 * (t.val / 10) + r.val; rw [e0]; omega
  | ⟨1, _⟩ => show win3_0.index t (1 : Fin 2) * 1024 + 1 * q.val = 1024 * (t.val % 10) + q.val; rw [e1]; omega

/-- The right tile at point t, entry (q, j): the right matrix at (1024·(t mod 10) + q, j). -/
theorem rhsBlock3_apply (c : Dev nD) (t : Fin cfg3.N) (q : Fin 1024) (j : Fin 256) :
    (iblk3 V c 1 t : Vec Ideal S1024x256 .bf16) (ix2 q j)
      = natView (rhs3 V c) (1024 * (t.val % 10) + q.val) j.val := by
  have hN : t.val < 50 := lt_of_lt_of_eq t.isLt (show cfg3.N = 50 from N_3)
  obtain ⟨-, -, e2, e3, -⟩ := blockIndex3 t
  have hq : 1024 * (t.val % 10) + q.val < 10240 := by omega
  rw [natView_of_lt _ hq j.isLt]
  unfold iblk3
  rw [View.read_apply]
  show V c (Pipeline.arrRef spec3 1) (((cfg3.win 1).blk t).view.emb (ix2 q j)) = V c (Pipeline.arrRef spec3 1) _
  refine congrArg (V c (Pipeline.arrRef spec3 1)) (funext fun a => Fin.ext ?_)
  match a with
  | ⟨0, _⟩ => show win3_1.index t (0 : Fin 2) * 1024 + 1 * q.val = 1024 * (t.val % 10) + q.val; rw [e2]; omega
  | ⟨1, _⟩ => show win3_1.index t (1 : Fin 2) * 256 + 1 * j.val = j.val; rw [e3]; omega

/-- The bias row's block is the bias row. -/
theorem biasBlock3_apply (c : Dev nD) (t : Fin cfg3.N) (j : Fin 256) :
    (iblk3 V c 2 t : Vec Ideal S1x256 .f32) (ix2 (0 : Fin 1) j) = bias3 V c (ix2 (0 : Fin 1) j) := by
  obtain ⟨-, -, -, -, e4, e5, -⟩ := blockIndex3 t
  unfold iblk3
  rw [View.read_apply]
  show V c (Pipeline.arrRef spec3 2) (((cfg3.win 2).blk t).view.emb (ix2 (0 : Fin 1) j)) = V c (Pipeline.arrRef spec3 2) _
  refine congrArg (V c (Pipeline.arrRef spec3 2)) (funext fun a => Fin.ext ?_)
  match a with
  | ⟨0, _⟩ => show win3_2.index t (0 : Fin 2) * 1 + 1 * 0 = 0; rw [e4]
  | ⟨1, _⟩ => show win3_2.index t (1 : Fin 2) * 256 + 1 * j.val = j.val; rw [e5]; omega

/-- The product of the two tiles staged at point t, at (r, j), is contraction tile t mod 10's share of entry
    (2048·(t / 10) + r, j) of the whole product. -/
theorem blockProduct3 (c : Dev nD) (t : Fin cfg3.N) (r : Fin 2048) (j : Fin 256)
    (x0 : Vec Ideal S2048x1024 .bf16) (x1 : Vec Ideal S1024x256 .bf16) (h0 : x0 = iblk3 V c 0 t) (h1 : x1 = iblk3 V c 1 t) :
    ∑ q : Fin 1024, x0 (ix2 r q) * x1 (ix2 q j)
      = tile (natView (lhs3 V c)) (natView (rhs3 V c)) (2048 * (t.val / 10) + r.val) j.val (t.val % 10) := by
  subst h0 h1
  unfold tile
  refine Finset.sum_congr rfl fun q _ => ?_
  rw [lhsBlock3_apply V c t r q, rhsBlock3_apply V c t q j]

/-- At a first contraction tile the accumulator is left at that tile's share alone. -/
theorem acc3_first (c : Dev nD) (t : Fin cfg3.N) (h0 : t.val % 10 = 0) (r : Fin 2048) (j : Fin 256) :
    (stateAt3 V c t.val t.isLt).2 (ix2 r j) = tile (natView (lhs3 V c)) (natView (rhs3 V c)) (2048 * (t.val / 10) + r.val) j.val (t.val % 10) := by
  have h1 : ¬t.val % 10 = 9 := by omega
  rw [stateAt3_first V c t h0 h1]
  dsimp only
  refine (congrFun (accFirst3_eq (F := Ideal) c (grid3.coords t) (ms3_0 t) (hs3_0 t) (ms3_1 t) (hs3_1 t) (ms3_2 t) (hs3_2 t) (ms3_3 t) (hs3_3 t) accM3 (Memref.isWhole_whole _) ((isFirst3_iff t).mpr h0) (fun h => h1 ((isLast3_iff t).mp h)) (iblk3 V c 0 t) (iblk3 V c 1 t) (iblk3 V c 2 t)) (ix2 r j)).trans ?_
  refine (accumulate3_apply _ _ _ r j).trans ?_
  rw [clear3_apply, zero_add]
  exact blockProduct3 V c t r j (iblk3 V c 0 t) (iblk3 V c 1 t) rfl rfl

/-- At any later contraction tile the accumulator gains that tile's share. -/
theorem acc3_step (c : Dev nD) (t : Fin cfg3.N) (h0 : ¬t.val % 10 = 0) (r : Fin 2048) (j : Fin 256) :
    (stateAt3 V c t.val t.isLt).2 (ix2 r j)
      = (stateAt3 V c (t.val - 1) (Nat.lt_of_le_of_lt (Nat.sub_le _ _) t.isLt)).2 (ix2 r j)
        + tile (natView (lhs3 V c)) (natView (rhs3 V c)) (2048 * (t.val / 10) + r.val) j.val (t.val % 10) := by
  by_cases h1 : t.val % 10 = 9
  · rw [stateAt3_last V c t h0 h1]
    dsimp only
    refine (congrFun (accLast3_eq (F := Ideal) c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) ((isLast3_iff t).mpr h1) (iblk3 V c 0 t) (iblk3 V c 1 t) (iblk3 V c 2 t) _) (ix2 r j)).trans ?_
    refine (accumulate3_apply _ _ _ r j).trans ?_
    rw [blockProduct3 V c t r j (iblk3 V c 0 t) (iblk3 V c 1 t) rfl rfl]
  · rw [stateAt3_mid V c t h0 h1]
    dsimp only
    refine (congrFun (accMid3_eq (F := Ideal) c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) (fun h => h1 ((isLast3_iff t).mp h)) (iblk3 V c 0 t) (iblk3 V c 1 t) (iblk3 V c 2 t) _) (ix2 r j)).trans ?_
    refine (accumulate3_apply _ _ _ r j).trans ?_
    rw [blockProduct3 V c t r j (iblk3 V c 0 t) (iblk3 V c 1 t) rfl rfl]

/-- THE INVARIANT: after point n = 10·i + k the accumulator holds, at (r, j), the shares of contraction tiles 0 … k of
    entry (2048·i + r, j). By induction on the point. -/
theorem acc3_eq (c : Dev nD) (n : ℕ) : ∀ (h : n < cfg3.N) (r : Fin 2048) (j : Fin 256),
    (stateAt3 V c n h).2 (ix2 r j)
      = ∑ k ∈ Finset.range (n % 10 + 1), tile (natView (lhs3 V c)) (natView (rhs3 V c)) (2048 * (n / 10) + r.val) j.val k := by
  induction n with
  | zero =>
    intro h r j
    refine (acc3_first V c ⟨0, h⟩ rfl r j).trans ?_
    show tile (natView (lhs3 V c)) (natView (rhs3 V c)) (2048 * (0 / 10) + r.val) j.val 0
      = ∑ k ∈ Finset.range 1, tile (natView (lhs3 V c)) (natView (rhs3 V c)) (2048 * (0 / 10) + r.val) j.val k
    rw [Finset.sum_range_one]
  | succ n ih =>
    intro h r j
    by_cases h0 : (n + 1) % 10 = 0
    · refine (acc3_first V c ⟨n + 1, h⟩ h0 r j).trans ?_
      show tile (natView (lhs3 V c)) (natView (rhs3 V c)) (2048 * ((n + 1) / 10) + r.val) j.val ((n + 1) % 10) = _
      rw [h0, zero_add, Finset.sum_range_one]
    · refine (acc3_step V c ⟨n + 1, h⟩ h0 r j).trans ?_
      show (stateAt3 V c n _).2 (ix2 r j) + tile (natView (lhs3 V c)) (natView (rhs3 V c)) (2048 * ((n + 1) / 10) + r.val) j.val ((n + 1) % 10) = _
      rw [ih _ r j]
      have e1 : (n + 1) / 10 = n / 10 := by omega
      have e2 : (n + 1) % 10 = n % 10 + 1 := by omega
      rw [e1, e2, Finset.sum_range_succ _ (n % 10 + 1)]

/-- At a last contraction tile the output tile is left, at (r, j), at the whole contraction for entry
    (2048·(t / 10) + r, j) plus the bias, rectified. -/
theorem out3_eq (c : Dev nD) (t : Fin cfg3.N) (h1 : t.val % 10 = 9) (r : Fin 2048) (j : Fin 256) :
    (stateAt3 V c t.val t.isLt).1 (ix2 r j)
      = max ((∑ s : Fin 10240, natView (lhs3 V c) (2048 * (t.val / 10) + r.val) s.val * natView (rhs3 V c) s.val j.val)
          + bias3 V c (ix2 (0 : Fin 1) j)) 0 := by
  have h0 : ¬t.val % 10 = 0 := by omega
  rw [stateAt3_last V c t h0 h1]
  dsimp only
  refine (congrFun (outLast3_eq (F := Ideal) c (grid3.coords t) (ms3_0 t) (hs3_0 t) (ms3_1 t) (hs3_1 t) (ms3_2 t) (hs3_2 t) (ms3_3 t) (hs3_3 t) accM3 (Memref.isWhole_whole _) (fun h => h0 ((isFirst3_iff t).mp h)) ((isLast3_iff t).mpr h1) (iblk3 V c 0 t) (iblk3 V c 1 t) (iblk3 V c 2 t) _) (ix2 r j)).trans ?_
  refine (finish3_apply _ _ r j).trans ?_
  rw [biasBlock3_apply V c t j]
  refine congrArg (fun x => max (x + bias3 V c (ix2 (0 : Fin 1) j)) 0) ?_
  refine (accumulate3_apply _ _ _ r j).trans ?_
  rw [blockProduct3 V c t r j (iblk3 V c 0 t) (iblk3 V c 1 t) rfl rfl, acc3_eq V c (t.val - 1) _ r j,
    ← sum_tiles (natView (lhs3 V c)) (natView (rhs3 V c)) (2048 * (t.val / 10) + r.val) j.val]
  have e1 : (t.val - 1) / 10 = t.val / 10 := by omega
  have e2 : (t.val - 1) % 10 + 1 = 9 := by omega
  rw [e1, e2, h1]
  exact (Finset.sum_range_succ (fun k => tile (natView (lhs3 V c)) (natView (rhs3 V c)) (2048 * (t.val / 10) + r.val) j.val k) 9).symm

/-- The output tile at point t sits at rows 2048·(t / 10) … of the output array. -/
theorem outBlock3_emb (t : Fin cfg3.N) (r : Fin 2048) (j : Fin 256) (hp : 2048 * (t.val / 10) + r.val < 10240) :
    ((cfg3.win 3).blk t).view.emb (ix2 r j) = (ix2 (⟨2048 * (t.val / 10) + r.val, hp⟩ : Fin 10240) j : S10240x256.Idx) := by
  obtain ⟨-, -, -, -, -, -, e6, e7⟩ := blockIndex3 t
  refine funext fun a => Fin.ext ?_
  match a with
  | ⟨0, _⟩ => show win3_3.index t (0 : Fin 2) * 2048 + 1 * r.val = 2048 * (t.val / 10) + r.val; rw [e6]; omega
  | ⟨1, _⟩ => show win3_3.index t (1 : Fin 2) * 256 + 1 * j.val = j.val; rw [e7]; omega

/-- What a point that writes back writes is its block of the product. -/
theorem flushed3_eq (c : Dev nD) (t : Fin cfg3.N) (hf : (cfg3.win 3).flush t = true) :
    (dat3 (F := Ideal) V c).flushed 3 t
      = ((cfg3.win 3).blk t).view.read (Elt Ideal) (Cert.MMSpec.mm 10240 10240 256 true (lhs3 V c) (rhs3 V c) (bias3 V c)) := by
  have h1 : t.val % 10 = 9 := (flush3_3 t).mp hf
  have hN : t.val < 50 := lt_of_lt_of_eq t.isLt (show cfg3.N = 50 from N_3)
  show (cfg3.win 3).cut (grid3.coords t) ((dat3 V c).after 3 t) = _
  rw [after3_3]
  funext y
  obtain ⟨r, j, rfl⟩ : ∃ (r : Fin 2048) (j : Fin 256), y = ix2 r j := ⟨y 0, y 1, eq_ix2 y⟩
  have hp : 2048 * (t.val / 10) + r.val < 10240 := by omega
  rw [View.read_apply]
  show (stateAt3 V c t.val t.isLt).1 (ix2 r j) = Cert.MMSpec.mm 10240 10240 256 true (lhs3 V c) (rhs3 V c) (bias3 V c) (((cfg3.win 3).blk t).view.emb (ix2 r j))
  rw [outBlock3_emb t r j hp, Cert.MMSpec.mm_apply, if_pos rfl, out3_eq V c t h1 r j]
  refine congrArg (fun x => max (x + bias3 V c (ix2 (0 : Fin 1) j)) 0) (Finset.sum_congr rfl fun s _ => ?_)
  rw [natView_of_lt _ hp s.isLt, natView_of_lt _ s.isLt j.isLt]

/-- Every entry of the output array lies in the block of the point that finishes its row tile. -/
theorem cover3 (i : S10240x256.Idx) :
    ∃ t : Fin cfg3.N, (cfg3.win 3).flush t = true ∧ i ∈ ((cfg3.win 3).blk t).view.set := by
  have hi0 : (i 0).val < 10240 := idx2_lt0 i
  have hi1 : (i 1).val < 256 := idx2_lt1 i
  have hlt : 10 * ((i 0).val / 2048) + 9 < cfg3.N := by rw [show cfg3.N = 50 from N_3]; omega
  refine ⟨⟨10 * ((i 0).val / 2048) + 9, hlt⟩, (flush3_3 _).mpr (by show (10 * ((i 0).val / 2048) + 9) % 10 = 9; omega), ?_⟩
  obtain ⟨-, -, -, -, -, -, e6, e7⟩ := blockIndex3 ⟨10 * ((i 0).val / 2048) + 9, hlt⟩
  show i ∈ ((View.whole main_v65).slice (win3_3.rect ⟨10 * ((i 0).val / 2048) + 9, hlt⟩)).set
  rw [View.set_slice_whole, Rect.mem_set_unit]
  intro a
  match a with
  | ⟨0, _⟩ =>
    show win3_3.index ⟨10 * ((i 0).val / 2048) + 9, hlt⟩ (0 : Fin 2) * 2048 ≤ (i 0).val ∧ (i 0).val < win3_3.index ⟨10 * ((i 0).val / 2048) + 9, hlt⟩ (0 : Fin 2) * 2048 + 2048
    rw [e6]; show (10 * ((i 0).val / 2048) + 9) / 10 * 2048 ≤ (i 0).val ∧ (i 0).val < (10 * ((i 0).val / 2048) + 9) / 10 * 2048 + 2048; omega
  | ⟨1, _⟩ =>
    show win3_3.index ⟨10 * ((i 0).val / 2048) + 9, hlt⟩ (1 : Fin 2) * 256 ≤ (i 1).val ∧ (i 1).val < win3_3.index ⟨10 * ((i 0).val / 2048) + 9, hlt⟩ (1 : Fin 2) * 256 + 256
    rw [e7]; omega

/-- REGION 3'S VALUE: the output array ends holding the product of the left and right matrices plus the bias row,
    rectified. -/
theorem value3 (c : Dev nD) :
    ((dat3 (F := Ideal) V c).arrAt 3 cfg3.N : S10240x256.Idx → EReal)
      = Cert.MMSpec.mm 10240 10240 256 true (V c (Pipeline.arrRef spec3 0)) (V c (Pipeline.arrRef spec3 1)) (V c (Pipeline.arrRef spec3 2)) :=
  (dat3 (F := Ideal) V c).arrAt_eq_of_cover 3 _ (fun t hf => flushed3_eq V c t hf) cover3

end Cert.KernelIdeal.HandValue

end
-- ==== Proof.Reg4Value.lean ====
/-
  Region 4 at the extended reals: the output array the region leaves is the product of its operand arrays plus the
  bias row, rectified. At each of the five grid points the body clears the accumulator, adds the product of the point's
  row tile of the left operand with the whole right operand, and stores the larger of that plus the bias row and zero
  into the output tile; entry (r, j) of the tile is therefore max(0 + Σ_q a(r, q) · b(q, j) + bias(j), 0). The left
  operand's row tile at point t is rows
  2048·t … 2048·t + 2047 of its array, as is the output's, so the tile written back at point t is tile t of the
  product array; the five tiles cover the 10240 rows.
-/
import proofs.«173524_j83966610637551_1_alg».proof.Proof.Reg4
import proofs.«173524_j83966610637551_1_alg».proof.Proof.MMSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Piece
variable {F : FTy → Type} [FloatOps F]

theorem hzero4 : (![0, 0] : Fin 2 → Nat) = fun _ => 0 := funext fun a => by fin_cases a <;> rfl

/-- What the body leaves in the output tile, for any float interpretation: the accumulator is cleared, the one
    partial product is added to it, the bias row is added to the result, and that is rectified. -/
theorem out4_3_eq (c : Dev nD) (i : grid4.Coords)
    (arg2 : Memref sig .tc .vmem S2048x256 .bf16) (harg2 : arg2.IsWhole)
    (arg3 : Memref sig .tc .vmem S256x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond4_0 i) (hc1 : cond4_1 i)
    (x0 : Vec F S2048x256 .bf16) (x1 : Vec F S256x256 .bf16) (x2 : Vec F S1x256 .f32) :
    out4_3 c i arg2 harg2 arg3 harg3 arg4 harg4 arg5 harg5 arg6 harg6 hc0 hc1 x0 x1 x2
      = k4_pay3 (k4_pay2 (k4_pay1 (F := F)) x0 x1) x2 := by
  unfold out4_3
  rw [View.read_writes_eq_canon _ _ _ (cover4_3 c i arg2 harg2 arg3 harg3 arg4 harg4 arg5 harg5 arg6 harg6 hc0 hc1 x0 x1 x2)]
  unfold kernelRun4
  dsimp only
  sl_unfold_words
  rw [View.canon_unit_zero hzero4]
  simp only [View.readCov_cons_toLoadRect, View.readAt_eq_ld, harg2.read_unread, harg3.read_unread, harg4.read_unread,
    View.ld_unit_zero (S := S2048x256) hzero4, View.ld_unit_zero (S := S256x256) hzero4, View.ld_unit_zero (S := S1x256) hzero4]

end Piece
abbrev D4 := dot_S2048x256_S256x256_S2048x256_1_0_0_1_n_n

theorem lhs4_0 (i : S2048x256.Idx) (q : D4.contr.Idx) : (D4.lhsIdx i q 0).val = (i 0).val := by
  unfold DotDims.lhsIdx
  rw [dif_neg (show ¬(0 : Fin S2048x256.rank) ∈ D4.lhsBatch by decide), dif_pos (show (0 : Fin S2048x256.rank) ∈ D4.lhsNonContracting by decide)]
  rfl
theorem lhs4_1 (i : S2048x256.Idx) (q : D4.contr.Idx) : (D4.lhsIdx i q 1).val = (q ⟨0, by decide⟩).val :=
  D4.lhsIdx_val_of_single rfl i q
theorem rhs4_0 (i : S2048x256.Idx) (q : D4.contr.Idx) : (D4.rhsIdx i q 0).val = (q ⟨0, by decide⟩).val :=
  D4.rhsIdx_val_of_single rfl i q
theorem rhs4_1 (i : S2048x256.Idx) (q : D4.contr.Idx) : (D4.rhsIdx i q 1).val = (i 1).val := by
  unfold DotDims.rhsIdx
  rw [dif_neg (show ¬(1 : Fin S256x256.rank) ∈ D4.rhsBatch by decide), dif_pos (show (1 : Fin S256x256.rank) ∈ D4.rhsNonContracting by decide)]
  rfl

/-- The product tile at an entry: the sum over the contracted axis. -/
theorem dot4_apply (x0 : FVec Ideal S2048x256 .bf16) (x1 : FVec Ideal S256x256 .bf16) (r : Fin 2048) (j : Fin 256) :
    FloatOps.matmul D4 none x0 x1 (constant S2048x256 .f32 0x00000000#32) (ix2 r j)
      = ∑ k : Fin 256, x0 (ix2 r k) * x1 (ix2 k j) := by
  rw [Ideal.matmul_constant_zero_apply, ← Equiv.sum_comp (contrEquiv1 D4 256 rfl rfl).symm]
  refine Finset.sum_congr rfl fun k _ => ?_
  have hk := contrEquiv1_symm_val D4 256 rfl rfl k
  have el : D4.lhsIdx (ix2 r j) ((contrEquiv1 D4 256 rfl rfl).symm k) = ix2 r k := funext fun a => Fin.ext (by
    match a with
    | ⟨0, _⟩ => exact lhs4_0 _ _
    | ⟨1, _⟩ => exact (lhs4_1 _ _).trans hk)
  have er : D4.rhsIdx (ix2 r j) ((contrEquiv1 D4 256 rfl rfl).symm k) = ix2 k j := funext fun a => Fin.ext (by
    match a with
    | ⟨0, _⟩ => exact (rhs4_0 _ _).trans hk
    | ⟨1, _⟩ => exact rhs4_1 _ _)
  rw [el, er]

/-- The tile the body stores, at an entry: the product sum plus the bias row's entry, or zero if that is larger. -/
theorem pay4_apply (x0 : Vec Ideal S2048x256 .bf16) (x1 : Vec Ideal S256x256 .bf16) (x2 : Vec Ideal S1x256 .f32)
    (r : Fin 2048) (j : Fin 256) :
    k4_pay3 (F := Ideal) (k4_pay2 (F := Ideal) (k4_pay1 (F := Ideal)) x0 x1) x2 (ix2 r j)
      = max ((∑ q : Fin 256, x0 (ix2 r q) * x1 (ix2 q j)) + x2 (ix2 (0 : Fin 1) j)) 0 := by
  unfold k4_pay3 k4_pay2 k4_pay1
  dsimp only
  simp only [shapeCast_self]
  rw [maximumf_apply, addf_apply, broadcastTo_1b_ab_apply, addf_apply]
  show max ((Ideal.ofBits .f32 0x00000000#32 + FloatOps.matmul D4 none x0 x1 (constant S2048x256 .f32 0x00000000#32) (ix2 r j)) + _)
      (Ideal.ofBits .f32 0x00000000#32) = _
  rw [dot4_apply, Ideal.ofBits_zero_f32, zero_add]

/-- The same at any entry of the tile. -/
theorem pay4_apply' (x0 : Vec Ideal S2048x256 .bf16) (x1 : Vec Ideal S256x256 .bf16) (x2 : Vec Ideal S1x256 .f32)
    (y : S2048x256.Idx) :
    k4_pay3 (F := Ideal) (k4_pay2 (F := Ideal) (k4_pay1 (F := Ideal)) x0 x1) x2 y
      = max ((∑ q : Fin 256, x0 (ix2 (y 0) q) * x1 (ix2 q (y 1))) + x2 (ix2 (0 : Fin 1) (y 1))) 0 :=
  (congrArg _ (eq_ix2 y)).trans (pay4_apply x0 x1 x2 (y 0) (y 1))

/-! ## The tiles where the arrays hold them -/

variable (V : (c : Dev nD) → (b : Ref sig .tc) → Buf (Elt Ideal) ((c : Thread nD τ).loc b))

/-- The three operand arrays as the region finds them. -/
abbrev A4 (c : Dev nD) : S10240x256.Idx → EReal := V c (Pipeline.arrRef spec4 0)
abbrev B4 (c : Dev nD) : S256x256.Idx → EReal := V c (Pipeline.arrRef spec4 1)
abbrev C4 (c : Dev nD) : S1x256.Idx → EReal := V c (Pipeline.arrRef spec4 2)

/-- The whole output array the region leaves: the product of the operand arrays plus the bias row, rectified. -/
abbrev G4 (c : Dev nD) : S10240x256.Idx → EReal := Cert.MMSpec.mm 10240 256 256 true (A4 V c) (B4 V c) (C4 V c)

/-- The tiles' positions, decided over the five points: the left operand's row tile moves with the output's, the
    right operand and the bias row are whole, and the output has one column tile. -/
theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 4 ∧ win4_3.index t (1 : Fin 2) = 0 :=
  (by decide +kernel : ∀ t : Fin grid4.N, _)

/-- Every row tile of the output is some point's. -/
theorem idx_onto4 : ∀ (q0 : Fin 5), ∃ t : Fin cfg4.N, win4_3.index t = ![q0.val, 0] :=
  (by decide +kernel : ∀ (q0 : Fin 5), ∃ t : Fin grid4.N, win4_3.index t = ![q0.val, 0])

/-- What point t writes back is tile t of the product array. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold outsAt4
  rw [out4_3_eq]
  obtain ⟨e0, e1, e2, e3, e4, e5, e6, e7⟩ := idx_facts4 t
  funext j
  show k4_pay3 (F := Ideal) (k4_pay2 (F := Ideal) (k4_pay1 (F := Ideal)) (iblk4 V c 0 t) (iblk4 V c 1 t)) (iblk4 V c 2 t) j
    = G4 V c (((cfg4.win 3).blk t).view.emb j)
  refine (pay4_apply' _ _ _ j).trans ?_
  show max ((∑ q : Fin 256, A4 V c (((cfg4.win 0).blk t).view.emb (ix2 (j 0) q))
        * B4 V c (((cfg4.win 1).blk t).view.emb (ix2 q (j 1))))
      + C4 V c (((cfg4.win 2).blk t).view.emb (ix2 (0 : Fin 1) (j 1)))) 0
    = max ((∑ q : Fin 256, A4 V c (ix2 ⟨((((cfg4.win 3).blk t).view.emb j) 0).val, idx2_lt0 _⟩ q)
        * B4 V c (ix2 q ⟨((((cfg4.win 3).blk t).view.emb j) 1).val, idx2_lt1 _⟩))
      + C4 V c (ix2 (0 : Fin 1) ⟨((((cfg4.win 3).blk t).view.emb j) 1).val, idx2_lt1 _⟩)) 0
  have h0 : ∀ q : Fin 256, ((cfg4.win 0).blk t).view.emb (ix2 (j 0) q)
      = ix2 ⟨((((cfg4.win 3).blk t).view.emb j) 0).val, idx2_lt0 _⟩ q := fun q => by
    funext a; apply Fin.ext
    match a with
    | ⟨0, _⟩ => show win4_0.index t (0 : Fin 2) * 2048 + 1 * (j 0).val = win4_3.index t (0 : Fin 2) * 2048 + 1 * (j 0).val; omega
    | ⟨1, _⟩ => show win4_0.index t (1 : Fin 2) * 256 + 1 * q.val = q.val; omega
  have h1 : ∀ q : Fin 256, ((cfg4.win 1).blk t).view.emb (ix2 q (j 1))
      = ix2 q ⟨((((cfg4.win 3).blk t).view.emb j) 1).val, idx2_lt1 _⟩ := fun q => by
    funext a; apply Fin.ext
    match a with
    | ⟨0, _⟩ => show win4_1.index t (0 : Fin 2) * 256 + 1 * q.val = q.val; omega
    | ⟨1, _⟩ => show win4_1.index t (1 : Fin 2) * 256 + 1 * (j 1).val = win4_3.index t (1 : Fin 2) * 256 + 1 * (j 1).val; omega
  have h2 : ((cfg4.win 2).blk t).view.emb (ix2 (0 : Fin 1) (j 1))
      = ix2 (0 : Fin 1) ⟨((((cfg4.win 3).blk t).view.emb j) 1).val, idx2_lt1 _⟩ := by
    funext a; apply Fin.ext
    match a with
    | ⟨0, _⟩ => show win4_2.index t (0 : Fin 2) * 1 + 1 * 0 = 0; omega
    | ⟨1, _⟩ => show win4_2.index t (1 : Fin 2) * 256 + 1 * (j 1).val = win4_3.index t (1 : Fin 2) * 256 + 1 * (j 1).val; omega
  refine congrArg (fun s : EReal => max s 0) ?_
  refine congrArg₂ (· + ·) (Finset.sum_congr rfl fun q _ => ?_) ?_
  · rw [h0 q, h1 q]
  · rw [h2]

/-! ## The tiles cover the array -/

/-- An index of the output array is in point t's tile iff each coordinate is in the tile's range on its axis. -/
theorem mem_blk4 (t : Fin cfg4.N) (i : S10240x256.Idx) :
    i ∈ ((cfg4.win 3).blk t).view.set ↔ ∀ a : Fin 2, win4_3.index t a * S2048x256.size a ≤ (i a).val ∧ (i a).val < win4_3.index t a * S2048x256.size a + S2048x256.size a := by
  show i ∈ ((View.whole main_v67).slice (win4_3.rect t)).set ↔ _
  rw [View.set_slice_whole, Rect.mem_set_unit]
  exact Iff.rfl

/-- Row r of the output is written back by the point whose row tile holds it, point r / 2048. -/
theorem cover4 (i : S10240x256.Idx) :
    ∃ t : Fin cfg4.N, (cfg4.win 3).flush t = true ∧ i ∈ ((cfg4.win 3).blk t).view.set := by
  have hi0 : (i 0).val < 10240 := (i 0).isLt
  have hi1 : (i 1).val < 256 := (i 1).isLt
  obtain ⟨t, ht⟩ := idx_onto4 ⟨(i 0).val / 2048, by omega⟩
  have q0 : win4_3.index t (0 : Fin 2) = (i 0).val / 2048 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 256 ≤ (i 1).val ∧ (i 1).val < win4_3.index t (1 : Fin 2) * 256 + 256; omega

/-- THE REGION'S OUTPUT ARRAY after its last point: the product of the operand arrays plus the bias row, rectified. -/
theorem value4 (c : Dev nD) :
    ((Cert.KernelIdeal.Hand.dat4 (F := Ideal) V c).arrAt 3 cfg4.N : S10240x256.Idx → EReal)
      = Cert.MMSpec.mm 10240 256 256 true (V c (Pipeline.arrRef spec4 0)) (V c (Pipeline.arrRef spec4 1)) (V c (Pipeline.arrRef spec4 2)) :=
  (dat4 V c).arrAt_eq_of_cover 3 (G4 V c) (fun t _ => flushed4_eq V c t) cover4

end Cert.KernelIdeal.HandValue

end
-- ==== Proof.Reg5Value.lean ====
/-
  Region 5 at the extended reals: the output array the region leaves is the product of its operand arrays plus the
  bias row. At each of the five grid points the body clears the accumulator, adds the product of the point's row tile
  of the left operand with the whole right operand, and stores that plus the bias row into the output tile; entry
  (r, j) of the tile is therefore 0 + Σ_q a(r, q) · b(q, j) + bias(j). The left operand's row tile at point t is rows
  2048·t … 2048·t + 2047 of its array, as is the output's, so the tile written back at point t is tile t of the
  product array; the five tiles cover the 10240 rows.
-/
import proofs.«173524_j83966610637551_1_alg».proof.Proof.Reg5
import proofs.«173524_j83966610637551_1_alg».proof.Proof.MMSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Piece
variable {F : FTy → Type} [FloatOps F]

theorem hzero5 : (![0, 0] : Fin 2 → Nat) = fun _ => 0 := funext fun a => by fin_cases a <;> rfl

/-- What the body leaves in the output tile, for any float interpretation: the accumulator is cleared, the one
    partial product is added to it, and the bias row is added to the result. -/
theorem out5_3_eq (c : Dev nD) (i : grid5.Coords)
    (arg2 : Memref sig .tc .vmem S2048x256 .bf16) (harg2 : arg2.IsWhole)
    (arg3 : Memref sig .tc .vmem S256x8 .bf16) (harg3 : arg3.IsWhole)
    (arg4 : Memref sig .tc .vmem S1x8 .f32) (harg4 : arg4.IsWhole)
    (arg5 : Memref sig .tc .vmem S2048x8 .f32) (harg5 : arg5.IsWhole)
    (arg6 : Memref sig .tc .vmem S2048x8 .f32) (harg6 : arg6.IsWhole)
    (hc0 : cond5_0 i) (hc1 : cond5_1 i)
    (x0 : Vec F S2048x256 .bf16) (x1 : Vec F S256x8 .bf16) (x2 : Vec F S1x8 .f32) :
    out5_3 c i arg2 harg2 arg3 harg3 arg4 harg4 arg5 harg5 arg6 harg6 hc0 hc1 x0 x1 x2
      = k5_pay3 (k5_pay2 (k5_pay1 (F := F)) x0 x1) x2 := by
  unfold out5_3
  rw [View.read_writes_eq_canon _ _ _ (cover5_3 c i arg2 harg2 arg3 harg3 arg4 harg4 arg5 harg5 arg6 harg6 hc0 hc1 x0 x1 x2)]
  unfold kernelRun5
  dsimp only
  sl_unfold_words
  rw [View.canon_unit_zero hzero5]
  simp only [View.readCov_cons_toLoadRect, View.readAt_eq_ld, harg2.read_unread, harg3.read_unread, harg4.read_unread,
    View.ld_unit_zero (S := S2048x256) hzero5, View.ld_unit_zero (S := S256x8) hzero5, View.ld_unit_zero (S := S1x8) hzero5]

end Piece
abbrev D5 := dot_S2048x256_S256x8_S2048x8_1_0_0_1_n_n

theorem lhs5_0 (i : S2048x8.Idx) (q : D5.contr.Idx) : (D5.lhsIdx i q 0).val = (i 0).val := by
  unfold DotDims.lhsIdx
  rw [dif_neg (show ¬(0 : Fin S2048x256.rank) ∈ D5.lhsBatch by decide), dif_pos (show (0 : Fin S2048x256.rank) ∈ D5.lhsNonContracting by decide)]
  rfl
theorem lhs5_1 (i : S2048x8.Idx) (q : D5.contr.Idx) : (D5.lhsIdx i q 1).val = (q ⟨0, by decide⟩).val :=
  D5.lhsIdx_val_of_single rfl i q
theorem rhs5_0 (i : S2048x8.Idx) (q : D5.contr.Idx) : (D5.rhsIdx i q 0).val = (q ⟨0, by decide⟩).val :=
  D5.rhsIdx_val_of_single rfl i q
theorem rhs5_1 (i : S2048x8.Idx) (q : D5.contr.Idx) : (D5.rhsIdx i q 1).val = (i 1).val := by
  unfold DotDims.rhsIdx
  rw [dif_neg (show ¬(1 : Fin S256x8.rank) ∈ D5.rhsBatch by decide), dif_pos (show (1 : Fin S256x8.rank) ∈ D5.rhsNonContracting by decide)]
  rfl

/-- The product tile at an entry: the sum over the contracted axis. -/
theorem dot5_apply (x0 : FVec Ideal S2048x256 .bf16) (x1 : FVec Ideal S256x8 .bf16) (r : Fin 2048) (j : Fin 8) :
    FloatOps.matmul D5 none x0 x1 (constant S2048x8 .f32 0x00000000#32) (ix2 r j)
      = ∑ k : Fin 256, x0 (ix2 r k) * x1 (ix2 k j) := by
  rw [Ideal.matmul_constant_zero_apply, ← Equiv.sum_comp (contrEquiv1 D5 256 rfl rfl).symm]
  refine Finset.sum_congr rfl fun k _ => ?_
  have hk := contrEquiv1_symm_val D5 256 rfl rfl k
  have el : D5.lhsIdx (ix2 r j) ((contrEquiv1 D5 256 rfl rfl).symm k) = ix2 r k := funext fun a => Fin.ext (by
    match a with
    | ⟨0, _⟩ => exact lhs5_0 _ _
    | ⟨1, _⟩ => exact (lhs5_1 _ _).trans hk)
  have er : D5.rhsIdx (ix2 r j) ((contrEquiv1 D5 256 rfl rfl).symm k) = ix2 k j := funext fun a => Fin.ext (by
    match a with
    | ⟨0, _⟩ => exact (rhs5_0 _ _).trans hk
    | ⟨1, _⟩ => exact rhs5_1 _ _)
  rw [el, er]

/-- The tile the body stores, at an entry: the product sum plus the bias row's entry. -/
theorem pay5_apply (x0 : Vec Ideal S2048x256 .bf16) (x1 : Vec Ideal S256x8 .bf16) (x2 : Vec Ideal S1x8 .f32)
    (r : Fin 2048) (j : Fin 8) :
    k5_pay3 (F := Ideal) (k5_pay2 (F := Ideal) (k5_pay1 (F := Ideal)) x0 x1) x2 (ix2 r j)
      = (∑ q : Fin 256, x0 (ix2 r q) * x1 (ix2 q j)) + x2 (ix2 (0 : Fin 1) j) := by
  unfold k5_pay3 k5_pay2 k5_pay1
  dsimp only
  simp only [shapeCast_self]
  rw [addf_apply, broadcastTo_1b_ab_apply, addf_apply]
  show (Ideal.ofBits .f32 0x00000000#32 + FloatOps.matmul D5 none x0 x1 (constant S2048x8 .f32 0x00000000#32) (ix2 r j)) + _ = _
  rw [dot5_apply, Ideal.ofBits_zero_f32, zero_add]

/-- The same at any entry of the tile. -/
theorem pay5_apply' (x0 : Vec Ideal S2048x256 .bf16) (x1 : Vec Ideal S256x8 .bf16) (x2 : Vec Ideal S1x8 .f32)
    (y : S2048x8.Idx) :
    k5_pay3 (F := Ideal) (k5_pay2 (F := Ideal) (k5_pay1 (F := Ideal)) x0 x1) x2 y
      = (∑ q : Fin 256, x0 (ix2 (y 0) q) * x1 (ix2 q (y 1))) + x2 (ix2 (0 : Fin 1) (y 1)) :=
  (congrArg _ (eq_ix2 y)).trans (pay5_apply x0 x1 x2 (y 0) (y 1))

/-! ## The tiles where the arrays hold them -/

variable (V : (c : Dev nD) → (b : Ref sig .tc) → Buf (Elt Ideal) ((c : Thread nD τ).loc b))

/-- The three operand arrays as the region finds them. -/
abbrev A5 (c : Dev nD) : S10240x256.Idx → EReal := V c (Pipeline.arrRef spec5 0)
abbrev B5 (c : Dev nD) : S256x8.Idx → EReal := V c (Pipeline.arrRef spec5 1)
abbrev C5 (c : Dev nD) : S1x8.Idx → EReal := V c (Pipeline.arrRef spec5 2)

/-- The whole output array the region leaves: the product of the operand arrays plus the bias row. -/
abbrev G5 (c : Dev nD) : S10240x8.Idx → EReal := Cert.MMSpec.mm 10240 256 8 false (A5 V c) (B5 V c) (C5 V c)

/-- The tiles' positions, decided over the five points: the left operand's row tile moves with the output's, the
    right operand and the bias row are whole, and the output has one column tile. -/
theorem idx_facts5 : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 4 ∧ win5_3.index t (1 : Fin 2) = 0 :=
  (by decide +kernel : ∀ t : Fin grid5.N, _)

/-- Every row tile of the output is some point's. -/
theorem idx_onto5 : ∀ (q0 : Fin 5), ∃ t : Fin cfg5.N, win5_3.index t = ![q0.val, 0] :=
  (by decide +kernel : ∀ (q0 : Fin 5), ∃ t : Fin grid5.N, win5_3.index t = ![q0.val, 0])

/-- What point t writes back is tile t of the product array. -/
theorem flushed5_eq (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  unfold outsAt5
  rw [out5_3_eq]
  obtain ⟨e0, e1, e2, e3, e4, e5, e6, e7⟩ := idx_facts5 t
  funext j
  show k5_pay3 (F := Ideal) (k5_pay2 (F := Ideal) (k5_pay1 (F := Ideal)) (iblk5 V c 0 t) (iblk5 V c 1 t)) (iblk5 V c 2 t) j
    = G5 V c (((cfg5.win 3).blk t).view.emb j)
  refine (pay5_apply' _ _ _ j).trans ?_
  show (∑ q : Fin 256, A5 V c (((cfg5.win 0).blk t).view.emb (ix2 (j 0) q))
        * B5 V c (((cfg5.win 1).blk t).view.emb (ix2 q (j 1))))
      + C5 V c (((cfg5.win 2).blk t).view.emb (ix2 (0 : Fin 1) (j 1)))
    = (∑ q : Fin 256, A5 V c (ix2 ⟨((((cfg5.win 3).blk t).view.emb j) 0).val, idx2_lt0 _⟩ q)
        * B5 V c (ix2 q ⟨((((cfg5.win 3).blk t).view.emb j) 1).val, idx2_lt1 _⟩))
      + C5 V c (ix2 (0 : Fin 1) ⟨((((cfg5.win 3).blk t).view.emb j) 1).val, idx2_lt1 _⟩)
  have h0 : ∀ q : Fin 256, ((cfg5.win 0).blk t).view.emb (ix2 (j 0) q)
      = ix2 ⟨((((cfg5.win 3).blk t).view.emb j) 0).val, idx2_lt0 _⟩ q := fun q => by
    funext a; apply Fin.ext
    match a with
    | ⟨0, _⟩ => show win5_0.index t (0 : Fin 2) * 2048 + 1 * (j 0).val = win5_3.index t (0 : Fin 2) * 2048 + 1 * (j 0).val; omega
    | ⟨1, _⟩ => show win5_0.index t (1 : Fin 2) * 256 + 1 * q.val = q.val; omega
  have h1 : ∀ q : Fin 256, ((cfg5.win 1).blk t).view.emb (ix2 q (j 1))
      = ix2 q ⟨((((cfg5.win 3).blk t).view.emb j) 1).val, idx2_lt1 _⟩ := fun q => by
    funext a; apply Fin.ext
    match a with
    | ⟨0, _⟩ => show win5_1.index t (0 : Fin 2) * 256 + 1 * q.val = q.val; omega
    | ⟨1, _⟩ => show win5_1.index t (1 : Fin 2) * 8 + 1 * (j 1).val = win5_3.index t (1 : Fin 2) * 8 + 1 * (j 1).val; omega
  have h2 : ((cfg5.win 2).blk t).view.emb (ix2 (0 : Fin 1) (j 1))
      = ix2 (0 : Fin 1) ⟨((((cfg5.win 3).blk t).view.emb j) 1).val, idx2_lt1 _⟩ := by
    funext a; apply Fin.ext
    match a with
    | ⟨0, _⟩ => show win5_2.index t (0 : Fin 2) * 1 + 1 * 0 = 0; omega
    | ⟨1, _⟩ => show win5_2.index t (1 : Fin 2) * 8 + 1 * (j 1).val = win5_3.index t (1 : Fin 2) * 8 + 1 * (j 1).val; omega
  refine congrArg₂ (· + ·) (Finset.sum_congr rfl fun q _ => ?_) ?_
  · rw [h0 q, h1 q]
  · rw [h2]

/-! ## The tiles cover the array -/

/-- An index of the output array is in point t's tile iff each coordinate is in the tile's range on its axis. -/
theorem mem_blk5 (t : Fin cfg5.N) (i : S10240x8.Idx) :
    i ∈ ((cfg5.win 3).blk t).view.set ↔ ∀ a : Fin 2, win5_3.index t a * S2048x8.size a ≤ (i a).val ∧ (i a).val < win5_3.index t a * S2048x8.size a + S2048x8.size a := by
  show i ∈ ((View.whole main_v69).slice (win5_3.rect t)).set ↔ _
  rw [View.set_slice_whole, Rect.mem_set_unit]
  exact Iff.rfl

/-- Row r of the output is written back by the point whose row tile holds it, point r / 2048. -/
theorem cover5 (i : S10240x8.Idx) :
    ∃ t : Fin cfg5.N, (cfg5.win 3).flush t = true ∧ i ∈ ((cfg5.win 3).blk t).view.set := by
  have hi0 : (i 0).val < 10240 := (i 0).isLt
  have hi1 : (i 1).val < 8 := (i 1).isLt
  obtain ⟨t, ht⟩ := idx_onto5 ⟨(i 0).val / 2048, by omega⟩
  have q0 : win5_3.index t (0 : Fin 2) = (i 0).val / 2048 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 2048 ≤ (i 0).val ∧ (i 0).val < win5_3.index t (0 : Fin 2) * 2048 + 2048; omega
  | ⟨1, _⟩ => show win5_3.index t (1 : Fin 2) * 8 ≤ (i 1).val ∧ (i 1).val < win5_3.index t (1 : Fin 2) * 8 + 8; omega

/-- THE REGION'S OUTPUT ARRAY after its last point: the product of the operand arrays plus the bias row. -/
theorem value5 (c : Dev nD) :
    ((Cert.KernelIdeal.Hand.dat5 (F := Ideal) V c).arrAt 3 cfg5.N : S10240x8.Idx → EReal)
      = Cert.MMSpec.mm 10240 256 8 false (V c (Pipeline.arrRef spec5 0)) (V c (Pipeline.arrRef spec5 1)) (V c (Pipeline.arrRef spec5 2)) :=
  (dat5 V c).arrAt_eq_of_cover 3 (G5 V c) (fun t _ => flushed5_eq V c t) cover5

end Cert.KernelIdeal.HandValue

end
-- ==== Proof.Spec.lean ====
/-
  The mathematics both programs compute, stated once over the extended reals with no program in sight.

  A graph on 10000 nodes is given by 320000 directed edges (row 0 of the index array holds each edge's source, row 1 its
  destination) to which one self-loop per node is appended: 330000 edges in all. With deg(n) the number of edges
  arriving at n and dinv = deg^(-1/2), every edge e carries the weight norm(e) = dinv(src e) · dinv(dst e). One graph
  convolution of node features h is  out(n) = Σ_{e : dst e = n} norm(e) · h(src e) + bias.

  The reference sums over the edges directly (`conv`). The kernel first adds the weights up into a dense
  10240 × 10240 matrix adj(d, s) = Σ_{e : dst e = d, src e = s} norm(e) (rows and columns past 10000 stay zero) and
  multiplies that matrix into the features (`agg`). Rows are indexed by natural numbers so that the padded and the
  unpadded arrays are the same functions.
-/
import Idealize.ShloMosaic.PureOps.Ideal
import Idealize.ShloMosaic.Lib.ValueIdx

noncomputable section

namespace Cert.Spec

open Idealize.ShloMosaic Idealize.ShloMosaic.ValueIdx

/-- The 330000 edges: the 320000 given ones, then one self-loop per node. -/
abbrev E := Fin 330000
/-- The index array: row 0 the sources, row 1 the destinations. -/
abbrev EI := (⟨2, ![2, 320000]⟩ : Shape).Idx → BitVec 32

/-- The node at end `r` (0 the source, 1 the destination) of edge `e`; the appended edge 320000 + n is the loop at n. -/
def node (ei : EI) (r : Fin 2) (e : E) : ℕ :=
  if h : e.val < 320000 then (ei (ix2 r ⟨e.val, h⟩)).toNat else e.val - 320000

/-- Every given edge joins two of the 10000 nodes. -/
def InRange (ei : EI) : Prop := ∀ (r : Fin 2) (e : Fin 320000), (ei (ix2 r e)).toNat < 10000

/-- The number of edges arriving at node `n`. -/
def deg (ei : EI) (n : ℕ) : EReal := ∑ e : E, if node ei 1 e = n then (1 : EReal) else 0
/-- deg^(-1/2), and 0 at a node no edge reaches. -/
def dinv (ei : EI) (n : ℕ) : EReal := if 0 < deg ei n then Ideal.rsqrt (deg ei n) else 0
/-- The weight of edge `e`. -/
def norm (ei : EI) (e : E) : EReal := dinv ei (node ei 0 e) * dinv ei (node ei 1 e)

/-- Rectified: max(·, 0), entry by entry. -/
def relu {N : ℕ} (g : ℕ → Fin N → EReal) : ℕ → Fin N → EReal := fun n f => max (g n f) 0

/-- A dense layer: features times weights, plus bias. -/
def dense {K N : ℕ} (a : ℕ → Fin K → EReal) (w : Fin K → Fin N → EReal) (b : Fin N → EReal) : ℕ → Fin N → EReal :=
  fun n f => (∑ q : Fin K, a n q * w q f) + b f

/-- The reference's aggregation: the weighted features of the edges arriving at `n`, summed edge by edge, plus bias. -/
def conv {N : ℕ} (ei : EI) (h : ℕ → Fin N → EReal) (b : Fin N → EReal) : ℕ → Fin N → EReal :=
  fun n f => (∑ e : E, if node ei 1 e = n then norm ei e * h (node ei 0 e) f else 0) + b f

/-- The dense weight matrix the kernel builds: entry (d, s) adds up the weights of the edges from s to d. -/
def adj (ei : EI) (d s : ℕ) : EReal := ∑ e : E, if node ei 1 e = d ∧ node ei 0 e = s then norm ei e else 0

/-- The kernel's aggregation: the dense matrix times the features over all 10240 padded columns, plus bias. -/
def agg {N : ℕ} (ei : EI) (h : ℕ → Fin N → EReal) (b : Fin N → EReal) : ℕ → Fin N → EReal :=
  fun d f => (∑ s : Fin 10240, adj ei d s.val * h s.val f) + b f

/-- Node features as rows indexed by ℕ: zero past the last node (the kernel's zero padding). -/
def rows {R K : ℕ} (x : (⟨2, ![R, K]⟩ : Shape).Idx → EReal) : ℕ → Fin K → EReal :=
  fun n q => if h : n < R then x (ix2 ⟨n, h⟩ q) else 0
/-- A weight matrix and a bias vector as plain functions of their coordinates. -/
def mat {K N : ℕ} (w : (⟨2, ![K, N]⟩ : Shape).Idx → EReal) : Fin K → Fin N → EReal := fun q f => w (ix2 q f)
def vec {N : ℕ} (b : (⟨1, ![N]⟩ : Shape).Idx → EReal) : Fin N → EReal := fun f => b (ix1 f)

section Nets
variable (x : (⟨2, ![10000, 128]⟩ : Shape).Idx → EReal) (ei : EI)
  (W1 : (⟨2, ![128, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (Wh1 : (⟨2, ![256, 256]⟩ : Shape).Idx → EReal) (bh1 : (⟨1, ![256]⟩ : Shape).Idx → EReal)
  (Wh2 : (⟨2, ![256, 8]⟩ : Shape).Idx → EReal) (bh2 : (⟨1, ![8]⟩ : Shape).Idx → EReal)

/-- The reference network: two graph convolutions summed edge by edge, then a two-layer head. -/
def refQ : ℕ → Fin 8 → EReal :=
  let z1 := relu (conv ei (dense (rows x) (mat W1) (fun _ => 0)) (vec b1))
  let z2 := relu (conv ei (dense z1 (mat W2) (fun _ => 0)) (vec b2))
  let h3 := relu (dense z2 (mat Wh1) (vec bh1))
  dense h3 (mat Wh2) (vec bh2)

/-- The kernel's network: the same layers with each aggregation a product with the dense weight matrix. -/
def kerQ : ℕ → Fin 8 → EReal :=
  let z1 := relu (agg ei (dense (rows x) (mat W1) (fun _ => 0)) (vec b1))
  let z2 := relu (agg ei (dense z1 (mat W2) (fun _ => 0)) (vec b2))
  let h3 := relu (dense z2 (mat Wh1) (vec bh1))
  dense h3 (mat Wh2) (vec bh2)
end Nets

/-- Every entry of an array is a real number. -/
def Finite {S : Shape} (v : S.Idx → EReal) : Prop := ∀ i, ∃ r : ℝ, v i = (r : EReal)

end Cert.Spec

end
-- ==== Proof.KerHostLib.lean ====
/-
  Two facts about the host's scatter, for any element type, and the arithmetic of the 32-bit words that name nodes.

  A scatter whose body returns the update (a "set") leaves, at an array position, the update that lands there when
  all updates landing there carry one value, and the array's own entry when none lands there.
-/
import Idealize.ShloMosaic.PureOps.Ideal
import Idealize.ShloMosaic.PureOps.ShapeOps
import Idealize.ShloMosaic.Lib.ValueIdx

noncomputable section

namespace Cert.KerHost

open Idealize.ShloMosaic Idealize.ShloMosaic.ValueIdx

section ScatterSet
variable {s si u : Shape} {w : Nat} {α : Type}

open Classical in
/-- The fold of the "set" steps over any list of update positions, at one array position. -/
theorem foldl_set_apply (d : ScatterDims s si u) (idx : IVec si w) (upd : u.Idx → α) (i' : s.Idx) (y : α)
    (h : ∀ j, d.resultIdx? j idx = some i' → upd j = y) :
    ∀ (L : List (Fin u.numel)) (x : s.Idx → α),
      (L.foldl (fun r n =>
          match d.resultIdx? (u.rowMajor.symm n) idx with
          | some i => fun i' => if i' = i then (fun _ b => b) (r i) (upd (u.rowMajor.symm n)) else r i'
          | none => r) x) i'
        = if ∃ n ∈ L, d.resultIdx? (u.rowMajor.symm n) idx = some i' then y else x i' := by
  intro L
  induction L with
  | nil => intro x; simp
  | cons n L ih =>
    intro x
    rw [List.foldl_cons, ih]
    cases hn : d.resultIdx? (u.rowMajor.symm n) idx with
    | none =>
      have e : (∃ n' ∈ n :: L, d.resultIdx? (u.rowMajor.symm n') idx = some i')
          ↔ ∃ n' ∈ L, d.resultIdx? (u.rowMajor.symm n') idx = some i' := by
        constructor
        · rintro ⟨n', hm, hn'⟩
          rcases List.mem_cons.1 hm with rfl | hm
          · rw [hn] at hn'; exact absurd hn' (by simp)
          · exact ⟨n', hm, hn'⟩
        · rintro ⟨n', hm, hn'⟩; exact ⟨n', List.mem_cons_of_mem _ hm, hn'⟩
      simp only [e]
    | some i =>
      by_cases hi : i' = i
      · subst hi
        have e1 : ∃ n' ∈ n :: L, d.resultIdx? (u.rowMajor.symm n') idx = some i' := ⟨n, List.mem_cons_self, hn⟩
        rw [if_pos e1]
        by_cases e2 : ∃ n' ∈ L, d.resultIdx? (u.rowMajor.symm n') idx = some i'
        · rw [if_pos e2]
        · rw [if_neg e2]; simp only [if_true]; exact h _ hn
      · have e : (∃ n' ∈ n :: L, d.resultIdx? (u.rowMajor.symm n') idx = some i')
            ↔ ∃ n' ∈ L, d.resultIdx? (u.rowMajor.symm n') idx = some i' := by
          constructor
          · rintro ⟨n', hm, hn'⟩
            rcases List.mem_cons.1 hm with rfl | hm
            · rw [hn] at hn'; exact absurd (Option.some.inj hn').symm hi
            · exact ⟨n', hm, hn'⟩
          · rintro ⟨n', hm, hn'⟩; exact ⟨n', List.mem_cons_of_mem _ hm, hn'⟩
        simp only [e, if_neg hi]

/-- A "set" scatter at a position where an update lands, all updates landing there carrying its value. -/
theorem scatter_set_hit (d : ScatterDims s si u) (x : s.Idx → α) (idx : IVec si w) (upd : u.Idx → α) (i' : s.Idx)
    (j0 : u.Idx) (h0 : d.resultIdx? j0 idx = some i') (h : ∀ j, d.resultIdx? j idx = some i' → upd j = upd j0) :
    Host.scatter d (fun _ b => b) x idx upd i' = upd j0 := by
  unfold Host.scatter
  refine (foldl_set_apply d idx upd i' (upd j0) h (List.finRange u.numel) x).trans ?_
  exact if_pos ⟨u.rowMajor j0, List.mem_finRange _, by rw [Equiv.symm_apply_apply]; exact h0⟩

/-- A "set" scatter at a position where no update lands. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  unfold Host.scatter
  refine (foldl_set_apply d idx upd i' (x i') (fun j hj => absurd hj (h j)) (List.finRange u.numel) x).trans ?_
  exact if_neg (fun ⟨n, _, hn⟩ => h _ hn)

end ScatterSet

end Cert.KerHost

end
-- ==== Proof.KerHost.lean ====
/-
  The dense weight matrix and the padded features as the host operations build them, read entry by entry.

  Each end of every edge is a 32-bit word: the 320000 given words of one row of the index array, then the numbers
  0 .. 9999 of the appended loops. Under the range hypothesis every word is a node number below 10000, so it is
  not negative as a signed number (the wrap-around of negative indices never fires), a gather's clamp is the
  identity and a scatter drops nothing. Then the degree is a count of edges, its inverse square root is selected
  where the degree is positive, an edge's weight is the product of the two ends' values, and entry (d, s) of the
  matrix adds up the weights of the edges from s to d. The features are written into the first 10000 rows of an
  array of zeros.
-/
import proofs.«173524_j83966610637551_1_alg».proof.Proof.Gen.KernelIdeal.Regions
import proofs.«173524_j83966610637551_1_alg».proof.Proof.Spec
import proofs.«173524_j83966610637551_1_alg».proof.Proof.KerHostLib
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KerHost

open Idealize.ShloMosaic Idealize.ShloMosaic.TcCoe Idealize.ShloMosaic.ValueIdx
open Cert.KernelIdeal Cert.KernelIdeal.Gen

/-! ## The program's terms -/

/-- One end of every edge: row r of the index array, then the nodes' own numbers (the appended loops). -/
def ends (a1 : IVec S2x320000 32) (r : Nat) (h : S2x320000.Slices ![r, 0] S1x320000) : IVec S330000 32 :=
  concatenate S330000 0 [⟨S320000, shapeCast S320000 (extractStridedSlice S1x320000 ![r, 0] a1 h) shapeCasts_S1x320000_S320000⟩,
    ⟨S10000, iotaInDim S10000 32 0⟩] concatenates_S320000_S10000_S330000_d0

/-- A vector of words as a one-column array of scatter or gather indices. -/
def col (x : IVec S330000 32) : IVec S330000x1 32 := broadcastInDim S330000x1 ![0] bcast_S330000_S330000x1_0 x

/-- Python's wrap-around of a negative index: n is added where the word is negative as a signed number. -/
def wrap (n : BitVec 32) (x : IVec S330000 32) : IVec S330000 32 :=
  select (cmpi .slt x (broadcastInDim S330000 ![] bcast_S_S330000 (constantI S_ 32 0#32)))
    (addi x (broadcastInDim S330000 ![] bcast_S_S330000 (constantI S_ 32 n))) x

/-- Ten thousand zeros. -/
def zeros1 : FVec Ideal S10000 .f32 :=
  broadcastInDim S10000 ![] bcast_S_S10000 (constant (F := Ideal) S_ .f32 0x00000000#32)

/-- The degrees: a one is added at every edge's destination. -/
def degP (dst : IVec S330000 32) : FVec Ideal S10000 .f32 :=
  Host.scatterAdd scatter_S10000_S330000x1_S330000_n_0_0_1 zeros1 (col dst)
    (broadcastInDim S330000 ![] bcast_S_S330000 (constant (F := Ideal) S_ .f32 0x3F800000#32))

/-- The inverse square roots of the degrees, zero where the degree is not positive. -/
def dinvP (dst : IVec S330000 32) : FVec Ideal S10000 .f32 :=
  select (cmpf .ogt (degP dst) zeros1) (Host.rsqrt (degP dst))
    (broadcastInDim S10000 ![] bcast_S_S10000 (id (constant (F := Ideal) S_ .f32 0x00000000#32)))

/-- The edges' weights: the product of the two ends' values. -/
def valsP (dinv : FVec Ideal S10000 .f32) (src dst : IVec S330000 32) : FVec Ideal S330000 .f32 :=
  mulf (Host.gather gather_S10000_S330000x1_S330000_n_0_n_n_0_1_1 dinv (col (wrap 10000#32 src)))
    (Host.gather gather_S10000_S330000x1_S330000_n_0_n_n_0_1_1 dinv (col (wrap 10000#32 dst)))

/-- The dense matrix: every edge's weight added at (destination, source). -/
def adjP (dinv : FVec Ideal S10000 .f32) (src dst : IVec S330000 32) : FVec Ideal S10240x10240 .f32 :=
  Host.scatterAdd scatter_S10240x10240_S330000x2_S330000_n_01_01_1
    (broadcastInDim S10240x10240 ![] bcast_S_S10240x10240 (constant (F := Ideal) S_ .f32 0x00000000#32))
    (concatenate S330000x2 1 [⟨S330000x1, col (wrap 10240#32 dst)⟩, ⟨S330000x1, col (wrap 10240#32 src)⟩]
      concatenates_S330000x1_S330000x1_S330000x2_d1)
    (valsP dinv src dst)

/-! ## The edges' ends -/

/-- An end read at an edge: the given word for a given edge, the loop's own number for an appended one. -/
theorem ends_apply (a1 : IVec S2x320000 32) (r : Nat) (hr2 : r < 2) (h : S2x320000.Slices ![r, 0] S1x320000) (e : Fin 330000) :
    ends a1 r h (ix1 e)
      = if hlt : e.val < 320000 then a1 (ix2 (⟨r, hr2⟩ : Fin 2) ⟨e.val, hlt⟩) else BitVec.ofNat 32 (e.val - 320000) := by
  unfold ends
  by_cases hlt : e.val < 320000
  · rw [dif_pos hlt]
    refine (concatenate_pair_apply_left (t := S330000) (s₁ := S320000) (s₂ := S10000) 0 _ _ _ (ix1 e) rfl
      (ix1 (⟨e.val, hlt⟩ : Fin 320000)) ?_).trans ?_
    · intro b; match b with | ⟨0, _⟩ => rfl
    refine (shapeCast_apply (s := S1x320000) (t := S320000) _ _ (ix1 (⟨e.val, hlt⟩ : Fin 320000))
      (ix2 (0 : Fin 1) (⟨e.val, hlt⟩ : Fin 320000)) ?_).trans ?_
    · rw [Shape.rowMajor_val_one, Shape.rowMajor_val_two]
      show 0 * 320000 + e.val = e.val
      omega
    refine extractStridedSlice_apply (s := S2x320000) (t := S1x320000) _ a1 h _ (ix2 (⟨r, hr2⟩ : Fin 2) (⟨e.val, hlt⟩ : Fin 320000)) ?_
    intro a
    match a with
    | ⟨0, _⟩ => show r = r + 0; omega
    | ⟨1, _⟩ => show e.val = 0 + e.val; omega
  · rw [dif_neg hlt]
    have h2 : e.val - 320000 < 10000 := by have := e.isLt; omega
    refine (concatenate_pair_apply_right (t := S330000) (s₁ := S320000) (s₂ := S10000) 0 _ _ _ (ix1 e) rfl rfl
      (ix1 (⟨e.val - 320000, h2⟩ : Fin 10000)) ?_ ?_).trans ?_
    · intro b hb
      have hb1 : b.val < 1 := b.isLt
      refine absurd (Fin.ext ?_) hb
      show b.val = 0
      omega
    · show (e.val - 320000) + 320000 = e.val
      omega
    rfl

/-- The word at an end names the specification's node. -/
theorem ends_toNat (a1 : Cert.Spec.EI) (r : Nat) (hr2 : r < 2) (h : S2x320000.Slices ![r, 0] S1x320000) (e : Fin 330000) :
    (ends a1 r h (ix1 e)).toNat = Cert.Spec.node a1 ⟨r, hr2⟩ e := by
  rw [ends_apply a1 r hr2 h e]
  unfold Cert.Spec.node
  by_cases hlt : e.val < 320000
  · rw [dif_pos hlt, dif_pos hlt]
  · rw [dif_neg hlt, dif_neg hlt, BitVec.toNat_ofNat]
    have h2 : e.val - 320000 < 10000 := by have := e.isLt; omega
    exact Nat.mod_eq_of_lt (Nat.lt_of_lt_of_le h2 (by norm_num))

/-- Under the range hypothesis every end is one of the 10000 nodes. -/
theorem node_lt (a1 : Cert.Spec.EI) (hr : Cert.Spec.InRange a1) (r : Fin 2) (e : Fin 330000) :
    Cert.Spec.node a1 r e < 10000 := by
  unfold Cert.Spec.node
  by_cases hlt : e.val < 320000
  · rw [dif_pos hlt]; exact hr r ⟨e.val, hlt⟩
  · rw [dif_neg hlt]; have := e.isLt; omega

/-! ## Words below 10000 -/

/-- A word below 10000 read as a signed number is itself. -/
theorem toInt_small (v : BitVec 32) (hv : v.toNat < 10000) : v.toInt = (v.toNat : Int) :=
  BitVec.toInt_eq_toNat_of_lt (by omega)

/-- A word below 10000 is not negative. -/
theorem slt_zero_small (v : BitVec 32) (hv : v.toNat < 10000) : IntOp.cmpi .slt v 0#32 = 0#1 := by
  have hi := toInt_small v hv
  have hf : v.slt 0#32 = false := by
    unfold BitVec.slt
    rw [hi]
    simp
  show BitVec.ofBool (v.slt 0#32) = 0#1
  rw [hf]; rfl

/-- The one-word constant spread over the edges reads that word. -/
theorem splatI_apply (n : BitVec 32) (i : S330000.Idx) :
    broadcastInDim S330000 ![] bcast_S_S330000 (constantI S_ 32 n) i = n :=
  broadcastInDim_apply _ _ _ i ix0 (fun a => a.elim0)

/-- Where every word is below 10000 the wrap-around changes nothing. -/
theorem wrap_eq (n : BitVec 32) (x : IVec S330000 32) (hx : ∀ e : Fin 330000, (x (ix1 e)).toNat < 10000) :
    wrap n x = x := by
  funext j
  obtain ⟨e, rfl⟩ : ∃ e : Fin 330000, j = ix1 e := ⟨j 0, eq_ix1 j⟩
  unfold wrap
  rw [select_apply]
  have hc : cmpi .slt x (broadcastInDim S330000 ![] bcast_S_S330000 (constantI S_ 32 0#32)) (ix1 e) = 0#1 := by
    show IntOp.cmpi .slt (x (ix1 e)) (broadcastInDim S330000 ![] bcast_S_S330000 (constantI S_ 32 0#32) (ix1 e)) = 0#1
    rw [splatI_apply]
    exact slt_zero_small _ (hx e)
  rw [hc]
  exact select_zero _ _

/-- The column of indices at row e reads the vector at e. -/
theorem col_apply (x : IVec S330000 32) (e : Fin 330000) (z : Fin 1) : col x (ix2 e z) = x (ix1 e) := by
  unfold col
  refine broadcastInDim_apply _ _ x (ix2 e z) (ix1 e) ?_
  intro a
  match a with
  | ⟨0, _⟩ => rfl

/-! ## Where the scatters and the gather point -/

/-- The degree scatter, the gather of the inverse square roots, the scatter into the dense matrix. -/
abbrev dDeg : ScatterDims S10000 S330000x1 S330000 := scatter_S10000_S330000x1_S330000_n_0_0_1
abbrev gTake : GatherDims S10000 S330000x1 S330000 := gather_S10000_S330000x1_S330000_n_0_n_n_0_1_1
abbrev dAdj : ScatterDims S10240x10240 S330000x2 S330000 := scatter_S10240x10240_S330000x2_S330000_n_01_01_1

section Positions
variable (x : IVec S330000 32) (e : Fin 330000)

/-- The degree scatter's start: the index word of the update's row, read signed. -/
theorem start1 (idx : IVec S330000x1 32) : dDeg.start (ix1 e) idx (0 : Fin 1) = (idx (ix2 e 0)).toInt := by
  unfold ScatterDims.start
  rw [dif_pos (show (0 : Fin 1) ∈ dDeg.scatterDimsToOperandDims from List.mem_singleton.mpr rfl)]
  refine congrArg (fun i => (idx i).toInt) (funext fun b => Fin.ext ?_)
  match b with
  | ⟨0, _⟩ => rfl
  | ⟨1, _⟩ => rfl

/-- Its updates are single entries: no window coordinate. -/
theorem window1 : dDeg.window (ix1 e) (0 : Fin 1) = 0 := by
  unfold ScatterDims.window
  exact dif_neg (by decide)

/-- The degree scatter lands edge e's update at the node its word names. -/
theorem res1 (hx : (x (ix1 e)).toNat < 10000) :
    dDeg.resultIdx? (ix1 e) (col x) = some (ix1 ⟨(x (ix1 e)).toNat, hx⟩) := by
  have hs : dDeg.start (ix1 e) (col x) (0 : Fin 1) = ((x (ix1 e)).toNat : Int) := by
    rw [start1, col_apply]; exact toInt_small _ hx
  have hw := window1 e
  unfold ScatterDims.resultIdx?
  split
  · refine congrArg some (funext fun a => Fin.ext ?_)
    match a with
    | ⟨0, _⟩ =>
      show (dDeg.start (ix1 e) (col x) (0 : Fin 1) + ((dDeg.window (ix1 e) (0 : Fin 1) : Nat) : Int)).toNat = (x (ix1 e)).toNat
      rw [hs, hw]; omega
  · next h =>
    exfalso; apply h; intro a
    match a with
    | ⟨0, _⟩ =>
      show 0 ≤ dDeg.start (ix1 e) (col x) (0 : Fin 1) + ((dDeg.window (ix1 e) (0 : Fin 1) : Nat) : Int)
        ∧ dDeg.start (ix1 e) (col x) (0 : Fin 1) + ((dDeg.window (ix1 e) (0 : Fin 1) : Nat) : Int) < ((10000 : Nat) : Int)
      rw [hs, hw]; omega

/-- The gather reads, for edge e, the entry at the node its word names: the clamp is the identity below 10000. -/
theorem gather1 {α : Type} (v : S10000.Idx → α) (hx : (x (ix1 e)).toNat < 10000) :
    Host.gather gTake v (col x) (ix1 e) = v (ix1 ⟨(x (ix1 e)).toNat, hx⟩) := by
  unfold Host.gather
  refine congrArg v (funext fun a => Fin.ext ?_)
  match a with
  | ⟨0, _⟩ =>
    show gTake.start (ix1 e) (col x) (0 : Fin 1) + gTake.batchCoord (ix1 e) (0 : Fin 1) + gTake.offCoord (ix1 e) (0 : Fin 1)
      = (x (ix1 e)).toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 1) ∈ gTake.startIndexMap from List.mem_singleton.mpr rfl)]
    have hsi : gTake.siIdx (ix1 e) ⟨List.idxOf (0 : Fin 1) gTake.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, col_apply, toInt_small _ hx]
    show min (((x (ix1 e)).toNat : Int)).toNat (10000 - 1) + 0 + 0 = (x (ix1 e)).toNat
    omega

/-- The matrix scatter's starts: the two index words of the update's row, read signed. -/
theorem start2_0 (idx : IVec S330000x2 32) : dAdj.start (ix1 e) idx (0 : Fin 2) = (idx (ix2 e 0)).toInt := by
  unfold ScatterDims.start
  rw [dif_pos (show (0 : Fin 2) ∈ dAdj.scatterDimsToOperandDims from by decide)]
  refine congrArg (fun i => (idx i).toInt) (funext fun b => Fin.ext ?_)
  match b with
  | ⟨0, _⟩ => rfl
  | ⟨1, _⟩ => rfl

theorem start2_1 (idx : IVec S330000x2 32) : dAdj.start (ix1 e) idx (1 : Fin 2) = (idx (ix2 e 1)).toInt := by
  unfold ScatterDims.start
  rw [dif_pos (show (1 : Fin 2) ∈ dAdj.scatterDimsToOperandDims from by decide)]
  refine congrArg (fun i => (idx i).toInt) (funext fun b => Fin.ext ?_)
  match b with
  | ⟨0, _⟩ => rfl
  | ⟨1, _⟩ => rfl

theorem window2_0 : dAdj.window (ix1 e) (0 : Fin 2) = 0 := by
  unfold ScatterDims.window
  exact dif_neg (by decide)

theorem window2_1 : dAdj.window (ix1 e) (1 : Fin 2) = 0 := by
  unfold ScatterDims.window
  exact dif_neg (by decide)

/-- The two columns of scatter indices side by side: column 0 reads the first vector, column 1 the second. -/
theorem cols_apply_0 (a b : IVec S330000 32) :
    concatenate S330000x2 1 [⟨S330000x1, col a⟩, ⟨S330000x1, col b⟩] concatenates_S330000x1_S330000x1_S330000x2_d1
      (ix2 e (0 : Fin 2)) = a (ix1 e) := by
  refine (concatenate_pair_apply_left (t := S330000x2) (s₁ := S330000x1) (s₂ := S330000x1) 1 _ _ _ (ix2 e (0 : Fin 2)) rfl
    (ix2 e (0 : Fin 1)) ?_).trans (col_apply a e 0)
  intro b'
  match b' with
  | ⟨0, _⟩ => rfl
  | ⟨1, _⟩ => rfl

theorem cols_apply_1 (a b : IVec S330000 32) :
    concatenate S330000x2 1 [⟨S330000x1, col a⟩, ⟨S330000x1, col b⟩] concatenates_S330000x1_S330000x1_S330000x2_d1
      (ix2 e (1 : Fin 2)) = b (ix1 e) := by
  refine (concatenate_pair_apply_right (t := S330000x2) (s₁ := S330000x1) (s₂ := S330000x1) 1 _ _ _ (ix2 e (1 : Fin 2)) rfl rfl
    (ix2 e (0 : Fin 1)) ?_ ?_).trans (col_apply b e 0)
  · intro b' hb
    match b', hb with
    | ⟨0, _⟩, _ => rfl
    | ⟨1, _⟩, hb => exact absurd rfl hb
  · show 0 + 1 = 1
    rfl

/-- The matrix scatter lands edge e's update at (the node of the first word, the node of the second). -/
theorem res2 (xd xs : IVec S330000 32) (hd : (xd (ix1 e)).toNat < 10000) (hs : (xs (ix1 e)).toNat < 10000) :
    dAdj.resultIdx? (ix1 e)
        (concatenate S330000x2 1 [⟨S330000x1, col xd⟩, ⟨S330000x1, col xs⟩] concatenates_S330000x1_S330000x1_S330000x2_d1)
      = some (ix2 (⟨(xd (ix1 e)).toNat, by omega⟩ : Fin 10240) (⟨(xs (ix1 e)).toNat, by omega⟩ : Fin 10240)) := by
  have hs0 : dAdj.start (ix1 e)
      (concatenate S330000x2 1 [⟨S330000x1, col xd⟩, ⟨S330000x1, col xs⟩] concatenates_S330000x1_S330000x1_S330000x2_d1) (0 : Fin 2)
      = ((xd (ix1 e)).toNat : Int) := by
    rw [start2_0, cols_apply_0]; exact toInt_small _ hd
  have hs1 : dAdj.start (ix1 e)
      (concatenate S330000x2 1 [⟨S330000x1, col xd⟩, ⟨S330000x1, col xs⟩] concatenates_S330000x1_S330000x1_S330000x2_d1) (1 : Fin 2)
      = ((xs (ix1 e)).toNat : Int) := by
    rw [start2_1, cols_apply_1]; exact toInt_small _ hs
  have hw0 := window2_0 e
  have hw1 := window2_1 e
  generalize concatenate S330000x2 1 [⟨S330000x1, col xd⟩, ⟨S330000x1, col xs⟩] concatenates_S330000x1_S330000x1_S330000x2_d1 = idx
    at hs0 hs1 ⊢
  unfold ScatterDims.resultIdx?
  split
  · refine congrArg some (funext fun a => Fin.ext ?_)
    match a with
    | ⟨0, _⟩ =>
      show (dAdj.start (ix1 e) idx (0 : Fin 2) + ((dAdj.window (ix1 e) (0 : Fin 2) : Nat) : Int)).toNat = (xd (ix1 e)).toNat
      rw [hs0, hw0]; omega
    | ⟨1, _⟩ =>
      show (dAdj.start (ix1 e) idx (1 : Fin 2) + ((dAdj.window (ix1 e) (1 : Fin 2) : Nat) : Int)).toNat = (xs (ix1 e)).toNat
      rw [hs1, hw1]; omega
  · next h =>
    exfalso; apply h; intro a
    match a with
    | ⟨0, _⟩ =>
      show 0 ≤ dAdj.start (ix1 e) idx (0 : Fin 2) + ((dAdj.window (ix1 e) (0 : Fin 2) : Nat) : Int)
        ∧ dAdj.start (ix1 e) idx (0 : Fin 2) + ((dAdj.window (ix1 e) (0 : Fin 2) : Nat) : Int) < ((10240 : Nat) : Int)
      rw [hs0, hw0]; omega
    | ⟨1, _⟩ =>
      show 0 ≤ dAdj.start (ix1 e) idx (1 : Fin 2) + ((dAdj.window (ix1 e) (1 : Fin 2) : Nat) : Int)
        ∧ dAdj.start (ix1 e) idx (1 : Fin 2) + ((dAdj.window (ix1 e) (1 : Fin 2) : Nat) : Int) < ((10240 : Nat) : Int)
      rw [hs1, hw1]; omega

end Positions

/-! ## The sums -/

/-- Edges and the positions of a vector of 330000 entries are the same thing. -/
def edgeIdx : Fin 330000 ≃ S330000.Idx := ⟨ix1, fun j => j 0, fun _ => rfl, fun j => (eq_ix1 j).symm⟩

theorem edgeIdx_apply (e : Fin 330000) : edgeIdx e = ix1 e := rfl

theorem zeros1_apply (i : S10000.Idx) : zeros1 i = 0 := by
  unfold zeros1
  exact (broadcastInDim_apply _ _ _ i ix0 (fun a => a.elim0)).trans Ideal.ofBits_zero_f32

/-- The degree at node n counts the edges whose destination word names n. -/
theorem degP_apply (dst : IVec S330000 32) (hd : ∀ e : Fin 330000, (dst (ix1 e)).toNat < 10000) (n : Fin 10000) :
    degP dst (ix1 n) = ∑ e : Fin 330000, if (dst (ix1 e)).toNat = n.val then (1 : EReal) else 0 := by
  unfold degP
  show Ideal.hostScatterAdd dDeg zeros1 (col dst)
    (broadcastInDim S330000 ![] bcast_S_S330000 (constant (F := Ideal) S_ .f32 0x3F800000#32)) (ix1 n) = _
  unfold Ideal.hostScatterAdd
  rw [zeros1_apply, zero_add, Finset.sum_filter]
  refine (Fintype.sum_equiv edgeIdx _ _ (fun e => ?_)).symm
  rw [edgeIdx_apply]
  rw [res1 dst e (hd e)]
  have h1 : broadcastInDim S330000 ![] bcast_S_S330000 (constant (F := Ideal) S_ .f32 0x3F800000#32) (ix1 e) = (1 : EReal) :=
    (broadcastInDim_apply _ _ _ (ix1 e) ix0 (fun a => a.elim0)).trans Ideal.ofBits_one_f32
  rw [h1]
  refine if_congr ?_ rfl rfl
  constructor
  · intro h; exact congrArg some (congrArg ix1 (Fin.ext h))
  · intro h; exact congrArg Fin.val (congrFun (Option.some.inj h) 0)

/-- The selected inverse square root at node n. -/
theorem dinvP_apply (dst : IVec S330000 32) (n : Fin 10000) :
    dinvP dst (ix1 n) = if 0 < degP dst (ix1 n) then Ideal.rsqrt (degP dst (ix1 n)) else 0 := by
  unfold dinvP
  generalize degP dst = D
  have hz : broadcastInDim S10000 ![] bcast_S_S10000 (id (constant (F := Ideal) S_ .f32 0x00000000#32)) (ix1 n) = (0 : EReal) :=
    (broadcastInDim_apply _ _ _ (ix1 n) ix0 (fun a => a.elim0)).trans Ideal.ofBits_zero_f32
  rw [select_apply, cmpf_apply, zeros1_apply, hz]
  have hr : Host.rsqrt D (ix1 n) = Ideal.rsqrt (D (ix1 n)) := rfl
  have hc : FloatOps.cmpf .ogt (D (ix1 n)) (0 : EReal) = BitVec.ofBool (decide (0 < D (ix1 n))) := rfl
  rw [hr, hc]
  by_cases h : 0 < D (ix1 n)
  · rw [if_pos h, decide_eq_true h]; exact select_one _ _
  · rw [if_neg h, decide_eq_false h]; exact select_zero _ _

/-- An edge's weight: the product of the values at the nodes its two words name. -/
theorem valsP_apply (dinv : FVec Ideal S10000 .f32) (src dst : IVec S330000 32)
    (hs : ∀ e : Fin 330000, (src (ix1 e)).toNat < 10000) (hd : ∀ e : Fin 330000, (dst (ix1 e)).toNat < 10000) (e : Fin 330000) :
    valsP dinv src dst (ix1 e)
      = dinv (ix1 ⟨(src (ix1 e)).toNat, hs e⟩) * dinv (ix1 ⟨(dst (ix1 e)).toNat, hd e⟩) := by
  unfold valsP
  rw [mulf_apply, wrap_eq _ src hs, wrap_eq _ dst hd, gather1 src e dinv (hs e), gather1 dst e dinv (hd e)]

/-- An entry of the dense matrix: the weights of the edges whose words name its row and its column, added up. -/
theorem adjP_apply (dinv : FVec Ideal S10000 .f32) (src dst : IVec S330000 32)
    (hs : ∀ e : Fin 330000, (src (ix1 e)).toNat < 10000) (hd : ∀ e : Fin 330000, (dst (ix1 e)).toNat < 10000)
    (y : S10240x10240.Idx) :
    adjP dinv src dst y
      = ∑ e : Fin 330000, if (dst (ix1 e)).toNat = (y 0).val ∧ (src (ix1 e)).toNat = (y 1).val
          then valsP dinv src dst (ix1 e) else 0 := by
  unfold adjP
  rw [wrap_eq _ dst hd, wrap_eq _ src hs]
  show Ideal.hostScatterAdd dAdj
    (broadcastInDim S10240x10240 ![] bcast_S_S10240x10240 (constant (F := Ideal) S_ .f32 0x00000000#32))
    (concatenate S330000x2 1 [⟨S330000x1, col dst⟩, ⟨S330000x1, col src⟩] concatenates_S330000x1_S330000x1_S330000x2_d1)
    (valsP dinv src dst) y = _
  unfold Ideal.hostScatterAdd
  have hz : broadcastInDim S10240x10240 ![] bcast_S_S10240x10240 (constant (F := Ideal) S_ .f32 0x00000000#32) y = (0 : EReal) :=
    (broadcastInDim_apply _ _ _ y ix0 (fun a => a.elim0)).trans Ideal.ofBits_zero_f32
  rw [hz, zero_add, Finset.sum_filter]
  refine (Fintype.sum_equiv edgeIdx _ _ (fun e => ?_)).symm
  rw [edgeIdx_apply]
  rw [res2 e dst src (hd e) (hs e)]
  refine if_congr ?_ rfl rfl
  constructor
  · rintro ⟨h0, h1⟩
    refine congrArg some (funext fun a => ?_)
    match a with
    | ⟨0, _⟩ => exact Fin.ext h0
    | ⟨1, _⟩ => exact Fin.ext h1
  · intro h
    have h' := Option.some.inj h
    exact ⟨congrArg Fin.val (congrFun h' 0), congrArg Fin.val (congrFun h' 1)⟩

/-! ## The specification's matrix -/

/-- With the words naming the specification's nodes, the program's matrix is the specification's. -/
theorem adj_spec (a1 : Cert.Spec.EI) (hr : Cert.Spec.InRange a1) (src dst : IVec S330000 32)
    (hS : ∀ e : Fin 330000, (src (ix1 e)).toNat = Cert.Spec.node a1 0 e)
    (hD : ∀ e : Fin 330000, (dst (ix1 e)).toNat = Cert.Spec.node a1 1 e) (y : S10240x10240.Idx) :
    adjP (dinvP dst) src dst y = Cert.Spec.adj a1 (y 0).val (y 1).val := by
  have hs : ∀ e : Fin 330000, (src (ix1 e)).toNat < 10000 := fun e => by rw [hS]; exact node_lt a1 hr 0 e
  have hd : ∀ e : Fin 330000, (dst (ix1 e)).toNat < 10000 := fun e => by rw [hD]; exact node_lt a1 hr 1 e
  have hdeg : ∀ n : Fin 10000, degP dst (ix1 n) = Cert.Spec.deg a1 n.val := by
    intro n
    rw [degP_apply dst hd n]
    unfold Cert.Spec.deg
    exact Finset.sum_congr rfl fun e _ => by rw [hD e]
  have hdinv : ∀ n : Fin 10000, dinvP dst (ix1 n) = Cert.Spec.dinv a1 n.val := by
    intro n
    rw [dinvP_apply, hdeg]
    rfl
  have hval : ∀ e : Fin 330000, valsP (dinvP dst) src dst (ix1 e) = Cert.Spec.norm a1 e := by
    intro e
    rw [valsP_apply _ src dst hs hd e, hdinv, hdinv]
    show Cert.Spec.dinv a1 (src (ix1 e)).toNat * Cert.Spec.dinv a1 (dst (ix1 e)).toNat = _
    rw [hS e, hD e]
    rfl
  rw [adjP_apply _ src dst hs hd y]
  unfold Cert.Spec.adj
  exact Finset.sum_congr rfl fun e _ => by rw [hval e, hS e, hD e]

/-! ## The padded features -/

/-- The features written at row 0 of an array of zeros. -/
abbrev dPad : ScatterDims S10240x128 S1 S10000x128 := scatter_S10240x128_S1_S10000x128_01_n_0_0

def xpadP (x0 : FVec Ideal S10000x128 .f32) : FVec Ideal S10240x128 .f32 :=
  Host.scatter scatter_S10240x128_S1_S10000x128_01_n_0_0 (fun _ b => b)
    (broadcastInDim S10240x128 ![] bcast_S_S10240x128 (constant (F := Ideal) S_ .f32 0x00000000#32))
    (broadcastInDim S1 ![] bcast_S_S1 (constantI S_ 32 0#32)) x0

/-- The one scatter index, zero. -/
abbrev zidx : IVec S1 32 := broadcastInDim S1 ![] bcast_S_S1 (constantI S_ 32 0#32)

theorem zidx_apply (i : S1.Idx) : zidx i = 0#32 := broadcastInDim_apply _ _ _ i ix0 (fun a => a.elim0)

/-- Every entry of the features lands at its own coordinates. -/
theorem resPad (p : Fin 10000) (q : Fin 128) :
    dPad.resultIdx? (ix2 p q) zidx = some (ix2 (⟨p.val, by omega⟩ : Fin 10240) q) := by
  have hs0 : dPad.start (ix2 p q) zidx (0 : Fin 2) = 0 := by
    unfold ScatterDims.start
    rw [dif_pos (show (0 : Fin 2) ∈ dPad.scatterDimsToOperandDims from by decide), zidx_apply]
    rfl
  have hs1 : dPad.start (ix2 p q) zidx (1 : Fin 2) = 0 := by
    unfold ScatterDims.start
    exact dif_neg (by decide)
  have hw0 : dPad.window (ix2 p q) (0 : Fin 2) = p.val := by
    unfold ScatterDims.window
    rw [dif_pos (show (0 : Fin 2) ∈ dPad.sKept from by decide)]
    rfl
  have hw1 : dPad.window (ix2 p q) (1 : Fin 2) = q.val := by
    unfold ScatterDims.window
    rw [dif_pos (show (1 : Fin 2) ∈ dPad.sKept from by decide)]
    rfl
  have hp := p.isLt
  have hq := q.isLt
  unfold ScatterDims.resultIdx?
  split
  · refine congrArg some (funext fun a => Fin.ext ?_)
    match a with
    | ⟨0, _⟩ =>
      show (dPad.start (ix2 p q) zidx (0 : Fin 2) + ((dPad.window (ix2 p q) (0 : Fin 2) : Nat) : Int)).toNat = p.val
      rw [hs0, hw0]; omega
    | ⟨1, _⟩ =>
      show (dPad.start (ix2 p q) zidx (1 : Fin 2) + ((dPad.window (ix2 p q) (1 : Fin 2) : Nat) : Int)).toNat = q.val
      rw [hs1, hw1]; omega
  · next h =>
    exfalso; apply h; intro a
    match a with
    | ⟨0, _⟩ =>
      show 0 ≤ dPad.start (ix2 p q) zidx (0 : Fin 2) + ((dPad.window (ix2 p q) (0 : Fin 2) : Nat) : Int)
        ∧ dPad.start (ix2 p q) zidx (0 : Fin 2) + ((dPad.window (ix2 p q) (0 : Fin 2) : Nat) : Int) < ((10240 : Nat) : Int)
      rw [hs0, hw0]; omega
    | ⟨1, _⟩ =>
      show 0 ≤ dPad.start (ix2 p q) zidx (1 : Fin 2) + ((dPad.window (ix2 p q) (1 : Fin 2) : Nat) : Int)
        ∧ dPad.start (ix2 p q) zidx (1 : Fin 2) + ((dPad.window (ix2 p q) (1 : Fin 2) : Nat) : Int) < ((128 : Nat) : Int)
      rw [hs1, hw1]; omega

/-- The padded features: the given rows, then zeros. -/
theorem xpadP_apply (x0 : FVec Ideal S10000x128 .f32) (y : S10240x128.Idx) :
    xpadP x0 y = Cert.Spec.rows x0 (y 0).val ⟨(y 1).val, idx2_lt1 y⟩ := by
  obtain ⟨r, q, rfl⟩ : ∃ (r : Fin 10240) (q : Fin 128), y = ix2 r q := ⟨y 0, y 1, eq_ix2 y⟩
  show xpadP x0 (ix2 r q) = Cert.Spec.rows x0 r.val q
  unfold xpadP Cert.Spec.rows
  by_cases hlt : r.val < 10000
  · rw [dif_pos hlt]
    refine scatter_set_hit dPad _ zidx x0 (ix2 r q) (ix2 ⟨r.val, hlt⟩ q) (resPad ⟨r.val, hlt⟩ q) ?_
    intro j hj
    obtain ⟨p', q', rfl⟩ : ∃ (p' : Fin 10000) (q' : Fin 128), j = ix2 p' q' := ⟨j 0, j 1, eq_ix2 j⟩
    rw [resPad p' q'] at hj
    have h' := Option.some.inj hj
    have e0 : p'.val = r.val := congrArg Fin.val (congrFun h' 0)
    have e1 : q'.val = q.val := congrArg Fin.val (congrFun h' 1)
    have ep : p' = ⟨r.val, hlt⟩ := Fin.ext e0
    have eq' : q' = q := Fin.ext e1
    rw [ep, eq']
  · rw [dif_neg hlt]
    refine (scatter_set_miss dPad _ zidx x0 (ix2 r q) ?_).trans
      ((broadcastInDim_apply _ _ _ (ix2 r q) ix0 (fun a => a.elim0)).trans Ideal.ofBits_zero_f32)
    intro j hj
    obtain ⟨p', q', rfl⟩ : ∃ (p' : Fin 10000) (q' : Fin 128), j = ix2 p' q' := ⟨j 0, j 1, eq_ix2 j⟩
    rw [resPad p' q'] at hj
    have e0 : p'.val = r.val := congrArg Fin.val (congrFun (Option.some.inj hj) 0)
    have := p'.isLt
    omega

/-! ## The program's buffers -/

variable (m : (ℓ : Loc nD τ sig) → Buf (Elt Ideal) ℓ) (c : Dev nD)

/-- The sources: row 0 of the index array, then the loops. -/
theorem V1_v3 : (V1 m c main_v3 : IVec S330000 32)
    = ends (m ((c : Thread nD τ).loc main_arg1)) 0 slices_S2x320000_S1x320000_0_0 := by
  dsimp only [V1, V0, hostOps0]
  after_results_simp
  rfl

/-- The destinations: row 1 of the index array, then the loops. -/
theorem V1_v6 : (V1 m c main_v6 : IVec S330000 32)
    = ends (m ((c : Thread nD τ).loc main_arg1)) 1 slices_S2x320000_S1x320000_1_0 := by
  dsimp only [V1, V0, hostOps0]
  after_results_simp
  rfl

/-- Where the degree is positive. -/
theorem V1_v12 : (V1 m c main_v12 : IVec S10000 1)
    = cmpf .ogt (degP (ends (m ((c : Thread nD τ).loc main_arg1)) 1 slices_S2x320000_S1x320000_1_0)) zeros1 := by
  dsimp only [V1, V0, hostOps0]
  after_results_simp
  rfl

/-- The inverse square roots of the degrees. -/
theorem V1_v13 : (V1 m c main_v13 : FVec Ideal S10000 .f32)
    = Host.rsqrt (degP (ends (m ((c : Thread nD τ).loc main_arg1)) 1 slices_S2x320000_S1x320000_1_0)) := by
  dsimp only [V1, V0, hostOps0]
  after_results_simp
  rfl

theorem V1_cst2 : (V1 m c main_cst_2 : FVec Ideal S_ .f32) = constant (F := Ideal) S_ .f32 0x00000000#32 := by
  dsimp only [V1, V0, hostOps0]
  after_results_simp

/-- The selected inverse square roots. -/
theorem V2_v14 : (V2 m c main_v14 : FVec Ideal S10000 .f32)
    = dinvP (ends (m ((c : Thread nD τ).loc main_arg1)) 1 slices_S2x320000_S1x320000_1_0) := by
  have e : (V2 m c main_v14 : FVec Ideal S10000 .f32)
      = select (V1 m c main_v12 : IVec S10000 1) (V1 m c main_v13 : FVec Ideal S10000 .f32)
          (broadcastInDim S10000 ![] bcast_S_S10000 (id (V1 m c main_cst_2 : FVec Ideal S_ .f32))) := by
    show StableHlo.after hostOps0_1 (V1 m c) (Proc.devRef .tc main_v14) = _
    generalize V1 m c = W
    dsimp only [hostOps0_1]
    after_results_simp
    rfl
  rw [e, V1_v12, V1_v13, V1_cst2]
  rfl

/-- The dense matrix in the narrow float format. -/
theorem V3_v45 : (V3 m c main_v45 : FVec Ideal S10240x10240 .bf16)
    = truncf .bf16 (adjP (V2 m c main_v14 : FVec Ideal S10000 .f32) (V2 m c main_v3 : IVec S330000 32)
        (V2 m c main_v6 : IVec S330000 32)) bitsLt_bf16_f32 := by
  show StableHlo.after hostOps0_2 (V2 m c) (Proc.devRef .tc main_v45) = _
  generalize V2 m c = W
  dsimp only [hostOps0_2]
  after_results_simp
  rfl

/-- The padded features in the narrow float format. -/
theorem V3_v49 : (V3 m c main_v49 : FVec Ideal S10240x128 .bf16)
    = truncf .bf16 (xpadP (V2 m c main_arg0 : FVec Ideal S10000x128 .f32)) bitsLt_bf16_f32 := by
  show StableHlo.after hostOps0_2 (V2 m c) (Proc.devRef .tc main_v49) = _
  generalize V2 m c = W
  dsimp only [hostOps0_2]
  after_results_simp
  rfl

/-- (1) The first operand of the aggregations is the specification's dense weight matrix. -/
theorem adj_eq (hr : Cert.Spec.InRange (m ((c : Thread nD τ).loc main_arg1) : Cert.Spec.EI)) :
    (V3 m c main_v45 : S10240x10240.Idx → EReal)
      = fun y => Cert.Spec.adj (m ((c : Thread nD τ).loc main_arg1) : Cert.Spec.EI) (y 0).val (y 1).val := by
  rw [V3_v45, V2_v14, V2_of m c main_v3 (by decide), V2_of m c main_v6 (by decide), V1_v3, V1_v6]
  funext y
  rw [truncf_apply]
  exact adj_spec _ hr _ _ (fun e => ends_toNat _ 0 (by omega) _ e) (fun e => ends_toNat _ 1 (by omega) _ e) y

/-- (2) The features reach the first product as the given rows followed by rows of zeros. -/
theorem xpad_eq : (V3 m c main_v49 : S10240x128.Idx → EReal)
    = fun y => Cert.Spec.rows (m ((c : Thread nD τ).loc main_arg0) : S10000x128.Idx → EReal) (y 0).val ⟨(y 1).val, idx2_lt1 y⟩ := by
  rw [V3_v49, V2_of m c main_arg0 (by decide), V1_of m c main_arg0 (by decide)]
  funext y
  rw [truncf_apply]
  exact xpadP_apply _ y

end Cert.KerHost

end
-- ==== Proof.KerHostA.lean ====
/-
  The host operations that prepare the small operands of the six matrix products, read index by index at the
  exact (extended real) values: a change of float format is the identity there, so each weight matrix reaches the
  first product as it was given; each bias vector is the given vector laid out as one row; the zero bias of the
  first dense layer is a row of zeros.
-/
import proofs.«173524_j83966610637551_1_alg».proof.Proof.Gen.KernelIdeal.Regions
import proofs.«173524_j83966610637551_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KerHost

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- An argument array is never written before the first product: it still holds its launch contents. -/
theorem V2_arg (r : Ref sig .tc) (h1 : r ∉ hostOps0_W) (h2 : r ∉ hostOps0_1_W) :
    V2 m c r = m ((c : Thread nD τ).loc r) :=
  (V2_of m c r h2).trans (V1_of m c r h1)

/-- The first layer's weights: the format change is the identity. -/
theorem w1_eq : (V3 m c main_v50 : S128x256.Idx → EReal) = m ((c : Thread nD τ).loc main_arg2) := by
  have e : (V3 m c main_v50 : S128x256.Idx → EReal)
      = truncf (F := Ideal) .bf16 (V2 m c main_arg2 : FVec Ideal S128x256 .f32) bitsLt_bf16_f32 := by
    show StableHlo.after hostOps0_2 (V2 m c) (Proc.devRef .tc main_v50) = _
    generalize V2 m c = W
    dsimp only [hostOps0_2]
    after_results_simp
  rw [e, V2_arg m c main_arg2 (by decide) (by decide)]
  rfl

/-- The second layer's weights. -/
theorem w2_eq : (V3 m c main_v51 : S256x256.Idx → EReal) = m ((c : Thread nD τ).loc main_arg4) := by
  have e : (V3 m c main_v51 : S256x256.Idx → EReal)
      = truncf (F := Ideal) .bf16 (V2 m c main_arg4 : FVec Ideal S256x256 .f32) bitsLt_bf16_f32 := by
    show StableHlo.after hostOps0_2 (V2 m c) (Proc.devRef .tc main_v51) = _
    generalize V2 m c = W
    dsimp only [hostOps0_2]
    after_results_simp
  rw [e, V2_arg m c main_arg4 (by decide) (by decide)]
  rfl

/-- The head's first weights. -/
theorem wh1_eq : (V3 m c main_v52 : S256x256.Idx → EReal) = m ((c : Thread nD τ).loc main_arg6) := by
  have e : (V3 m c main_v52 : S256x256.Idx → EReal)
      = truncf (F := Ideal) .bf16 (V2 m c main_arg6 : FVec Ideal S256x256 .f32) bitsLt_bf16_f32 := by
    show StableHlo.after hostOps0_2 (V2 m c) (Proc.devRef .tc main_v52) = _
    generalize V2 m c = W
    dsimp only [hostOps0_2]
    after_results_simp
  rw [e, V2_arg m c main_arg6 (by decide) (by decide)]
  rfl

/-- The head's second weights. -/
theorem wh2_eq : (V3 m c main_v53 : S256x8.Idx → EReal) = m ((c : Thread nD τ).loc main_arg8) := by
  have e : (V3 m c main_v53 : S256x8.Idx → EReal)
      = truncf (F := Ideal) .bf16 (V2 m c main_arg8 : FVec Ideal S256x8 .f32) bitsLt_bf16_f32 := by
    show StableHlo.after hostOps0_2 (V2 m c) (Proc.devRef .tc main_v53) = _
    generalize V2 m c = W
    dsimp only [hostOps0_2]
    after_results_simp
  rw [e, V2_arg m c main_arg8 (by decide) (by decide)]
  rfl

/-- The first dense layer's bias: a row of zeros. -/
theorem zeroh_eq : (V3 m c main_v54 : S1x256.Idx → EReal) = fun _ => (0 : EReal) := by
  have e : (V3 m c main_v54 : S1x256.Idx → EReal)
      = broadcastInDim S1x256 ![] bcast_S_S1x256 (constant (F := Ideal) S_ .f32 0x00000000#32) := by
    show StableHlo.after hostOps0_2 (V2 m c) (Proc.devRef .tc main_v54) = _
    generalize V2 m c = W
    dsimp only [hostOps0_2]
    after_results_simp
  rw [e]
  funext y
  exact (broadcastInDim_apply _ _ _ y ix0 (fun a => a.elim0)).trans Ideal.ofBits_zero_f32

/-- A vector of 256 entries laid out as one row reads, at column q, its entry q. -/
theorem row256_apply (b : S256.Idx → EReal) (y : S1x256.Idx) :
    shapeCast S1x256 b shapeCasts_S256_S1x256 y = b (ix1 ⟨(y 1).val, idx2_lt1 y⟩) := by
  refine shapeCast_apply b _ y _ ?_
  rw [Shape.rowMajor_val_one, Shape.rowMajor_val_two]
  have h0 : (y 0).val < 1 := idx2_lt0 y
  show (y 1).val = (y 0).val * 256 + (y 1).val
  omega

/-- A vector of 8 entries laid out as one row reads, at column q, its entry q. -/
theorem row8_apply (b : S8.Idx → EReal) (y : S1x8.Idx) :
    shapeCast S1x8 b shapeCasts_S8_S1x8 y = b (ix1 ⟨(y 1).val, idx2_lt1 y⟩) := by
  refine shapeCast_apply b _ y _ ?_
  rw [Shape.rowMajor_val_one, Shape.rowMajor_val_two]
  have h0 : (y 0).val < 1 := idx2_lt0 y
  show (y 1).val = (y 0).val * 8 + (y 1).val
  omega

/-- The first convolution's bias as one row. -/
theorem b1_eq : (V3 m c main_v55 : S1x256.Idx → EReal)
    = fun y => (m ((c : Thread nD τ).loc main_arg3) : S256.Idx → EReal) (ix1 ⟨(y 1).val, idx2_lt1 y⟩) := by
  have e : (V3 m c main_v55 : S1x256.Idx → EReal)
      = shapeCast S1x256 (V2 m c main_arg3 : S256.Idx → EReal) shapeCasts_S256_S1x256 := by
    show StableHlo.after hostOps0_2 (V2 m c) (Proc.devRef .tc main_v55) = _
    generalize V2 m c = W
    dsimp only [hostOps0_2]
    after_results_simp
    rfl
  rw [e, V2_arg m c main_arg3 (by decide) (by decide)]
  funext y
  exact row256_apply _ y

/-- The second convolution's bias as one row. -/
theorem b2_eq : (V3 m c main_v56 : S1x256.Idx → EReal)
    = fun y => (m ((c : Thread nD τ).loc main_arg5) : S256.Idx → EReal) (ix1 ⟨(y 1).val, idx2_lt1 y⟩) := by
  have e : (V3 m c main_v56 : S1x256.Idx → EReal)
      = shapeCast S1x256 (V2 m c main_arg5 : S256.Idx → EReal) shapeCasts_S256_S1x256 := by
    show StableHlo.after hostOps0_2 (V2 m c) (Proc.devRef .tc main_v56) = _
    generalize V2 m c = W
    dsimp only [hostOps0_2]
    after_results_simp
    rfl
  rw [e, V2_arg m c main_arg5 (by decide) (by decide)]
  funext y
  exact row256_apply _ y

/-- The head's first bias as one row. -/
theorem bh1_eq : (V3 m c main_v57 : S1x256.Idx → EReal)
    = fun y => (m ((c : Thread nD τ).loc main_arg7) : S256.Idx → EReal) (ix1 ⟨(y 1).val, idx2_lt1 y⟩) := by
  have e : (V3 m c main_v57 : S1x256.Idx → EReal)
      = shapeCast S1x256 (V2 m c main_arg7 : S256.Idx → EReal) shapeCasts_S256_S1x256 := by
    show StableHlo.after hostOps0_2 (V2 m c) (Proc.devRef .tc main_v57) = _
    generalize V2 m c = W
    dsimp only [hostOps0_2]
    after_results_simp
    rfl
  rw [e, V2_arg m c main_arg7 (by decide) (by decide)]
  funext y
  exact row256_apply _ y

/-- The head's second bias as one row. -/
theorem bh2_eq : (V3 m c main_v58 : S1x8.Idx → EReal)
    = fun y => (m ((c : Thread nD τ).loc main_arg9) : S8.Idx → EReal) (ix1 ⟨(y 1).val, idx2_lt1 y⟩) := by
  have e : (V3 m c main_v58 : S1x8.Idx → EReal)
      = shapeCast S1x8 (V2 m c main_arg9 : S8.Idx → EReal) shapeCasts_S8_S1x8 := by
    show StableHlo.after hostOps0_2 (V2 m c) (Proc.devRef .tc main_v58) = _
    generalize V2 m c = W
    dsimp only [hostOps0_2]
    after_results_simp
    rfl
  rw [e, V2_arg m c main_arg9 (by decide) (by decide)]
  funext y
  exact row8_apply _ y

end Cert.KerHost

end
-- ==== Proof.Glue.lean ====
/-
  From the six nested matrix products the kernel program leaves behind to the layered network of the specification.

  Every intermediate array of the kernel is a table of rows: entry (i, j) is g i j for a row function g : ℕ → Fin N → EReal
  (rows are numbered by natural numbers so that the padded arrays and the unpadded ones are the same functions). A matrix
  product of such a table with a weight matrix, plus a bias row, is again such a table, whose row function is the
  specification's dense layer of g; with the dense adjacency matrix as the left operand it is the specification's
  aggregation. Nothing is rearranged: each sum is read term by term, so no finiteness is needed.
-/
import proofs.«173524_j83966610637551_1_alg».proof.Proof.Spec
import proofs.«173524_j83966610637551_1_alg».proof.Proof.MMSpec
import Idealize.ShloMosaic.Lib.ValueIdx

noncomputable section

namespace Cert.Glue

open Idealize.ShloMosaic Idealize.ShloMosaic.ValueIdx

/-- The M × N table whose entry (i, j) is g i j. -/
def tab (M N : ℕ) (g : ℕ → Fin N → EReal) : (⟨2, ![M, N]⟩ : Shape).Idx → EReal :=
  fun y => g (y 0).val ⟨(y 1).val, idx2_lt1 y⟩

/-- The 1 × N row whose entry j is bv j. -/
def row (N : ℕ) (bv : Fin N → EReal) : (⟨2, ![1, N]⟩ : Shape).Idx → EReal :=
  fun y => bv ⟨(y 1).val, idx2_lt1 y⟩

theorem tab_ix2 (M N : ℕ) (g : ℕ → Fin N → EReal) (i : Fin M) (j : Fin N) : tab M N g (ix2 i j) = g i.val j := rfl

theorem row_ix2 (N : ℕ) (bv : Fin N → EReal) (j : Fin N) : row N bv (ix2 (0 : Fin 1) j) = bv j := rfl

/-- A table times a weight matrix plus a bias row, not rectified: the table of the dense layer. -/
theorem mm_dense (M K N : ℕ) (g : ℕ → Fin K → EReal) (w : (⟨2, ![K, N]⟩ : Shape).Idx → EReal) (bv : Fin N → EReal) :
    Cert.MMSpec.mm M K N false (tab M K g) w (row N bv) = tab M N (Cert.Spec.dense g (Cert.Spec.mat w) bv) := by
  funext y
  rfl

/-- The same, rectified. -/
theorem mm_dense_relu (M K N : ℕ) (g : ℕ → Fin K → EReal) (w : (⟨2, ![K, N]⟩ : Shape).Idx → EReal) (bv : Fin N → EReal) :
    Cert.MMSpec.mm M K N true (tab M K g) w (row N bv)
      = tab M N (Cert.Spec.relu (Cert.Spec.dense g (Cert.Spec.mat w) bv)) := by
  funext y
  rfl

/-- The aggregation with the contracted width a parameter: the dense matrix's first K columns times the features. -/
def aggK {N : ℕ} (K : ℕ) (ei : Cert.Spec.EI) (h : ℕ → Fin N → EReal) (b : Fin N → EReal) : ℕ → Fin N → EReal :=
  fun d f => (∑ s : Fin K, Cert.Spec.adj ei d s.val * h s.val f) + b f

/-- At the padded width 10240 it is the specification's aggregation. -/
theorem agg_eq {N : ℕ} (ei : Cert.Spec.EI) (h : ℕ → Fin N → EReal) (bv : Fin N → EReal) :
    Cert.Spec.agg ei h bv = aggK 10240 ei h bv := rfl

/-- The dense adjacency matrix times a table plus a bias row, rectified, at any sizes. -/
theorem mm_aggK_relu (M K N : ℕ) (ei : Cert.Spec.EI) (h : ℕ → Fin N → EReal) (bv : Fin N → EReal) :
    Cert.MMSpec.mm M K N true (fun y => Cert.Spec.adj ei (y 0).val (y 1).val) (tab K N h) (row N bv)
      = tab M N (Cert.Spec.relu (aggK K ei h bv)) := by
  funext y
  rfl

/-- The dense adjacency matrix times a table plus a bias row, rectified: the table of the rectified aggregation. -/
theorem mm_agg_relu (N : ℕ) (ei : Cert.Spec.EI) (h : ℕ → Fin N → EReal) (bv : Fin N → EReal) :
    Cert.MMSpec.mm 10240 10240 N true (fun y => Cert.Spec.adj ei (y 0).val (y 1).val) (tab 10240 N h) (row N bv)
      = tab 10240 N (Cert.Spec.relu (Cert.Spec.agg ei h bv)) := by
  rw [agg_eq]
  exact mm_aggK_relu 10240 10240 N ei h bv

/-- The kernel program's six nested products, read at row n and column f, are the specification's network. -/
theorem chain
    (a0 : (⟨2, ![10000, 128]⟩ : Shape).Idx → EReal) (a1 : Cert.Spec.EI)
    (a2 : (⟨2, ![128, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 8]⟩ : Shape).Idx → EReal) (a9 : (⟨1, ![8]⟩ : Shape).Idx → EReal)
    (A : (⟨2, ![10240, 10240]⟩ : Shape).Idx → EReal) (hA : A = fun y => Cert.Spec.adj a1 (y 0).val (y 1).val)
    (xp : (⟨2, ![10240, 128]⟩ : Shape).Idx → EReal)
    (hxp : xp = fun y => Cert.Spec.rows a0 (y 0).val ⟨(y 1).val, idx2_lt1 y⟩)
    (z : (⟨2, ![1, 256]⟩ : Shape).Idx → EReal) (hz : z = fun _ => (0 : EReal))
    (b1r : (⟨2, ![1, 256]⟩ : Shape).Idx → EReal) (hb1 : b1r = fun y => a3 (ix1 ⟨(y 1).val, idx2_lt1 y⟩))
    (b2r : (⟨2, ![1, 256]⟩ : Shape).Idx → EReal) (hb2 : b2r = fun y => a5 (ix1 ⟨(y 1).val, idx2_lt1 y⟩))
    (bh1r : (⟨2, ![1, 256]⟩ : Shape).Idx → EReal) (hbh1 : bh1r = fun y => a7 (ix1 ⟨(y 1).val, idx2_lt1 y⟩))
    (bh2r : (⟨2, ![1, 8]⟩ : Shape).Idx → EReal) (hbh2 : bh2r = fun y => a9 (ix1 ⟨(y 1).val, idx2_lt1 y⟩))
    (n : Fin 10240) (f : Fin 8) :
    Cert.MMSpec.mm 10240 256 8 false
        (Cert.MMSpec.mm 10240 256 256 true
          (Cert.MMSpec.mm 10240 10240 256 true A
            (Cert.MMSpec.mm 10240 256 256 false
              (Cert.MMSpec.mm 10240 10240 256 true A (Cert.MMSpec.mm 10240 128 256 false xp a2 z) b1r)
              a4 z) b2r)
          a6 bh1r)
        a8 bh2r (ix2 n f)
      = Cert.Spec.kerQ a0 a1 a2 a3 a4 a5 a6 a7 a8 a9 n.val f := by
  have exp : xp = tab 10240 128 (Cert.Spec.rows a0) := hxp
  have ez : z = row 256 (fun _ => (0 : EReal)) := hz
  have e1 : b1r = row 256 (Cert.Spec.vec a3) := hb1
  have e2 : b2r = row 256 (Cert.Spec.vec a5) := hb2
  have e3 : bh1r = row 256 (Cert.Spec.vec a7) := hbh1
  have e4 : bh2r = row 8 (Cert.Spec.vec a9) := hbh2
  rw [exp, ez, e1, e2, e3, e4, hA, mm_dense, mm_agg_relu, mm_dense, mm_agg_relu, mm_dense_relu, mm_dense, tab_ix2]
  rfl

end Cert.Glue

end
-- ==== Proof.KerValue.lean ====
/-
  The kernel program's result, read back at the extended reals.

  After the last host stretch the result buffer holds the first 10000 rows of region 5's output; region K's output is
  the blocked product of its three operands as its region found them; the host stretch between two regions copies an
  output into the next left or right operand unchanged (a change of float format is the identity here); and the
  operands no region writes — the dense weight matrix, the padded features, the weights, the bias rows — are still
  what the host stretches before region 0 made of the arguments. Unwinding the six regions gives six nested products,
  which are the specification's layers.
-/
import proofs.«173524_j83966610637551_1_alg».proof.Proof.Run
import proofs.«173524_j83966610637551_1_alg».proof.Proof.Reg0Value
import proofs.«173524_j83966610637551_1_alg».proof.Proof.Reg1Value
import proofs.«173524_j83966610637551_1_alg».proof.Proof.Reg2Value
import proofs.«173524_j83966610637551_1_alg».proof.Proof.Reg3Value
import proofs.«173524_j83966610637551_1_alg».proof.Proof.Reg4Value
import proofs.«173524_j83966610637551_1_alg».proof.Proof.Reg5Value
import proofs.«173524_j83966610637551_1_alg».proof.Proof.KerHost
import proofs.«173524_j83966610637551_1_alg».proof.Proof.KerHostA
import proofs.«173524_j83966610637551_1_alg».proof.Proof.Glue
import proofs.«173524_j83966610637551_1_alg».proof.Proof.MMSpec
import proofs.«173524_j83966610637551_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.HandValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand

variable (m : (ℓ : Loc nD τ sig) → Buf (Elt Ideal) ℓ) (c : Dev nD)

/-! ## The kernel program's result array as six nested products of the region-0 entry contents (F := Ideal) -/
theorem kept_main_v45_5 : W5 m c (Proc.devRef .tc main_v45) = W3 m c (Proc.devRef .tc main_v45) :=
  ((StableHlo.after_of_writes_sub hostOps1 _ hostOps1_writes (by decide : main_v45 ∉ hostOps1_W)).trans (W4_of_ne m c main_v45 (by decide)))
theorem kept_main_v55_5 : W5 m c (Proc.devRef .tc main_v55) = W3 m c (Proc.devRef .tc main_v55) :=
  ((StableHlo.after_of_writes_sub hostOps1 _ hostOps1_writes (by decide : main_v55 ∉ hostOps1_W)).trans (W4_of_ne m c main_v55 (by decide)))
theorem kept_main_v51_7 : W7 m c (Proc.devRef .tc main_v51) = W3 m c (Proc.devRef .tc main_v51) :=
  ((StableHlo.after_of_writes_sub hostOps2 _ hostOps2_writes (by decide : main_v51 ∉ hostOps2_W)).trans ((W6_of_ne m c main_v51 (by decide)).trans ((StableHlo.after_of_writes_sub hostOps1 _ hostOps1_writes (by decide : main_v51 ∉ hostOps1_W)).trans (W4_of_ne m c main_v51 (by decide)))))
theorem kept_main_v54_7 : W7 m c (Proc.devRef .tc main_v54) = W3 m c (Proc.devRef .tc main_v54) :=
  ((StableHlo.after_of_writes_sub hostOps2 _ hostOps2_writes (by decide : main_v54 ∉ hostOps2_W)).trans ((W6_of_ne m c main_v54 (by decide)).trans ((StableHlo.after_of_writes_sub hostOps1 _ hostOps1_writes (by decide : main_v54 ∉ hostOps1_W)).trans ((W4_arr m c 2).trans (((dat0 (atRefs (W3 m)) c).arrAt_in 2 rfl _).trans (A_eq0 (atRefs (W3 m)) c 2))))))
theorem kept_main_v45_9 : W9 m c (Proc.devRef .tc main_v45) = W3 m c (Proc.devRef .tc main_v45) :=
  ((StableHlo.after_of_writes_sub hostOps3 _ hostOps3_writes (by decide : main_v45 ∉ hostOps3_W)).trans ((W8_of_ne m c main_v45 (by decide)).trans ((StableHlo.after_of_writes_sub hostOps2 _ hostOps2_writes (by decide : main_v45 ∉ hostOps2_W)).trans (((W6_arr m c 0).trans (((dat1 (atRefs (W5 m)) c).arrAt_in 0 rfl _).trans (A_eq1 (atRefs (W5 m)) c 0))).trans ((StableHlo.after_of_writes_sub hostOps1 _ hostOps1_writes (by decide : main_v45 ∉ hostOps1_W)).trans (W4_of_ne m c main_v45 (by decide)))))))
theorem kept_main_v56_9 : W9 m c (Proc.devRef .tc main_v56) = W3 m c (Proc.devRef .tc main_v56) :=
  ((StableHlo.after_of_writes_sub hostOps3 _ hostOps3_writes (by decide : main_v56 ∉ hostOps3_W)).trans ((W8_of_ne m c main_v56 (by decide)).trans ((StableHlo.after_of_writes_sub hostOps2 _ hostOps2_writes (by decide : main_v56 ∉ hostOps2_W)).trans ((W6_of_ne m c main_v56 (by decide)).trans ((StableHlo.after_of_writes_sub hostOps1 _ hostOps1_writes (by decide : main_v56 ∉ hostOps1_W)).trans (W4_of_ne m c main_v56 (by decide)))))))
theorem kept_main_v52_11 : W11 m c (Proc.devRef .tc main_v52) = W3 m c (Proc.devRef .tc main_v52) :=
  ((StableHlo.after_of_writes_sub hostOps4 _ hostOps4_writes (by decide : main_v52 ∉ hostOps4_W)).trans ((W10_of_ne m c main_v52 (by decide)).trans ((StableHlo.after_of_writes_sub hostOps3 _ hostOps3_writes (by decide : main_v52 ∉ hostOps3_W)).trans ((W8_of_ne m c main_v52 (by decide)).trans ((StableHlo.after_of_writes_sub hostOps2 _ hostOps2_writes (by decide : main_v52 ∉ hostOps2_W)).trans ((W6_of_ne m c main_v52 (by decide)).trans ((StableHlo.after_of_writes_sub hostOps1 _ hostOps1_writes (by decide : main_v52 ∉ hostOps1_W)).trans (W4_of_ne m c main_v52 (by decide)))))))))
theorem kept_main_v57_11 : W11 m c (Proc.devRef .tc main_v57) = W3 m c (Proc.devRef .tc main_v57) :=
  ((StableHlo.after_of_writes_sub hostOps4 _ hostOps4_writes (by decide : main_v57 ∉ hostOps4_W)).trans ((W10_of_ne m c main_v57 (by decide)).trans ((StableHlo.after_of_writes_sub hostOps3 _ hostOps3_writes (by decide : main_v57 ∉ hostOps3_W)).trans ((W8_of_ne m c main_v57 (by decide)).trans ((StableHlo.after_of_writes_sub hostOps2 _ hostOps2_writes (by decide : main_v57 ∉ hostOps2_W)).trans ((W6_of_ne m c main_v57 (by decide)).trans ((StableHlo.after_of_writes_sub hostOps1 _ hostOps1_writes (by decide : main_v57 ∉ hostOps1_W)).trans (W4_of_ne m c main_v57 (by decide)))))))))
theorem kept_main_v53_13 : W13 m c (Proc.devRef .tc main_v53) = W3 m c (Proc.devRef .tc main_v53) :=
  ((StableHlo.after_of_writes_sub hostOps5 _ hostOps5_writes (by decide : main_v53 ∉ hostOps5_W)).trans ((W12_of_ne m c main_v53 (by decide)).trans ((StableHlo.after_of_writes_sub hostOps4 _ hostOps4_writes (by decide : main_v53 ∉ hostOps4_W)).trans ((W10_of_ne m c main_v53 (by decide)).trans ((StableHlo.after_of_writes_sub hostOps3 _ hostOps3_writes (by decide : main_v53 ∉ hostOps3_W)).trans ((W8_of_ne m c main_v53 (by decide)).trans ((StableHlo.after_of_writes_sub hostOps2 _ hostOps2_writes (by decide : main_v53 ∉ hostOps2_W)).trans ((W6_of_ne m c main_v53 (by decide)).trans ((StableHlo.after_of_writes_sub hostOps1 _ hostOps1_writes (by decide : main_v53 ∉ hostOps1_W)).trans (W4_of_ne m c main_v53 (by decide)))))))))))
theorem kept_main_v58_13 : W13 m c (Proc.devRef .tc main_v58) = W3 m c (Proc.devRef .tc main_v58) :=
  ((StableHlo.after_of_writes_sub hostOps5 _ hostOps5_writes (by decide : main_v58 ∉ hostOps5_W)).trans ((W12_of_ne m c main_v58 (by decide)).trans ((StableHlo.after_of_writes_sub hostOps4 _ hostOps4_writes (by decide : main_v58 ∉ hostOps4_W)).trans ((W10_of_ne m c main_v58 (by decide)).trans ((StableHlo.after_of_writes_sub hostOps3 _ hostOps3_writes (by decide : main_v58 ∉ hostOps3_W)).trans ((W8_of_ne m c main_v58 (by decide)).trans ((StableHlo.after_of_writes_sub hostOps2 _ hostOps2_writes (by decide : main_v58 ∉ hostOps2_W)).trans ((W6_of_ne m c main_v58 (by decide)).trans ((StableHlo.after_of_writes_sub hostOps1 _ hostOps1_writes (by decide : main_v58 ∉ hostOps1_W)).trans (W4_of_ne m c main_v58 (by decide)))))))))))
theorem out0 : (W4 m c (Proc.devRef .tc main_v59) : S10240x256.Idx → EReal) = Cert.MMSpec.mm 10240 128 256 false (W3 m c (Proc.devRef .tc main_v49)) (W3 m c (Proc.devRef .tc main_v50)) (W3 m c (Proc.devRef .tc main_v54)) :=
  (W4_arr m c 3).trans (value0 (atRefs (W3 m)) c)
theorem next0 : (W5 m c (Proc.devRef .tc main_v60) : S10240x256.Idx → EReal) = (W4 m c (Proc.devRef .tc main_v59) : S10240x256.Idx → EReal) := by
  show StableHlo.after hostOps1 (W4 m c) (Proc.devRef .tc main_v60) = _
  after_results
  rfl
theorem out1 : (W6 m c (Proc.devRef .tc main_v61) : S10240x256.Idx → EReal) = Cert.MMSpec.mm 10240 10240 256 true (W5 m c (Proc.devRef .tc main_v45)) (W5 m c (Proc.devRef .tc main_v60)) (W5 m c (Proc.devRef .tc main_v55)) :=
  (W6_arr m c 3).trans (value1 (atRefs (W5 m)) c)
theorem next1 : (W7 m c (Proc.devRef .tc main_v62) : S10240x256.Idx → EReal) = (W6 m c (Proc.devRef .tc main_v61) : S10240x256.Idx → EReal) := by
  show StableHlo.after hostOps2 (W6 m c) (Proc.devRef .tc main_v62) = _
  after_results
  rfl
theorem out2 : (W8 m c (Proc.devRef .tc main_v63) : S10240x256.Idx → EReal) = Cert.MMSpec.mm 10240 256 256 false (W7 m c (Proc.devRef .tc main_v62)) (W7 m c (Proc.devRef .tc main_v51)) (W7 m c (Proc.devRef .tc main_v54)) :=
  (W8_arr m c 3).trans (value2 (atRefs (W7 m)) c)
theorem next2 : (W9 m c (Proc.devRef .tc main_v64) : S10240x256.Idx → EReal) = (W8 m c (Proc.devRef .tc main_v63) : S10240x256.Idx → EReal) := by
  show StableHlo.after hostOps3 (W8 m c) (Proc.devRef .tc main_v64) = _
  after_results
  rfl
theorem out3 : (W10 m c (Proc.devRef .tc main_v65) : S10240x256.Idx → EReal) = Cert.MMSpec.mm 10240 10240 256 true (W9 m c (Proc.devRef .tc main_v45)) (W9 m c (Proc.devRef .tc main_v64)) (W9 m c (Proc.devRef .tc main_v56)) :=
  (W10_arr m c 3).trans (value3 (atRefs (W9 m)) c)
theorem next3 : (W11 m c (Proc.devRef .tc main_v66) : S10240x256.Idx → EReal) = (W10 m c (Proc.devRef .tc main_v65) : S10240x256.Idx → EReal) := by
  show StableHlo.after hostOps4 (W10 m c) (Proc.devRef .tc main_v66) = _
  after_results
  rfl
theorem out4 : (W12 m c (Proc.devRef .tc main_v67) : S10240x256.Idx → EReal) = Cert.MMSpec.mm 10240 256 256 true (W11 m c (Proc.devRef .tc main_v66)) (W11 m c (Proc.devRef .tc main_v52)) (W11 m c (Proc.devRef .tc main_v57)) :=
  (W12_arr m c 3).trans (value4 (atRefs (W11 m)) c)
theorem next4 : (W13 m c (Proc.devRef .tc main_v68) : S10240x256.Idx → EReal) = (W12 m c (Proc.devRef .tc main_v67) : S10240x256.Idx → EReal) := by
  show StableHlo.after hostOps5 (W12 m c) (Proc.devRef .tc main_v68) = _
  after_results
  rfl
theorem out5 : (W14 m c (Proc.devRef .tc main_v69) : S10240x8.Idx → EReal) = Cert.MMSpec.mm 10240 256 8 false (W13 m c (Proc.devRef .tc main_v68)) (W13 m c (Proc.devRef .tc main_v53)) (W13 m c (Proc.devRef .tc main_v58)) :=
  (W14_arr m c 3).trans (value5 (atRefs (W13 m)) c)
theorem last_slice : (W15 m c (Proc.devRef .tc main_v70) : S10000x8.Idx → EReal) = fun y => (W14 m c (Proc.devRef .tc main_v69) : S10240x8.Idx → EReal) (ix2 ⟨(y 0).val, Nat.lt_trans (idx2_lt0 y) (by decide)⟩ ⟨(y 1).val, idx2_lt1 y⟩) := by
  show StableHlo.after hostOps6 (W14 m c) (Proc.devRef .tc main_v70) = _
  after_results
  funext y
  refine extractStridedSlice_apply _ _ _ y _ (fun a => ?_)
  match a with
  | ⟨0, _⟩ => simp
  | ⟨1, _⟩ => simp

/-! ## The six nested products -/
/-- Region 0's output: the padded features times the first weight matrix. -/
def Y0 : S10240x256.Idx → EReal := Cert.MMSpec.mm 10240 128 256 false (W3 m c (Proc.devRef .tc main_v49)) (W3 m c (Proc.devRef .tc main_v50)) (W3 m c (Proc.devRef .tc main_v54))
/-- Region 1's output: the dense weight matrix times region 0's output, plus the first bias, rectified. -/
def Y1 : S10240x256.Idx → EReal := Cert.MMSpec.mm 10240 10240 256 true (W3 m c (Proc.devRef .tc main_v45)) (Y0 m c) (W3 m c (Proc.devRef .tc main_v55))
/-- Region 2's output. -/
def Y2 : S10240x256.Idx → EReal := Cert.MMSpec.mm 10240 256 256 false (Y1 m c) (W3 m c (Proc.devRef .tc main_v51)) (W3 m c (Proc.devRef .tc main_v54))
/-- Region 3's output. -/
def Y3 : S10240x256.Idx → EReal := Cert.MMSpec.mm 10240 10240 256 true (W3 m c (Proc.devRef .tc main_v45)) (Y2 m c) (W3 m c (Proc.devRef .tc main_v56))
/-- Region 4's output. -/
def Y4 : S10240x256.Idx → EReal := Cert.MMSpec.mm 10240 256 256 true (Y3 m c) (W3 m c (Proc.devRef .tc main_v52)) (W3 m c (Proc.devRef .tc main_v57))
/-- Region 5's output. -/
def Y5 : S10240x8.Idx → EReal := Cert.MMSpec.mm 10240 256 8 false (Y4 m c) (W3 m c (Proc.devRef .tc main_v53)) (W3 m c (Proc.devRef .tc main_v58))

theorem e0 : (W5 m c (Proc.devRef .tc main_v60) : S10240x256.Idx → EReal) = Y0 m c := (next0 m c).trans (out0 m c)
theorem e1 : (W7 m c (Proc.devRef .tc main_v62) : S10240x256.Idx → EReal) = Y1 m c :=
  (next1 m c).trans ((out1 m c).trans (by rw [kept_main_v45_5, e0, kept_main_v55_5]; rfl))
theorem e2 : (W9 m c (Proc.devRef .tc main_v64) : S10240x256.Idx → EReal) = Y2 m c :=
  (next2 m c).trans ((out2 m c).trans (by rw [e1, kept_main_v51_7, kept_main_v54_7]; rfl))
theorem e3 : (W11 m c (Proc.devRef .tc main_v66) : S10240x256.Idx → EReal) = Y3 m c :=
  (next3 m c).trans ((out3 m c).trans (by rw [kept_main_v45_9, e2, kept_main_v56_9]; rfl))
theorem e4 : (W13 m c (Proc.devRef .tc main_v68) : S10240x256.Idx → EReal) = Y4 m c :=
  (next4 m c).trans ((out4 m c).trans (by rw [e3, kept_main_v52_11, kept_main_v57_11]; rfl))
theorem e5 : (W14 m c (Proc.devRef .tc main_v69) : S10240x8.Idx → EReal) = Y5 m c :=
  (out5 m c).trans (by rw [e4, kept_main_v53_13, kept_main_v58_13]; rfl)

/-- The result buffer after the run's last boundary: the first 10000 rows of the sixth product. -/
theorem result_nested : (W15 m c (Proc.devRef .tc main_v70) : S10000x8.Idx → EReal)
    = fun y => Y5 m c (ix2 ⟨(y 0).val, Nat.lt_trans (idx2_lt0 y) (by decide)⟩ ⟨(y 1).val, idx2_lt1 y⟩) := by
  rw [last_slice, e5]

/-! ## The result is the specification's kernel network -/

/-- After the run the result buffer holds, row by row, the specification's kernel-side network of the argument arrays
    (given that every edge joins two of the 10000 nodes). -/
theorem kernel_out (hr : Cert.Spec.InRange (m ((c : Thread nD τ).loc main_arg1))) :
    (W15 m c (Proc.devRef .tc main_v70) : S10000x8.Idx → EReal)
      = fun y => Cert.Spec.kerQ (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (y 0).val ⟨(y 1).val, idx2_lt1 y⟩ := by
  rw [result_nested]
  funext y
  unfold Y5 Y4 Y3 Y2 Y1 Y0
  have h50 : (W3 m c (Proc.devRef .tc main_v50) : S128x256.Idx → EReal) = m ((c : Thread nD τ).loc main_arg2) := Cert.KerHost.w1_eq m c
  have h51 : (W3 m c (Proc.devRef .tc main_v51) : S256x256.Idx → EReal) = m ((c : Thread nD τ).loc main_arg4) := Cert.KerHost.w2_eq m c
  have h52 : (W3 m c (Proc.devRef .tc main_v52) : S256x256.Idx → EReal) = m ((c : Thread nD τ).loc main_arg6) := Cert.KerHost.wh1_eq m c
  have h53 : (W3 m c (Proc.devRef .tc main_v53) : S256x8.Idx → EReal) = m ((c : Thread nD τ).loc main_arg8) := Cert.KerHost.wh2_eq m c
  rw [h50, h51, h52, h53]
  exact Cert.Glue.chain _ _ _ _ _ _ _ _ _ _
    _ (Cert.KerHost.adj_eq m c hr) _ (Cert.KerHost.xpad_eq m c) _ (Cert.KerHost.zeroh_eq m c)
    _ (Cert.KerHost.b1_eq m c) _ (Cert.KerHost.b2_eq m c) _ (Cert.KerHost.bh1_eq m c) _ (Cert.KerHost.bh2_eq m c)
    ⟨(y 0).val, Nat.lt_trans (idx2_lt0 y) (by decide)⟩ ⟨(y 1).val, idx2_lt1 y⟩

end Cert.KernelIdeal.HandValue

end
-- ==== Proof.RefValue1.lean ====
/-
  Reading a gather and a scatter-add at an index, for the two sets of dimension numbers the edge-by-edge
  aggregation uses.

  A gather of node data along the edges reads, for edge e, the row whose number is the e-th start index (read as a
  signed integer and clamped into the node range); a scatter-add of edge data into node rows adds, into row n, the
  data of every edge whose index (read signed, not clamped) is n.
-/
import proofs.«173524_j83966610637551_1_alg».proof.Proof.Gen.ReferenceIdeal
import Idealize.ShloMosaic.PureOps.Ideal
import Idealize.ShloMosaic.Lib.ValueIdx

noncomputable section

namespace Cert.RefValue

open Cert.ReferenceIdeal Cert.ReferenceIdeal.Gen Idealize.ShloMosaic Idealize.ShloMosaic.ValueIdx

/-- A one-axis index set is its axis. -/
def idxEquiv1 (n : Nat) : Fin n ≃ (⟨1, ![n]⟩ : Shape).Idx where
  toFun e := ix1 e
  invFun j := j 0
  left_inv _ := rfl
  right_inv j := (eq_ix1 j).symm

theorem sum_idx1 {M : Type*} [AddCommMonoid M] {n : Nat} (f : (⟨1, ![n]⟩ : Shape).Idx → M) :
    ∑ j, f j = ∑ e : Fin n, f (ix1 e) :=
  (Equiv.sum_comp (idxEquiv1 n) f).symm

section Gather
variable {α : Type} {w : Nat}

/-- The gather of a vector of node values along the edges: edge e reads the node its start index names, read signed
    and clamped into [0, 9999]. -/
theorem gather_vec_apply (x : S10000.Idx → α) (idx : IVec S330000x1 w) (e : Fin 330000) :
    Host.gather gather_S10000_S330000x1_S330000_n_0_n_n_0_1_1 x idx (ix1 e)
      = x (ix1 ⟨min (idx (ix2 e 0)).toInt.toNat 9999, by omega⟩) := by
  unfold Host.gather
  congr 1
  funext a
  obtain rfl : a = 0 := Subsingleton.elim _ _
  refine Fin.ext ?_
  show gather_S10000_S330000x1_S330000_n_0_n_n_0_1_1.start (ix1 e) idx 0
    + gather_S10000_S330000x1_S330000_n_0_n_n_0_1_1.batchCoord (ix1 e) 0
    + gather_S10000_S330000x1_S330000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10000_S330000x1_S330000_n_0_n_n_0_1_1.startIndexMap from List.mem_singleton.mpr rfl)]
  have hsi : gather_S10000_S330000x1_S330000_n_0_n_n_0_1_1.siIdx (ix1 e)
      ⟨List.idxOf (0 : Fin 1) gather_S10000_S330000x1_S330000_n_0_n_n_0_1_1.startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of rows of node features along the edges: edge e reads, feature by feature, the row its start index
    names, read signed and clamped into [0, 9999]. -/
theorem gather_rows_apply (x : S10000x256.Idx → α) (idx : IVec S330000x1 w) (e : Fin 330000) (f : Fin 256) :
    Host.gather gather_S10000x256_S330000x1_S330000x256_1_0_n_n_0_1_1256 x idx (ix2 e f)
      = x (ix2 ⟨min (idx (ix2 e 0)).toInt.toNat 9999, by omega⟩ f) := by
  unfold Host.gather
  congr 1
  funext a
  refine Fin.ext ?_
  match a with
  | ⟨0, _⟩ =>
    show gather_S10000x256_S330000x1_S330000x256_1_0_n_n_0_1_1256.start (ix2 e f) idx 0
      + gather_S10000x256_S330000x1_S330000x256_1_0_n_n_0_1_1256.batchCoord (ix2 e f) 0
      + gather_S10000x256_S330000x1_S330000x256_1_0_n_n_0_1_1256.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x256_S330000x1_S330000x256_1_0_n_n_0_1_1256.startIndexMap from List.mem_singleton.mpr rfl)]
    have hsi : gather_S10000x256_S330000x1_S330000x256_1_0_n_n_0_1_1256.siIdx (ix2 e f)
        ⟨List.idxOf (0 : Fin 2) gather_S10000x256_S330000x1_S330000x256_1_0_n_n_0_1_1256.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S10000x256_S330000x1_S330000x256_1_0_n_n_0_1_1256.start (ix2 e f) idx 1
      + gather_S10000x256_S330000x1_S330000x256_1_0_n_n_0_1_1256.batchCoord (ix2 e f) 1
      + gather_S10000x256_S330000x1_S330000x256_1_0_n_n_0_1_1256.offCoord (ix2 e f) 1 = f.val
    rw [GatherDims.batchCoord_eq_zero _ _ _ List.not_mem_nil]
    unfold GatherDims.start
    rw [dif_neg (show ¬ (1 : Fin 2) ∈ gather_S10000x256_S330000x1_S330000x256_1_0_n_n_0_1_1256.startIndexMap by decide)]
    rw [Nat.zero_add]
    unfold GatherDims.offCoord
    rw [dif_pos (show (1 : Fin 2) ∈ gather_S10000x256_S330000x1_S330000x256_1_0_n_n_0_1_1256.sKept by decide)]
    rfl

end Gather

section Scatter
variable {w : Nat}

/-- Where edge e's unit update lands on the one node axis: at its index, read signed. -/
theorem scatter_vec_pos (idx : IVec S330000x1 w) (e : Fin 330000) (a : Fin 1) :
    scatter_S10000_S330000x1_S330000_n_0_0_1.start (ix1 e) idx a
      + (scatter_S10000_S330000x1_S330000_n_0_0_1.window (ix1 e) a : ℤ) = (idx (ix2 e 0)).toInt := by
  obtain rfl : a = 0 := Subsingleton.elim _ _
  unfold ScatterDims.start ScatterDims.window
  rw [dif_pos (show (0 : Fin 1) ∈ scatter_S10000_S330000x1_S330000_n_0_0_1.scatterDimsToOperandDims from List.mem_singleton.mpr rfl),
    dif_neg (show ¬ (0 : Fin 1) ∈ scatter_S10000_S330000x1_S330000_n_0_0_1.sKept by decide)]
  have hsi : scatter_S10000_S330000x1_S330000_n_0_0_1.siIdx (ix1 e)
      ⟨List.idxOf (0 : Fin 1) scatter_S10000_S330000x1_S330000_n_0_0_1.scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]
  simp

/-- Edge e's update lands on node n exactly when its index, read signed, is n. -/
theorem scatter_vec_lands (idx : IVec S330000x1 w) (e : Fin 330000) (n : Fin 10000) :
    scatter_S10000_S330000x1_S330000_n_0_0_1.resultIdx? (ix1 e) idx = some (ix1 n)
      ↔ (idx (ix2 e 0)).toInt = (n.val : ℤ) := by
  unfold ScatterDims.resultIdx?
  split
  · rename_i h
    rw [Option.some.injEq]
    constructor
    · intro hf
      have h0 : (scatter_S10000_S330000x1_S330000_n_0_0_1.start (ix1 e) idx 0
        + (scatter_S10000_S330000x1_S330000_n_0_0_1.window (ix1 e) 0 : ℤ)).toNat = n.val :=
        congrArg (fun g => (g 0).val) hf
      have h1 := (h 0).1
      rw [scatter_vec_pos] at h0 h1
      omega
    · intro ht
      funext a
      obtain rfl : a = 0 := Subsingleton.elim _ _
      refine Fin.ext ?_
      show (scatter_S10000_S330000x1_S330000_n_0_0_1.start (ix1 e) idx 0
        + (scatter_S10000_S330000x1_S330000_n_0_0_1.window (ix1 e) 0 : ℤ)).toNat = n.val
      rw [scatter_vec_pos, ht]
      exact Int.toNat_natCast _
  · rename_i h
    constructor
    · intro hf; cases hf
    · intro ht
      exfalso
      apply h
      intro a
      obtain rfl : a = 0 := Subsingleton.elim _ _
      rw [scatter_vec_pos, ht]
      have hn := n.isLt
      have hs : S10000.size 0 = 10000 := rfl
      rw [hs]
      omega

/-- The scatter-add of edge values into a vector of node values: node n receives the values of the edges whose
    index, read signed, is n. -/
theorem scatterAdd_vec_apply (x : S10000.Idx → EReal) (idx : IVec S330000x1 w) (upd : S330000.Idx → EReal) (n : Fin 10000) :
    Ideal.hostScatterAdd scatter_S10000_S330000x1_S330000_n_0_0_1 x idx upd (ix1 n)
      = x (ix1 n) + ∑ e : Fin 330000, if (idx (ix2 e 0)).toInt = (n.val : ℤ) then upd (ix1 e) else 0 := by
  unfold Ideal.hostScatterAdd
  rw [Finset.sum_filter, sum_idx1]
  refine congrArg (fun t => x (ix1 n) + t) ?_
  refine Finset.sum_congr rfl fun e _ => ?_
  exact if_congr (scatter_vec_lands idx e n) rfl rfl

/-- Where the update of edge e and feature g lands on the node axis: at the edge's index, read signed. -/
theorem scatter_rows_pos0 (idx : IVec S330000x1 w) (e : Fin 330000) (g : Fin 256) :
    scatter_S10000x256_S330000x1_S330000x256_1_0_0_1.start (ix2 e g) idx 0
      + (scatter_S10000x256_S330000x1_S330000x256_1_0_0_1.window (ix2 e g) 0 : ℤ) = (idx (ix2 e 0)).toInt := by
  unfold ScatterDims.start ScatterDims.window
  rw [dif_pos (show (0 : Fin 2) ∈ scatter_S10000x256_S330000x1_S330000x256_1_0_0_1.scatterDimsToOperandDims from List.mem_singleton.mpr rfl),
    dif_neg (show ¬ (0 : Fin 2) ∈ scatter_S10000x256_S330000x1_S330000x256_1_0_0_1.sKept by decide)]
  have hsi : scatter_S10000x256_S330000x1_S330000x256_1_0_0_1.siIdx (ix2 e g)
      ⟨List.idxOf (0 : Fin 2) scatter_S10000x256_S330000x1_S330000x256_1_0_0_1.scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]
  simp

/-- … and on the feature axis: at its own feature. -/
theorem scatter_rows_pos1 (idx : IVec S330000x1 w) (e : Fin 330000) (g : Fin 256) :
    scatter_S10000x256_S330000x1_S330000x256_1_0_0_1.start (ix2 e g) idx 1
      + (scatter_S10000x256_S330000x1_S330000x256_1_0_0_1.window (ix2 e g) 1 : ℤ) = (g.val : ℤ) := by
  unfold ScatterDims.start ScatterDims.window
  rw [dif_neg (show ¬ (1 : Fin 2) ∈ scatter_S10000x256_S330000x1_S330000x256_1_0_0_1.scatterDimsToOperandDims by decide),
    dif_pos (show (1 : Fin 2) ∈ scatter_S10000x256_S330000x1_S330000x256_1_0_0_1.sKept by decide)]
  rw [Int.zero_add]
  rfl

/-- The update of edge e and feature g lands on entry (n, f) exactly when the edge's index, read signed, is n and
    g is f. -/
theorem scatter_rows_lands (idx : IVec S330000x1 w) (e : Fin 330000) (g : Fin 256) (n : Fin 10000) (f : Fin 256) :
    scatter_S10000x256_S330000x1_S330000x256_1_0_0_1.resultIdx? (ix2 e g) idx = some (ix2 n f)
      ↔ (idx (ix2 e 0)).toInt = (n.val : ℤ) ∧ g = f := by
  unfold ScatterDims.resultIdx?
  split
  · rename_i h
    rw [Option.some.injEq]
    constructor
    · intro hf
      have h0 : (scatter_S10000x256_S330000x1_S330000x256_1_0_0_1.start (ix2 e g) idx 0
        + (scatter_S10000x256_S330000x1_S330000x256_1_0_0_1.window (ix2 e g) 0 : ℤ)).toNat = n.val :=
        congrArg (fun k => (k 0).val) hf
      have h0' := (h 0).1
      have h1 : (scatter_S10000x256_S330000x1_S330000x256_1_0_0_1.start (ix2 e g) idx 1
        + (scatter_S10000x256_S330000x1_S330000x256_1_0_0_1.window (ix2 e g) 1 : ℤ)).toNat = f.val :=
        congrArg (fun k => (k 1).val) hf
      rw [scatter_rows_pos0] at h0 h0'
      rw [scatter_rows_pos1] at h1
      refine ⟨by omega, Fin.ext (by omega)⟩
    · rintro ⟨ht, rfl⟩
      funext a
      refine Fin.ext ?_
      match a with
      | ⟨0, _⟩ =>
        show (scatter_S10000x256_S330000x1_S330000x256_1_0_0_1.start (ix2 e g) idx 0
          + (scatter_S10000x256_S330000x1_S330000x256_1_0_0_1.window (ix2 e g) 0 : ℤ)).toNat = n.val
        rw [scatter_rows_pos0, ht]
        exact Int.toNat_natCast _
      | ⟨1, _⟩ =>
        show (scatter_S10000x256_S330000x1_S330000x256_1_0_0_1.start (ix2 e g) idx 1
          + (scatter_S10000x256_S330000x1_S330000x256_1_0_0_1.window (ix2 e g) 1 : ℤ)).toNat = g.val
        rw [scatter_rows_pos1]
        exact Int.toNat_natCast _
  · rename_i h
    constructor
    · intro hf; cases hf
    · rintro ⟨ht, rfl⟩
      exfalso
      apply h
      intro a
      match a with
      | ⟨0, _⟩ =>
        show 0 ≤ scatter_S10000x256_S330000x1_S330000x256_1_0_0_1.start (ix2 e g) idx 0
            + (scatter_S10000x256_S330000x1_S330000x256_1_0_0_1.window (ix2 e g) 0 : ℤ)
          ∧ scatter_S10000x256_S330000x1_S330000x256_1_0_0_1.start (ix2 e g) idx 0
            + (scatter_S10000x256_S330000x1_S330000x256_1_0_0_1.window (ix2 e g) 0 : ℤ) < ((10000 : ℕ) : ℤ)
        rw [scatter_rows_pos0, ht]
        have hn := n.isLt
        omega
      | ⟨1, _⟩ =>
        show 0 ≤ scatter_S10000x256_S330000x1_S330000x256_1_0_0_1.start (ix2 e g) idx 1
            + (scatter_S10000x256_S330000x1_S330000x256_1_0_0_1.window (ix2 e g) 1 : ℤ)
          ∧ scatter_S10000x256_S330000x1_S330000x256_1_0_0_1.start (ix2 e g) idx 1
            + (scatter_S10000x256_S330000x1_S330000x256_1_0_0_1.window (ix2 e g) 1 : ℤ) < ((256 : ℕ) : ℤ)
        rw [scatter_rows_pos1]
        have hg := g.isLt
        omega

/-- The scatter-add of rows of edge features into rows of node features: entry (n, f) receives feature f of the
    edges whose index, read signed, is n. -/
theorem scatterAdd_rows_apply (x : S10000x256.Idx → EReal) (idx : IVec S330000x1 w) (upd : S330000x256.Idx → EReal)
    (n : Fin 10000) (f : Fin 256) :
    Ideal.hostScatterAdd scatter_S10000x256_S330000x1_S330000x256_1_0_0_1 x idx upd (ix2 n f)
      = x (ix2 n f) + ∑ e : Fin 330000, if (idx (ix2 e 0)).toInt = (n.val : ℤ) then upd (ix2 e f) else 0 := by
  unfold Ideal.hostScatterAdd
  rw [Finset.sum_filter, sum_idx2]
  refine congrArg (fun t => x (ix2 n f) + t) ?_
  refine Finset.sum_congr rfl fun e _ => ?_
  rw [Finset.sum_congr rfl fun g _ => if_congr (scatter_rows_lands idx e g n f) rfl rfl]
  by_cases ht : (idx (ix2 e 0)).toInt = (n.val : ℤ)
  · simp only [ht, true_and, if_true]
    rw [Finset.sum_ite_eq' Finset.univ f (fun g => upd (ix2 e g))]
    simp
  · simp only [ht, false_and, if_false]
    exact Finset.sum_const_zero

end Scatter

end Cert.RefValue

end
-- ==== Proof.RefValue2.lean ====
/-
  The edge list as the program holds it, and the node numbers it denotes.

  The program keeps, for each end r of each of the 330000 edges, a 32-bit word: row r of the index array for the
  320000 given edges, then the numbers 0 … 9999 for the appended loops. When every given entry is below 10000 the
  word, read as a signed integer, is the node number of the specification; the wrap of negative indices (adding the
  number of nodes to an index below zero) then changes nothing.
-/
import proofs.«173524_j83966610637551_1_alg».proof.Proof.Spec

noncomputable section

namespace Cert.RefValue

open Idealize.ShloMosaic Idealize.ShloMosaic.ValueIdx
open Cert.Spec

/-- The word held for end r of edge e: the index array's entry for a given edge, the loop's node number after. -/
def word (ei : EI) (r : Fin 2) (e : Fin 330000) : BitVec 32 :=
  if h : e.val < 320000 then ei (ix2 r ⟨e.val, h⟩) else BitVec.ofNat 32 (e.val - 320000)

theorem node_lt {ei : EI} (hr : InRange ei) (r : Fin 2) (e : Fin 330000) : node ei r e < 10000 := by
  unfold node
  split
  · exact hr r _
  · have := e.isLt; omega

/-- Under the range hypothesis the word, read signed, is the node number. -/
theorem word_toInt {ei : EI} (hr : InRange ei) (r : Fin 2) (e : Fin 330000) :
    (word ei r e).toInt = (node ei r e : ℤ) := by
  have hlt := node_lt hr r e
  unfold word node at *
  split
  · rename_i h
    rw [dif_pos h] at hlt
    rw [BitVec.toInt_eq_toNat_of_lt (by omega)]
  · rename_i h
    have he := e.isLt
    have hm : (e.val - 320000) % 2 ^ 32 = e.val - 320000 := Nat.mod_eq_of_lt (by omega)
    rw [BitVec.toInt_eq_toNat_of_lt (by rw [BitVec.toNat_ofNat, hm]; omega), BitVec.toNat_ofNat, hm]

/-- The clamp of a gather leaves a node number alone. -/
theorem clamp_word {ei : EI} (hr : InRange ei) (r : Fin 2) (e : Fin 330000) :
    min (word ei r e).toInt.toNat 9999 = node ei r e := by
  rw [word_toInt hr]
  have := node_lt hr r e
  rw [Int.toNat_natCast]
  omega

/-- Adding 10000 to an index below zero, and keeping every other index, leaves a non-negative word alone. -/
theorem wrap_eq (w : BitVec 32) (h : 0 ≤ w.toInt) :
    Scalar.select (IntOp.cmpi .slt w 0#32) (IntOp.addi w 10000#32) w = w := by
  have hs : w.slt 0#32 = false := by
    rw [BitVec.slt, BitVec.toInt_zero]
    exact decide_eq_false (not_lt.mpr h)
  show Scalar.select (BitVec.ofBool (w.slt 0#32)) _ _ = _
  rw [hs]
  exact select_zero _ _

theorem wrap_word {ei : EI} (hr : InRange ei) (r : Fin 2) (e : Fin 330000) :
    Scalar.select (IntOp.cmpi .slt (word ei r e) 0#32) (IntOp.addi (word ei r e) 10000#32) (word ei r e) = word ei r e :=
  wrap_eq _ (by rw [word_toInt hr]; exact Int.natCast_nonneg _)

end Cert.RefValue

end
-- ==== Proof.RefValue3.lean ====
/-
  The pieces of one graph convolution, read off a scatter-add and gathers whose index vectors hold the edge words.

  With the index vectors identified with the words of the edge list (and every given entry a node number), the
  scatter-add of ones into zeros is the degree, the guarded reciprocal square root of it the factor dinv, the product
  of the two gathered factors the edge weight, the gathered feature row the source's row, and the scatter-add of the
  weighted rows into zeros the edge-by-edge sum of the specification.
-/
import proofs.«173524_j83966610637551_1_alg».proof.Proof.RefValue1
import proofs.«173524_j83966610637551_1_alg».proof.Proof.RefValue2

noncomputable section

namespace Cert.RefValue

open Cert.ReferenceIdeal Cert.ReferenceIdeal.Gen Idealize.ShloMosaic Idealize.ShloMosaic.ValueIdx
open Cert.Spec

section
variable {α : Type} {w : Nat}

/-- A gather whose clamped start index for edge e is the number k reads node k. -/
theorem gather_vec_node (x : S10000.Idx → α) (idx : IVec S330000x1 w) (e : Fin 330000) (k : ℕ) (hk : k < 10000)
    (h : min (idx (ix2 e 0)).toInt.toNat 9999 = k) :
    Host.gather gather_S10000_S330000x1_S330000_n_0_n_n_0_1_1 x idx (ix1 e) = x (ix1 ⟨k, hk⟩) := by
  rw [gather_vec_apply]
  exact congrArg x (congrArg ix1 (Fin.ext h))

theorem gather_rows_node (x : S10000x256.Idx → α) (idx : IVec S330000x1 w) (e : Fin 330000) (f : Fin 256) (k : ℕ)
    (hk : k < 10000) (h : min (idx (ix2 e 0)).toInt.toNat 9999 = k) :
    Host.gather gather_S10000x256_S330000x1_S330000x256_1_0_n_n_0_1_1256 x idx (ix2 e f) = x (ix2 ⟨k, hk⟩ f) := by
  rw [gather_rows_apply]
  exact congrArg x (congrArg (fun s : Fin 10000 => ix2 s f) (Fin.ext h))

end

variable {ei : EI}

/-- Ones scattered into zeros along the destinations count the edges arriving at each node. -/
theorem deg_read (hr : InRange ei) (zeros : S10000.Idx → EReal) (idx : IVec S330000x1 32) (ones : S330000.Idx → EReal)
    (hz : ∀ i, zeros i = 0) (hidx : ∀ e, idx (ix2 e 0) = word ei 1 e) (ho : ∀ i, ones i = 1) (n : Fin 10000) :
    Ideal.hostScatterAdd scatter_S10000_S330000x1_S330000_n_0_0_1 zeros idx ones (ix1 n) = deg ei n.val := by
  rw [scatterAdd_vec_apply, hz, zero_add]
  unfold deg
  refine Finset.sum_congr rfl fun e _ => ?_
  rw [hidx, word_toInt hr, ho]
  exact if_congr Nat.cast_inj rfl rfl

/-- The guarded reciprocal square root: where the degree is positive its power -1/2, elsewhere 0. -/
theorem dinv_read (d : EReal) :
    Scalar.select (Ideal.cmp .ogt d 0) (Ideal.rsqrt d) 0 = if 0 < d then Ideal.rsqrt d else 0 := by
  show Scalar.select (BitVec.ofBool (decide (0 < d))) _ _ = _
  by_cases h : 0 < d
  · rw [if_pos h, decide_eq_true h]; exact select_one _ _
  · rw [if_neg h, decide_eq_false h]; exact select_zero _ _

/-- The product of the factors gathered at an edge's two ends is its weight. -/
theorem norm_read (hr : InRange ei) (dv : S10000.Idx → EReal) (is id : IVec S330000x1 32)
    (hdv : ∀ n : Fin 10000, dv (ix1 n) = dinv ei n.val)
    (his : ∀ e, is (ix2 e 0) = word ei 0 e) (hid : ∀ e, id (ix2 e 0) = word ei 1 e) (e : Fin 330000) :
    Host.gather gather_S10000_S330000x1_S330000_n_0_n_n_0_1_1 dv is (ix1 e)
      * Host.gather gather_S10000_S330000x1_S330000_n_0_n_n_0_1_1 dv id (ix1 e) = norm ei e := by
  rw [gather_vec_node dv is e (node ei 0 e) (node_lt hr 0 e) (by rw [his]; exact clamp_word hr 0 e),
    gather_vec_node dv id e (node ei 1 e) (node_lt hr 1 e) (by rw [hid]; exact clamp_word hr 1 e), hdv, hdv]
  rfl

/-- The feature row gathered at an edge is its source's row. -/
theorem rows_read (hr : InRange ei) (hv : S10000x256.Idx → EReal) (is : IVec S330000x1 32) (h : ℕ → Fin 256 → EReal)
    (hh : ∀ (s : Fin 10000) (f : Fin 256), hv (ix2 s f) = h s.val f)
    (his : ∀ e, is (ix2 e 0) = word ei 0 e) (e : Fin 330000) (f : Fin 256) :
    Host.gather gather_S10000x256_S330000x1_S330000x256_1_0_n_n_0_1_1256 hv is (ix2 e f) = h (node ei 0 e) f := by
  rw [gather_rows_node hv is e f (node ei 0 e) (node_lt hr 0 e) (by rw [his]; exact clamp_word hr 0 e), hh]

/-- The weighted rows scattered into zeros along the destinations are the edge-by-edge sum. -/
theorem conv_read (hr : InRange ei) (zeros : S10000x256.Idx → EReal) (idx : IVec S330000x1 32)
    (upd : S330000x256.Idx → EReal) (h : ℕ → Fin 256 → EReal)
    (hz : ∀ i, zeros i = 0) (hidx : ∀ e, idx (ix2 e 0) = word ei 1 e)
    (hupd : ∀ e f, upd (ix2 e f) = norm ei e * h (node ei 0 e) f) (n : Fin 10000) (f : Fin 256) :
    Ideal.hostScatterAdd scatter_S10000x256_S330000x1_S330000x256_1_0_0_1 zeros idx upd (ix2 n f)
      = ∑ e : E, if node ei 1 e = n.val then norm ei e * h (node ei 0 e) f else 0 := by
  rw [scatterAdd_rows_apply, hz, zero_add]
  refine Finset.sum_congr rfl fun e _ => ?_
  rw [hidx, word_toInt hr, hupd]
  exact if_congr Nat.cast_inj rfl rfl

end Cert.RefValue

end
-- ==== Proof.RefValue4.lean ====
/-
  The first graph convolution of the reference, stage by stage.

  The two joined index vectors are the edge words; the degree, the factor dinv and the edge weight are read as in the
  general lemmas; the first dense layer is features times weights; the scatter-add of the weighted source rows is the
  edge-by-edge sum; adding the bias and rectifying gives the first hidden layer.
-/
import proofs.«173524_j83966610637551_1_alg».proof.Proof.RefReadP
import proofs.«173524_j83966610637551_1_alg».proof.Proof.RefValue3
import Idealize.ShloMosaic.Lib.IdealHost

noncomputable section

namespace Cert.RefValue

open Cert.ReferenceIdeal Cert.ReferenceIdeal.Gen Cert.ReferenceIdeal.ReadP Idealize.ShloMosaic Idealize.ShloMosaic.ValueIdx
open Cert.Spec

/-- Two index functions given by cases on the axis agree when they agree on each axis (one axis; two axes). -/
macro "idx_fun" : tactic => `(tactic| exact funext fun a => match a with | ⟨0, _⟩ => rfl)
macro "idx_fun2" : tactic => `(tactic| exact funext fun a => match a with | ⟨0, _⟩ => rfl | ⟨1, _⟩ => rfl)

/-! ## The program's two joined index vectors are the words -/

theorem row_apply (x1 : EI) (e : Fin 320000) :
    val_main_v2 (F := Ideal) x1 (ix1 e) = x1 (ix2 0 e) := by
  rw [val_main_v2_apply, val_main_v1_apply]
  refine congrArg x1 (funext fun a => Fin.ext ?_)
  match a with
  | ⟨0, _⟩ => rfl
  | ⟨1, _⟩ => exact Nat.mod_eq_of_lt e.isLt

theorem row1_apply (x1 : EI) (e : Fin 320000) :
    val_main_v5 (F := Ideal) x1 (ix1 e) = x1 (ix2 1 e) := by
  rw [val_main_v5_apply, val_main_v4_apply]
  refine congrArg x1 (funext fun a => Fin.ext ?_)
  match a with
  | ⟨0, _⟩ => rfl
  | ⟨1, _⟩ => exact Nat.mod_eq_of_lt e.isLt

theorem joined_apply (y : S320000.Idx → BitVec 32) (e : Fin 330000) :
    concatenate S330000 0 [⟨S320000, y⟩, ⟨S10000, val_main_v0 (F := Ideal)⟩] concatenates_S320000_S10000_S330000_d0 (ix1 e)
      = if h : e.val < 320000 then y (ix1 ⟨e.val, h⟩) else BitVec.ofNat 32 (e.val - 320000) := by
  split
  · rename_i h
    exact concatenate_pair_apply_left 0 y _ concatenates_S320000_S10000_S330000_d0 (ix1 e) rfl (ix1 ⟨e.val, h⟩)
      (fun b => by obtain rfl : b = 0 := Subsingleton.elim _ _; rfl)
  · rename_i h
    have he := e.isLt
    rw [concatenate_pair_apply_right 0 y _ concatenates_S320000_S10000_S330000_d0 (ix1 e) rfl rfl
      (ix1 ⟨e.val - 320000, by omega⟩)
      (fun b hb => by obtain rfl : b = 0 := Subsingleton.elim _ _; exact absurd rfl hb)
      (by show e.val - 320000 + 320000 = e.val; omega)]
    rfl

theorem src_apply (x1 : EI) (e : Fin 330000) : val_main_v3 (F := Ideal) x1 (ix1 e) = word x1 0 e := by
  unfold val_main_v3 word
  rw [joined_apply]
  by_cases h : e.val < 320000
  · rw [dif_pos h, dif_pos h]; exact row_apply x1 _
  · rw [dif_neg h, dif_neg h]

theorem dst_apply (x1 : EI) (e : Fin 330000) : val_main_v6 (F := Ideal) x1 (ix1 e) = word x1 1 e := by
  unfold val_main_v6 word
  rw [joined_apply]
  by_cases h : e.val < 320000
  · rw [dif_pos h, dif_pos h]; exact row1_apply x1 _
  · rw [dif_neg h, dif_neg h]

/-! ## The layers of the specification, named -/

section Layers
variable (x0 : S10000x128.Idx → EReal) (x1 : EI) (x2 : S128x256.Idx → EReal) (x3 : S256.Idx → EReal)
  (x4 : S256x256.Idx → EReal) (x5 : S256.Idx → EReal) (x6 : S256x256.Idx → EReal) (x7 : S256.Idx → EReal)
  (x8 : S256x8.Idx → EReal) (x9 : S8.Idx → EReal)

/-- The node features after the first weight matrix. -/
def feat1 : ℕ → Fin 256 → EReal := dense (rows x0) (mat x2) (fun _ => 0)
/-- The first hidden layer. -/
def layer1 : ℕ → Fin 256 → EReal := relu (conv x1 (feat1 x0 x2) (vec x3))
/-- The first hidden layer after the second weight matrix. -/
def feat2 : ℕ → Fin 256 → EReal := dense (layer1 x0 x1 x2 x3) (mat x4) (fun _ => 0)
/-- The second hidden layer. -/
def layer2 : ℕ → Fin 256 → EReal := relu (conv x1 (feat2 x0 x1 x2 x3 x4) (vec x5))
/-- The head's hidden layer. -/
def head1 : ℕ → Fin 256 → EReal := relu (dense (layer2 x0 x1 x2 x3 x4 x5) (mat x6) (vec x7))

theorem refQ_eq : refQ x0 x1 x2 x3 x4 x5 x6 x7 x8 x9 = dense (head1 x0 x1 x2 x3 x4 x5 x6 x7) (mat x8) (vec x9) := rfl

end Layers

/-! ## The first convolution -/

section Conv1
variable (x0 : S10000x128.Idx → EReal) (x1 : EI) (x2 : S128x256.Idx → EReal) (x3 : S256.Idx → EReal)

theorem v10_word (e : Fin 330000) : val_main_v10 (F := Ideal) x1 (ix2 e 0) = word x1 1 e := by
  rw [val_main_v10_apply, show idx_main_v10 (ix2 e 0) = ix1 e by idx_fun]
  exact dst_apply x1 e

theorem v20_word (hr : InRange x1) (e : Fin 330000) : val_main_v20 (F := Ideal) x1 (ix1 e) = word x1 0 e := by
  rw [val_main_v20_apply, val_main_v17_apply, val_main_v19_apply, val_main_v16_apply, val_main_c_apply,
    val_main_v18_apply, val_main_c_3_apply, src_apply]
  exact wrap_word hr 0 e

theorem v21_word (hr : InRange x1) (e : Fin 330000) : val_main_v21 (F := Ideal) x1 (ix2 e 0) = word x1 0 e := by
  rw [val_main_v21_apply, show idx_main_v21 (ix2 e 0) = ix1 e by idx_fun]
  exact v20_word x1 hr e

theorem v27_word (hr : InRange x1) (e : Fin 330000) : val_main_v27 (F := Ideal) x1 (ix1 e) = word x1 1 e := by
  rw [val_main_v27_apply, val_main_v24_apply, val_main_v26_apply, val_main_v23_apply, val_main_c_4_apply,
    val_main_v25_apply, val_main_c_5_apply, dst_apply]
  exact wrap_word hr 1 e

theorem v28_word (hr : InRange x1) (e : Fin 330000) : val_main_v28 (F := Ideal) x1 (ix2 e 0) = word x1 1 e := by
  rw [val_main_v28_apply, show idx_main_v28 (ix2 e 0) = ix1 e by idx_fun]
  exact v27_word x1 hr e

theorem v36_word (hr : InRange x1) (e : Fin 330000) : val_main_v36 (F := Ideal) x1 (ix1 e) = word x1 0 e := by
  rw [val_main_v36_apply, val_main_v33_apply, val_main_v35_apply, val_main_v32_apply, val_main_c_6_apply,
    val_main_v34_apply, val_main_c_7_apply, src_apply]
  exact wrap_word hr 0 e

theorem v37_word (hr : InRange x1) (e : Fin 330000) : val_main_v37 (F := Ideal) x1 (ix2 e 0) = word x1 0 e := by
  rw [val_main_v37_apply, show idx_main_v37 (ix2 e 0) = ix1 e by idx_fun]
  exact v36_word x1 hr e

theorem v42_word (e : Fin 330000) : val_main_v42 (F := Ideal) x1 (ix2 e 0) = word x1 1 e := by
  rw [val_main_v42_apply, show idx_main_v42 (ix2 e 0) = ix1 e by idx_fun]
  exact dst_apply x1 e

theorem v9_zero (i : S10000.Idx) : val_main_v9 (F := Ideal) i = 0 := by
  rw [val_main_v9_apply, val_main_cst_0_apply]; exact Ideal.ofBits_zero_f32

theorem v8_one (i : S330000.Idx) : val_main_v8 (F := Ideal) i = 1 := by
  rw [val_main_v8_apply, val_main_cst_apply]; exact Ideal.ofBits_one_f32

theorem v41_zero (i : S10000x256.Idx) : val_main_v41 (F := Ideal) i = 0 := by
  rw [val_main_v41_apply, val_main_cst_8_apply]; exact Ideal.ofBits_zero_f32

/-- The degree. -/
theorem v11_deg (hr : InRange x1) (n : Fin 10000) : val_main_v11 (F := Ideal) x1 (ix1 n) = deg x1 n.val := by
  unfold val_main_v11
  exact deg_read hr (val_main_v9 (F := Ideal)) (val_main_v10 (F := Ideal) x1) (val_main_v8 (F := Ideal)) v9_zero (v10_word x1) v8_one n

/-- The factor dinv. -/
theorem v15_dinv (hr : InRange x1) (n : Fin 10000) : val_main_v15 (F := Ideal) x1 (ix1 n) = dinv x1 n.val := by
  rw [val_main_v15_apply, val_main_v13_apply, val_main_v14_apply, val_main_call0_v1_apply, val_main_call0_v0_apply,
    val_main_cst_2_apply, val_main_v12_apply, val_main_cst_1_apply, v11_deg x1 hr]
  simp only [Ideal.ofBits_def, Ideal.ofBits_zero_f32, Ideal.hostUnary_rsqrt_def]
  exact dinv_read _

/-- The edge weight. -/
theorem v30_norm (hr : InRange x1) (e : Fin 330000) : val_main_v30 (F := Ideal) x1 (ix1 e) = norm x1 e := by
  rw [val_main_v30_apply]
  unfold val_main_v22 val_main_v29
  exact norm_read hr (val_main_v15 (F := Ideal) x1) (val_main_v21 (F := Ideal) x1) (val_main_v28 (F := Ideal) x1)
    (v15_dinv x1 hr) (v21_word x1 hr) (v28_word x1 hr) e

/-- The first dense layer: features times weights. -/
theorem v7_feat (s : Fin 10000) (f : Fin 256) : val_main_v7 (F := Ideal) x0 x2 (ix2 s f) = feat1 x0 x2 s.val f := by
  rw [val_main_v7_apply]
  show _ = (∑ q : Fin 128, rows x0 s.val q * mat x2 q f) + 0
  rw [add_zero]
  refine Finset.sum_congr rfl fun k _ => ?_
  show _ = (if h : s.val < 10000 then x0 (ix2 ⟨s.val, h⟩ k) else 0) * x2 (ix2 k f)
  rw [dif_pos s.isLt]
  exact congrArg₂ (· * ·) (congrArg x0 (by idx_fun2)) (congrArg x2 (by idx_fun2))

/-- The weighted source row of an edge. -/
theorem v40_msg (hr : InRange x1) (e : Fin 330000) (f : Fin 256) :
    val_main_v40 (F := Ideal) x0 x1 x2 (ix2 e f) = norm x1 e * feat1 x0 x2 (node x1 0 e) f := by
  rw [val_main_v40_apply, val_main_v39_apply, show idx_main_v39 (ix2 e f) = ix2 e 0 by idx_fun2, val_main_v31_apply,
    show idx_main_v31 (ix2 e 0) = ix1 e by idx_fun, v30_norm x1 hr]
  unfold val_main_v38
  rw [rows_read hr (val_main_v7 (F := Ideal) x0 x2) (val_main_v37 (F := Ideal) x1) (feat1 x0 x2) (v7_feat x0 x2) (v37_word x1 hr) e f]
  rfl

/-- The edge-by-edge sum. -/
theorem v43_sum (hr : InRange x1) (n : Fin 10000) (f : Fin 256) :
    val_main_v43 (F := Ideal) x0 x1 x2 (ix2 n f)
      = ∑ e : E, if node x1 1 e = n.val then norm x1 e * feat1 x0 x2 (node x1 0 e) f else 0 := by
  unfold val_main_v43
  exact conv_read hr (val_main_v41 (F := Ideal)) (val_main_v42 (F := Ideal) x1) (val_main_v40 (F := Ideal) x0 x1 x2) (feat1 x0 x2)
    v41_zero (v42_word x1) (v40_msg x0 x1 x2 hr) n f

/-- The first hidden layer. -/
theorem v47_layer (hr : InRange x1) (n : Fin 10000) (f : Fin 256) :
    val_main_v47 (F := Ideal) x0 x1 x2 x3 (ix2 n f) = layer1 x0 x1 x2 x3 n.val f := by
  rw [val_main_v47_apply, val_main_v46_apply, v43_sum x0 x1 x2 hr, val_main_v45_apply, val_main_v44_apply,
    show idx_main_v44 (idx_main_v45 (ix2 n f)) = ix1 f by idx_fun, val_main_call1_v0_apply, val_main_call1_cst_apply]
  simp only [Ideal.ofBits_def, Ideal.ofBits_zero_f32]
  rfl

end Conv1

end Cert.RefValue

end
-- ==== Proof.RefValue5.lean ====
/-
  The second graph convolution of the reference, stage by stage: the same pieces as the first, over the first hidden
  layer times the second weight matrix.
-/
import proofs.«173524_j83966610637551_1_alg».proof.Proof.RefValue4

noncomputable section

namespace Cert.RefValue

open Cert.ReferenceIdeal Cert.ReferenceIdeal.Gen Cert.ReferenceIdeal.ReadP Idealize.ShloMosaic Idealize.ShloMosaic.ValueIdx
open Cert.Spec

section Conv2
variable (x0 : S10000x128.Idx → EReal) (x1 : EI) (x2 : S128x256.Idx → EReal) (x3 : S256.Idx → EReal)
  (x4 : S256x256.Idx → EReal) (x5 : S256.Idx → EReal)

theorem v51_word (e : Fin 330000) : val_main_v51 (F := Ideal) x1 (ix2 e 0) = word x1 1 e := by
  rw [val_main_v51_apply, show idx_main_v51 (ix2 e 0) = ix1 e by idx_fun]
  exact dst_apply x1 e

theorem v61_word (hr : InRange x1) (e : Fin 330000) : val_main_v61 (F := Ideal) x1 (ix1 e) = word x1 0 e := by
  rw [val_main_v61_apply, val_main_v58_apply, val_main_v60_apply, val_main_v57_apply, val_main_c_13_apply,
    val_main_v59_apply, val_main_c_14_apply, src_apply]
  exact wrap_word hr 0 e

theorem v62_word (hr : InRange x1) (e : Fin 330000) : val_main_v62 (F := Ideal) x1 (ix2 e 0) = word x1 0 e := by
  rw [val_main_v62_apply, show idx_main_v62 (ix2 e 0) = ix1 e by idx_fun]
  exact v61_word x1 hr e

theorem v68_word (hr : InRange x1) (e : Fin 330000) : val_main_v68 (F := Ideal) x1 (ix1 e) = word x1 1 e := by
  rw [val_main_v68_apply, val_main_v65_apply, val_main_v67_apply, val_main_v64_apply, val_main_c_15_apply,
    val_main_v66_apply, val_main_c_16_apply, dst_apply]
  exact wrap_word hr 1 e

theorem v69_word (hr : InRange x1) (e : Fin 330000) : val_main_v69 (F := Ideal) x1 (ix2 e 0) = word x1 1 e := by
  rw [val_main_v69_apply, show idx_main_v69 (ix2 e 0) = ix1 e by idx_fun]
  exact v68_word x1 hr e

theorem v77_word (hr : InRange x1) (e : Fin 330000) : val_main_v77 (F := Ideal) x1 (ix1 e) = word x1 0 e := by
  rw [val_main_v77_apply, val_main_v74_apply, val_main_v76_apply, val_main_v73_apply, val_main_c_17_apply,
    val_main_v75_apply, val_main_c_18_apply, src_apply]
  exact wrap_word hr 0 e

theorem v78_word (hr : InRange x1) (e : Fin 330000) : val_main_v78 (F := Ideal) x1 (ix2 e 0) = word x1 0 e := by
  rw [val_main_v78_apply, show idx_main_v78 (ix2 e 0) = ix1 e by idx_fun]
  exact v77_word x1 hr e

theorem v83_word (e : Fin 330000) : val_main_v83 (F := Ideal) x1 (ix2 e 0) = word x1 1 e := by
  rw [val_main_v83_apply, show idx_main_v83 (ix2 e 0) = ix1 e by idx_fun]
  exact dst_apply x1 e

theorem v50_zero (i : S10000.Idx) : val_main_v50 (F := Ideal) i = 0 := by
  rw [val_main_v50_apply, val_main_cst_10_apply]; exact Ideal.ofBits_zero_f32

theorem v49_one (i : S330000.Idx) : val_main_v49 (F := Ideal) i = 1 := by
  rw [val_main_v49_apply, val_main_cst_9_apply]; exact Ideal.ofBits_one_f32

theorem v82_zero (i : S10000x256.Idx) : val_main_v82 (F := Ideal) i = 0 := by
  rw [val_main_v82_apply, val_main_cst_19_apply]; exact Ideal.ofBits_zero_f32

/-- The degree, computed a second time. -/
theorem v52_deg (hr : InRange x1) (n : Fin 10000) : val_main_v52 (F := Ideal) x1 (ix1 n) = deg x1 n.val := by
  unfold val_main_v52
  exact deg_read hr (val_main_v50 (F := Ideal)) (val_main_v51 (F := Ideal) x1) (val_main_v49 (F := Ideal)) v50_zero (v51_word x1) v49_one n

/-- The factor dinv, computed a second time. -/
theorem v56_dinv (hr : InRange x1) (n : Fin 10000) : val_main_v56 (F := Ideal) x1 (ix1 n) = dinv x1 n.val := by
  rw [val_main_v56_apply, val_main_v54_apply, val_main_v55_apply, val_main_call2_v1_apply, val_main_call2_v0_apply,
    val_main_cst_12_apply, val_main_v53_apply, val_main_cst_11_apply, v52_deg x1 hr]
  simp only [Ideal.ofBits_def, Ideal.ofBits_zero_f32, Ideal.hostUnary_rsqrt_def]
  exact dinv_read _

/-- The edge weight, computed a second time. -/
theorem v71_norm (hr : InRange x1) (e : Fin 330000) : val_main_v71 (F := Ideal) x1 (ix1 e) = norm x1 e := by
  rw [val_main_v71_apply]
  unfold val_main_v63 val_main_v70
  exact norm_read hr (val_main_v56 (F := Ideal) x1) (val_main_v62 (F := Ideal) x1) (val_main_v69 (F := Ideal) x1)
    (v56_dinv x1 hr) (v62_word x1 hr) (v69_word x1 hr) e

/-- The second dense layer: the first hidden layer times weights. -/
theorem v48_feat (hr : InRange x1) (s : Fin 10000) (f : Fin 256) :
    val_main_v48 (F := Ideal) x0 x1 x2 x3 x4 (ix2 s f) = feat2 x0 x1 x2 x3 x4 s.val f := by
  rw [val_main_v48_apply]
  show _ = (∑ q : Fin 256, layer1 x0 x1 x2 x3 s.val q * mat x4 q f) + 0
  rw [add_zero]
  refine Finset.sum_congr rfl fun k _ => ?_
  rw [show lidx_main_v48 (ix2 s f) k = ix2 s k by idx_fun2, v47_layer x0 x1 x2 x3 hr s k]
  exact congrArg (fun t => layer1 x0 x1 x2 x3 s.val k * x4 t) (by idx_fun2)

/-- The weighted source row of an edge. -/
theorem v81_msg (hr : InRange x1) (e : Fin 330000) (f : Fin 256) :
    val_main_v81 (F := Ideal) x0 x1 x2 x3 x4 (ix2 e f) = norm x1 e * feat2 x0 x1 x2 x3 x4 (node x1 0 e) f := by
  rw [val_main_v81_apply, val_main_v80_apply, show idx_main_v80 (ix2 e f) = ix2 e 0 by idx_fun2, val_main_v72_apply,
    show idx_main_v72 (ix2 e 0) = ix1 e by idx_fun, v71_norm x1 hr]
  unfold val_main_v79
  rw [rows_read hr (val_main_v48 (F := Ideal) x0 x1 x2 x3 x4) (val_main_v78 (F := Ideal) x1) (feat2 x0 x1 x2 x3 x4)
    (v48_feat x0 x1 x2 x3 x4 hr) (v78_word x1 hr) e f]
  rfl

/-- The edge-by-edge sum. -/
theorem v84_sum (hr : InRange x1) (n : Fin 10000) (f : Fin 256) :
    val_main_v84 (F := Ideal) x0 x1 x2 x3 x4 (ix2 n f)
      = ∑ e : E, if node x1 1 e = n.val then norm x1 e * feat2 x0 x1 x2 x3 x4 (node x1 0 e) f else 0 := by
  unfold val_main_v84
  exact conv_read hr (val_main_v82 (F := Ideal)) (val_main_v83 (F := Ideal) x1) (val_main_v81 (F := Ideal) x0 x1 x2 x3 x4)
    (feat2 x0 x1 x2 x3 x4) v82_zero (v83_word x1) (v81_msg x0 x1 x2 x3 x4 hr) n f

/-- The second hidden layer. -/
theorem v88_layer (hr : InRange x1) (n : Fin 10000) (f : Fin 256) :
    val_main_v88 (F := Ideal) x0 x1 x2 x3 x4 x5 (ix2 n f) = layer2 x0 x1 x2 x3 x4 x5 n.val f := by
  rw [val_main_v88_apply, val_main_v87_apply, v84_sum x0 x1 x2 x3 x4 hr, val_main_v86_apply, val_main_v85_apply,
    show idx_main_v85 (idx_main_v86 (ix2 n f)) = ix1 f by idx_fun, val_main_call3_v0_apply, val_main_call3_cst_apply]
  simp only [Ideal.ofBits_def, Ideal.ofBits_zero_f32]
  rfl

end Conv2

end Cert.RefValue

end
-- ==== Proof.RefValue.lean ====
/-
  The reference's value: on every run the result array holds the specification's reference network, entry by entry.

  After the two graph convolutions come a dense layer with bias and rectifier and a dense layer with bias; each
  is a sum over the 256 hidden features, read off the corresponding stage. The run's composed term is therefore
  the function (n, g) ↦ refQ n g, and the run itself, restated with that function, is what the equivalence with the
  kernel's network is proved against.
-/
import proofs.«173524_j83966610637551_1_alg».proof.Defs
import proofs.«173524_j83966610637551_1_alg».proof.Proof.Gen.Pre_finite_inputs
import proofs.«173524_j83966610637551_1_alg».proof.Proof.RefRunP
import proofs.«173524_j83966610637551_1_alg».proof.Proof.RefReadP
import proofs.«173524_j83966610637551_1_alg».proof.Proof.RefValue5
import proofs.«173524_j83966610637551_1_alg».proof.Proof.Spec

noncomputable section

namespace Cert.RefValue

open Cert.ReferenceIdeal Cert.ReferenceIdeal.Gen Cert.ReferenceIdeal.ReadP Idealize.ShloMosaic Idealize.ShloMosaic.ValueIdx
open Idealize.ShloMosaic.TcCoe Idealize.SL.Sem
open Cert.Spec

section Head
variable (x0 : S10000x128.Idx → EReal) (x1 : EI) (x2 : S128x256.Idx → EReal) (x3 : S256.Idx → EReal)
  (x4 : S256x256.Idx → EReal) (x5 : S256.Idx → EReal) (x6 : S256x256.Idx → EReal) (x7 : S256.Idx → EReal)
  (x8 : S256x8.Idx → EReal) (x9 : S8.Idx → EReal)

/-- The head's hidden layer: the second hidden layer times weights, plus bias, rectified. -/
theorem v93_head (hr : InRange x1) (n : Fin 10000) (f : Fin 256) :
    val_main_v93 (F := Ideal) x0 x1 x2 x3 x4 x5 x6 x7 (ix2 n f) = head1 x0 x1 x2 x3 x4 x5 x6 x7 n.val f := by
  rw [val_main_v93_apply, val_main_v92_apply, val_main_v89_apply, val_main_v91_apply, val_main_v90_apply,
    show idx_main_v90 (idx_main_v91 (ix2 n f)) = ix1 f by idx_fun, val_main_call4_v0_apply, val_main_call4_cst_apply]
  simp only [Ideal.ofBits_def, Ideal.ofBits_zero_f32]
  have hs : (∑ k : Fin 256, val_main_v88 (F := Ideal) x0 x1 x2 x3 x4 x5 (lidx_main_v89 (ix2 n f) k) * x6 (ridx_main_v89 (ix2 n f) k))
      = ∑ q : Fin 256, layer2 x0 x1 x2 x3 x4 x5 n.val q * mat x6 q f := by
    refine Finset.sum_congr rfl fun k _ => ?_
    rw [show lidx_main_v89 (ix2 n f) k = ix2 n k by idx_fun2, v88_layer x0 x1 x2 x3 x4 x5 hr n k]
    exact congrArg (fun t => layer2 x0 x1 x2 x3 x4 x5 n.val k * x6 t) (by idx_fun2)
  rw [hs]
  rfl

/-- The result: the head's hidden layer times weights, plus bias. -/
theorem v97_out (hr : InRange x1) (n : Fin 10000) (g : Fin 8) :
    val_main_v97 (F := Ideal) x0 x1 x2 x3 x4 x5 x6 x7 x8 x9 (ix2 n g) = refQ x0 x1 x2 x3 x4 x5 x6 x7 x8 x9 n.val g := by
  rw [refQ_eq, val_main_v97_apply, val_main_v94_apply, val_main_v96_apply, val_main_v95_apply,
    show idx_main_v95 (idx_main_v96 (ix2 n g)) = ix1 g by idx_fun]
  have hs : (∑ k : Fin 256, val_main_v93 (F := Ideal) x0 x1 x2 x3 x4 x5 x6 x7 (lidx_main_v94 (ix2 n g) k) * x8 (ridx_main_v94 (ix2 n g) k))
      = ∑ q : Fin 256, head1 x0 x1 x2 x3 x4 x5 x6 x7 n.val q * mat x8 q g := by
    refine Finset.sum_congr rfl fun k _ => ?_
    rw [show lidx_main_v94 (ix2 n g) k = ix2 n k by idx_fun2, v93_head x0 x1 x2 x3 x4 x5 x6 x7 hr n k]
    exact congrArg (fun t => head1 x0 x1 x2 x3 x4 x5 x6 x7 n.val k * x8 t) (by idx_fun2)
  rw [hs]
  rfl

end Head

/-- The reference network as an array of the result's shape. -/
def refOut (a0 : S10000x128.Idx → EReal) (a1 : S2x320000.Idx → BitVec 32) (a2 : S128x256.Idx → EReal) (a3 : S256.Idx → EReal)
    (a4 : S256x256.Idx → EReal) (a5 : S256.Idx → EReal) (a6 : S256x256.Idx → EReal) (a7 : S256.Idx → EReal)
    (a8 : S256x8.Idx → EReal) (a9 : S8.Idx → EReal) : S10000x8.Idx → EReal :=
  fun y => refQ a0 a1 a2 a3 a4 a5 a6 a7 a8 a9 (y 0).val ⟨(y 1).val, (y 1).isLt⟩

/-- The program's composed result, as a function of the ten arguments, is the reference network. -/
theorem result_eq (a0 : S10000x128.Idx → EReal) (a1 : S2x320000.Idx → BitVec 32) (a2 : S128x256.Idx → EReal) (a3 : S256.Idx → EReal)
    (a4 : S256x256.Idx → EReal) (a5 : S256.Idx → EReal) (a6 : S256x256.Idx → EReal) (a7 : S256.Idx → EReal)
    (a8 : S256x8.Idx → EReal) (a9 : S8.Idx → EReal) (hr : InRange a1) :
    val_main_v97 (F := Ideal) a0 a1 a2 a3 a4 a5 a6 a7 a8 a9 = refOut a0 a1 a2 a3 a4 a5 a6 a7 a8 a9 := by
  funext y
  obtain ⟨n, g, rfl⟩ : ∃ (n : Fin 10000) (g : Fin 8), y = ix2 n g := ⟨y 0, y 1, eq_ix2 y⟩
  exact v97_out a0 a1 a2 a3 a4 a5 a6 a7 a8 a9 hr n g

/-- Every weakly fair run of the reference ends with the reference network in the result and the arguments unchanged. -/
theorem run (m' : (ℓ : Loc nD τ sig) → Buf (Elt Ideal) ℓ) (ρ' : Dev nD → PrngReg)
    (hr : ∀ c : Dev nD, InRange (m' ((c.tc : Thread nD τ).loc main_arg1))) :
    θ_run (defs (F := Ideal)) (onTc (τ := τ) (main (F := Ideal))) ⟨m', fun _ => 0, ρ'⟩ (fun r => ∀ c : Dev nD,
      r.2.mem ((c.tc : Thread nD τ).loc main_v97) = refOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run defs _ _).mono
    (fun _ h c => ⟨(h c).1.trans ((val_main_v97_eq m' c).trans (result_eq _ _ _ _ _ _ _ _ _ _ (hr c))), (h c).2⟩)
    (Cert.ReferenceIdeal.ValueP.run (F := Ideal) m' ρ')

/-- The reference leaves its arguments as it found them. -/
theorem frame : Cert.frame_ReferenceIdeal := fun m ρ _ =>
  (θ_run Cert.ReferenceIdeal.defs _ _).mono (fun _ h c => (h c).2) (Cert.ReferenceIdeal.ValueP.run (F := Ideal) m ρ)

end Cert.RefValue

end
-- ==== Proof.PreFacts.lean ====
/-
  The precondition read back. The predicate is a conjunction of eleven `all`s: for each of the nine real-valued
  arrays, every entry x satisfies |x| < +∞; and every entry w of the index array satisfies 0 ≤ w and w < 10000 as
  signed 32-bit integers. Over the extended reals |x| = max x (-x) < ⊤ rules out both infinities, so x is a real
  number; and a 32-bit word whose signed value lies in [0, 10000) has that same value unsigned.
-/
import proofs.«173524_j83966610637551_1_alg».proof.Pre_finite_inputs
import proofs.«173524_j83966610637551_1_alg».proof.Proof.Spec
import Idealize.ShloMosaic.Lib.ReduceAll
import Idealize.ShloMosaic.Lib.ValueIdx

noncomputable section

namespace Cert.PreFacts

open Idealize.ShloMosaic Idealize.ShloMosaic.ValueIdx Cert.Pre_finite_inputs

/-- The rank-0 shape has exactly one index. -/
instance : Subsingleton S_.Idx := ⟨fun a b => funext fun d => d.elim0⟩

/-- The pattern 0x7F800000 (sign 0, exponent all ones, fraction 0) denotes +∞. -/
theorem ofBits_inf : Ideal.ofBits .f32 0x7F800000#32 = (⊤ : EReal) := by
  simp [Ideal.ofBits, Ideal.ieee]

theorem ofBool_eq_one (b : Bool) : BitVec.ofBool b = 1#1 ↔ b = true := by cases b <;> decide

/-- |x| < +∞ over the extended reals: x is neither infinity, hence a real number. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  rw [ofBool_eq_one] at h
  simp only [decide_eq_true_eq] at h
  induction x using EReal.rec with
  | bot => simp at h
  | top => simp at h
  | coe r => exact ⟨r, rfl⟩

/-- A 32-bit word whose signed value is in [0, 10000) is below 10000 unsigned. -/
theorem toNat_lt (w : BitVec 32) (h0 : IntOp.cmpi .sge w (0#32) = 1#1)
    (h1 : IntOp.cmpi .slt w (10000#32) = 1#1) : w.toNat < 10000 := by
  rw [IntOp.cmpi_sge] at h0
  rw [IntOp.cmpi_slt] at h1
  have h32 := w.isLt
  have e0 : (0#32 : BitVec 32).toInt = 0 := by decide
  have e1 : (10000#32 : BitVec 32).toInt = 10000 := by decide
  rw [e0] at h0
  rw [e1] at h1
  unfold BitVec.toInt at h0 h1
  split at h1 <;> omega

/-- One `all(|v| < +∞)` that came out true: every entry of `v` is a real number. -/
theorem finite_of_all {S : Shape} {axes : List (Fin S.rank)}
    (hb : S_.BroadcastsInDim S (![] : Fin 0 → Fin S.rank)) (hr : S.ReducesTo axes S_) (hu : 0 < S_.numel)
    (a : FVec Ideal S .f32) (init : IVec S_ 1) (j : S_.Idx)
    (e : Host.reduce IntOp.andi
        (cmpf .olt (Host.absf a) (broadcastInDim S ![] hb (constant (F := Ideal) S_ .f32 0x7F800000#32))) init hr hu j = 1#1) :
    Cert.Spec.Finite a := by
  intro i
  have hi := Host.reduce_andi_all _ _ hr hu j e i
  exact real_of_abs_lt (a i) hi

/-- One `all(w ≥ c)` / `all(w < c)` that came out true, at an entry. -/
theorem cmpi_of_all {S : Shape} {axes : List (Fin S.rank)} (p : CmpIPredicate)
    (hb : S_.BroadcastsInDim S (![] : Fin 0 → Fin S.rank)) (hr : S.ReducesTo axes S_) (hu : 0 < S_.numel)
    (a : IVec S 32) (c : BitVec 32) (init : IVec S_ 1) (j : S_.Idx)
    (e : Host.reduce IntOp.andi (cmpi p a (broadcastInDim S ![] hb (constantI S_ 32 c))) init hr hu j = 1#1)
    (i : S.Idx) : IntOp.cmpi p (a i) c = 1#1 :=
  Host.reduce_andi_all _ _ hr hu j e i

/-- THE PRECONDITION DECODED: the edge indices name nodes, and every real-valued input is finite. -/
theorem of_pre [Cert.Pre_finite_inputs.Facts]
    (a0 : FVec Ideal S10000x128 .f32) (a1 : IVec S2x320000 32) (a2 : FVec Ideal S128x256 .f32)
    (a3 : FVec Ideal S256 .f32) (a4 : FVec Ideal S256x256 .f32) (a5 : FVec Ideal S256 .f32)
    (a6 : FVec Ideal S256x256 .f32) (a7 : FVec Ideal S256 .f32) (a8 : FVec Ideal S256x8 .f32)
    (a9 : FVec Ideal S8 .f32)
    (h : Cert.Pre_finite_inputs.fn (F := Ideal) a0 a1 a2 a3 a4 a5 a6 a7 a8 a9 = (fun _ => 1#1)) :
    Cert.Spec.InRange a1 ∧ Cert.Spec.Finite a0 ∧ Cert.Spec.Finite a2 ∧ Cert.Spec.Finite a3 ∧ Cert.Spec.Finite a4
      ∧ Cert.Spec.Finite a5 ∧ Cert.Spec.Finite a6 ∧ Cert.Spec.Finite a7 ∧ Cert.Spec.Finite a8 ∧ Cert.Spec.Finite a9 := by
  have e := congrFun h ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  obtain ⟨⟨⟨⟨⟨⟨⟨⟨⟨⟨h0, h2⟩, h3⟩, h4⟩, h5⟩, h6⟩, h7⟩, h8⟩, h9⟩, hge⟩, hlt⟩ := e
  refine ⟨fun r ed => toNat_lt _ (cmpi_of_all _ _ _ _ _ _ _ _ hge _) (cmpi_of_all _ _ _ _ _ _ _ _ hlt _),
    finite_of_all _ _ _ _ _ _ h0, finite_of_all _ _ _ _ _ _ h2, finite_of_all _ _ _ _ _ _ h3,
    finite_of_all _ _ _ _ _ _ h4, finite_of_all _ _ _ _ _ _ h5, finite_of_all _ _ _ _ _ _ h6,
    finite_of_all _ _ _ _ _ _ h7, finite_of_all _ _ _ _ _ _ h8, finite_of_all _ _ _ _ _ _ h9⟩

end Cert.PreFacts

end
-- ==== Proof.Algebra.lean ====
/-
  The two aggregations agree, and therefore so do the two networks.

  Everything here is arithmetic in the extended reals. The extended reals are not a ring (⊤ + ⊥ is junk and
  multiplication does not distribute over sums in general), so every step that needs distributivity is carried out
  on entries known to be real numbers. The facts, in order:

  * sums, products and max(·, 0) of reals are real, and a finite sum of reals times a real distributes;
  * every edge joins two of the 10000 nodes, so the edge weights norm(e) are real;
  * for features h that are real on the rows below 10000,
        Σ_{s < 10240} adj(d, s) · h(s)  =  Σ_{e : dst e = d} norm(e) · h(src e):
    expand adj, distribute, exchange the two sums, and collapse the sum over s onto s = src e;
  * each layer maps real features to real features, so the identity applies at both convolutions.
-/
import proofs.«173524_j83966610637551_1_alg».proof.Proof.Spec

noncomputable section

namespace Cert.Algebra

open Idealize.ShloMosaic Idealize.ShloMosaic.ValueIdx Cert.Spec

/-! ### Real entries -/

/-- An extended real that is a real number. -/
def IsReal (a : EReal) : Prop := ∃ r : ℝ, a = (r : EReal)

theorem isReal_zero : IsReal 0 := ⟨0, EReal.coe_zero.symm⟩

theorem isReal_one : IsReal 1 := ⟨1, EReal.coe_one.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- max(a, 0) of a real is real: it is one of the two. -/
theorem IsReal.max_zero {a : EReal} (ha : IsReal a) : IsReal (max a 0) := by
  rcases le_total a 0 with h | h
  · rw [max_eq_right h]; exact isReal_zero
  · rw [max_eq_left h]; exact ha

/-- A finite sum of reals is real. -/
theorem isReal_sum {ι : Type*} (s : Finset ι) (a : ι → EReal) (h : ∀ i ∈ s, IsReal (a i)) :
    IsReal (∑ i ∈ s, a i) := by
  classical
  revert h
  refine Finset.induction_on s ?_ ?_
  · intro _
    rw [Finset.sum_empty]
    exact isReal_zero
  · intro i t hi ih h
    rw [Finset.sum_insert hi]
    exact (h i (Finset.mem_insert_self i t)).add (ih fun j hj => h j (Finset.mem_insert_of_mem hj))

/-- A finite sum of reals times a real: the product distributes. -/
theorem sum_mul_of_real {ι : Type*} (s : Finset ι) (a : ι → EReal) (c : EReal)
    (ha : ∀ i ∈ s, IsReal (a i)) (hc : IsReal c) : (∑ i ∈ s, a i) * c = ∑ i ∈ s, a i * c := by
  classical
  revert ha
  refine Finset.induction_on s ?_ ?_
  · intro _
    rw [Finset.sum_empty, Finset.sum_empty, zero_mul]
  · intro i t hi ih ha
    have hat : ∀ j ∈ t, IsReal (a j) := fun j hj => ha j (Finset.mem_insert_of_mem hj)
    rw [Finset.sum_insert hi, Finset.sum_insert hi, ← ih hat]
    obtain ⟨x, hx⟩ := ha i (Finset.mem_insert_self i t)
    obtain ⟨y, hy⟩ := isReal_sum t a hat
    obtain ⟨r, rfl⟩ := hc
    rw [hx, hy, ← EReal.coe_add, ← EReal.coe_mul, ← EReal.coe_mul, ← EReal.coe_mul, ← EReal.coe_add, add_mul]

/-! ### The graph -/

/-- Both ends of every edge are among the 10000 nodes: the given edges by assumption, the loops by construction. -/
theorem node_lt {ei : EI} (hr : InRange ei) (r : Fin 2) (e : E) : node ei r e < 10000 := by
  unfold node
  split
  · exact hr r _
  · have := e.isLt
    omega

/-- A degree is a finite sum of ones and zeros. -/
theorem deg_real (ei : EI) (n : ℕ) : IsReal (deg ei n) := by
  unfold deg
  refine isReal_sum _ _ fun e _ => ?_
  split
  · exact isReal_one
  · exact isReal_zero

/-- The reciprocal square root of a positive real is a real. -/
theorem rsqrt_real {a : EReal} (ha : IsReal a) (hpos : 0 < a) : IsReal (Ideal.rsqrt a) := by
  obtain ⟨r, rfl⟩ := ha
  have hr : 0 < r := EReal.coe_pos.mp hpos
  rw [Ideal.rsqrt_coe, if_neg (not_lt.mpr hr.le), if_neg hr.ne']
  exact ⟨_, rfl⟩

theorem dinv_real (ei : EI) (n : ℕ) : IsReal (dinv ei n) := by
  unfold dinv
  split
  · next h => exact rsqrt_real (deg_real ei n) h
  · exact isReal_zero

/-- Every edge weight is a real number. -/
theorem norm_real (ei : EI) (e : E) : IsReal (norm ei e) := (dinv_real ei _).mul (dinv_real ei _)

/-! ### The two aggregations agree -/

/-- The dense matrix product equals the edge sum, for features that are real on the rows below 10000. -/
theorem agg_eq_conv {N : ℕ} {ei : EI} (hr : InRange ei) (h : ℕ → Fin N → EReal) (b : Fin N → EReal)
    (f : Fin N) (hh : ∀ s, s < 10000 → IsReal (h s f)) (d : ℕ) : agg ei h b d f = conv ei h b d f := by
  unfold agg conv
  refine congrArg (· + b f) ?_
  -- one column s of the matrix times its feature: distribute the feature into the sum over the edges from s to d
  have step : ∀ s : Fin 10240, adj ei d s.val * h s.val f =
      ∑ e : E, if node ei 1 e = d ∧ node ei 0 e = s.val then norm ei e * h (node ei 0 e) f else 0 := by
    intro s
    unfold adj
    by_cases hs : s.val < 10000
    · rw [sum_mul_of_real _ _ _ (fun e _ => ?_) (hh s.val hs)]
      · refine Finset.sum_congr rfl fun e _ => ?_
        by_cases hc : node ei 1 e = d ∧ node ei 0 e = s.val
        · rw [if_pos hc, if_pos hc, hc.2]
        · rw [if_neg hc, if_neg hc, zero_mul]
      · split
        · exact norm_real ei e
        · exact isReal_zero
    · -- no edge starts at a padded column
      have hno : ∀ e : E, ¬ (node ei 1 e = d ∧ node ei 0 e = s.val) := fun e hc => hs (hc.2 ▸ node_lt hr 0 e)
      simp only [hno, if_false, Finset.sum_const_zero, zero_mul]
  rw [Finset.sum_congr rfl fun s _ => step s, Finset.sum_comm]
  refine Finset.sum_congr rfl fun e _ => ?_
  by_cases hd : node ei 1 e = d
  · have hlt : node ei 0 e < 10240 := by
      have := node_lt hr 0 e
      omega
    rw [if_pos hd, Finset.sum_eq_single (⟨node ei 0 e, hlt⟩ : Fin 10240)]
    · rw [if_pos ⟨hd, rfl⟩]
    · intro s _ hne
      rw [if_neg]
      intro hc
      exact hne (Fin.ext hc.2.symm)
    · intro hmem
      exact absurd (Finset.mem_univ _) hmem
  · rw [if_neg hd]
    refine Finset.sum_eq_zero fun s _ => ?_
    rw [if_neg]
    exact fun hc => hd hc.1

/-! ### Each layer keeps the entries real -/

theorem conv_real {N : ℕ} {ei : EI} (hr : InRange ei) (h : ℕ → Fin N → EReal) (b : Fin N → EReal)
    (f : Fin N) (hh : ∀ s, s < 10000 → IsReal (h s f)) (hb : IsReal (b f)) (n : ℕ) :
    IsReal (conv ei h b n f) := by
  unfold conv
  refine (isReal_sum _ _ fun e _ => ?_).add hb
  split
  · exact (norm_real ei e).mul (hh _ (node_lt hr 0 e))
  · exact isReal_zero

theorem dense_real {K N : ℕ} (a : ℕ → Fin K → EReal) (w : Fin K → Fin N → EReal) (b : Fin N → EReal)
    (n : ℕ) (f : Fin N) (ha : ∀ q, IsReal (a n q)) (hw : ∀ q, IsReal (w q f)) (hb : IsReal (b f)) :
    IsReal (dense a w b n f) := by
  unfold dense
  exact (isReal_sum _ _ fun q _ => (ha q).mul (hw q)).add hb

theorem relu_real {N : ℕ} (g : ℕ → Fin N → EReal) (n : ℕ) (f : Fin N) (hg : IsReal (g n f)) :
    IsReal (relu g n f) := hg.max_zero

theorem rows_real {R K : ℕ} {x : (⟨2, ![R, K]⟩ : Shape).Idx → EReal} (hx : Cert.Spec.Finite x)
    (n : ℕ) (q : Fin K) : IsReal (rows x n q) := by
  unfold rows
  split
  · exact hx _
  · exact isReal_zero

/-! ### The networks -/

theorem kerQ_eq_refQ
    (x : (⟨2, ![10000, 128]⟩ : Shape).Idx → EReal) (ei : Cert.Spec.EI)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wh1 : (⟨2, ![256, 256]⟩ : Shape).Idx → EReal) (bh1 : (⟨1, ![256]⟩ : Shape).Idx → EReal)
    (Wh2 : (⟨2, ![256, 8]⟩ : Shape).Idx → EReal) (bh2 : (⟨1, ![8]⟩ : Shape).Idx → EReal)
    (hr : Cert.Spec.InRange ei)
    (hx : Cert.Spec.Finite x) (hW1 : Cert.Spec.Finite W1) (hb1 : Cert.Spec.Finite b1) (hW2 : Cert.Spec.Finite W2) (hb2 : Cert.Spec.Finite b2)
    (hWh1 : Cert.Spec.Finite Wh1) (hbh1 : Cert.Spec.Finite bh1) (hWh2 : Cert.Spec.Finite Wh2) (hbh2 : Cert.Spec.Finite bh2)
    (n : ℕ) (hn : n < 10000) (f : Fin 8) :
    Cert.Spec.kerQ x ei W1 b1 W2 b2 Wh1 bh1 Wh2 bh2 n f = Cert.Spec.refQ x ei W1 b1 W2 b2 Wh1 bh1 Wh2 bh2 n f := by
  -- the first convolution: its input is a dense layer of the real input rows
  have a0_real : ∀ s q, IsReal (dense (rows x) (mat W1) (fun _ => 0) s q) := fun s q =>
    dense_real _ _ _ s q (fun p => rows_real hx s p) (fun p => hW1 _) isReal_zero
  have e1 : agg ei (dense (rows x) (mat W1) (fun _ => 0)) (vec b1)
      = conv ei (dense (rows x) (mat W1) (fun _ => 0)) (vec b1) := by
    funext s q
    exact agg_eq_conv hr _ _ q (fun t _ => a0_real t q) s
  -- its output is real, hence so is the input of the second convolution
  have z1_real : ∀ s q, IsReal (relu (conv ei (dense (rows x) (mat W1) (fun _ => 0)) (vec b1)) s q) := fun s q =>
    relu_real _ s q (conv_real hr _ (vec b1) q (fun t _ => a0_real t q) (hb1 _) s)
  have a1_real : ∀ s q, IsReal (dense (relu (conv ei (dense (rows x) (mat W1) (fun _ => 0)) (vec b1)))
      (mat W2) (fun _ => 0) s q) := fun s q =>
    dense_real _ _ _ s q (fun p => z1_real s p) (fun p => hW2 _) isReal_zero
  have e2 : agg ei (dense (relu (conv ei (dense (rows x) (mat W1) (fun _ => 0)) (vec b1))) (mat W2) (fun _ => 0)) (vec b2)
      = conv ei (dense (relu (conv ei (dense (rows x) (mat W1) (fun _ => 0)) (vec b1))) (mat W2) (fun _ => 0)) (vec b2) := by
    funext s q
    exact agg_eq_conv hr _ _ q (fun t _ => a1_real t q) s
  show dense (relu (dense (relu (agg ei (dense (relu (agg ei (dense (rows x) (mat W1) (fun _ => 0)) (vec b1)))
      (mat W2) (fun _ => 0)) (vec b2))) (mat Wh1) (vec bh1))) (mat Wh2) (vec bh2) n f
    = dense (relu (dense (relu (conv ei (dense (relu (conv ei (dense (rows x) (mat W1) (fun _ => 0)) (vec b1)))
      (mat W2) (fun _ => 0)) (vec b2))) (mat Wh1) (vec bh1))) (mat Wh2) (vec bh2) n f
  rw [e1, e2]

end Cert.Algebra

end
-- ==== Proof.lean ====
/-
  The certificate's claim, assembled.

  Both kernel programs (the word-level one and its idealization, the same text read at two instances) are six blocked
  matrix-product regions between host stretches; their frames are the run of those fifteen items (Run, KRun). The
  idealized reference's run is its host operations composed (RefValue). The idealization rewrote nothing, so there is
  nothing to preserve. For the value: under the precondition every edge joins two of the 10000 nodes and every float
  input is real; then the kernel's result array is the dense-matrix network of the specification (KerValue), the
  reference's is the edge-sum network (RefValue), and the two networks agree entry by entry because a finite sum of
  real weights distributes over a real feature (Algebra).
-/
import proofs.«173524_j83966610637551_1_alg».proof.Defs
import proofs.«173524_j83966610637551_1_alg».proof.Proof.Gen.Kernel
import proofs.«173524_j83966610637551_1_alg».proof.Proof.Gen.KernelIdeal
import proofs.«173524_j83966610637551_1_alg».proof.Proof.Gen.ReferenceIdeal
import proofs.«173524_j83966610637551_1_alg».proof.Proof.Gen.Pre_finite_inputs
import proofs.«173524_j83966610637551_1_alg».proof.Proof.Run
import proofs.«173524_j83966610637551_1_alg».proof.Proof.KRun
import proofs.«173524_j83966610637551_1_alg».proof.Proof.KerValue
import proofs.«173524_j83966610637551_1_alg».proof.Proof.RefValue
import proofs.«173524_j83966610637551_1_alg».proof.Proof.PreFacts
import proofs.«173524_j83966610637551_1_alg».proof.Proof.Algebra
import Idealize.ShloMosaic.Adequacy
import Idealize.ShloMosaic.Init

noncomputable section

namespace Cert.Proof

open Idealize.ShloMosaic Idealize.ShloMosaic.ValueIdx Idealize.SL.Sem

/-- The word-level kernel program runs to the end and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- So does the idealized reference. -/
theorem frame_ri : Cert.frame_ReferenceIdeal := Cert.RefValue.frame
/-- The idealization rewrote no operation. -/
theorem preserves : Cert.preserves_Kernel_KernelIdeal := trivial

/-- At the extended reals, from memories agreeing on the arguments, both programs end with the same result: the
    reference's edge-sum network of the arguments. -/
theorem algebraic : Cert.algebraic_KernelIdeal_ReferenceIdeal := by
  intro m ρ m' ρ' hpre hagree
  have hP := fun c : Dev Cert.KernelIdeal.nD => Cert.PreFacts.of_pre _ _ _ _ _ _ _ _ _ _ (hpre c)
  refine ⟨fun c => Cert.RefValue.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run (Cert.KernelIdeal.defs (F := Ideal)) _ _).mono (fun r h c => ⟨?_,
      (h c _ (Cert.KernelIdeal.Hand.mem_uc Cert.KernelIdeal.main_arg0 (by decide))).trans (Cert.KernelIdeal.Hand.W15_main_arg0 m c),
      (h c _ (Cert.KernelIdeal.Hand.mem_uc Cert.KernelIdeal.main_arg1 (by decide))).trans (Cert.KernelIdeal.Hand.W15_main_arg1 m c),
      (h c _ (Cert.KernelIdeal.Hand.mem_uc Cert.KernelIdeal.main_arg2 (by decide))).trans (Cert.KernelIdeal.Hand.W15_main_arg2 m c),
      (h c _ (Cert.KernelIdeal.Hand.mem_uc Cert.KernelIdeal.main_arg3 (by decide))).trans (Cert.KernelIdeal.Hand.W15_main_arg3 m c),
      (h c _ (Cert.KernelIdeal.Hand.mem_uc Cert.KernelIdeal.main_arg4 (by decide))).trans (Cert.KernelIdeal.Hand.W15_main_arg4 m c),
      (h c _ (Cert.KernelIdeal.Hand.mem_uc Cert.KernelIdeal.main_arg5 (by decide))).trans (Cert.KernelIdeal.Hand.W15_main_arg5 m c),
      (h c _ (Cert.KernelIdeal.Hand.mem_uc Cert.KernelIdeal.main_arg6 (by decide))).trans (Cert.KernelIdeal.Hand.W15_main_arg6 m c),
      (h c _ (Cert.KernelIdeal.Hand.mem_uc Cert.KernelIdeal.main_arg7 (by decide))).trans (Cert.KernelIdeal.Hand.W15_main_arg7 m c),
      (h c _ (Cert.KernelIdeal.Hand.mem_uc Cert.KernelIdeal.main_arg8 (by decide))).trans (Cert.KernelIdeal.Hand.W15_main_arg8 m c),
      (h c _ (Cert.KernelIdeal.Hand.mem_uc Cert.KernelIdeal.main_arg9 (by decide))).trans (Cert.KernelIdeal.Hand.W15_main_arg9 m c)⟩)
      (Cert.KernelIdeal.Hand.run_main m ρ)
    refine (h c _ (Cert.KernelIdeal.Hand.mem_uc Cert.KernelIdeal.main_v70 (by decide))).trans ?_
    refine (Cert.KernelIdeal.HandValue.kernel_out m c (hP c).1).trans ?_
    funext y
    obtain ⟨hr, h0, h2, h3, h4, h5, h6, h7, h8, h9⟩ := hP c
    exact Cert.Algebra.kerQ_eq_refQ _ _ _ _ _ _ _ _ _ _ hr h0 h2 h3 h4 h5 h6 h7 h8 h9 (y 0).val (idx2_lt0 y) _
  · have hr' : ∀ c : Dev Cert.ReferenceIdeal.nD, Cert.Spec.InRange (m' ((c.tc : Thread Cert.ReferenceIdeal.nD Cert.ReferenceIdeal.τ).loc Cert.ReferenceIdeal.main_arg1)) := fun c => by
      rw [(hagree c).2.1]; exact (hP c).1
    refine (θ_run (Cert.ReferenceIdeal.defs (F := Ideal)) _ _).mono (fun r h c => ⟨?_, (h c).2⟩) (Cert.RefValue.run m' ρ' hr')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
